-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x25 : Shape := ⟨2, ![100000, 25]⟩
abbrev S2x1600000 : Shape := ⟨2, ![2, 1600000]⟩
abbrev S25x128 : Shape := ⟨2, ![25, 128]⟩
abbrev S128 : Shape := ⟨1, ![128]⟩
abbrev S128x128 : Shape := ⟨2, ![128, 128]⟩
abbrev S_ : Shape := ⟨0, ![]⟩

class Facts : Prop where
  bcast_S_S100000x25 : S_.BroadcastsInDim S100000x25 (![] : Fin 0 → Fin S100000x25.rank)
  reducesTo_S100000x25_S_d0_1 : S100000x25.ReducesTo [0, 1] S_
  h_S_ : 0 < S_.numel
  bcast_S_S25x128 : S_.BroadcastsInDim S25x128 (![] : Fin 0 → Fin S25x128.rank)
  reducesTo_S25x128_S_d0_1 : S25x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x25 .f32) (main_arg1 : IVec S2x1600000 32) (main_arg2 : FVec F S25x128 .f32) (main_arg3 : FVec F S128 .f32) (main_arg4 : FVec F S128 .f32) (main_arg5 : FVec F S128 .f32) (main_arg6 : FVec F S128x128 .f32) (main_arg7 : FVec F S128 .f32) : IVec S_ 1 :=
  let main_v0 : FVec F S100000x25 .f32 := Host.absf main_arg0
  let main_cst : FVec F S_ .f32 := constant S_ .f32 0x7F800000#32
  let main_v1 : FVec F S100000x25 .f32 := broadcastInDim S100000x25 ![] bcast_S_S100000x25 main_cst
  let main_v2 : IVec S100000x25 1 := cmpf .olt main_v0 main_v1
  let main_c : IVec S_ 1 := constantI S_ 1 1#1
  let main_v3 : IVec S_ 1 := (fun x v => Host.reduce IntOp.andi x v reducesTo_S100000x25_S_d0_1 h_S_) main_v2 main_c
  let main_v4 : FVec F S25x128 .f32 := Host.absf main_arg2
  let main_cst_0 : FVec F S_ .f32 := constant S_ .f32 0x7F800000#32
  let main_v5 : FVec F S25x128 .f32 := broadcastInDim S25x128 ![] bcast_S_S25x128 main_cst_0
  let main_v6 : IVec S25x128 1 := cmpf .olt main_v4 main_v5
  let main_c_1 : IVec S_ 1 := constantI S_ 1 1#1
  let main_v7 : IVec S_ 1 := (fun x v => Host.reduce IntOp.andi x v reducesTo_S25x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x25 : Shape := ⟨2, ![100000, 25]⟩
abbrev S2x1600000 : Shape := ⟨2, ![2, 1600000]⟩
abbrev S25x128 : Shape := ⟨2, ![25, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x25 : Shape := ⟨2, ![5000, 25]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 108
  | .vmem => 30
  | .smem => 0
  | _ => 0

abbrev bufTy : (tb : Table) → Fin (tcTables nBuf tb) → BufTy
  | .hbm, ⟨0, _⟩ => ⟨S100000x25, .f32⟩
  | .hbm, ⟨1, _⟩ => ⟨S2x1600000, .i32⟩
  | .hbm, ⟨2, _⟩ => ⟨S25x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S1x128, .f32⟩
  | .hbm, ⟨68, _⟩ => ⟨S1x128, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S_, .f32⟩
  | .hbm, ⟨80, _⟩ => ⟨S128, .f32⟩
  | .hbm, ⟨81, _⟩ => ⟨S128, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S1x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x128, .f32⟩
  | .hbm, ⟨99, _⟩ => ⟨S1700000x1, .f32⟩
  | .hbm, ⟨100, _⟩ => ⟨S1700000x128, .f32⟩
  | .hbm, ⟨101, _⟩ => ⟨S1700000x128, .f32⟩
  | .hbm, ⟨102, _⟩ => ⟨S_, .f32⟩
  | .hbm, ⟨103, _⟩ => ⟨S100000x128, .f32⟩
  | .hbm, ⟨104, _⟩ => ⟨S1700000x1, .i32⟩
  | .hbm, ⟨105, _⟩ => ⟨S100000x128, .f32⟩
  | .hbm, ⟨106, _⟩ => ⟨S1x128, .f32⟩
  | .hbm, ⟨107, _⟩ => ⟨S100000x128, .f32⟩
  | .local _ .vmem, ⟨0, _⟩ => ⟨S5000x25, .f32⟩
  | .local _ .vmem, ⟨1, _⟩ => ⟨S5000x25, .f32⟩
  | .local _ .vmem, ⟨2, _⟩ => ⟨S25x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45_0 : Ref sig .tc := ⟨.hbm, 66, rfl⟩
abbrev main_v45_1 : Ref sig .tc := ⟨.hbm, 67, rfl⟩
abbrev main_v45_2 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_14 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_scratch0 : Ref sig .tc := ⟨.vmem, 12, rfl⟩
abbrev cc1_scratch1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_16 : BitVec 32 := 0#32
  let v30 : BitVec 1 := Scalar.cmpi .ne v29 c0_i32_16
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x25_S5000x25_0_0 : ∀ a, (![0, 0] : Fin 2 → Nat) a + S5000x25.size a ≤ S5000x25.size a
  h_S5000x25 : 0 < S5000x25.numel
  bitsLt_bf16_f32 : FTy.bits .bf16 < FTy.bits .f32
  inb_S25x128_S25x128_0_0 : ∀ a, (![0, 0] : Fin 2 → Nat) a + S25x128.size a ≤ S25x128.size a
  h_S25x128 : 0 < S25x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  reduces_S5000x128_S128 : S5000x128.Reduces [0] S128
  shapeCasts_S1x128_S128 : S1x128.ShapeCasts S128
  bcast_S_S128 : S_.BroadcastsInDim S128 (![] : Fin 0 → Fin S128.rank)
  inb_S128x128_S128x128_0_0 : ∀ a, (![0, 0] : Fin 2 → Nat) a + S128x128.size a ≤ S128x128.size a
  h_S128x128 : 0 < S128x128.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x25_S25x128_S5000x128_1_0_0_1_n_n_wf : DotDims.WF S5000x25 S25x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x25.size a ≤ S100000x25.size a
  hwx0_0 : ∀ i : grid0.Coords, EltTy.bits .f32 = 32 ∨ (Rect.block (s := S100000x25) S5000x25.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x128.size a ≤ S25x128.size a
  hwx0_1 : ∀ i : grid0.Coords, EltTy.bits .f32 = 32 ∨ (Rect.block (s := S25x128) S25x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x25_S25x128_S5000x128_1_0_0_1_n_n : DotDims S5000x25 S25x128 S5000x128 where
  lhsContracting := [1]
  rhsContracting := [0]
  lhsNonContracting := [0]
  rhsNonContracting := [1]
  lhsBatch := []
  rhsBatch := []
  wf := dot_S5000x25_S25x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x25.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S25x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S5000x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x128.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45_2) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v45_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x25 : Shape := ⟨2, ![100000, 25]⟩
abbrev S2x1600000 : Shape := ⟨2, ![2, 1600000]⟩
abbrev S25x128 : Shape := ⟨2, ![25, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 174
  | .vmem => 0
  | .smem => 0
  | _ => 0

abbrev hbmTy0_0 (i : Nat) : BufTy := match i % 128 with
  | 0 => ⟨S100000x25, .f32⟩
  | 1 => ⟨S2x1600000, .i32⟩
  | 2 => ⟨S25x128, .f32⟩
  | 3 => ⟨S128, .f32⟩
  | 4 => ⟨S128, .f32⟩
  | 5 => ⟨S128, .f32⟩
  | 6 => ⟨S128x128, .f32⟩
  | 7 => ⟨S128, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S100000x128, .f32⟩
  | 84 => ⟨S100000x128, .f32⟩
  | 85 => ⟨S100000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S1x128, .f32⟩
  | 107 => ⟨S100000x128, .f32⟩
  | 108 => ⟨S100000x128, .f32⟩
  | 109 => ⟨S1x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S100000, .i32⟩
  | 116 => ⟨S1700000, .i32⟩
  | 117 => ⟨S1700000, .i32⟩
  | 118 => ⟨S_, .f32⟩
  | 119 => ⟨S1700000, .f32⟩
  | 120 => ⟨S_, .f32⟩
  | 121 => ⟨S100000, .f32⟩
  | 122 => ⟨S1700000x1, .i32⟩
  | 123 => ⟨S100000, .f32⟩
  | 124 => ⟨S_, .f32⟩
  | 125 => ⟨S100000, .f32⟩
  | 126 => ⟨S100000, .i1⟩
  | 127 => ⟨S100000, .f32⟩
  | _ => ⟨S100000x25, .f32⟩

abbrev hbmTy0_1 (i : Nat) : BufTy := match i % 128 with
  | 0 => ⟨S_, .f32⟩
  | 1 => ⟨S_, .f32⟩
  | 2 => ⟨S100000, .f32⟩
  | 3 => ⟨S100000, .f32⟩
  | 4 => ⟨S_, .i32⟩
  | 5 => ⟨S1700000, .i32⟩
  | 6 => ⟨S1700000, .i1⟩
  | 7 => ⟨S_, .i32⟩
  | 8 => ⟨S1700000, .i32⟩
  | 9 => ⟨S1700000, .i32⟩
  | 10 => ⟨S1700000, .i32⟩
  | 11 => ⟨S1700000x1, .i32⟩
  | 12 => ⟨S1700000, .f32⟩
  | 13 => ⟨S_, .i32⟩
  | 14 => ⟨S1700000, .i32⟩
  | 15 => ⟨S1700000, .i1⟩
  | 16 => ⟨S_, .i32⟩
  | 17 => ⟨S1700000, .i32⟩
  | 18 => ⟨S1700000, .i32⟩
  | 19 => ⟨S1700000, .i32⟩
  | 20 => ⟨S1700000x1, .i32⟩
  | 21 => ⟨S1700000, .f32⟩
  | 22 => ⟨S1700000, .f32⟩
  | 23 => ⟨S100000x128, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000x128, .f32⟩
  | 33 => ⟨S1700000x1, .f32⟩
  | 34 => ⟨S1700000x128, .f32⟩
  | 35 => ⟨S1700000x128, .f32⟩
  | 36 => ⟨S_, .f32⟩
  | 37 => ⟨S100000x128, .f32⟩
  | 38 => ⟨S1700000x1, .i32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S100000x128, .f32⟩
  | 45 => ⟨S100000x128, .f32⟩
  | _ => ⟨S100000x25, .f32⟩

abbrev hbmTy (i : Nat) : BufTy := match i / 128 with
  | 0 => hbmTy0_0 i
  | 1 => hbmTy0_1 i
  | _ => ⟨S100000x25, .f32⟩

abbrev bufTy : (tb : Table) → Fin (tcTables nBuf tb) → BufTy
  | .hbm, ⟨i, _⟩ => hbmTy i
  | _, _ => ⟨S100000x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_call2_cst : Ref sig .tc := ⟨.hbm, 77, rfl⟩
abbrev main_call2_v0 : Ref sig .tc := ⟨.hbm, 78, rfl⟩
abbrev main_call2_v1 : Ref sig .tc := ⟨.hbm, 79, rfl⟩
abbrev main_call2_cst_0 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_cst_1 : Ref sig .tc := ⟨.hbm, 87, rfl⟩
abbrev main_call2_v8 : Ref sig .tc := ⟨.hbm, 88, rfl⟩
abbrev main_call2_cst_2 : Ref sig .tc := ⟨.hbm, 89, rfl⟩
abbrev main_call2_v9 : Ref sig .tc := ⟨.hbm, 90, rfl⟩
abbrev main_call2_v10 : Ref sig .tc := ⟨.hbm, 91, rfl⟩
abbrev main_call2_v11 : Ref sig .tc := ⟨.hbm, 92, rfl⟩
abbrev main_call2_cst_3 : Ref sig .tc := ⟨.hbm, 93, rfl⟩
abbrev main_call2_v12 : Ref sig .tc := ⟨.hbm, 94, rfl⟩
abbrev main_call2_cst_4 : Ref sig .tc := ⟨.hbm, 95, rfl⟩
abbrev main_call2_call0_v0 : Ref sig .tc := ⟨.hbm, 96, rfl⟩
abbrev main_call2_call0_v1 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_cst_12 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_cst_13 : Ref sig .tc := ⟨.hbm, 118, rfl⟩
abbrev main_v70 : Ref sig .tc := ⟨.hbm, 119, rfl⟩
abbrev main_cst_14 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_cst_15 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_cst_16 : Ref sig .tc := ⟨.hbm, 128, rfl⟩
abbrev main_call3_v0 : Ref sig .tc := ⟨.hbm, 129, rfl⟩
abbrev main_call3_v1 : Ref sig .tc := ⟨.hbm, 130, rfl⟩
abbrev main_v77 : Ref sig .tc := ⟨.hbm, 131, rfl⟩
abbrev main_c_17 : Ref sig .tc := ⟨.hbm, 132, rfl⟩
abbrev main_v78 : Ref sig .tc := ⟨.hbm, 133, rfl⟩
abbrev main_v79 : Ref sig .tc := ⟨.hbm, 134, rfl⟩
abbrev main_c_18 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_c_19 : Ref sig .tc := ⟨.hbm, 141, rfl⟩
abbrev main_v85 : Ref sig .tc := ⟨.hbm, 142, rfl⟩
abbrev main_v86 : Ref sig .tc := ⟨.hbm, 143, rfl⟩
abbrev main_c_20 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_c_21 : Ref sig .tc := ⟨.hbm, 152, rfl⟩
abbrev main_v94 : Ref sig .tc := ⟨.hbm, 153, rfl⟩
abbrev main_v95 : Ref sig .tc := ⟨.hbm, 154, rfl⟩
abbrev main_c_22 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_23 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_call4_cst : Ref sig .tc := ⟨.hbm, 171, rfl⟩
abbrev main_call4_v0 : Ref sig .tc := ⟨.hbm, 172, rfl⟩
abbrev main_v110 : Ref sig .tc := ⟨.hbm, 173, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x25_S25x128_S100000x128_1_0_0_1_n_n_wf : DotDims.WF S100000x25 S25x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x25_S25x128_S100000x128_1_0_0_1_n_n : DotDims S100000x25 S25x128 S100000x128 where
  lhsContracting := [1]
  rhsContracting := [0]
  lhsNonContracting := [0]
  rhsNonContracting := [1]
  lhsBatch := []
  rhsBatch := []
  wf := dot_S100000x25_S25x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.WRun.lean ====
/-
  The kernel program's run, from the launch to the return, for any float instance.

  @main is eleven items in a row: host stretches (index arithmetic, the degree normalisation, the two
  gather / scale / scatter-add aggregations, the batch statistics) and five kernel regions, each a grid of
  twenty points over row blocks of the node-feature matrices. Between two items every unscoped buffer of the
  TensorCore holds a definite value: at launch the memory's; after a host stretch the stretch's operations applied;
  after a region the region's arrays at what its write-backs leave and every other buffer as entered. This file
  states those values (a fold through @main), the proof data of every region at its entry values, each region as a
  segment between two such states, and the run itself: every weakly fair execution terminates, nothing faults, and
  the final memory holds the last value of the fold at every unscoped buffer. The frame (the argument arrays end as
  launched) and the result's contents are both read off that.

  What a region contributes is taken as a record (its proof data at any entry contents, the body obligation, the
  invariant's two ends), so that this file does not depend on how each kernel body is run.
-/
import proofs.«121379_j57501022159518_1_alg».proof.Proof.Gen.Kernel.Launch
import proofs.«121379_j57501022159518_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core, read at its references: what a region's proof data are stated at. -/
abbrev VT (F : FTy → Type) : Type := (c : Dev nD) → (b : Ref sig .tc) → Buf (Elt F) ((c : Thread nD τ).loc b)

/-! ## What the run takes from each region -/

/-- Region 0: its proof data at any entry contents — the arrays are the entry contents, full shares, nothing owed —,
    the body obligation at every point, and the invariant's ends: made from the scoped rest and the generator register
    before the first point, giving them back after the last. -/
structure RD0 (F : FTy → Type) [FloatOps F] where
  dat : VT F → (c : Dev nD) → Dat τ (Elt F) Unit ℕ (UR sig nD τ) ℕ cfg0 c
  hA : ∀ V c w, (dat V c).A w = V c (Pipeline.arrRef spec0 w)
  hq : ∀ V c w, (dat V c).q w = fullShare
  ho : ∀ V c t, (dat V c).owed t = 0
  hrec : ∀ V c t, (dat V c).recorded t = Set.univ
  hbody : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- Region 1: its proof data at any entry contents — the arrays are the entry contents, full shares, nothing owed —,
    the body obligation at every point, and the invariant's ends: made from the scoped rest and the generator register
    before the first point, giving them back after the last. -/
structure RD1 (F : FTy → Type) [FloatOps F] where
  dat : VT F → (c : Dev nD) → Dat τ (Elt F) Unit ℕ (UR sig nD τ) ℕ cfg1 c
  hA : ∀ V c w, (dat V c).A w = V c (Pipeline.arrRef spec1 w)
  hq : ∀ V c w, (dat V c).q w = fullShare
  ho : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

/-- Region 2: its proof data at any entry contents — the arrays are the entry contents, full shares, nothing owed —,
    the body obligation at every point, and the invariant's ends: made from the scoped rest and the generator register
    before the first point, giving them back after the last. -/
structure RD2 (F : FTy → Type) [FloatOps F] where
  dat : VT F → (c : Dev nD) → Dat τ (Elt F) Unit ℕ (UR sig nD τ) ℕ cfg2 c
  hA : ∀ V c w, (dat V c).A w = V c (Pipeline.arrRef spec2 w)
  hq : ∀ V c w, (dat V c).q w = fullShare
  ho : ∀ V c t, (dat V c).owed t = 0
  hrec : ∀ V c t, (dat V c).recorded t = Set.univ
  hbody : ∀ V c, BodyObligation (dat V c) (defs₀ (F := F)) Variants.none () Set.univ
  hin : ∀ V c, (Pipeline.ΦA spec2 c : sProp (MT nD τ sig Unit (Elt F) ℕ (UR sig nD τ) ℕ)) ⊢ (dat V c).Φ 0
  hout : ∀ V c, (dat V c).Φ (Fin.last cfg2.N) ⊢ (Pipeline.ΦA spec2 c : sProp (MT nD τ sig Unit (Elt F) ℕ (UR sig nD τ) ℕ))

/-- Region 3: its proof data at any entry contents — the arrays are the entry contents, full shares, nothing owed —,
    the body obligation at every point, and the invariant's ends: made from the scoped rest and the generator register
    before the first point, giving them back after the last. -/
structure RD3 (F : FTy → Type) [FloatOps F] where
  dat : VT F → (c : Dev nD) → Dat τ (Elt F) Unit ℕ (UR sig nD τ) ℕ cfg3 c
  hA : ∀ V c w, (dat V c).A w = V c (Pipeline.arrRef spec3 w)
  hq : ∀ V c w, (dat V c).q w = fullShare
  ho : ∀ V c t, (dat V c).owed t = 0
  hrec : ∀ V c t, (dat V c).recorded t = Set.univ
  hbody : ∀ V c, BodyObligation (dat V c) (defs₀ (F := F)) Variants.none () Set.univ
  hin : ∀ V c, (Pipeline.ΦA spec3 c : sProp (MT nD τ sig Unit (Elt F) ℕ (UR sig nD τ) ℕ)) ⊢ (dat V c).Φ 0
  hout : ∀ V c, (dat V c).Φ (Fin.last cfg3.N) ⊢ (Pipeline.ΦA spec3 c : sProp (MT nD τ sig Unit (Elt F) ℕ (UR sig nD τ) ℕ))

/-- Region 4: its proof data at any entry contents — the arrays are the entry contents, full shares, nothing owed —,
    the body obligation at every point, and the invariant's ends: made from the scoped rest and the generator register
    before the first point, giving them back after the last. -/
structure RD4 (F : FTy → Type) [FloatOps F] where
  dat : VT F → (c : Dev nD) → Dat τ (Elt F) Unit ℕ (UR sig nD τ) ℕ cfg4 c
  hA : ∀ V c w, (dat V c).A w = V c (Pipeline.arrRef spec4 w)
  hq : ∀ V c w, (dat V c).q w = fullShare
  ho : ∀ V c t, (dat V c).owed t = 0
  hrec : ∀ V c t, (dat V c).recorded t = Set.univ
  hbody : ∀ V c, BodyObligation (dat V c) (defs₀ (F := F)) Variants.none () Set.univ
  hin : ∀ V c, (Pipeline.ΦA spec4 c : sProp (MT nD τ sig Unit (Elt F) ℕ (UR sig nD τ) ℕ)) ⊢ (dat V c).Φ 0
  hout : ∀ V c, (dat V c).Φ (Fin.last cfg4.N) ⊢ (Pipeline.ΦA spec4 c : sProp (MT nD τ sig Unit (Elt F) ℕ (UR sig nD τ) ℕ))

variable (m : (ℓ : Loc nD τ sig) → Buf (Elt F) ℓ)
variable (D0 : RD0 F) (D1 : RD1 F) (D2 : RD2 F) (D3 : RD3 F) (D4 : RD4 F)

/-! ## The buffer contents at each boundary: a fold through @main -/

/-- Core `c`'s buffers at launch. -/
abbrev B0 : Dev nD → Valuation τ sig (Elt F) := fun c b => m (c, b)
abbrev E0 : VT F := fun c b => B0 m c b

/-- After the host stretch `hostOps0`. -/
abbrev B1 : Dev nD → Valuation τ sig (Elt F) := fun c => StableHlo.after hostOps0 (B0 m c)
abbrev E1 : VT F := fun c b => B1 m c b

/-- After the host stretch `hostOps0_1`. -/
abbrev B2 : Dev nD → Valuation τ sig (Elt F) := fun c => StableHlo.after hostOps0_1 (B1 m c)
abbrev E2 : VT F := fun c b => B2 m c b

/-- After the host stretch `hostOps0_2`. -/
abbrev B3 : Dev nD → Valuation τ sig (Elt F) := fun c => StableHlo.after hostOps0_2 (B2 m c)
abbrev E3 : VT F := fun c b => B3 m c b

/-- After region 0: its arrays at what the pipeline leaves (an input's as entered, an output's with every block written
    back), every other buffer as entered. -/
def B4 (c : Dev nD) : Valuation τ sig (Elt F) :=
  Pipeline.withArrays spec0 c (B3 m c) fun w => (D0.dat (E3 m) c).arrAt w cfg0.N
theorem B4_arr (c : Dev nD) (w : Fin cfg0.W) :
    B4 m D0 c (Proc.devRef .tc (Pipeline.arrRef spec0 w)) = (D0.dat (E3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m D0 c (Proc.devRef .tc b) = B3 m c (Proc.devRef .tc b) := by
  unfold B4; exact Pipeline.withArrays_of_ne spec0 c _ _ b hb
abbrev E4 : VT F := fun c b => B4 m D0 c b
theorem hF0 (c : Dev nD) (w : Fin cfg0.W) : (D0.dat (E3 m) c).arrAt w cfg0.N = E4 m D0 c (Pipeline.arrRef spec0 w) :=
  (B4_arr m D0 c w).symm
theorem hrest0 (c : Dev nD) : ∀ b, b ∉ Finset.univ.image (Pipeline.arrRef spec0) → E4 m D0 c b = E3 m c b :=
  fun b hb => B4_of_ne m D0 c b fun w e => hb (Finset.mem_image.mpr ⟨w, Finset.mem_univ _, e⟩)

/-- After the host stretch `hostOps1`. -/
abbrev B5 : Dev nD → Valuation τ sig (Elt F) := fun c => StableHlo.after hostOps1 (B4 m D0 c)
abbrev E5 : VT F := fun c b => B5 m D0 c b

/-- After region 1: its arrays at what the pipeline leaves (an input's as entered, an output's with every block written
    back), every other buffer as entered. -/
def B6 (c : Dev nD) : Valuation τ sig (Elt F) :=
  Pipeline.withArrays spec1 c (B5 m D0 c) fun w => (D1.dat (E5 m D0) c).arrAt w cfg1.N
theorem B6_arr (c : Dev nD) (w : Fin cfg1.W) :
    B6 m D0 D1 c (Proc.devRef .tc (Pipeline.arrRef spec1 w)) = (D1.dat (E5 m D0) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m D0 D1 c (Proc.devRef .tc b) = B5 m D0 c (Proc.devRef .tc b) := by
  unfold B6; exact Pipeline.withArrays_of_ne spec1 c _ _ b hb
abbrev E6 : VT F := fun c b => B6 m D0 D1 c b
theorem hF1 (c : Dev nD) (w : Fin cfg1.W) : (D1.dat (E5 m D0) c).arrAt w cfg1.N = E6 m D0 D1 c (Pipeline.arrRef spec1 w) :=
  (B6_arr m D0 D1 c w).symm
theorem hrest1 (c : Dev nD) : ∀ b, b ∉ Finset.univ.image (Pipeline.arrRef spec1) → E6 m D0 D1 c b = E5 m D0 c b :=
  fun b hb => B6_of_ne m D0 D1 c b fun w e => hb (Finset.mem_image.mpr ⟨w, Finset.mem_univ _, e⟩)

/-- After the host stretch `hostOps2`. -/
abbrev B7 : Dev nD → Valuation τ sig (Elt F) := fun c => StableHlo.after hostOps2 (B6 m D0 D1 c)
abbrev E7 : VT F := fun c b => B7 m D0 D1 c b

/-- After region 2: its arrays at what the pipeline leaves (an input's as entered, an output's with every block written
    back), every other buffer as entered. -/
def B8 (c : Dev nD) : Valuation τ sig (Elt F) :=
  Pipeline.withArrays spec2 c (B7 m D0 D1 c) fun w => (D2.dat (E7 m D0 D1) c).arrAt w cfg2.N
theorem B8_arr (c : Dev nD) (w : Fin cfg2.W) :
    B8 m D0 D1 D2 c (Proc.devRef .tc (Pipeline.arrRef spec2 w)) = (D2.dat (E7 m D0 D1) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m D0 D1 D2 c (Proc.devRef .tc b) = B7 m D0 D1 c (Proc.devRef .tc b) := by
  unfold B8; exact Pipeline.withArrays_of_ne spec2 c _ _ b hb
abbrev E8 : VT F := fun c b => B8 m D0 D1 D2 c b
theorem hF2 (c : Dev nD) (w : Fin cfg2.W) : (D2.dat (E7 m D0 D1) c).arrAt w cfg2.N = E8 m D0 D1 D2 c (Pipeline.arrRef spec2 w) :=
  (B8_arr m D0 D1 D2 c w).symm
theorem hrest2 (c : Dev nD) : ∀ b, b ∉ Finset.univ.image (Pipeline.arrRef spec2) → E8 m D0 D1 D2 c b = E7 m D0 D1 c b :=
  fun b hb => B8_of_ne m D0 D1 D2 c b fun w e => hb (Finset.mem_image.mpr ⟨w, Finset.mem_univ _, e⟩)

/-- After region 3: its arrays at what the pipeline leaves (an input's as entered, an output's with every block written
    back), every other buffer as entered. -/
def B9 (c : Dev nD) : Valuation τ sig (Elt F) :=
  Pipeline.withArrays spec3 c (B8 m D0 D1 D2 c) fun w => (D3.dat (E8 m D0 D1 D2) c).arrAt w cfg3.N
theorem B9_arr (c : Dev nD) (w : Fin cfg3.W) :
    B9 m D0 D1 D2 D3 c (Proc.devRef .tc (Pipeline.arrRef spec3 w)) = (D3.dat (E8 m D0 D1 D2) c).arrAt w cfg3.N := by
  unfold B9; exact Pipeline.withArrays_arr spec3 launch3.win.arr_inj c _ _ w
theorem B9_of_ne (c : Dev nD) (b : Ref sig .tc) (hb : ∀ w, Pipeline.arrRef spec3 w ≠ b) :
    B9 m D0 D1 D2 D3 c (Proc.devRef .tc b) = B8 m D0 D1 D2 c (Proc.devRef .tc b) := by
  unfold B9; exact Pipeline.withArrays_of_ne spec3 c _ _ b hb
abbrev E9 : VT F := fun c b => B9 m D0 D1 D2 D3 c b
theorem hF3 (c : Dev nD) (w : Fin cfg3.W) : (D3.dat (E8 m D0 D1 D2) c).arrAt w cfg3.N = E9 m D0 D1 D2 D3 c (Pipeline.arrRef spec3 w) :=
  (B9_arr m D0 D1 D2 D3 c w).symm
theorem hrest3 (c : Dev nD) : ∀ b, b ∉ Finset.univ.image (Pipeline.arrRef spec3) → E9 m D0 D1 D2 D3 c b = E8 m D0 D1 D2 c b :=
  fun b hb => B9_of_ne m D0 D1 D2 D3 c b fun w e => hb (Finset.mem_image.mpr ⟨w, Finset.mem_univ _, e⟩)

/-- After the host stretch `hostOps4`. -/
abbrev B10 : Dev nD → Valuation τ sig (Elt F) := fun c => StableHlo.after hostOps4 (B9 m D0 D1 D2 D3 c)
abbrev E10 : VT F := fun c b => B10 m D0 D1 D2 D3 c b

/-- After region 4: its arrays at what the pipeline leaves (an input's as entered, an output's with every block written
    back), every other buffer as entered. -/
def B11 (c : Dev nD) : Valuation τ sig (Elt F) :=
  Pipeline.withArrays spec4 c (B10 m D0 D1 D2 D3 c) fun w => (D4.dat (E10 m D0 D1 D2 D3) c).arrAt w cfg4.N
theorem B11_arr (c : Dev nD) (w : Fin cfg4.W) :
    B11 m D0 D1 D2 D3 D4 c (Proc.devRef .tc (Pipeline.arrRef spec4 w)) = (D4.dat (E10 m D0 D1 D2 D3) c).arrAt w cfg4.N := by
  unfold B11; exact Pipeline.withArrays_arr spec4 launch4.win.arr_inj c _ _ w
theorem B11_of_ne (c : Dev nD) (b : Ref sig .tc) (hb : ∀ w, Pipeline.arrRef spec4 w ≠ b) :
    B11 m D0 D1 D2 D3 D4 c (Proc.devRef .tc b) = B10 m D0 D1 D2 D3 c (Proc.devRef .tc b) := by
  unfold B11; exact Pipeline.withArrays_of_ne spec4 c _ _ b hb
abbrev E11 : VT F := fun c b => B11 m D0 D1 D2 D3 D4 c b
theorem hF4 (c : Dev nD) (w : Fin cfg4.W) : (D4.dat (E10 m D0 D1 D2 D3) c).arrAt w cfg4.N = E11 m D0 D1 D2 D3 D4 c (Pipeline.arrRef spec4 w) :=
  (B11_arr m D0 D1 D2 D3 D4 c w).symm
theorem hrest4 (c : Dev nD) : ∀ b, b ∉ Finset.univ.image (Pipeline.arrRef spec4) → E11 m D0 D1 D2 D3 D4 c b = E10 m D0 D1 D2 D3 c b :=
  fun b hb => B11_of_ne m D0 D1 D2 D3 D4 c b fun w e => hb (Finset.mem_image.mpr ⟨w, Finset.mem_univ _, e⟩)

/-! ## The proof data family and the thread state -/

/-- The prefetched tables' admissible contents: no pipeline has a table. -/
abbrev padm : (p : Fin 5) → (pcfgs (F := F) p).Adm := fun p => (cfgs p).toPCfg_adm

/-- Every pipeline's proof data, each at its region's entry contents. -/
def pdats : (p : Fin 5) → (c : Dev nD) → Dat τ (Elt F) Unit ℕ (UR sig nD τ) ℕ (Pipeline.pin (pcfgs (F := F)) padm p) c
  | ⟨0, _⟩ => fun c => D0.dat (E3 m) c
  | ⟨1, _⟩ => fun c => D1.dat (E5 m D0) c
  | ⟨2, _⟩ => fun c => D2.dat (E7 m D0 D1) c
  | ⟨3, _⟩ => fun c => D3.dat (E8 m D0 D1 D2) c
  | ⟨4, _⟩ => fun c => D4.dat (E10 m D0 D1 D2 D3) c

abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents, the generator
    register at some state. -/
abbrev Tₙ (c : Dev nD) : sProp 𝕄 := iprop(StableHlo.held (c : Thread nD τ) (Pipeline.ucRefs τ sig) (B11 m D0 D1 D2 D3 D4 c) ∗ ∃ r, prngReg c r)

/-! ## The regions as segments -/

set_option backward.isDefEq.respectTransparency.types false in
/-- Region 0 between its two boundaries: its arrays split out of the unscoped buffers at the entry contents and put back
    at the exit contents; the generator register into the invariant and out; nothing owed; no semaphore of its own. -/
def reg0 : Pipeline.RegionSeg (pcfgs (F := F)) padm (pdats m D0 D1 D2 D3 D4) () defs₀ 𝒱₀ Lv lv 0 where
  win := launch0.win.to₀
  block_pos := launch0.block_pos
  stage_whole := launch0.stage_whole
  K := PEmpty
  osem k := k.elim
  ho := Pipeline.OwnSemFacts.none _
  hbody c := (D0.hbody (E3 m) c).loose
  hwaits := Pipeline.hwaits_of_owed_zero _ _ _ _ Lv lv 0 fun c t => D0.ho (E3 m) c t
  pre c := iprop(StableHlo.held (c : Thread nD τ) (Pipeline.ucRefs τ sig) (B3 m c) ∗ R c)
  post c := iprop(StableHlo.held (c : Thread nD τ) (Pipeline.ucRefs τ sig) (B4 m D0 c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) padm (pdats m D0 D1 D2 D3 D4) launch0.win launch0.arr_whole c
      ((pdats m D0 D1 D2 D3 D4 0 c).share_full fun w => D0.hq (E3 m) c w) (E3 m c) fun w => D0.hA (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((D0.hrec (E3 m) c 0).symm ▸ Set.mem_univ x)
      rw [show (pdats m D0 D1 D2 D3 D4 0 c).owed 0 = 0 from D0.ho (E3 m) c 0]
      iexact HO
    isplitl [Hp]; · iexact Hp
    iexact Hrest
  hin c := by
    refine BIBase.Entails.trans ?_ (D0.hin (E3 m) c)
    unfold Pipeline.ΦA
    iintro ⟨Hp, -, Hr⟩
    isplitl [Hr]; · iexact Hr
    iexact Hp
  hout c := by
    rw [Pipeline.ownSems0_none]
    refine BIBase.Entails.trans (D0.hout (E3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m D0 D1 D2 D3 D4) ((pdats m D0 D1 D2 D3 D4 0 c).share_full fun w => D0.hq (E3 m) c w)
      (E3 m c) (E4 m D0 c) ((pdats m D0 D1 D2 D3 D4 0 c).arrAt · cfg0.N) (hF0 m D0 c) (hrest0 m D0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 0 c).owed (Fin.last _) = 0 from D0.ho (E3 m) c _]
    iexact HO

set_option backward.isDefEq.respectTransparency.types false in
/-- Region 1 between its two boundaries: its arrays split out of the unscoped buffers at the entry contents and put back
    at the exit contents; the generator register into the invariant and out; nothing owed; no semaphore of its own. -/
def reg1 : Pipeline.RegionSeg (pcfgs (F := F)) padm (pdats m D0 D1 D2 D3 D4) () defs₀ 𝒱₀ Lv lv 1 where
  win := launch1.win.to₀
  block_pos := launch1.block_pos
  stage_whole := launch1.stage_whole
  K := PEmpty
  osem k := k.elim
  ho := Pipeline.OwnSemFacts.none _
  hbody c := (D1.hbody (E5 m D0) c).loose
  hwaits := Pipeline.hwaits_of_owed_zero _ _ _ _ Lv lv 1 fun c t => D1.ho (E5 m D0) c t
  pre c := iprop(StableHlo.held (c : Thread nD τ) (Pipeline.ucRefs τ sig) (B5 m D0 c) ∗ R c)
  post c := iprop(StableHlo.held (c : Thread nD τ) (Pipeline.ucRefs τ sig) (B6 m D0 D1 c) ∗ R c)
  X c := iprop(∃ r, prngReg c r)
  Y c := iprop(∃ r, prngReg c r)
  Z c := Pipeline.unscopedRest (Ix := Unit) (Name := ℕ) (U := UR sig nD τ) (Lvl := ℕ) spec1 c (E5 m D0 c)
  hentry c := by
    rw [Pipeline.ownSems0_none]
    have hsplit := Pipeline.arrays_of_unscopedBufs (p := 1) (pcfgs (F := F)) padm (pdats m D0 D1 D2 D3 D4) launch1.win launch1.arr_whole c
      ((pdats m D0 D1 D2 D3 D4 1 c).share_full fun w => D1.hq (E5 m D0) c w) (E5 m D0 c) fun w => D1.hA (E5 m D0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((D1.hrec (E5 m D0) c 0).symm ▸ Set.mem_univ x)
      rw [show (pdats m D0 D1 D2 D3 D4 1 c).owed 0 = 0 from D1.ho (E5 m D0) c 0]
      iexact HO
    isplitl [Hp]; · iexact Hp
    iexact Hrest
  hin c := by
    refine BIBase.Entails.trans ?_ (D1.hin (E5 m D0) c)
    unfold Pipeline.ΦA
    iintro ⟨Hp, -, Hr⟩
    isplitl [Hr]; · iexact Hr
    iexact Hp
  hout c := by
    rw [Pipeline.ownSems0_none]
    refine BIBase.Entails.trans (D1.hout (E5 m D0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m D0 D1 D2 D3 D4) ((pdats m D0 D1 D2 D3 D4 1 c).share_full fun w => D1.hq (E5 m D0) c w)
      (E5 m D0 c) (E6 m D0 D1 c) ((pdats m D0 D1 D2 D3 D4 1 c).arrAt · cfg1.N) (hF1 m D0 D1 c) (hrest1 m D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 1 c).owed (Fin.last _) = 0 from D1.ho (E5 m D0) c _]
    iexact HO

set_option backward.isDefEq.respectTransparency.types false in
/-- Region 2 between its two boundaries: its arrays split out of the unscoped buffers at the entry contents and put back
    at the exit contents; the generator register into the invariant and out; nothing owed; no semaphore of its own. -/
def reg2 : Pipeline.RegionSeg (pcfgs (F := F)) padm (pdats m D0 D1 D2 D3 D4) () defs₀ 𝒱₀ Lv lv 2 where
  win := launch2.win.to₀
  block_pos := launch2.block_pos
  stage_whole := launch2.stage_whole
  K := PEmpty
  osem k := k.elim
  ho := Pipeline.OwnSemFacts.none _
  hbody c := (D2.hbody (E7 m D0 D1) c).loose
  hwaits := Pipeline.hwaits_of_owed_zero _ _ _ _ Lv lv 2 fun c t => D2.ho (E7 m D0 D1) c t
  pre c := iprop(StableHlo.held (c : Thread nD τ) (Pipeline.ucRefs τ sig) (B7 m D0 D1 c) ∗ R c)
  post c := iprop(StableHlo.held (c : Thread nD τ) (Pipeline.ucRefs τ sig) (B8 m D0 D1 D2 c) ∗ R c)
  X c := iprop(∃ r, prngReg c r)
  Y c := iprop(∃ r, prngReg c r)
  Z c := Pipeline.unscopedRest (Ix := Unit) (Name := ℕ) (U := UR sig nD τ) (Lvl := ℕ) spec2 c (E7 m D0 D1 c)
  hentry c := by
    rw [Pipeline.ownSems0_none]
    have hsplit := Pipeline.arrays_of_unscopedBufs (p := 2) (pcfgs (F := F)) padm (pdats m D0 D1 D2 D3 D4) launch2.win launch2.arr_whole c
      ((pdats m D0 D1 D2 D3 D4 2 c).share_full fun w => D2.hq (E7 m D0 D1) c w) (E7 m D0 D1 c) fun w => D2.hA (E7 m D0 D1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((D2.hrec (E7 m D0 D1) c 0).symm ▸ Set.mem_univ x)
      rw [show (pdats m D0 D1 D2 D3 D4 2 c).owed 0 = 0 from D2.ho (E7 m D0 D1) c 0]
      iexact HO
    isplitl [Hp]; · iexact Hp
    iexact Hrest
  hin c := by
    refine BIBase.Entails.trans ?_ (D2.hin (E7 m D0 D1) c)
    unfold Pipeline.ΦA
    iintro ⟨Hp, -, Hr⟩
    isplitl [Hr]; · iexact Hr
    iexact Hp
  hout c := by
    rw [Pipeline.ownSems0_none]
    refine BIBase.Entails.trans (D2.hout (E7 m D0 D1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m D0 D1 D2 D3 D4) ((pdats m D0 D1 D2 D3 D4 2 c).share_full fun w => D2.hq (E7 m D0 D1) c w)
      (E7 m D0 D1 c) (E8 m D0 D1 D2 c) ((pdats m D0 D1 D2 D3 D4 2 c).arrAt · cfg2.N) (hF2 m D0 D1 D2 c) (hrest2 m D0 D1 D2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 2 c).owed (Fin.last _) = 0 from D2.ho (E7 m D0 D1) c _]
    iexact HO

set_option backward.isDefEq.respectTransparency.types false in
/-- Region 3 between its two boundaries: its arrays split out of the unscoped buffers at the entry contents and put back
    at the exit contents; the generator register into the invariant and out; nothing owed; no semaphore of its own. -/
def reg3 : Pipeline.RegionSeg (pcfgs (F := F)) padm (pdats m D0 D1 D2 D3 D4) () defs₀ 𝒱₀ Lv lv 3 where
  win := launch3.win.to₀
  block_pos := launch3.block_pos
  stage_whole := launch3.stage_whole
  K := PEmpty
  osem k := k.elim
  ho := Pipeline.OwnSemFacts.none _
  hbody c := (D3.hbody (E8 m D0 D1 D2) c).loose
  hwaits := Pipeline.hwaits_of_owed_zero _ _ _ _ Lv lv 3 fun c t => D3.ho (E8 m D0 D1 D2) c t
  pre c := iprop(StableHlo.held (c : Thread nD τ) (Pipeline.ucRefs τ sig) (B8 m D0 D1 D2 c) ∗ R c)
  post c := iprop(StableHlo.held (c : Thread nD τ) (Pipeline.ucRefs τ sig) (B9 m D0 D1 D2 D3 c) ∗ R c)
  X c := iprop(∃ r, prngReg c r)
  Y c := iprop(∃ r, prngReg c r)
  Z c := Pipeline.unscopedRest (Ix := Unit) (Name := ℕ) (U := UR sig nD τ) (Lvl := ℕ) spec3 c (E8 m D0 D1 D2 c)
  hentry c := by
    rw [Pipeline.ownSems0_none]
    have hsplit := Pipeline.arrays_of_unscopedBufs (p := 3) (pcfgs (F := F)) padm (pdats m D0 D1 D2 D3 D4) launch3.win launch3.arr_whole c
      ((pdats m D0 D1 D2 D3 D4 3 c).share_full fun w => D3.hq (E8 m D0 D1 D2) c w) (E8 m D0 D1 D2 c) fun w => D3.hA (E8 m D0 D1 D2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((D3.hrec (E8 m D0 D1 D2) c 0).symm ▸ Set.mem_univ x)
      rw [show (pdats m D0 D1 D2 D3 D4 3 c).owed 0 = 0 from D3.ho (E8 m D0 D1 D2) c 0]
      iexact HO
    isplitl [Hp]; · iexact Hp
    iexact Hrest
  hin c := by
    refine BIBase.Entails.trans ?_ (D3.hin (E8 m D0 D1 D2) c)
    unfold Pipeline.ΦA
    iintro ⟨Hp, -, Hr⟩
    isplitl [Hr]; · iexact Hr
    iexact Hp
  hout c := by
    rw [Pipeline.ownSems0_none]
    refine BIBase.Entails.trans (D3.hout (E8 m D0 D1 D2) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) padm (Ix := Unit) (Name := ℕ) (U := UR sig nD τ) (Lvl := ℕ)
      launch3.win launch3.arr_whole c (pdats m D0 D1 D2 D3 D4) ((pdats m D0 D1 D2 D3 D4 3 c).share_full fun w => D3.hq (E8 m D0 D1 D2) c w)
      (E8 m D0 D1 D2 c) (E9 m D0 D1 D2 D3 c) ((pdats m D0 D1 D2 D3 D4 3 c).arrAt · cfg3.N) (hF3 m D0 D1 D2 D3 c) (hrest3 m D0 D1 D2 D3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 3 c).owed (Fin.last _) = 0 from D3.ho (E8 m D0 D1 D2) c _]
    iexact HO

set_option backward.isDefEq.respectTransparency.types false in
/-- Region 4 between its two boundaries: its arrays split out of the unscoped buffers at the entry contents and put back
    at the exit contents; the generator register into the invariant and out; nothing owed; no semaphore of its own. -/
def reg4 : Pipeline.RegionSeg (pcfgs (F := F)) padm (pdats m D0 D1 D2 D3 D4) () defs₀ 𝒱₀ Lv lv 4 where
  win := launch4.win.to₀
  block_pos := launch4.block_pos
  stage_whole := launch4.stage_whole
  K := PEmpty
  osem k := k.elim
  ho := Pipeline.OwnSemFacts.none _
  hbody c := (D4.hbody (E10 m D0 D1 D2 D3) c).loose
  hwaits := Pipeline.hwaits_of_owed_zero _ _ _ _ Lv lv 4 fun c t => D4.ho (E10 m D0 D1 D2 D3) c t
  pre c := iprop(StableHlo.held (c : Thread nD τ) (Pipeline.ucRefs τ sig) (B10 m D0 D1 D2 D3 c) ∗ R c)
  post c := iprop(Tₙ m D0 D1 D2 D3 D4 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E10 m D0 D1 D2 D3 c)
  hentry c := by
    rw [Pipeline.ownSems0_none]
    have hsplit := Pipeline.arrays_of_unscopedBufs (p := 4) (pcfgs (F := F)) padm (pdats m D0 D1 D2 D3 D4) launch4.win launch4.arr_whole c
      ((pdats m D0 D1 D2 D3 D4 4 c).share_full fun w => D4.hq (E10 m D0 D1 D2 D3) c w) (E10 m D0 D1 D2 D3 c) fun w => D4.hA (E10 m D0 D1 D2 D3) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((D4.hrec (E10 m D0 D1 D2 D3) c 0).symm ▸ Set.mem_univ x)
      rw [show (pdats m D0 D1 D2 D3 D4 4 c).owed 0 = 0 from D4.ho (E10 m D0 D1 D2 D3) c 0]
      iexact HO
    isplitl [Hp]; · iexact Hp
    iexact Hrest
  hin c := by
    refine BIBase.Entails.trans ?_ (D4.hin (E10 m D0 D1 D2 D3) c)
    unfold Pipeline.ΦA
    iintro ⟨Hp, -, Hr⟩
    isplitl [Hr]; · iexact Hr
    iexact Hp
  hout c := by
    rw [Pipeline.ownSems0_none]
    refine BIBase.Entails.trans (D4.hout (E10 m D0 D1 D2 D3) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) padm (Ix := Unit) (Name := ℕ) (U := UR sig nD τ) (Lvl := ℕ)
      launch4.win launch4.arr_whole c (pdats m D0 D1 D2 D3 D4) ((pdats m D0 D1 D2 D3 D4 4 c).share_full fun w => D4.hq (E10 m D0 D1 D2 D3) c w)
      (E10 m D0 D1 D2 D3 c) (E11 m D0 D1 D2 D3 D4 c) ((pdats m D0 D1 D2 D3 D4 4 c).arrAt · cfg4.N) (hF4 m D0 D1 D2 D3 D4 c) (hrest4 m D0 D1 D2 D3 D4 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats m D0 D1 D2 D3 D4 4 c).owed (Fin.last _) = 0 from D4.ho (E10 m D0 D1 D2 D3) c _]
    iexact HO

/-! ## @main as segments, and the launch -/

/-- @main's eleven segments in order: a host segment per stretch from its boundary's contents, a region per kernel call. -/
abbrev rsegs : List (Pipeline.Seg (pcfgs (F := F)) padm (pdats m D0 D1 D2 D3 D4) () defs₀ 𝒱₀ Lv lv) :=
  [
    .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m D0 D1 D2 D3 D4),
    .host (hseg hostOps1 hostOps1_sub hostOps1_fresh (B4 m D0)),
    .region (reg1 m D0 D1 D2 D3 D4),
    .host (hseg hostOps2 hostOps2_sub hostOps2_fresh (B6 m D0 D1)),
    .region (reg2 m D0 D1 D2 D3 D4),
    .region (reg3 m D0 D1 D2 D3 D4),
    .host (hseg hostOps4 hostOps4_sub hostOps4_fresh (B9 m D0 D1 D2 D3)),
    .region (reg4 m D0 D1 D2 D3 D4) ]

/-- What the final memory holds on core `c`: every unscoped buffer at the last boundary's contents. -/
def FinalAt (c : Dev nD) (s : MemSt nD τ sig (Elt F)) : Prop :=
  ∀ b ∈ Pipeline.ucRefs τ sig, s.mem (((c : Thread nD τ)).1, b) = B11 m D0 D1 D2 D3 D4 c b

set_option backward.isDefEq.respectTransparency.types false in
/-- THE RUN. From any memory with zero counters every weakly fair execution of @main on the TensorCores terminates,
    nothing faulting, and the final memory holds, at every unscoped buffer of every core, the fold's last value. -/
theorem run (ρ : Dev nD → PrngReg) : θ_run defs (onTc (τ := τ) (main (F := F))) ⟨m, fun _ => 0, ρ⟩
    (fun r => ∀ c : Dev nD, FinalAt m D0 D1 D2 D3 D4 c r.2) :=
  Pipeline.θ_run_regions_kit_dev (pcfgs (F := F)) padm (pdats m D0 D1 D2 D3 D4) () cellOf_inj emb₁ defs₀ 𝒱₀ Lv lv m ρ main
    (fun _ => rsegs m D0 D1 D2 D3 D4)
    (fun c Q => by
      rewrite [main_chain c, Pipeline.Seg.run_eq_chain,
        show (rsegs m D0 D1 D2 D3 D4).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()) ] from rfl]
      exact .rfl)
    (fun c => by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m D0 D1 D2 D3 D4)
    (hch := fun c => ⟨.rfl, .rfl, .rfl, .rfl, .rfl, .rfl, .rfl, .rfl, .rfl, .rfl, .rfl, .rfl⟩)
    (hinit := by
      refine Pipeline.initEach Lv lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => FinalAt m D0 D1 D2 D3 D4 c s)
    (hfin := fun c s' => by
      iintro ⟨⟨Hh, -⟩, HSI⟩
      unfold StableHlo.held FinalAt
      imodintro
      iapply (pointsTo_read_all (Pipeline.ucRefs τ sig) (fun b => (((c : Thread nD τ)).1, b)) (B11 m D0 D1 D2 D3 D4 c) s')
      isplitl [Hh] <;> iassumption)
    (hQ := fun s h c => h c)

end Cert.Kernel.Hand

end
-- ==== Proof.WFrame.lean ====
/-
  The argument arrays at the end of the kernel program's run.

  No host stretch writes an argument array and no region may change one: a region either reads it through an input
  window, whose array the write-backs leave as entered, or does not name it at all. So the value the fold of buffer
  contents gives an argument's buffer at the last boundary walks back, boundary by boundary, to the launch memory.
  With the run this is the program's frame: every execution terminates, nothing faults, the arguments end as launched.
-/
import proofs.«121379_j57501022159518_1_alg».proof.Proof.WRun

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)
variable (D0 : RD0 F) (D1 : RD1 F) (D2 : RD2 F) (D3 : RD3 F) (D4 : RD4 F)

/-- `main_arg0` reaches the last boundary as launched. -/
theorem B11_main_arg0 (c : Dev nD) : B11 m D0 D1 D2 D3 D4 c (Proc.devRef .tc main_arg0) = m ((c : Thread nD τ).loc main_arg0) :=
  calc B11 m D0 D1 D2 D3 D4 c (Proc.devRef .tc main_arg0)
    _ = B10 m D0 D1 D2 D3 c (Proc.devRef .tc main_arg0) := B11_of_ne m D0 D1 D2 D3 D4 c main_arg0 (by decide)
    _ = B9 m D0 D1 D2 D3 c (Proc.devRef .tc main_arg0) := StableHlo.after_of_writes_sub hostOps4 _ hostOps4_writes (r := main_arg0) (by decide)
    _ = B8 m D0 D1 D2 c (Proc.devRef .tc main_arg0) := B9_of_ne m D0 D1 D2 D3 c main_arg0 (by decide)
    _ = B7 m D0 D1 c (Proc.devRef .tc main_arg0) := B8_of_ne m D0 D1 D2 c main_arg0 (by decide)
    _ = B6 m D0 D1 c (Proc.devRef .tc main_arg0) := StableHlo.after_of_writes_sub hostOps2 _ hostOps2_writes (r := main_arg0) (by decide)
    _ = B5 m D0 c (Proc.devRef .tc main_arg0) := B6_of_ne m D0 D1 c main_arg0 (by decide)
    _ = B4 m D0 c (Proc.devRef .tc main_arg0) := StableHlo.after_of_writes_sub hostOps1 _ hostOps1_writes (r := main_arg0) (by decide)
    _ = B3 m c (Proc.devRef .tc main_arg0) := (B4_arr m D0 c 0).trans (((D0.dat (E3 m) c).arrAt_in 0 rfl _).trans (D0.hA (E3 m) c 0))
    _ = B2 m c (Proc.devRef .tc main_arg0) := StableHlo.after_of_writes_sub hostOps0_2 _ hostOps0_2_writes (r := main_arg0) (by decide)
    _ = B1 m c (Proc.devRef .tc main_arg0) := StableHlo.after_of_writes_sub hostOps0_1 _ hostOps0_1_writes (r := main_arg0) (by decide)
    _ = B0 m c (Proc.devRef .tc main_arg0) := StableHlo.after_of_writes_sub hostOps0 _ hostOps0_writes (r := main_arg0) (by decide)
    _ = m ((c : Thread nD τ).loc main_arg0) := rfl

/-- `main_arg1` reaches the last boundary as launched. -/
theorem B11_main_arg1 (c : Dev nD) : B11 m D0 D1 D2 D3 D4 c (Proc.devRef .tc main_arg1) = m ((c : Thread nD τ).loc main_arg1) :=
  calc B11 m D0 D1 D2 D3 D4 c (Proc.devRef .tc main_arg1)
    _ = B10 m D0 D1 D2 D3 c (Proc.devRef .tc main_arg1) := B11_of_ne m D0 D1 D2 D3 D4 c main_arg1 (by decide)
    _ = B9 m D0 D1 D2 D3 c (Proc.devRef .tc main_arg1) := StableHlo.after_of_writes_sub hostOps4 _ hostOps4_writes (r := main_arg1) (by decide)
    _ = B8 m D0 D1 D2 c (Proc.devRef .tc main_arg1) := B9_of_ne m D0 D1 D2 D3 c main_arg1 (by decide)
    _ = B7 m D0 D1 c (Proc.devRef .tc main_arg1) := B8_of_ne m D0 D1 D2 c main_arg1 (by decide)
    _ = B6 m D0 D1 c (Proc.devRef .tc main_arg1) := StableHlo.after_of_writes_sub hostOps2 _ hostOps2_writes (r := main_arg1) (by decide)
    _ = B5 m D0 c (Proc.devRef .tc main_arg1) := B6_of_ne m D0 D1 c main_arg1 (by decide)
    _ = B4 m D0 c (Proc.devRef .tc main_arg1) := StableHlo.after_of_writes_sub hostOps1 _ hostOps1_writes (r := main_arg1) (by decide)
    _ = B3 m c (Proc.devRef .tc main_arg1) := B4_of_ne m D0 c main_arg1 (by decide)
    _ = B2 m c (Proc.devRef .tc main_arg1) := StableHlo.after_of_writes_sub hostOps0_2 _ hostOps0_2_writes (r := main_arg1) (by decide)
    _ = B1 m c (Proc.devRef .tc main_arg1) := StableHlo.after_of_writes_sub hostOps0_1 _ hostOps0_1_writes (r := main_arg1) (by decide)
    _ = B0 m c (Proc.devRef .tc main_arg1) := StableHlo.after_of_writes_sub hostOps0 _ hostOps0_writes (r := main_arg1) (by decide)
    _ = m ((c : Thread nD τ).loc main_arg1) := rfl

/-- `main_arg2` reaches the last boundary as launched. -/
theorem B11_main_arg2 (c : Dev nD) : B11 m D0 D1 D2 D3 D4 c (Proc.devRef .tc main_arg2) = m ((c : Thread nD τ).loc main_arg2) :=
  calc B11 m D0 D1 D2 D3 D4 c (Proc.devRef .tc main_arg2)
    _ = B10 m D0 D1 D2 D3 c (Proc.devRef .tc main_arg2) := B11_of_ne m D0 D1 D2 D3 D4 c main_arg2 (by decide)
    _ = B9 m D0 D1 D2 D3 c (Proc.devRef .tc main_arg2) := StableHlo.after_of_writes_sub hostOps4 _ hostOps4_writes (r := main_arg2) (by decide)
    _ = B8 m D0 D1 D2 c (Proc.devRef .tc main_arg2) := B9_of_ne m D0 D1 D2 D3 c main_arg2 (by decide)
    _ = B7 m D0 D1 c (Proc.devRef .tc main_arg2) := B8_of_ne m D0 D1 D2 c main_arg2 (by decide)
    _ = B6 m D0 D1 c (Proc.devRef .tc main_arg2) := StableHlo.after_of_writes_sub hostOps2 _ hostOps2_writes (r := main_arg2) (by decide)
    _ = B5 m D0 c (Proc.devRef .tc main_arg2) := B6_of_ne m D0 D1 c main_arg2 (by decide)
    _ = B4 m D0 c (Proc.devRef .tc main_arg2) := StableHlo.after_of_writes_sub hostOps1 _ hostOps1_writes (r := main_arg2) (by decide)
    _ = B3 m c (Proc.devRef .tc main_arg2) := (B4_arr m D0 c 1).trans (((D0.dat (E3 m) c).arrAt_in 1 rfl _).trans (D0.hA (E3 m) c 1))
    _ = B2 m c (Proc.devRef .tc main_arg2) := StableHlo.after_of_writes_sub hostOps0_2 _ hostOps0_2_writes (r := main_arg2) (by decide)
    _ = B1 m c (Proc.devRef .tc main_arg2) := StableHlo.after_of_writes_sub hostOps0_1 _ hostOps0_1_writes (r := main_arg2) (by decide)
    _ = B0 m c (Proc.devRef .tc main_arg2) := StableHlo.after_of_writes_sub hostOps0 _ hostOps0_writes (r := main_arg2) (by decide)
    _ = m ((c : Thread nD τ).loc main_arg2) := rfl

/-- `main_arg3` reaches the last boundary as launched. -/
theorem B11_main_arg3 (c : Dev nD) : B11 m D0 D1 D2 D3 D4 c (Proc.devRef .tc main_arg3) = m ((c : Thread nD τ).loc main_arg3) :=
  calc B11 m D0 D1 D2 D3 D4 c (Proc.devRef .tc main_arg3)
    _ = B10 m D0 D1 D2 D3 c (Proc.devRef .tc main_arg3) := B11_of_ne m D0 D1 D2 D3 D4 c main_arg3 (by decide)
    _ = B9 m D0 D1 D2 D3 c (Proc.devRef .tc main_arg3) := StableHlo.after_of_writes_sub hostOps4 _ hostOps4_writes (r := main_arg3) (by decide)
    _ = B8 m D0 D1 D2 c (Proc.devRef .tc main_arg3) := B9_of_ne m D0 D1 D2 D3 c main_arg3 (by decide)
    _ = B7 m D0 D1 c (Proc.devRef .tc main_arg3) := B8_of_ne m D0 D1 D2 c main_arg3 (by decide)
    _ = B6 m D0 D1 c (Proc.devRef .tc main_arg3) := StableHlo.after_of_writes_sub hostOps2 _ hostOps2_writes (r := main_arg3) (by decide)
    _ = B5 m D0 c (Proc.devRef .tc main_arg3) := B6_of_ne m D0 D1 c main_arg3 (by decide)
    _ = B4 m D0 c (Proc.devRef .tc main_arg3) := StableHlo.after_of_writes_sub hostOps1 _ hostOps1_writes (r := main_arg3) (by decide)
    _ = B3 m c (Proc.devRef .tc main_arg3) := B4_of_ne m D0 c main_arg3 (by decide)
    _ = B2 m c (Proc.devRef .tc main_arg3) := StableHlo.after_of_writes_sub hostOps0_2 _ hostOps0_2_writes (r := main_arg3) (by decide)
    _ = B1 m c (Proc.devRef .tc main_arg3) := StableHlo.after_of_writes_sub hostOps0_1 _ hostOps0_1_writes (r := main_arg3) (by decide)
    _ = B0 m c (Proc.devRef .tc main_arg3) := StableHlo.after_of_writes_sub hostOps0 _ hostOps0_writes (r := main_arg3) (by decide)
    _ = m ((c : Thread nD τ).loc main_arg3) := rfl

/-- `main_arg4` reaches the last boundary as launched. -/
theorem B11_main_arg4 (c : Dev nD) : B11 m D0 D1 D2 D3 D4 c (Proc.devRef .tc main_arg4) = m ((c : Thread nD τ).loc main_arg4) :=
  calc B11 m D0 D1 D2 D3 D4 c (Proc.devRef .tc main_arg4)
    _ = B10 m D0 D1 D2 D3 c (Proc.devRef .tc main_arg4) := B11_of_ne m D0 D1 D2 D3 D4 c main_arg4 (by decide)
    _ = B9 m D0 D1 D2 D3 c (Proc.devRef .tc main_arg4) := StableHlo.after_of_writes_sub hostOps4 _ hostOps4_writes (r := main_arg4) (by decide)
    _ = B8 m D0 D1 D2 c (Proc.devRef .tc main_arg4) := B9_of_ne m D0 D1 D2 D3 c main_arg4 (by decide)
    _ = B7 m D0 D1 c (Proc.devRef .tc main_arg4) := B8_of_ne m D0 D1 D2 c main_arg4 (by decide)
    _ = B6 m D0 D1 c (Proc.devRef .tc main_arg4) := StableHlo.after_of_writes_sub hostOps2 _ hostOps2_writes (r := main_arg4) (by decide)
    _ = B5 m D0 c (Proc.devRef .tc main_arg4) := B6_of_ne m D0 D1 c main_arg4 (by decide)
    _ = B4 m D0 c (Proc.devRef .tc main_arg4) := StableHlo.after_of_writes_sub hostOps1 _ hostOps1_writes (r := main_arg4) (by decide)
    _ = B3 m c (Proc.devRef .tc main_arg4) := B4_of_ne m D0 c main_arg4 (by decide)
    _ = B2 m c (Proc.devRef .tc main_arg4) := StableHlo.after_of_writes_sub hostOps0_2 _ hostOps0_2_writes (r := main_arg4) (by decide)
    _ = B1 m c (Proc.devRef .tc main_arg4) := StableHlo.after_of_writes_sub hostOps0_1 _ hostOps0_1_writes (r := main_arg4) (by decide)
    _ = B0 m c (Proc.devRef .tc main_arg4) := StableHlo.after_of_writes_sub hostOps0 _ hostOps0_writes (r := main_arg4) (by decide)
    _ = m ((c : Thread nD τ).loc main_arg4) := rfl

/-- `main_arg5` reaches the last boundary as launched. -/
theorem B11_main_arg5 (c : Dev nD) : B11 m D0 D1 D2 D3 D4 c (Proc.devRef .tc main_arg5) = m ((c : Thread nD τ).loc main_arg5) :=
  calc B11 m D0 D1 D2 D3 D4 c (Proc.devRef .tc main_arg5)
    _ = B10 m D0 D1 D2 D3 c (Proc.devRef .tc main_arg5) := B11_of_ne m D0 D1 D2 D3 D4 c main_arg5 (by decide)
    _ = B9 m D0 D1 D2 D3 c (Proc.devRef .tc main_arg5) := StableHlo.after_of_writes_sub hostOps4 _ hostOps4_writes (r := main_arg5) (by decide)
    _ = B8 m D0 D1 D2 c (Proc.devRef .tc main_arg5) := B9_of_ne m D0 D1 D2 D3 c main_arg5 (by decide)
    _ = B7 m D0 D1 c (Proc.devRef .tc main_arg5) := B8_of_ne m D0 D1 D2 c main_arg5 (by decide)
    _ = B6 m D0 D1 c (Proc.devRef .tc main_arg5) := StableHlo.after_of_writes_sub hostOps2 _ hostOps2_writes (r := main_arg5) (by decide)
    _ = B5 m D0 c (Proc.devRef .tc main_arg5) := B6_of_ne m D0 D1 c main_arg5 (by decide)
    _ = B4 m D0 c (Proc.devRef .tc main_arg5) := StableHlo.after_of_writes_sub hostOps1 _ hostOps1_writes (r := main_arg5) (by decide)
    _ = B3 m c (Proc.devRef .tc main_arg5) := B4_of_ne m D0 c main_arg5 (by decide)
    _ = B2 m c (Proc.devRef .tc main_arg5) := StableHlo.after_of_writes_sub hostOps0_2 _ hostOps0_2_writes (r := main_arg5) (by decide)
    _ = B1 m c (Proc.devRef .tc main_arg5) := StableHlo.after_of_writes_sub hostOps0_1 _ hostOps0_1_writes (r := main_arg5) (by decide)
    _ = B0 m c (Proc.devRef .tc main_arg5) := StableHlo.after_of_writes_sub hostOps0 _ hostOps0_writes (r := main_arg5) (by decide)
    _ = m ((c : Thread nD τ).loc main_arg5) := rfl

/-- `main_arg6` reaches the last boundary as launched. -/
theorem B11_main_arg6 (c : Dev nD) : B11 m D0 D1 D2 D3 D4 c (Proc.devRef .tc main_arg6) = m ((c : Thread nD τ).loc main_arg6) :=
  calc B11 m D0 D1 D2 D3 D4 c (Proc.devRef .tc main_arg6)
    _ = B10 m D0 D1 D2 D3 c (Proc.devRef .tc main_arg6) := B11_of_ne m D0 D1 D2 D3 D4 c main_arg6 (by decide)
    _ = B9 m D0 D1 D2 D3 c (Proc.devRef .tc main_arg6) := StableHlo.after_of_writes_sub hostOps4 _ hostOps4_writes (r := main_arg6) (by decide)
    _ = B8 m D0 D1 D2 c (Proc.devRef .tc main_arg6) := (B9_arr m D0 D1 D2 D3 c 1).trans (((D3.dat (E8 m D0 D1 D2) c).arrAt_in 1 rfl _).trans (D3.hA (E8 m D0 D1 D2) c 1))
    _ = B7 m D0 D1 c (Proc.devRef .tc main_arg6) := B8_of_ne m D0 D1 D2 c main_arg6 (by decide)
    _ = B6 m D0 D1 c (Proc.devRef .tc main_arg6) := StableHlo.after_of_writes_sub hostOps2 _ hostOps2_writes (r := main_arg6) (by decide)
    _ = B5 m D0 c (Proc.devRef .tc main_arg6) := B6_of_ne m D0 D1 c main_arg6 (by decide)
    _ = B4 m D0 c (Proc.devRef .tc main_arg6) := StableHlo.after_of_writes_sub hostOps1 _ hostOps1_writes (r := main_arg6) (by decide)
    _ = B3 m c (Proc.devRef .tc main_arg6) := B4_of_ne m D0 c main_arg6 (by decide)
    _ = B2 m c (Proc.devRef .tc main_arg6) := StableHlo.after_of_writes_sub hostOps0_2 _ hostOps0_2_writes (r := main_arg6) (by decide)
    _ = B1 m c (Proc.devRef .tc main_arg6) := StableHlo.after_of_writes_sub hostOps0_1 _ hostOps0_1_writes (r := main_arg6) (by decide)
    _ = B0 m c (Proc.devRef .tc main_arg6) := StableHlo.after_of_writes_sub hostOps0 _ hostOps0_writes (r := main_arg6) (by decide)
    _ = m ((c : Thread nD τ).loc main_arg6) := rfl

/-- `main_arg7` reaches the last boundary as launched. -/
theorem B11_main_arg7 (c : Dev nD) : B11 m D0 D1 D2 D3 D4 c (Proc.devRef .tc main_arg7) = m ((c : Thread nD τ).loc main_arg7) :=
  calc B11 m D0 D1 D2 D3 D4 c (Proc.devRef .tc main_arg7)
    _ = B10 m D0 D1 D2 D3 c (Proc.devRef .tc main_arg7) := B11_of_ne m D0 D1 D2 D3 D4 c main_arg7 (by decide)
    _ = B9 m D0 D1 D2 D3 c (Proc.devRef .tc main_arg7) := StableHlo.after_of_writes_sub hostOps4 _ hostOps4_writes (r := main_arg7) (by decide)
    _ = B8 m D0 D1 D2 c (Proc.devRef .tc main_arg7) := B9_of_ne m D0 D1 D2 D3 c main_arg7 (by decide)
    _ = B7 m D0 D1 c (Proc.devRef .tc main_arg7) := B8_of_ne m D0 D1 D2 c main_arg7 (by decide)
    _ = B6 m D0 D1 c (Proc.devRef .tc main_arg7) := StableHlo.after_of_writes_sub hostOps2 _ hostOps2_writes (r := main_arg7) (by decide)
    _ = B5 m D0 c (Proc.devRef .tc main_arg7) := B6_of_ne m D0 D1 c main_arg7 (by decide)
    _ = B4 m D0 c (Proc.devRef .tc main_arg7) := StableHlo.after_of_writes_sub hostOps1 _ hostOps1_writes (r := main_arg7) (by decide)
    _ = B3 m c (Proc.devRef .tc main_arg7) := B4_of_ne m D0 c main_arg7 (by decide)
    _ = B2 m c (Proc.devRef .tc main_arg7) := StableHlo.after_of_writes_sub hostOps0_2 _ hostOps0_2_writes (r := main_arg7) (by decide)
    _ = B1 m c (Proc.devRef .tc main_arg7) := StableHlo.after_of_writes_sub hostOps0_1 _ hostOps0_1_writes (r := main_arg7) (by decide)
    _ = B0 m c (Proc.devRef .tc main_arg7) := StableHlo.after_of_writes_sub hostOps0 _ hostOps0_writes (r := main_arg7) (by decide)
    _ = m ((c : Thread nD τ).loc main_arg7) := rfl

/-- What the final memory of the run holds at an unscoped reference of the TensorCore. -/
theorem FinalAt.at {c : Dev nD} {s : MemSt nD τ sig (Elt F)} (h : FinalAt m D0 D1 D2 D3 D4 c s) (b : Ref sig .tc)
    (hb : ¬ (Proc.devRef .tc b : DevRef τ sig).isScoped) :
    s.mem ((c.tc : Thread nD τ).loc b) = B11 m D0 D1 D2 D3 D4 c (Proc.devRef .tc b) :=
  h _ (mem_uc b hb)

include D0 D1 D2 D3 D4 in
/-- THE FRAME of the kernel program at any float instance: it runs to the end, faults nowhere, and every argument array
    ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨
      ((h c).at m D0 D1 D2 D3 D4 main_arg0 (by decide)).trans (B11_main_arg0 m D0 D1 D2 D3 D4 c),
      ((h c).at m D0 D1 D2 D3 D4 main_arg1 (by decide)).trans (B11_main_arg1 m D0 D1 D2 D3 D4 c),
      ((h c).at m D0 D1 D2 D3 D4 main_arg2 (by decide)).trans (B11_main_arg2 m D0 D1 D2 D3 D4 c),
      ((h c).at m D0 D1 D2 D3 D4 main_arg3 (by decide)).trans (B11_main_arg3 m D0 D1 D2 D3 D4 c),
      ((h c).at m D0 D1 D2 D3 D4 main_arg4 (by decide)).trans (B11_main_arg4 m D0 D1 D2 D3 D4 c),
      ((h c).at m D0 D1 D2 D3 D4 main_arg5 (by decide)).trans (B11_main_arg5 m D0 D1 D2 D3 D4 c),
      ((h c).at m D0 D1 D2 D3 D4 main_arg6 (by decide)).trans (B11_main_arg6 m D0 D1 D2 D3 D4 c),
      ((h c).at m D0 D1 D2 D3 D4 main_arg7 (by decide)).trans (B11_main_arg7 m D0 D1 D2 D3 D4 c)⟩)
    (run m D0 D1 D2 D3 D4 ρ)

end Cert.Kernel.Hand

end
-- ==== Proof.WReg0.lean ====
/-
  The first matrix product of the program (x · W₁, kernel region 0) as a pipelined loop over 20 row blocks:
  what one run of its body does to the three staging buffers, and the data the pipeline's loop rule asks for.
  Everything is stated over an arbitrary assignment V of contents to the TensorCore's buffers at the moment the
  region starts, and over an arbitrary float model F.
-/
import proofs.«121379_j57501022159518_1_alg».proof.Proof.Gen.Kernel.Launch
import proofs.«121379_j57501022159518_1_alg».proof.Proof.Gen.Kernel.Skeleton
import proofs.«121379_j57501022159518_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the three arrays -/

/-- The block of window w's array that grid point t addresses, cut out of the contents V gives that array. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The row block of x (window 0). Whenever the loop's data starts from V's array and the body hands the block back
    unchanged, the staging buffer the body meets at point t holds exactly block t: a point that fetches puts it
    there, and a point that does not fetch has the same block index as the one before it. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-- The weight matrix W₁ (window 1) is one block, the same at all 20 points and fetched only at the first; the
    argument above covers it too, since an unfetched point keeps the block index. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  refine (dat.before_in_eq_fetched 1 rfl (fun _ => rfl) (fun _ _ _ => rfl) hkeep t d).trans ?_
  unfold Dat.fetched Dat.blockOf iblk0; rw [hA]; try rfl

/-! ## One run of the body -/

/-- The body reads and writes each staging buffer whole: the full rectangle of each of the three shapes. -/
abbrev rect0_x : Rect S5000x25 := Rect.unit (s := S5000x25) ![0, 0] S5000x25.size inb_S5000x25_S5000x25_0_0
abbrev rect0_w : Rect S25x128 := Rect.unit (s := S25x128) ![0, 0] S25x128.size inb_S25x128_S25x128_0_0
abbrev rect0_o : Rect S5000x128 := Rect.unit (s := S5000x128) ![0, 0] S5000x128.size inb_S5000x128_S5000x128_0_0

/-- The output staging buffer once the body has run: a single store of the product of the two loaded blocks
    (both rounded to bf16, accumulated onto zero) over the whole buffer. -/
def out0_2 (x0 : Vec F S5000x25 .f32) (x1 : Vec F S25x128 .f32) : Vec F S5000x128 .f32 :=
  View.canon [⟨rect0_o, k0_pay1 (View.ld x0 rect0_x) (View.ld x1 rect0_w)⟩]

/-- That single store reaches every index of the 5000×128 buffer. -/
theorem cover0_2 (p0 : Vec F S5000x128 .f32) (y : S5000x128.Idx) :
    ∃ pc ∈ ([⟨rect0_o, p0⟩] : List (View.Piece (Elt F) S5000x128 .f32)), y ∈ pc.1.set :=
  View.cover_of_tiled [⟨rect0_o, p0⟩] S5000x128.size (by rfl) y

set_option maxHeartbeats 1000000 in
/-- Hoare triple of the body on three whole staging buffers. Given the x-block buffer reading x0, the W₁ buffer
    reading x1 and the output buffer holding anything, the body ends with the two inputs untouched and the output
    reading out0_2 x0 x1. (It also loads the old output and drops the value, which changes nothing.) -/
theorem sound_kernel0 (c : Dev nD) (E : Set ℕ) (i : grid0.Coords)
    (arg0 : Memref sig .tc .vmem S5000x25 .f32) (harg0 : arg0.IsWhole)
    (arg1 : Memref sig .tc .vmem S25x128 .f32) (harg1 : arg1.IsWhole)
    (arg2 : Memref sig .tc .vmem S5000x128 .f32) (harg2 : arg2.IsWhole)
    (x0 : Vec F S5000x25 .f32) (x1 : Vec F S25x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0_matmul_kernel i arg0 harg0 arg1 harg1 arg2 harg2) K := by
  simp only [cc0_matmul_kernel_eq_skeleton]; unfold cc0_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The data of the loop -/

/-- What the pipeline's loop rule is told about region 0 on core c. The three arrays start as V has them. After the
    body at point t the two input buffers still read their blocks and the output buffer reads the product of those
    blocks. The loop invariant is the standard one for a body that touches nothing but its staging buffers (the
    scoped remainder and the generator register are carried along). Shares are full and no transfer is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of dat0 are V's. -/
theorem A_eq0 (c : Dev nD) (w : Fin cfg0.W) : (dat0 V c).A w = V c (Pipeline.arrRef spec0 w) := by
  dsimp only [dat0]

/-- The three cases of what the body leaves, spelled out. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Under dat0 the body finds block t of x, and the block of W₁, in its input buffers at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body at a grid point -/

/-- The resources the loop hands the body at point t: the invariant, the transfers owed, and the three current
    staging buffers at whatever the loop data says they hold. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- The resources it must hand back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the input buffers hold the blocks (before0_0, before0_1), so the body's triple applies; the
    invariant and the owed transfers are not looked at and come out as they went in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the loop rule for region 0, at every grid point. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.WReg2.lean ====
/-
  Region 2: the pointwise kernel  out = x * scale + shift  over a grid of 20 row blocks.
  Four windows: 0 = a [5000,128] row block of x (it moves with the grid point), 1 = the whole [1,128] scale row and
  2 = the whole [1,128] shift row (each the same block at every point), 3 = the [5000,128] output row block.
  Everything below is stated at an arbitrary assignment `V` of contents to the TensorCore's buffers at the moment the
  region starts, and at any float model `F`.
-/
import proofs.«121379_j57501022159518_1_alg».proof.Proof.Gen.Kernel.Launch
import proofs.«121379_j57501022159518_1_alg».proof.Proof.Gen.Kernel.Skeleton
import proofs.«121379_j57501022159518_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle with a 5000-long axis: deciding membership walks that axis coordinate by coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts
variable (V : (c : Dev nD) → (b : Ref sig .tc) → Buf (Elt F) ((c : Thread nD τ).loc b))

/-! ## Blocks of the windows -/

/-- The block of window `w` at grid point `t`, cut out of the window's array as `V` has it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 (x) is read-only for the body: if a proof datum has `V`'s array under the window and says the body
    leaves the window's buffer at its block, then before the body the buffer already holds that block, whether a
    fetch happened at this point or the block index stood still since the last one. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (scale) likewise; its block index is constant, so after the first point no fetch happens and the buffer
    keeps the one block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (shift): the same argument as for the scale row. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## Rectangles the body touches: each access is one whole staging buffer -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## The output buffer after the body -/

/-- The output staging buffer once the body has run, as a function of what the three input buffers held (`x0` the x
    block, `x1` the scale row, `x2` the shift row): the single whole-buffer store of the payload
    `x * broadcast scale + broadcast shift` evaluated on the whole-buffer reads. -/
def out2_3 (x0 : Vec F S5000x128 .f32) (x1 : Vec F S1x128 .f32) (x2 : Vec F S1x128 .f32) : Vec F S5000x128 .f32 :=
  View.canon [⟨r2_0, k2_pay1 (View.ld x1 r2_1) (View.ld x2 r2_1) (View.ld x0 r2_0)⟩]

/-- That one store reaches every index of the buffer. -/
theorem cover2_3 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body as a triple -/

set_option maxHeartbeats 1000000 in
/-- Run on four whole staging memrefs — x's holding `x0`, scale's `x1`, shift's `x2`, the output's holding anything —
    the kernel returns with the three inputs unchanged and the output at `out2_3 x0 x1 x2`.  (The body also reads the
    output buffer before overwriting it and drops the value; reading an owned buffer changes nothing.) -/
theorem sound_kernel2 (c : Dev nD) (E : Set ℕ) (i : grid2.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_affine_kernel i arg1 harg1 arg2 harg2 arg3 harg3 arg4 harg4) K := by
  simp only [cc2_affine_kernel_eq_skeleton]; unfold cc2_affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## Proof data of the pipeline -/

/-- The pipeline's proof datum on core `c`: under each window the array `V` gives; after the body at point `t` the
    input buffers still at their blocks and the output buffer at `out2_3` of those blocks; as invariant the
    untouched remainder (scoped rest and generator register); full ownership; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The datum's arrays are `V`'s. -/
theorem A_eq2 (c : Dev nD) (w : Fin cfg2.W) : (dat2 V c).A w = V c (Pipeline.arrRef spec2 w) := by
  dsimp only [dat2]

/-- The datum's `after`, one window at a time. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Before the body each input buffer holds its block. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- The resources the pipeline hands the body at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and the resources it expects back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At every point the body turns the first into the second: the input buffers hold their blocks, so the kernel's
    triple applies; invariant and debts are carried across untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation in the library's form. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.WReg3.lean ====
/-
  The second matrix product of the program (h · W₂, kernel region 3) as a pipelined loop over 20 row blocks:
  what one run of its body does to the three staging buffers, and the data the pipeline's loop rule asks for.
  Everything is stated over an arbitrary assignment V of contents to the TensorCore's buffers at the moment the
  region starts, and over an arbitrary float model F.
-/
import proofs.«121379_j57501022159518_1_alg».proof.Proof.Gen.Kernel.Launch
import proofs.«121379_j57501022159518_1_alg».proof.Proof.Gen.Kernel.Skeleton
import proofs.«121379_j57501022159518_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the three arrays -/

/-- The block of window w's array that grid point t addresses, cut out of the contents V gives that array. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The row block of h (window 0). Whenever the loop's data starts from V's array and the body hands the block back
    unchanged, the staging buffer the body meets at point t holds exactly block t: a point that fetches puts it
    there, and a point that does not fetch has the same block index as the one before it. -/
theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t := by
  have hkeep : ∀ t, (cfg3.win 0).cut (cfg3.grid.coords t) (dat.after 0 t) = dat.blockOf 0 t := fun t => by
    rw [hafter]; unfold Dat.blockOf iblk3; rw [hA]; try rfl
  refine (dat.before_in_eq_fetched 0 rfl (fun _ => rfl) (fun _ _ _ => rfl) hkeep t d).trans ?_
  unfold Dat.fetched Dat.blockOf iblk3; rw [hA]; try rfl

/-- The weight matrix W₂ (window 1) is one block, the same at all 20 points and fetched only at the first; the
    argument above covers it too, since an unfetched point keeps the block index. -/
theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t := by
  have hkeep : ∀ t, (cfg3.win 1).cut (cfg3.grid.coords t) (dat.after 1 t) = dat.blockOf 1 t := fun t => by
    rw [hafter]; unfold Dat.blockOf iblk3; rw [hA]; try rfl
  refine (dat.before_in_eq_fetched 1 rfl (fun _ => rfl) (fun _ _ _ => rfl) hkeep t d).trans ?_
  unfold Dat.fetched Dat.blockOf iblk3; rw [hA]; try rfl

/-! ## One run of the body -/

/-- The body reads and writes each staging buffer whole: the full rectangle of the 5000×128 shape (the block of h, and again the output) and of the 128×128 shape. -/
abbrev rect3_x : Rect S5000x128 := Rect.unit (s := S5000x128) ![0, 0] S5000x128.size inb_S5000x128_S5000x128_0_0
abbrev rect3_w : Rect S128x128 := Rect.unit (s := S128x128) ![0, 0] S128x128.size inb_S128x128_S128x128_0_0
abbrev rect3_o : Rect S5000x128 := Rect.unit (s := S5000x128) ![0, 0] S5000x128.size inb_S5000x128_S5000x128_0_0

/-- The output staging buffer once the body has run: a single store of the product of the two loaded blocks
    (both rounded to bf16, the first after a reshape to its own shape, accumulated onto zero) over the whole buffer. -/
def out3_2 (x0 : Vec F S5000x128 .f32) (x1 : Vec F S128x128 .f32) : Vec F S5000x128 .f32 :=
  View.canon [⟨rect3_o, k3_pay1 (View.ld x0 rect3_x) (View.ld x1 rect3_w)⟩]

/-- That single store reaches every index of the 5000×128 buffer. -/
theorem cover3_2 (p0 : Vec F S5000x128 .f32) (y : S5000x128.Idx) :
    ∃ pc ∈ ([⟨rect3_o, p0⟩] : List (View.Piece (Elt F) S5000x128 .f32)), y ∈ pc.1.set :=
  View.cover_of_tiled [⟨rect3_o, p0⟩] S5000x128.size (by rfl) y

set_option maxHeartbeats 1000000 in
/-- Hoare triple of the body on three whole staging buffers. Given the h-block buffer reading x0, the W₂ buffer
    reading x1 and the output buffer holding anything, the body ends with the two inputs untouched and the output
    reading out3_2 x0 x1. (It also loads the old output and drops the value, which changes nothing.) -/
theorem sound_kernel3 (c : Dev nD) (E : Set ℕ) (i : grid3.Coords)
    (arg0 : Memref sig .tc .vmem S5000x128 .f32) (harg0 : arg0.IsWhole)
    (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out3_2 x0 x1)) -∗ K ⟨⟩))
      ⊢ wp frame (wpE (defs₀ (F := F)) Variants.none c none) E (cc3_matmul_kernel i arg0 harg0 arg1 harg1 arg2 harg2) K := by
  simp only [cc3_matmul_kernel_eq_skeleton]; unfold cc3_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The data of the loop -/

/-- What the pipeline's loop rule is told about region 3 on core c. The three arrays start as V has them. After the
    body at point t the two input buffers still read their blocks and the output buffer reads the product of those
    blocks. The loop invariant is the standard one for a body that touches nothing but its staging buffers (the
    scoped remainder and the generator register are carried along). Shares are full and no transfer is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The arrays of dat3 are V's. -/
theorem A_eq3 (c : Dev nD) (w : Fin cfg3.W) : (dat3 V c).A w = V c (Pipeline.arrRef spec3 w) := by
  dsimp only [dat3]

/-- The three cases of what the body leaves, spelled out. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

/-- Under dat3 the body finds block t of h, and the block of W₂, in its input buffers at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body at a grid point -/

/-- The resources the loop hands the body at point t: the invariant, the transfers owed, and the three current
    staging buffers at whatever the loop data says they hold. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- The resources it must hand back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- At any point the input buffers hold the blocks (before3_0, before3_1), so the body's triple applies; the
    invariant and the owed transfers are not looked at and come out as they went in. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the loop rule for region 3, at every grid point. -/
theorem body_obligation3 (c : Dev nD) :
    BodyObligation (dat3 (F := F) V c) (defs₀ (F := F)) Variants.none () Set.univ := fun t => by
  rw [bigSep_W3, bigSep_W3]
  exact sound_body3 V c t

end Cert.Kernel.Hand

end
-- ==== Proof.WReg4.lean ====
/-
  Region 4: the pointwise kernel  out = max (agg + bias) 0  over a grid of 20 row blocks.
  Three windows: 0 = a [5000,128] row block of agg (it moves with the grid point), 1 = the whole [1,128] bias row
  (the same block at every point), 2 = the [5000,128] output row block.  Everything below is stated at an arbitrary
  assignment `V` of contents to the TensorCore's buffers at the moment the region starts, and at any float model `F`.
-/
import proofs.«121379_j57501022159518_1_alg».proof.Proof.Gen.Kernel.Launch
import proofs.«121379_j57501022159518_1_alg».proof.Proof.Gen.Kernel.Skeleton
import proofs.«121379_j57501022159518_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle with a 5000-long axis: deciding membership walks that axis coordinate by coordinate
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts
variable (V : (c : Dev nD) → (b : Ref sig .tc) → Buf (Elt F) ((c : Thread nD τ).loc b))

/-! ## Blocks of the windows -/

/-- The block of window `w` at grid point `t`, cut out of the window's array as `V` has it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 0 (agg) is read-only for the body: if a proof datum has `V`'s array under the window and says the body
    leaves the window's buffer at its block, then before the body the buffer already holds that block, whether a
    fetch happened at this point or the block index stood still since the last one. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1 (bias) likewise; its block index is constant, so after the first point no fetch happens and the buffer
    keeps the one block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## Rectangles the body touches: each access is one whole staging buffer -/

abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0

/-! ## The output buffer after the body -/

/-- The output staging buffer once the body has run, as a function of what the two input buffers held: the single
    whole-buffer store of the payload `max (agg + broadcast bias) 0` evaluated on the whole-buffer reads. -/
def out4_2 (x0 : Vec F S5000x128 .f32) (x1 : Vec F S1x128 .f32) : Vec F S5000x128 .f32 :=
  View.canon [⟨r4_0, k4_pay1 (View.ld x1 r4_1) (View.ld x0 r4_0)⟩]

/-- That one store reaches every index of the buffer. -/
theorem cover4_2 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body as a triple -/

set_option maxHeartbeats 1000000 in
/-- Run on three whole staging memrefs — agg's holding `x0`, bias's holding `x1`, the output's holding anything — the
    kernel returns with the two inputs unchanged and the output at `out4_2 x0 x1`.  (The body also reads the output
    buffer before overwriting it and drops the value; reading an owned buffer changes nothing.) -/
theorem sound_kernel4 (c : Dev nD) (E : Set ℕ) (i : grid4.Coords) (arg1 : Memref sig .tc .vmem S5000x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4_relu_bias_kernel i arg1 harg1 arg2 harg2 arg3 harg3) K := by
  simp only [cc4_relu_bias_kernel_eq_skeleton]; unfold cc4_relu_bias_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## Proof data of the pipeline -/

/-- The pipeline's proof datum on core `c`: under each window the array `V` gives; after the body at point `t` the
    input buffers still at their blocks and the output buffer at `out4_2` of those blocks; as invariant the
    untouched remainder (scoped rest and generator register); full ownership; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The datum's arrays are `V`'s. -/
theorem A_eq4 (c : Dev nD) (w : Fin cfg4.W) : (dat4 V c).A w = V c (Pipeline.arrRef spec4 w) := by
  dsimp only [dat4]

/-- The datum's `after`, one window at a time. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Before the body each input buffer holds its block. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

/-- The resources the pipeline hands the body at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and the resources it expects back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- At every point the body turns the first into the second: the input buffers hold their blocks, so the kernel's
    triple applies; invariant and debts are carried across untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation in the library's form. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.WData.lean ====
/-
  The four regions whose kernel bodies load whole blocks, compute, and store one whole block (the two matrix products,
  the affine map, the biased rectifier), as the records the run takes: for each, the proof data at any entry contents,
  its body obligation, and the invariant, which is the same scoped rest and generator register at every point.
-/
import proofs.«121379_j57501022159518_1_alg».proof.Proof.WRun
import proofs.«121379_j57501022159518_1_alg».proof.Proof.WReg0
import proofs.«121379_j57501022159518_1_alg».proof.Proof.WReg2
import proofs.«121379_j57501022159518_1_alg».proof.Proof.WReg3
import proofs.«121379_j57501022159518_1_alg».proof.Proof.WReg4

noncomputable section

namespace Cert.Kernel.Hand

open Cert.Kernel Cert.Kernel.Gen
open Idealize.ShloMosaic Idealize.ShloMosaic.TcCoe
open Idealize.SL Idealize.SL.BI Idealize.SL.Sem
open Idealize.SL.BI.BIBase
open Idealize.ShloMosaic.Pipeline (Dat BodyObligation)

variable {F : FTy → Type} [FloatOps F]

/-- Region 0's record: its proof data at any entry contents, the body obligation, and the class invariant at both ends. -/
def rd0 : RD0 F where
  dat := dat0
  hA := fun V c w => A_eq0 V c w
  hq := fun _ _ _ => rfl
  ho := fun _ _ _ => rfl
  hrec := fun _ _ _ => rfl
  hbody := fun V c => body_obligation0 V c
  hin := fun _ _ => .rfl
  hout := fun _ _ => .rfl

/-- Region 2's record: its proof data at any entry contents, the body obligation, and the class invariant at both ends. -/
def rd2 : RD2 F where
  dat := dat2
  hA := fun V c w => A_eq2 V c w
  hq := fun _ _ _ => rfl
  ho := fun _ _ _ => rfl
  hrec := fun _ _ _ => rfl
  hbody := fun V c => body_obligation2 V c
  hin := fun _ _ => .rfl
  hout := fun _ _ => .rfl

/-- Region 3's record: its proof data at any entry contents, the body obligation, and the class invariant at both ends. -/
def rd3 : RD3 F where
  dat := dat3
  hA := fun V c w => A_eq3 V c w
  hq := fun _ _ _ => rfl
  ho := fun _ _ _ => rfl
  hrec := fun _ _ _ => rfl
  hbody := fun V c => body_obligation3 V c
  hin := fun _ _ => .rfl
  hout := fun _ _ => .rfl

/-- Region 4's record: its proof data at any entry contents, the body obligation, and the class invariant at both ends. -/
def rd4 : RD4 F where
  dat := dat4
  hA := fun V c w => A_eq4 V c w
  hq := fun _ _ _ => rfl
  ho := fun _ _ _ => rfl
  hrec := fun _ _ _ => rfl
  hbody := fun V c => body_obligation4 V c
  hin := fun _ _ => .rfl
  hout := fun _ _ => .rfl

end Cert.Kernel.Hand

end
-- ==== Proof.WReg1Runs.lean ====
/-
  Region 1, the biased rectifier with column statistics: the kernel body at one grid point.

  The body works on five windows and two carried one-row buffers. At the first of the twenty points it fills both
  carried buffers with zeros. At every point it reads the aggregated block and the bias row, stores
  max (block + bias row, 0) whole into the output block's buffer, and adds to the first carried buffer each column's sum
  of that rectified block and to the second each column's sum of its squares. At the last point it copies the two
  carried buffers whole into the two statistics rows.

  Two conditions on the grid coordinate decide what runs, so over the twenty points there are three cases: the first
  point (zeroing, no copy), the points between (neither), the last point (copy, no zeroing); the conditions are decided
  over the grid as "position 0" and "position 19". For each case one triple says what the body leaves: the inputs as
  they were; the output block's buffer at `y1` of the two input blocks; the carried buffers at `s6`, `s7` of the input
  blocks and of what the buffers held before (zeros, at the first point); and the two statistics rows handed back exactly
  as found off the last point, where they are idle, and holding the carried buffers' new contents at it.

  Also here: each window's block at a point read off the entry contents, the fact that either input's buffer holds its
  block at every point, where the statistics rows are idle and not written back, and the launch's invariant with the
  two carried buffers split off the other scoped buffers.
-/
import proofs.«121379_j57501022159518_1_alg».proof.Proof.Gen.Kernel.Launch
import proofs.«121379_j57501022159518_1_alg».proof.Proof.Gen.Kernel.Skeleton
import proofs.«121379_j57501022159518_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rA : Rect S5000x128 := Rect.unit (s := S5000x128) ![0, 0] S5000x128.size inb_S5000x128_S5000x128_0_0
abbrev rB : Rect S1x128 := Rect.unit (s := S1x128) ![0, 0] S1x128.size inb_S1x128_S1x128_0_0

/-- What the body stores into the output block's buffer, from the aggregated block `x0` and the bias row `x1`: its one
    store, `max (x0 + broadcast x1) 0`, laid over the buffer. -/
def y1 (x0 : Vec F S5000x128 .f32) (x1 : Vec F S1x128 .f32) : Vec F S5000x128 .f32 :=
  View.canon [⟨rA, k1_pay3 (View.ld x1 rB) (View.ld x0 rA)⟩]

/-- The first accumulator zeroed (the first point's fill), -/
def z6 : Vec F S1x128 .f32 := View.canon [⟨rB, k1_pay1 (F := F)⟩]
/-- and the second. -/
def z7 : Vec F S1x128 .f32 := View.canon [⟨rB, k1_pay2 (F := F)⟩]

/-- The first accumulator after a point whose blocks are `x0`, `x1`, if it held `s` before the point's update: `s` plus the
    column sums of `y`. -/
def s6 (x0 : Vec F S5000x128 .f32) (x1 : Vec F S1x128 .f32) (s : Vec F S1x128 .f32) : Vec F S1x128 .f32 :=
  View.canon [⟨rB, k1_pay4 (View.ld x1 rB) (View.ld x0 rA) (View.ld s rB)⟩]

/-- The second accumulator likewise: `s` plus the column sums of `y * y`. -/
def s7 (x0 : Vec F S5000x128 .f32) (x1 : Vec F S1x128 .f32) (s : Vec F S1x128 .f32) : Vec F S1x128 .f32 :=
  View.canon [⟨rB, k1_pay5 (View.ld x1 rB) (View.ld x0 rA) (View.ld s rB)⟩]

/-- A whole-buffer store covers the block buffer, -/
theorem coverA (p : rA.shape.Idx → Elt F .f32) (y : S5000x128.Idx) :
    ∃ pc ∈ ([⟨rA, p⟩] : List (View.Piece (Elt F) S5000x128 .f32)), y ∈ pc.1.set :=
  View.cover_of_tiled [⟨rA, p⟩] S5000x128.size (by rfl) y

/-- and the one-row buffer; -/
theorem coverB (p : rB.shape.Idx → Elt F .f32) (y : S1x128.Idx) :
    ∃ pc ∈ ([⟨rB, p⟩] : List (View.Piece (Elt F) S1x128 .f32)), y ∈ pc.1.set :=
  View.cover_of_tiled [⟨rB, p⟩] S1x128.size (by rfl) y

/-- The condition of the zeroing branch, from the grid coordinate, -/
abbrev cond1_0 (i : grid1.Coords) : Prop := (Scalar.cmpi .ne (Scalar.extui (Scalar.cmpi .eq (BitVec.ofNat 32 (i 0).val) 0#32)) 0#32) = 1#1
/-- and of the write-out branch. -/
abbrev cond1_1 (i : grid1.Coords) : Prop := k1_cond2 i = 1#1

/-- Every index of a one-row buffer lies in its whole-buffer rectangle. -/
theorem memB (y : S1x128.Idx) : y ∈ (rB : Rect S1x128).set := by
  obtain ⟨pc, hm, hy⟩ := View.cover_of_tiled (Val := fun _ => PUnit) (e := .f32) [⟨rB, fun _ => ⟨⟩⟩] S1x128.size (by rfl) y
  rw [List.mem_singleton] at hm; subst hm; exact hy

/-- A last write through a rectangle that holds every index hides the earlier ones. -/
theorem canon_cons_whole {s : Shape} {e : EltTy} {Val : EltTy → Type} [∀ e, Nonempty (Val e)]
    (p : View.Piece Val s e) (L : List (View.Piece Val s e)) (h : ∀ y, y ∈ p.1.set) :
    View.canon (p :: L) = View.canon [p] := by
  funext y
  obtain ⟨r, w⟩ := p
  obtain ⟨x, rfl⟩ : ∃ x, r.emb x = y := r.exists_idx_of_mem (h y)
  rw [View.canon_cons_emb, View.canon_cons_emb]

/-- Contents read through a rectangle that holds every index and written back through it are the contents. -/
theorem canon_ld_whole {s : Shape} {e : EltTy} {Val : EltTy → Type} [∀ e, Nonempty (Val e)]
    (r : Rect s) (h : ∀ y, y ∈ r.set) (X : s.Idx → Val e) : View.canon [⟨r, View.ld X r⟩] = X := by
  funext y
  obtain ⟨x, rfl⟩ : ∃ x, r.emb x = y := r.exists_idx_of_mem (h y)
  rw [View.canon_cons_emb]; rfl

/-- Two whole-buffer stores in a row cover the one-row buffer too. -/
theorem coverB2 (p q : rB.shape.Idx → Elt F .f32) (y : S1x128.Idx) :
    ∃ pc ∈ ([⟨rB, p⟩, ⟨rB, q⟩] : List (View.Piece (Elt F) S1x128 .f32)), y ∈ pc.1.set :=
  ⟨⟨rB, p⟩, List.mem_cons_self, memB y⟩

/-- A one-row buffer zeroed (any contents `z` written whole), read back, and overwritten whole by a function `g` of
    what was read: it holds `g` of the contents written first. -/
theorem read_acc_first (v : View sig .tc .vmem S1x128 .f32) (f : v.ty.Contents (Elt F)) (z : rB.shape.Idx → Elt F .f32)
    (g : (rB.shape.Idx → Elt F .f32) → rB.shape.Idx → Elt F .f32) :
    v.read (Elt F) (v.writes (Elt F) f [⟨rB, g (v.readCov [⟨rB, z⟩] rB)⟩, ⟨rB, z⟩])
      = View.canon [⟨rB, g (View.ld (View.canon [⟨rB, z⟩]) rB)⟩] := by
  rw [View.readCov_eq_canon_ld _ _ _ (coverB _), View.read_writes_eq_canon _ _ _ (coverB2 _ _),
    canon_cons_whole ⟨rB, _⟩ _ memB]

/-- A one-row buffer written whole with what a load reads of another just written whole with `p` holds `p`'s
    canonical contents. -/
theorem read_copy_acc (v v' : View sig .tc .vmem S1x128 .f32) (f : v.ty.Contents (Elt F)) (p : rB.shape.Idx → Elt F .f32) :
    v.read (Elt F) (v.writes (Elt F) f [⟨rB, v'.readCov [⟨rB, p⟩] rB⟩]) = View.canon [⟨rB, p⟩] := by
  rw [View.readCov_eq_canon_ld _ _ _ (coverB _), View.read_writes_eq_canon _ _ _ (coverB _), canon_ld_whole rB memB]

set_option maxHeartbeats 1000000 in
/-- THE BODY AT A POINT BETWEEN the first and the last (neither branch taken). On whole memrefs — the inputs' at `x0`, `x1`,
    the output block's at anything, the two statistics windows' at `xi3`, `xi4`, the accumulators at `a6`, `a7` — the body
    runs to the continuation holding the inputs' and the statistics windows' as they were, the output block's at
    `y1 x0 x1` and the accumulators at `s6 x0 x1 a6`, `s7 x0 x1 a7`. -/
theorem run1_B (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : ¬cond1_0 i) (hc1 : ¬cond1_1 i)
    (x0 : Vec F S5000x128 .f32) (x1 : Vec F S1x128 .f32) (xi3 xi4 a6 a7 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare a6 ∗ owns (c : Thread nD τ) arg7 fullShare a7
        ∗ (iprop(owns (c : Thread nD τ) arg1 fullShare x0 ∗ owns (c : Thread nD τ) arg2 fullShare x1 ∗ owns (c : Thread nD τ) arg3 fullShare (y1 x0 x1)
            ∗ owns (c : Thread nD τ) arg4 fullShare xi3 ∗ owns (c : Thread nD τ) arg5 fullShare xi4
            ∗ owns (c : Thread nD τ) arg6 fullShare (s6 x0 x1 a6) ∗ owns (c : Thread nD τ) arg7 fullShare (s7 x0 x1 a7)) -∗ K ⟨⟩))
      ⊢ wp frame (wpE (defs₀ (F := F)) Variants.none c none) E (cc1_relu_bias_stats_kernel i arg1 harg1 arg2 harg2 arg3 harg3 arg4 harg4 arg5 harg5 arg6 harg6 arg7 harg7) K := by
  simp only [cc1_relu_bias_stats_kernel_eq_skeleton]; unfold cc1_relu_bias_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverA _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverB _)
  iexists _; isplitr
  swap; · iexact H7
  ipureintro; exact View.read_writes_eq_canon _ _ _ (coverB _)

set_option maxHeartbeats 1000000 in
/-- THE BODY AT THE FIRST POINT (the zeroing branch taken, the write-out branch not). The accumulators may hold anything:
    they are filled with zeros first, so they end at `s6 x0 x1 z6`, `s7 x0 x1 z7`; the rest as between. -/
theorem run1_A (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : cond1_0 i) (hc1 : ¬cond1_1 i)
    (x0 : Vec F S5000x128 .f32) (x1 : Vec F S1x128 .f32) (xi3 xi4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (y1 x0 x1)
            ∗ owns (c : Thread nD τ) arg4 fullShare xi3 ∗ owns (c : Thread nD τ) arg5 fullShare xi4
            ∗ owns (c : Thread nD τ) arg6 fullShare (s6 x0 x1 z6) ∗ owns (c : Thread nD τ) arg7 fullShare (s7 x0 x1 z7)) -∗ K ⟨⟩))
      ⊢ wp frame (wpE (defs₀ (F := F)) Variants.none c none) E (cc1_relu_bias_stats_kernel i arg1 harg1 arg2 harg2 arg3 harg3 arg4 harg4 arg5 harg5 arg6 harg6 arg7 harg7) K := by
  simp only [cc1_relu_bias_stats_kernel_eq_skeleton]; unfold cc1_relu_bias_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverA _)
  isplitl [H3]
  · iexists f3; isplitr; · ipureintro; rfl
    iexact H3
  isplitl [H4]
  · iexists f4; isplitr; · ipureintro; rfl
    iexact H4
  isplitl [H6]
  · iexists _; isplitr
    swap; · iexact H6
    ipureintro
    unfold run1_A.sl.v13 run1_A.sl.H6_1
    exact read_acc_first arg6.view f6 k1_pay1
      (k1_pay4 (View.ld (arg2.view.read (Elt F) f1) rB) (View.ld (arg1.view.read (Elt F) f0) rA))
  iexists _; isplitr
  swap; · iexact H7
  ipureintro
  unfold run1_A.sl.v20 run1_A.sl.H7_1
  exact read_acc_first arg7.view f7 k1_pay2
    (k1_pay5 (View.ld (arg2.view.read (Elt F) f1) rB) (View.ld (arg1.view.read (Elt F) f0) rA))

set_option maxHeartbeats 1000000 in
/-- THE BODY AT THE LAST POINT (the write-out branch taken, the zeroing branch not). The statistics windows may hold
    anything: after the accumulators' update each is overwritten whole with its accumulator, so the windows and the
    accumulators all end at `s6 x0 x1 a6`, `s7 x0 x1 a7`; the rest as between. -/
theorem run1_C (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : ¬cond1_0 i) (hc1 : cond1_1 i)
    (x0 : Vec F S5000x128 .f32) (x1 : Vec F S1x128 .f32) (a6 a7 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare a6 ∗ owns (c : Thread nD τ) arg7 fullShare a7
        ∗ (iprop(owns (c : Thread nD τ) arg1 fullShare x0 ∗ owns (c : Thread nD τ) arg2 fullShare x1 ∗ owns (c : Thread nD τ) arg3 fullShare (y1 x0 x1)
            ∗ owns (c : Thread nD τ) arg4 fullShare (s6 x0 x1 a6) ∗ owns (c : Thread nD τ) arg5 fullShare (s7 x0 x1 a7)
            ∗ owns (c : Thread nD τ) arg6 fullShare (s6 x0 x1 a6) ∗ owns (c : Thread nD τ) arg7 fullShare (s7 x0 x1 a7)) -∗ K ⟨⟩))
      ⊢ wp frame (wpE (defs₀ (F := F)) Variants.none c none) E (cc1_relu_bias_stats_kernel i arg1 harg1 arg2 harg2 arg3 harg3 arg4 harg4 arg5 harg5 arg6 harg6 arg7 harg7) K := by
  simp only [cc1_relu_bias_stats_kernel_eq_skeleton]; unfold cc1_relu_bias_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverA _)
  isplitl [H3]
  · iexists _; isplitr
    swap; · iexact H3
    ipureintro
    unfold run1_C.sl.v31 run1_C.sl.H6_1
    exact read_copy_acc arg4.view arg6.view f3 _
  isplitl [H4]
  · iexists _; isplitr
    swap; · iexact H4
    ipureintro
    unfold run1_C.sl.v33 run1_C.sl.H7_1
    exact read_copy_acc arg5.view arg7.view f4 _
  isplitl [H6]
  · iexists _; isplitr
    swap; · iexact H6
    ipureintro
    unfold run1_C.sl.H6_1
    exact View.read_writes_eq_canon _ _ _ (coverB _)
  iexists _; isplitr
  swap; · iexact H7
  ipureintro
  unfold run1_C.sl.H7_1
  exact View.read_writes_eq_canon _ _ _ (coverB _)

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated block's buffer holds its block at every point: it is fetched at each. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's buffer holds its block at every point: fetched at the first, and its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The two conditions over the grid -/

/-- The zeroing branch is taken at the first point only. -/
theorem hcond1_0 : ∀ t : Fin cfg1.N, cond1_0 (grid1.coords t) ↔ t.val = 0 :=
  (by decide +kernel : ∀ t : Fin grid1.N, cond1_0 (grid1.coords t) ↔ t.val = 0)

/-- The write-out branch is taken at the last point only. -/
theorem hcond1_1 : ∀ t : Fin cfg1.N, cond1_1 (grid1.coords t) ↔ t.val = 19 :=
  (by decide +kernel : ∀ t : Fin grid1.N, cond1_1 (grid1.coords t) ↔ t.val = 19)

/-- Windows 0, 1, 2 are stored or read at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last point the two statistics windows are idle and not written back; at it they are live. -/
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

/-! ## The scratch accumulators and the invariant's shape -/

/-- The two scratch operands: whole scoped buffers of the kernel's own. -/
abbrev scM1_0 : Memref sig .tc .vmem S1x128 .f32 := Memref.whole cc1_scratch0
abbrev scM1_1 : Memref sig .tc .vmem S1x128 .f32 := Memref.whole cc1_scratch1

/-- The core's scoped buffers other than this region's staging buffers and its two scratch accumulators, at some
    contents each: carried through the region unopened. -/
def Rest1 (c : Dev nD) : sProp 𝕄 :=
  Pipeline.scopedRestBut (Ix := Unit) (Name := ℕ) (U := UR sig nD τ) (Lvl := ℕ) (Val := Elt F) spec1 c [cc1_scratch0, cc1_scratch1]

/-- What the launch hands the region, with the two accumulators split off the scoped rest. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ Rest1 (F := F) c)
          ∗ (∃ r, prngReg c r)) := by
  unfold Pipeline.ΦA Rest1
  rw [Pipeline.scopedRest_split_of_list spec1 c [cc1_scratch0, cc1_scratch1] (by decide) (by decide)]
  simp only [bigSepL_cons_cons, bigSepL_singleton, scM1_0, scM1_1, owns_whole]
  try rfl

end Cert.Kernel.Hand

end
-- ==== Proof.WReg1.lean ====
/-
  Region 1, the biased rectifier with column statistics: the pipeline's proof data and its body obligation.

  The two carried one-row buffers after position n are defined by recursion on n (`acc1`): after the first point, zeros
  plus that point's column sums (of the rectified block, of its squares); after a later point, what the point before left
  plus this point's column sums. The invariant depends on the position (`PhiS1`): before the first point it is what the
  launch hands over — every scoped buffer that is no staging buffer at some contents and the random-bits register at some
  state —; before any later point it holds the two carried buffers at the recursion's values for the point before, the
  other scoped buffers at some contents and the register at some state.

  The proof data (`dat1`) take the arrays as the region finds them, leave each input's buffer at its block, the output
  block's at `y1` of the two input blocks, and the two statistics rows' at the carried buffers after the last point, which
  is asked at the last point only. The body obligation is proved at a generic point by cases on its position — first,
  last, between — from the three triples of the body; off the last point the statistics rows go back as found. At its
  two ends the invariant is the launch's: equal to it before the first point, and giving it back after the last by
  forgetting what the carried buffers hold.
-/
import proofs.«121379_j57501022159518_1_alg».proof.Proof.WReg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The accumulators point by point -/

/-- THE ACCUMULATION. What the two scratch buffers hold after the body at position `n`: at the first point the
    zeroed buffers with the point's column sums (of `y`, of `y * y`) added; afterwards what the point before left
    with this point's column sums added. -/
def acc1 (c : Dev nD) : (n : ℕ) → n < cfg1.N → Vec F S1x128 .f32 × Vec F S1x128 .f32
  | 0, hn => (s6 (iblk1 V c 0 ⟨0, hn⟩) (iblk1 V c 1 ⟨0, hn⟩) z6, s7 (iblk1 V c 0 ⟨0, hn⟩) (iblk1 V c 1 ⟨0, hn⟩) z7)
  | n + 1, hn =>
    (s6 (iblk1 V c 0 ⟨n + 1, hn⟩) (iblk1 V c 1 ⟨n + 1, hn⟩) (acc1 c n (Nat.lt_of_succ_lt hn)).1,
      s7 (iblk1 V c 0 ⟨n + 1, hn⟩) (iblk1 V c 1 ⟨n + 1, hn⟩) (acc1 c n (Nat.lt_of_succ_lt hn)).2)

/-- `acc1` at the first point. -/
theorem acc1_first (c : Dev nD) (t : Fin cfg1.N) (h : t.val = 0) :
    acc1 V c t.val t.isLt = (s6 (iblk1 V c 0 t) (iblk1 V c 1 t) z6, s7 (iblk1 V c 0 t) (iblk1 V c 1 t) z7) := by
  obtain ⟨n, hn⟩ := t
  cases n with
  | zero => rfl
  | succ n => exact absurd h (Nat.succ_ne_zero n)

/-- `acc1` at a later point, over what the point before left. -/
theorem acc1_later (c : Dev nD) (t : Fin cfg1.N) (h : t.val ≠ 0) :
    acc1 V c t.val t.isLt
      = (s6 (iblk1 V c 0 t) (iblk1 V c 1 t) (acc1 V c (t.val - 1) (Nat.lt_of_le_of_lt (Nat.sub_le _ _) t.isLt)).1,
          s7 (iblk1 V c 0 t) (iblk1 V c 1 t) (acc1 V c (t.val - 1) (Nat.lt_of_le_of_lt (Nat.sub_le _ _) t.isLt)).2) := by
  obtain ⟨n, hn⟩ := t
  cases n with
  | zero => exact absurd rfl h
  | succ n => rfl

/-- `acc1` does not depend on the proof of the bound. -/
theorem acc1_congr (c : Dev nD) {n n' : ℕ} (e : n = n') (h : n < cfg1.N) (h' : n' < cfg1.N) : acc1 V c n h = acc1 V c n' h' := by
  subst e; rfl

/-- The last point's position is inside the grid. -/
theorem last1_lt : 19 < cfg1.N := by decide

/-! ## The invariant, point by point -/

/-- The region invariant before position `n`: before the first point what the launch hands over (every scoped buffer
    that is no staging buffer at anything, the generator register at some state); afterwards the two accumulators at what
    the point before left (`acc1`), the other scoped buffers at anything, the register at some state. -/
def PhiS1 (c : Dev nD) : (n : ℕ) → n ≤ cfg1.N → sProp 𝕄
  | 0, _ => Pipeline.ΦA spec1 c
  | n + 1, hn => iprop(((owns (c : Thread nD τ) scM1_0 fullShare (acc1 V c n hn).1 ∗ owns (c : Thread nD τ) scM1_1 fullShare (acc1 V c n hn).2)
      ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((owns (c : Thread nD τ) scM1_0 fullShare (acc1 V c n hn).1 ∗ owns (c : Thread nD τ) scM1_1 fullShare (acc1 V c n hn).2)
      ∗ Rest1 (F := F) c) ∗ (∃ r, prngReg c r)) := rfl

theorem PhiS1_pos (c : Dev nD) (n : ℕ) (h : n ≤ cfg1.N) (hz : n ≠ 0) :
    PhiS1 V c n h = iprop(((owns (c : Thread nD τ) scM1_0 fullShare (acc1 V c (n - 1) (by omega)).1
        ∗ owns (c : Thread nD τ) scM1_1 fullShare (acc1 V c (n - 1) (by omega)).2)
      ∗ Rest1 (F := F) c) ∗ (∃ r, prngReg c r)) := by
  cases n with
  | zero => exact absurd rfl hz
  | succ n => rfl

/-! ## The pipeline's proof data -/

/-- The proof data of pipeline 1 on core `c`: the arrays as the region finds them; after the body each input's buffer at
    its block, the output block's at `y1` of the two input blocks, the two statistics windows' at the accumulators after
    the last point (what the body stores there, asked at the last point only: elsewhere they are idle); the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => y1 (iblk1 V c 0 t) (iblk1 V c 1 t)
    | ⟨3, _⟩ => (acc1 V c 19 last1_lt).1
    | ⟨4, _⟩ => (acc1 V c 19 last1_lt).2
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = y1 (iblk1 V c 0 t) (iblk1 V c 1 t) := by dsimp only [dat1]
theorem after1_3 (c : Dev nD) (t : Fin cfg1.N) : (dat1 V c).after 3 t = (acc1 V c 19 last1_lt).1 := by dsimp only [dat1]
theorem after1_4 (c : Dev nD) (t : Fin cfg1.N) : (dat1 V c).after 4 t = (acc1 V c 19 last1_lt).2 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the position decides the case — first point, last
    point, or between —; the invariant hands the body the accumulators at what the point before left (at anything at the
    first point) and takes them back at this point's `acc1`; off the last point the two statistics windows are handed
    back as found, at it they hold the accumulators; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h1 : t.val = 19
  · -- the last point
    have hz : t.val ≠ 0 := by omega
    have hc0 : ¬cond1_0 (grid1.coords t) := fun h => hz ((hcond1_0 t).mp h)
    have hc1 : cond1_1 (grid1.coords t) := (hcond1_1 t).mpr h1
    rw [show (dat1 V c).leavesExact 3 t = owns (c : Thread nD τ) (st1_3 t) fullShare ((dat1 V c).after 3 t) from by
      unfold Dat.leavesExact; rw [liveAt1_3 t hc1], after1_3]
    rw [show (dat1 V c).leavesExact 4 t = owns (c : Thread nD τ) (st1_4 t) fullShare ((dat1 V c).after 4 t) from by
      unfold Dat.leavesExact; rw [liveAt1_4 t hc1], after1_4]
    rw [acc1_congr V c h1.symm last1_lt t.isLt, acc1_later V c t hz]
    dsimp only
    rw [PhiS1_castSucc V c t, PhiS1_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run1_C c Set.univ (grid1.coords t) _ _ _ _ _ _ _ _ _ _ _ _ _ _ hc0 hc1 (iblk1 V c 0 t) (iblk1 V c 1 t) _ _ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexact H4
  · have hc1 : ¬cond1_1 (grid1.coords t) := fun h => h1 ((hcond1_1 t).mp h)
    rw [Dat.leavesExact_idle (dat1 V c) 3 t (idleAt1_3 t hc1) (noFlush1_3 t hc1)]
    rw [Dat.leavesExact_idle (dat1 V c) 4 t (idleAt1_4 t hc1) (noFlush1_4 t hc1)]
    by_cases hz : t.val = 0
    · -- the first point
      have hc0 : cond1_0 (grid1.coords t) := (hcond1_0 t).mpr hz
      rw [acc1_first V c t hz]
      dsimp only
      rw [PhiS1_castSucc V c t, PhiS1_zero V c _ _ hz, PhiA1_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run1_A c Set.univ (grid1.coords t) _ _ _ _ _ _ _ _ _ _ _ _ _ _ hc0 hc1 (iblk1 V c 0 t) (iblk1 V c 1 t) _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4
    · -- a point between
      have hc0 : ¬cond1_0 (grid1.coords t) := fun h => hz ((hcond1_0 t).mp h)
      rw [acc1_later V c t hz]
      dsimp only
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run1_B c Set.univ (grid1.coords t) _ _ _ _ _ _ _ _ _ _ _ _ _ _ hc0 hc1 (iblk1 V c 0 t) (iblk1 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives the launch's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Region

end Cert.Kernel.Hand

end
-- ==== Proof.WData1.lean ====
/-
  Region 1 — the biased rectifier that also accumulates each column's sum and sum of squares over the twenty row
  blocks in two carried buffers — as the record the run takes: its proof data at any entry contents, its body
  obligation, and its invariant, which before the first point is the scoped rest with the generator register and
  afterwards names the two carried buffers' contents point by point.
-/
import proofs.«121379_j57501022159518_1_alg».proof.Proof.WRun
import proofs.«121379_j57501022159518_1_alg».proof.Proof.WReg1

noncomputable section

namespace Cert.Kernel.Hand

open Cert.Kernel Cert.Kernel.Gen
open Idealize.ShloMosaic Idealize.ShloMosaic.TcCoe
open Idealize.SL Idealize.SL.BI Idealize.SL.Sem
open Idealize.SL.BI.BIBase
open Idealize.ShloMosaic.Pipeline (Dat BodyObligation)

variable {F : FTy → Type} [FloatOps F]

/-- Region 1's record. -/
def rd1 : RD1 F where
  dat := dat1
  hA := fun V c w => A_eq1 V c w
  hq := fun _ _ _ => rfl
  ho := fun _ _ _ => rfl
  hrec := fun _ _ _ => rfl
  hbody := fun V c => body_obligation1 V c
  hin := fun V c => hin1 V c
  hout := fun V c => hout1 V c

end Cert.Kernel.Hand

end
-- ==== Proof.KRun.lean ====
/-
  The kernel program's run, from the launch to the return, for any float instance.

  @main is eleven items in a row: host stretches (index arithmetic, the degree normalisation, the two
  gather / scale / scatter-add aggregations, the batch statistics) and five kernel regions, each a grid of
  twenty points over row blocks of the node-feature matrices. Between two items every unscoped buffer of the
  TensorCore holds a definite value: at launch the memory's; after a host stretch the stretch's operations applied;
  after a region the region's arrays at what its write-backs leave and every other buffer as entered. This file
  states those values (a fold through @main), the proof data of every region at its entry values, each region as a
  segment between two such states, and the run itself: every weakly fair execution terminates, nothing faults, and
  the final memory holds the last value of the fold at every unscoped buffer. The frame (the argument arrays end as
  launched) and the result's contents are both read off that.

  What a region contributes is taken as a record (its proof data at any entry contents, the body obligation, the
  invariant's two ends), so that this file does not depend on how each kernel body is run.
-/
import proofs.«121379_j57501022159518_1_alg».proof.Proof.Gen.KernelIdeal.Launch
import proofs.«121379_j57501022159518_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The TensorCore's buffer contents on every core, read at its references: what a region's proof data are stated at. -/
abbrev VT (F : FTy → Type) : Type := (c : Dev nD) → (b : Ref sig .tc) → Buf (Elt F) ((c : Thread nD τ).loc b)

/-! ## What the run takes from each region -/

/-- Region 0: its proof data at any entry contents — the arrays are the entry contents, full shares, nothing owed —,
    the body obligation at every point, and the invariant's ends: made from the scoped rest and the generator register
    before the first point, giving them back after the last. -/
structure RD0 (F : FTy → Type) [FloatOps F] where
  dat : VT F → (c : Dev nD) → Dat τ (Elt F) Unit ℕ (UR sig nD τ) ℕ cfg0 c
  hA : ∀ V c w, (dat V c).A w = V c (Pipeline.arrRef spec0 w)
  hq : ∀ V c w, (dat V c).q w = fullShare
  ho : ∀ V c t, (dat V c).owed t = 0
  hrec : ∀ V c t, (dat V c).recorded t = Set.univ
  hbody : ∀ V c, BodyObligation (dat V c) (defs₀ (F := F)) Variants.none () Set.univ
  hin : ∀ V c, (Pipeline.ΦA spec0 c : sProp (MT nD τ sig Unit (Elt F) ℕ (UR sig nD τ) ℕ)) ⊢ (dat V c).Φ 0
  hout : ∀ V c, (dat V c).Φ (Fin.last cfg0.N) ⊢ (Pipeline.ΦA spec0 c : sProp (MT nD τ sig Unit (Elt F) ℕ (UR sig nD τ) ℕ))

/-- Region 1: its proof data at any entry contents — the arrays are the entry contents, full shares, nothing owed —,
    the body obligation at every point, and the invariant's ends: made from the scoped rest and the generator register
    before the first point, giving them back after the last. -/
structure RD1 (F : FTy → Type) [FloatOps F] where
  dat : VT F → (c : Dev nD) → Dat τ (Elt F) Unit ℕ (UR sig nD τ) ℕ cfg1 c
  hA : ∀ V c w, (dat V c).A w = V c (Pipeline.arrRef spec1 w)
  hq : ∀ V c w, (dat V c).q w = fullShare
  ho : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (MT nD τ sig Unit (Elt F) ℕ (UR sig nD τ) ℕ)) ⊢ (dat V c).Φ 0
  hout : ∀ V c, (dat V c).Φ (Fin.last cfg1.N) ⊢ (Pipeline.ΦA spec1 c : sProp (MT nD τ sig Unit (Elt F) ℕ (UR sig nD τ) ℕ))

/-- Region 2: its proof data at any entry contents — the arrays are the entry contents, full shares, nothing owed —,
    the body obligation at every point, and the invariant's ends: made from the scoped rest and the generator register
    before the first point, giving them back after the last. -/
structure RD2 (F : FTy → Type) [FloatOps F] where
  dat : VT F → (c : Dev nD) → Dat τ (Elt F) Unit ℕ (UR sig nD τ) ℕ cfg2 c
  hA : ∀ V c w, (dat V c).A w = V c (Pipeline.arrRef spec2 w)
  hq : ∀ V c w, (dat V c).q w = fullShare
  ho : ∀ V c t, (dat V c).owed t = 0
  hrec : ∀ V c t, (dat V c).recorded t = Set.univ
  hbody : ∀ V c, BodyObligation (dat V c) (defs₀ (F := F)) Variants.none () Set.univ
  hin : ∀ V c, (Pipeline.ΦA spec2 c : sProp (MT nD τ sig Unit (Elt F) ℕ (UR sig nD τ) ℕ)) ⊢ (dat V c).Φ 0
  hout : ∀ V c, (dat V c).Φ (Fin.last cfg2.N) ⊢ (Pipeline.ΦA spec2 c : sProp (MT nD τ sig Unit (Elt F) ℕ (UR sig nD τ) ℕ))

/-- Region 3: its proof data at any entry contents — the arrays are the entry contents, full shares, nothing owed —,
    the body obligation at every point, and the invariant's ends: made from the scoped rest and the generator register
    before the first point, giving them back after the last. -/
structure RD3 (F : FTy → Type) [FloatOps F] where
  dat : VT F → (c : Dev nD) → Dat τ (Elt F) Unit ℕ (UR sig nD τ) ℕ cfg3 c
  hA : ∀ V c w, (dat V c).A w = V c (Pipeline.arrRef spec3 w)
  hq : ∀ V c w, (dat V c).q w = fullShare
  ho : ∀ V c t, (dat V c).owed t = 0
  hrec : ∀ V c t, (dat V c).recorded t = Set.univ
  hbody : ∀ V c, BodyObligation (dat V c) (defs₀ (F := F)) Variants.none () Set.univ
  hin : ∀ V c, (Pipeline.ΦA spec3 c : sProp (MT nD τ sig Unit (Elt F) ℕ (UR sig nD τ) ℕ)) ⊢ (dat V c).Φ 0
  hout : ∀ V c, (dat V c).Φ (Fin.last cfg3.N) ⊢ (Pipeline.ΦA spec3 c : sProp (MT nD τ sig Unit (Elt F) ℕ (UR sig nD τ) ℕ))

/-- Region 4: its proof data at any entry contents — the arrays are the entry contents, full shares, nothing owed —,
    the body obligation at every point, and the invariant's ends: made from the scoped rest and the generator register
    before the first point, giving them back after the last. -/
structure RD4 (F : FTy → Type) [FloatOps F] where
  dat : VT F → (c : Dev nD) → Dat τ (Elt F) Unit ℕ (UR sig nD τ) ℕ cfg4 c
  hA : ∀ V c w, (dat V c).A w = V c (Pipeline.arrRef spec4 w)
  hq : ∀ V c w, (dat V c).q w = fullShare
  ho : ∀ V c t, (dat V c).owed t = 0
  hrec : ∀ V c t, (dat V c).recorded t = Set.univ
  hbody : ∀ V c, BodyObligation (dat V c) (defs₀ (F := F)) Variants.none () Set.univ
  hin : ∀ V c, (Pipeline.ΦA spec4 c : sProp (MT nD τ sig Unit (Elt F) ℕ (UR sig nD τ) ℕ)) ⊢ (dat V c).Φ 0
  hout : ∀ V c, (dat V c).Φ (Fin.last cfg4.N) ⊢ (Pipeline.ΦA spec4 c : sProp (MT nD τ sig Unit (Elt F) ℕ (UR sig nD τ) ℕ))

variable (m : (ℓ : Loc nD τ sig) → Buf (Elt F) ℓ)
variable (D0 : RD0 F) (D1 : RD1 F) (D2 : RD2 F) (D3 : RD3 F) (D4 : RD4 F)

/-! ## The buffer contents at each boundary: a fold through @main -/

/-- Core `c`'s buffers at launch. -/
abbrev B0 : Dev nD → Valuation τ sig (Elt F) := fun c b => m (c, b)
abbrev E0 : VT F := fun c b => B0 m c b

/-- After the host stretch `hostOps0`. -/
abbrev B1 : Dev nD → Valuation τ sig (Elt F) := fun c => StableHlo.after hostOps0 (B0 m c)
abbrev E1 : VT F := fun c b => B1 m c b

/-- After the host stretch `hostOps0_1`. -/
abbrev B2 : Dev nD → Valuation τ sig (Elt F) := fun c => StableHlo.after hostOps0_1 (B1 m c)
abbrev E2 : VT F := fun c b => B2 m c b

/-- After the host stretch `hostOps0_2`. -/
abbrev B3 : Dev nD → Valuation τ sig (Elt F) := fun c => StableHlo.after hostOps0_2 (B2 m c)
abbrev E3 : VT F := fun c b => B3 m c b

/-- After region 0: its arrays at what the pipeline leaves (an input's as entered, an output's with every block written
    back), every other buffer as entered. -/
def B4 (c : Dev nD) : Valuation τ sig (Elt F) :=
  Pipeline.withArrays spec0 c (B3 m c) fun w => (D0.dat (E3 m) c).arrAt w cfg0.N
theorem B4_arr (c : Dev nD) (w : Fin cfg0.W) :
    B4 m D0 c (Proc.devRef .tc (Pipeline.arrRef spec0 w)) = (D0.dat (E3 m) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m D0 c (Proc.devRef .tc b) = B3 m c (Proc.devRef .tc b) := by
  unfold B4; exact Pipeline.withArrays_of_ne spec0 c _ _ b hb
abbrev E4 : VT F := fun c b => B4 m D0 c b
theorem hF0 (c : Dev nD) (w : Fin cfg0.W) : (D0.dat (E3 m) c).arrAt w cfg0.N = E4 m D0 c (Pipeline.arrRef spec0 w) :=
  (B4_arr m D0 c w).symm
theorem hrest0 (c : Dev nD) : ∀ b, b ∉ Finset.univ.image (Pipeline.arrRef spec0) → E4 m D0 c b = E3 m c b :=
  fun b hb => B4_of_ne m D0 c b fun w e => hb (Finset.mem_image.mpr ⟨w, Finset.mem_univ _, e⟩)

/-- After the host stretch `hostOps1`. -/
abbrev B5 : Dev nD → Valuation τ sig (Elt F) := fun c => StableHlo.after hostOps1 (B4 m D0 c)
abbrev E5 : VT F := fun c b => B5 m D0 c b

/-- After region 1: its arrays at what the pipeline leaves (an input's as entered, an output's with every block written
    back), every other buffer as entered. -/
def B6 (c : Dev nD) : Valuation τ sig (Elt F) :=
  Pipeline.withArrays spec1 c (B5 m D0 c) fun w => (D1.dat (E5 m D0) c).arrAt w cfg1.N
theorem B6_arr (c : Dev nD) (w : Fin cfg1.W) :
    B6 m D0 D1 c (Proc.devRef .tc (Pipeline.arrRef spec1 w)) = (D1.dat (E5 m D0) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m D0 D1 c (Proc.devRef .tc b) = B5 m D0 c (Proc.devRef .tc b) := by
  unfold B6; exact Pipeline.withArrays_of_ne spec1 c _ _ b hb
abbrev E6 : VT F := fun c b => B6 m D0 D1 c b
theorem hF1 (c : Dev nD) (w : Fin cfg1.W) : (D1.dat (E5 m D0) c).arrAt w cfg1.N = E6 m D0 D1 c (Pipeline.arrRef spec1 w) :=
  (B6_arr m D0 D1 c w).symm
theorem hrest1 (c : Dev nD) : ∀ b, b ∉ Finset.univ.image (Pipeline.arrRef spec1) → E6 m D0 D1 c b = E5 m D0 c b :=
  fun b hb => B6_of_ne m D0 D1 c b fun w e => hb (Finset.mem_image.mpr ⟨w, Finset.mem_univ _, e⟩)

/-- After the host stretch `hostOps2`. -/
abbrev B7 : Dev nD → Valuation τ sig (Elt F) := fun c => StableHlo.after hostOps2 (B6 m D0 D1 c)
abbrev E7 : VT F := fun c b => B7 m D0 D1 c b

/-- After region 2: its arrays at what the pipeline leaves (an input's as entered, an output's with every block written
    back), every other buffer as entered. -/
def B8 (c : Dev nD) : Valuation τ sig (Elt F) :=
  Pipeline.withArrays spec2 c (B7 m D0 D1 c) fun w => (D2.dat (E7 m D0 D1) c).arrAt w cfg2.N
theorem B8_arr (c : Dev nD) (w : Fin cfg2.W) :
    B8 m D0 D1 D2 c (Proc.devRef .tc (Pipeline.arrRef spec2 w)) = (D2.dat (E7 m D0 D1) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m D0 D1 D2 c (Proc.devRef .tc b) = B7 m D0 D1 c (Proc.devRef .tc b) := by
  unfold B8; exact Pipeline.withArrays_of_ne spec2 c _ _ b hb
abbrev E8 : VT F := fun c b => B8 m D0 D1 D2 c b
theorem hF2 (c : Dev nD) (w : Fin cfg2.W) : (D2.dat (E7 m D0 D1) c).arrAt w cfg2.N = E8 m D0 D1 D2 c (Pipeline.arrRef spec2 w) :=
  (B8_arr m D0 D1 D2 c w).symm
theorem hrest2 (c : Dev nD) : ∀ b, b ∉ Finset.univ.image (Pipeline.arrRef spec2) → E8 m D0 D1 D2 c b = E7 m D0 D1 c b :=
  fun b hb => B8_of_ne m D0 D1 D2 c b fun w e => hb (Finset.mem_image.mpr ⟨w, Finset.mem_univ _, e⟩)

/-- After region 3: its arrays at what the pipeline leaves (an input's as entered, an output's with every block written
    back), every other buffer as entered. -/
def B9 (c : Dev nD) : Valuation τ sig (Elt F) :=
  Pipeline.withArrays spec3 c (B8 m D0 D1 D2 c) fun w => (D3.dat (E8 m D0 D1 D2) c).arrAt w cfg3.N
theorem B9_arr (c : Dev nD) (w : Fin cfg3.W) :
    B9 m D0 D1 D2 D3 c (Proc.devRef .tc (Pipeline.arrRef spec3 w)) = (D3.dat (E8 m D0 D1 D2) c).arrAt w cfg3.N := by
  unfold B9; exact Pipeline.withArrays_arr spec3 launch3.win.arr_inj c _ _ w
theorem B9_of_ne (c : Dev nD) (b : Ref sig .tc) (hb : ∀ w, Pipeline.arrRef spec3 w ≠ b) :
    B9 m D0 D1 D2 D3 c (Proc.devRef .tc b) = B8 m D0 D1 D2 c (Proc.devRef .tc b) := by
  unfold B9; exact Pipeline.withArrays_of_ne spec3 c _ _ b hb
abbrev E9 : VT F := fun c b => B9 m D0 D1 D2 D3 c b
theorem hF3 (c : Dev nD) (w : Fin cfg3.W) : (D3.dat (E8 m D0 D1 D2) c).arrAt w cfg3.N = E9 m D0 D1 D2 D3 c (Pipeline.arrRef spec3 w) :=
  (B9_arr m D0 D1 D2 D3 c w).symm
theorem hrest3 (c : Dev nD) : ∀ b, b ∉ Finset.univ.image (Pipeline.arrRef spec3) → E9 m D0 D1 D2 D3 c b = E8 m D0 D1 D2 c b :=
  fun b hb => B9_of_ne m D0 D1 D2 D3 c b fun w e => hb (Finset.mem_image.mpr ⟨w, Finset.mem_univ _, e⟩)

/-- After the host stretch `hostOps4`. -/
abbrev B10 : Dev nD → Valuation τ sig (Elt F) := fun c => StableHlo.after hostOps4 (B9 m D0 D1 D2 D3 c)
abbrev E10 : VT F := fun c b => B10 m D0 D1 D2 D3 c b

/-- After region 4: its arrays at what the pipeline leaves (an input's as entered, an output's with every block written
    back), every other buffer as entered. -/
def B11 (c : Dev nD) : Valuation τ sig (Elt F) :=
  Pipeline.withArrays spec4 c (B10 m D0 D1 D2 D3 c) fun w => (D4.dat (E10 m D0 D1 D2 D3) c).arrAt w cfg4.N
theorem B11_arr (c : Dev nD) (w : Fin cfg4.W) :
    B11 m D0 D1 D2 D3 D4 c (Proc.devRef .tc (Pipeline.arrRef spec4 w)) = (D4.dat (E10 m D0 D1 D2 D3) c).arrAt w cfg4.N := by
  unfold B11; exact Pipeline.withArrays_arr spec4 launch4.win.arr_inj c _ _ w
theorem B11_of_ne (c : Dev nD) (b : Ref sig .tc) (hb : ∀ w, Pipeline.arrRef spec4 w ≠ b) :
    B11 m D0 D1 D2 D3 D4 c (Proc.devRef .tc b) = B10 m D0 D1 D2 D3 c (Proc.devRef .tc b) := by
  unfold B11; exact Pipeline.withArrays_of_ne spec4 c _ _ b hb
abbrev E11 : VT F := fun c b => B11 m D0 D1 D2 D3 D4 c b
theorem hF4 (c : Dev nD) (w : Fin cfg4.W) : (D4.dat (E10 m D0 D1 D2 D3) c).arrAt w cfg4.N = E11 m D0 D1 D2 D3 D4 c (Pipeline.arrRef spec4 w) :=
  (B11_arr m D0 D1 D2 D3 D4 c w).symm
theorem hrest4 (c : Dev nD) : ∀ b, b ∉ Finset.univ.image (Pipeline.arrRef spec4) → E11 m D0 D1 D2 D3 D4 c b = E10 m D0 D1 D2 D3 c b :=
  fun b hb => B11_of_ne m D0 D1 D2 D3 D4 c b fun w e => hb (Finset.mem_image.mpr ⟨w, Finset.mem_univ _, e⟩)

/-! ## The proof data family and the thread state -/

/-- The prefetched tables' admissible contents: no pipeline has a table. -/
abbrev padm : (p : Fin 5) → (pcfgs (F := F) p).Adm := fun p => (cfgs p).toPCfg_adm

/-- Every pipeline's proof data, each at its region's entry contents. -/
def pdats : (p : Fin 5) → (c : Dev nD) → Dat τ (Elt F) Unit ℕ (UR sig nD τ) ℕ (Pipeline.pin (pcfgs (F := F)) padm p) c
  | ⟨0, _⟩ => fun c => D0.dat (E3 m) c
  | ⟨1, _⟩ => fun c => D1.dat (E5 m D0) c
  | ⟨2, _⟩ => fun c => D2.dat (E7 m D0 D1) c
  | ⟨3, _⟩ => fun c => D3.dat (E8 m D0 D1 D2) c
  | ⟨4, _⟩ => fun c => D4.dat (E10 m D0 D1 D2 D3) c

abbrev 𝒱₀ : Variants := Variants.none
/-- No core owes another anything: no level is assigned. -/
abbrev Lv : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)

/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lv lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`: every unscoped buffer at the last boundary's contents, the generator
    register at some state. -/
abbrev Tₙ (c : Dev nD) : sProp 𝕄 := iprop(StableHlo.held (c : Thread nD τ) (Pipeline.ucRefs τ sig) (B11 m D0 D1 D2 D3 D4 c) ∗ ∃ r, prngReg c r)

/-! ## The regions as segments -/

set_option backward.isDefEq.respectTransparency.types false in
/-- Region 0 between its two boundaries: its arrays split out of the unscoped buffers at the entry contents and put back
    at the exit contents; the generator register into the invariant and out; nothing owed; no semaphore of its own. -/
def reg0 : Pipeline.RegionSeg (pcfgs (F := F)) padm (pdats m D0 D1 D2 D3 D4) () defs₀ 𝒱₀ Lv lv 0 where
  win := launch0.win.to₀
  block_pos := launch0.block_pos
  stage_whole := launch0.stage_whole
  K := PEmpty
  osem k := k.elim
  ho := Pipeline.OwnSemFacts.none _
  hbody c := (D0.hbody (E3 m) c).loose
  hwaits := Pipeline.hwaits_of_owed_zero _ _ _ _ Lv lv 0 fun c t => D0.ho (E3 m) c t
  pre c := iprop(StableHlo.held (c : Thread nD τ) (Pipeline.ucRefs τ sig) (B3 m c) ∗ R c)
  post c := iprop(StableHlo.held (c : Thread nD τ) (Pipeline.ucRefs τ sig) (B4 m D0 c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) padm (pdats m D0 D1 D2 D3 D4) launch0.win launch0.arr_whole c
      ((pdats m D0 D1 D2 D3 D4 0 c).share_full fun w => D0.hq (E3 m) c w) (E3 m c) fun w => D0.hA (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((D0.hrec (E3 m) c 0).symm ▸ Set.mem_univ x)
      rw [show (pdats m D0 D1 D2 D3 D4 0 c).owed 0 = 0 from D0.ho (E3 m) c 0]
      iexact HO
    isplitl [Hp]; · iexact Hp
    iexact Hrest
  hin c := by
    refine BIBase.Entails.trans ?_ (D0.hin (E3 m) c)
    unfold Pipeline.ΦA
    iintro ⟨Hp, -, Hr⟩
    isplitl [Hr]; · iexact Hr
    iexact Hp
  hout c := by
    rw [Pipeline.ownSems0_none]
    refine BIBase.Entails.trans (D0.hout (E3 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (pdats m D0 D1 D2 D3 D4) ((pdats m D0 D1 D2 D3 D4 0 c).share_full fun w => D0.hq (E3 m) c w)
      (E3 m c) (E4 m D0 c) ((pdats m D0 D1 D2 D3 D4 0 c).arrAt · cfg0.N) (hF0 m D0 c) (hrest0 m D0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 0 c).owed (Fin.last _) = 0 from D0.ho (E3 m) c _]
    iexact HO

set_option backward.isDefEq.respectTransparency.types false in
/-- Region 1 between its two boundaries: its arrays split out of the unscoped buffers at the entry contents and put back
    at the exit contents; the generator register into the invariant and out; nothing owed; no semaphore of its own. -/
def reg1 : Pipeline.RegionSeg (pcfgs (F := F)) padm (pdats m D0 D1 D2 D3 D4) () defs₀ 𝒱₀ Lv lv 1 where
  win := launch1.win.to₀
  block_pos := launch1.block_pos
  stage_whole := launch1.stage_whole
  K := PEmpty
  osem k := k.elim
  ho := Pipeline.OwnSemFacts.none _
  hbody c := (D1.hbody (E5 m D0) c).loose
  hwaits := Pipeline.hwaits_of_owed_zero _ _ _ _ Lv lv 1 fun c t => D1.ho (E5 m D0) c t
  pre c := iprop(StableHlo.held (c : Thread nD τ) (Pipeline.ucRefs τ sig) (B5 m D0 c) ∗ R c)
  post c := iprop(StableHlo.held (c : Thread nD τ) (Pipeline.ucRefs τ sig) (B6 m D0 D1 c) ∗ R c)
  X c := iprop(∃ r, prngReg c r)
  Y c := iprop(∃ r, prngReg c r)
  Z c := Pipeline.unscopedRest (Ix := Unit) (Name := ℕ) (U := UR sig nD τ) (Lvl := ℕ) spec1 c (E5 m D0 c)
  hentry c := by
    rw [Pipeline.ownSems0_none]
    have hsplit := Pipeline.arrays_of_unscopedBufs (p := 1) (pcfgs (F := F)) padm (pdats m D0 D1 D2 D3 D4) launch1.win launch1.arr_whole c
      ((pdats m D0 D1 D2 D3 D4 1 c).share_full fun w => D1.hq (E5 m D0) c w) (E5 m D0 c) fun w => D1.hA (E5 m D0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((D1.hrec (E5 m D0) c 0).symm ▸ Set.mem_univ x)
      rw [show (pdats m D0 D1 D2 D3 D4 1 c).owed 0 = 0 from D1.ho (E5 m D0) c 0]
      iexact HO
    isplitl [Hp]; · iexact Hp
    iexact Hrest
  hin c := by
    refine BIBase.Entails.trans ?_ (D1.hin (E5 m D0) c)
    unfold Pipeline.ΦA
    iintro ⟨Hp, -, Hr⟩
    isplitl [Hr]; · iexact Hr
    iexact Hp
  hout c := by
    rw [Pipeline.ownSems0_none]
    refine BIBase.Entails.trans (D1.hout (E5 m D0) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (pdats m D0 D1 D2 D3 D4) ((pdats m D0 D1 D2 D3 D4 1 c).share_full fun w => D1.hq (E5 m D0) c w)
      (E5 m D0 c) (E6 m D0 D1 c) ((pdats m D0 D1 D2 D3 D4 1 c).arrAt · cfg1.N) (hF1 m D0 D1 c) (hrest1 m D0 D1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 1 c).owed (Fin.last _) = 0 from D1.ho (E5 m D0) c _]
    iexact HO

set_option backward.isDefEq.respectTransparency.types false in
/-- Region 2 between its two boundaries: its arrays split out of the unscoped buffers at the entry contents and put back
    at the exit contents; the generator register into the invariant and out; nothing owed; no semaphore of its own. -/
def reg2 : Pipeline.RegionSeg (pcfgs (F := F)) padm (pdats m D0 D1 D2 D3 D4) () defs₀ 𝒱₀ Lv lv 2 where
  win := launch2.win.to₀
  block_pos := launch2.block_pos
  stage_whole := launch2.stage_whole
  K := PEmpty
  osem k := k.elim
  ho := Pipeline.OwnSemFacts.none _
  hbody c := (D2.hbody (E7 m D0 D1) c).loose
  hwaits := Pipeline.hwaits_of_owed_zero _ _ _ _ Lv lv 2 fun c t => D2.ho (E7 m D0 D1) c t
  pre c := iprop(StableHlo.held (c : Thread nD τ) (Pipeline.ucRefs τ sig) (B7 m D0 D1 c) ∗ R c)
  post c := iprop(StableHlo.held (c : Thread nD τ) (Pipeline.ucRefs τ sig) (B8 m D0 D1 D2 c) ∗ R c)
  X c := iprop(∃ r, prngReg c r)
  Y c := iprop(∃ r, prngReg c r)
  Z c := Pipeline.unscopedRest (Ix := Unit) (Name := ℕ) (U := UR sig nD τ) (Lvl := ℕ) spec2 c (E7 m D0 D1 c)
  hentry c := by
    rw [Pipeline.ownSems0_none]
    have hsplit := Pipeline.arrays_of_unscopedBufs (p := 2) (pcfgs (F := F)) padm (pdats m D0 D1 D2 D3 D4) launch2.win launch2.arr_whole c
      ((pdats m D0 D1 D2 D3 D4 2 c).share_full fun w => D2.hq (E7 m D0 D1) c w) (E7 m D0 D1 c) fun w => D2.hA (E7 m D0 D1) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((D2.hrec (E7 m D0 D1) c 0).symm ▸ Set.mem_univ x)
      rw [show (pdats m D0 D1 D2 D3 D4 2 c).owed 0 = 0 from D2.ho (E7 m D0 D1) c 0]
      iexact HO
    isplitl [Hp]; · iexact Hp
    iexact Hrest
  hin c := by
    refine BIBase.Entails.trans ?_ (D2.hin (E7 m D0 D1) c)
    unfold Pipeline.ΦA
    iintro ⟨Hp, -, Hr⟩
    isplitl [Hr]; · iexact Hr
    iexact Hp
  hout c := by
    rw [Pipeline.ownSems0_none]
    refine BIBase.Entails.trans (D2.hout (E7 m D0 D1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) padm (Ix := Unit) (Name := ℕ) (U := UR sig nD τ) (Lvl := ℕ)
      launch2.win launch2.arr_whole c (pdats m D0 D1 D2 D3 D4) ((pdats m D0 D1 D2 D3 D4 2 c).share_full fun w => D2.hq (E7 m D0 D1) c w)
      (E7 m D0 D1 c) (E8 m D0 D1 D2 c) ((pdats m D0 D1 D2 D3 D4 2 c).arrAt · cfg2.N) (hF2 m D0 D1 D2 c) (hrest2 m D0 D1 D2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 2 c).owed (Fin.last _) = 0 from D2.ho (E7 m D0 D1) c _]
    iexact HO

set_option backward.isDefEq.respectTransparency.types false in
/-- Region 3 between its two boundaries: its arrays split out of the unscoped buffers at the entry contents and put back
    at the exit contents; the generator register into the invariant and out; nothing owed; no semaphore of its own. -/
def reg3 : Pipeline.RegionSeg (pcfgs (F := F)) padm (pdats m D0 D1 D2 D3 D4) () defs₀ 𝒱₀ Lv lv 3 where
  win := launch3.win.to₀
  block_pos := launch3.block_pos
  stage_whole := launch3.stage_whole
  K := PEmpty
  osem k := k.elim
  ho := Pipeline.OwnSemFacts.none _
  hbody c := (D3.hbody (E8 m D0 D1 D2) c).loose
  hwaits := Pipeline.hwaits_of_owed_zero _ _ _ _ Lv lv 3 fun c t => D3.ho (E8 m D0 D1 D2) c t
  pre c := iprop(StableHlo.held (c : Thread nD τ) (Pipeline.ucRefs τ sig) (B8 m D0 D1 D2 c) ∗ R c)
  post c := iprop(StableHlo.held (c : Thread nD τ) (Pipeline.ucRefs τ sig) (B9 m D0 D1 D2 D3 c) ∗ R c)
  X c := iprop(∃ r, prngReg c r)
  Y c := iprop(∃ r, prngReg c r)
  Z c := Pipeline.unscopedRest (Ix := Unit) (Name := ℕ) (U := UR sig nD τ) (Lvl := ℕ) spec3 c (E8 m D0 D1 D2 c)
  hentry c := by
    rw [Pipeline.ownSems0_none]
    have hsplit := Pipeline.arrays_of_unscopedBufs (p := 3) (pcfgs (F := F)) padm (pdats m D0 D1 D2 D3 D4) launch3.win launch3.arr_whole c
      ((pdats m D0 D1 D2 D3 D4 3 c).share_full fun w => D3.hq (E8 m D0 D1 D2) c w) (E8 m D0 D1 D2 c) fun w => D3.hA (E8 m D0 D1 D2) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((D3.hrec (E8 m D0 D1 D2) c 0).symm ▸ Set.mem_univ x)
      rw [show (pdats m D0 D1 D2 D3 D4 3 c).owed 0 = 0 from D3.ho (E8 m D0 D1 D2) c 0]
      iexact HO
    isplitl [Hp]; · iexact Hp
    iexact Hrest
  hin c := by
    refine BIBase.Entails.trans ?_ (D3.hin (E8 m D0 D1 D2) c)
    unfold Pipeline.ΦA
    iintro ⟨Hp, -, Hr⟩
    isplitl [Hr]; · iexact Hr
    iexact Hp
  hout c := by
    rw [Pipeline.ownSems0_none]
    refine BIBase.Entails.trans (D3.hout (E8 m D0 D1 D2) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) padm (Ix := Unit) (Name := ℕ) (U := UR sig nD τ) (Lvl := ℕ)
      launch3.win launch3.arr_whole c (pdats m D0 D1 D2 D3 D4) ((pdats m D0 D1 D2 D3 D4 3 c).share_full fun w => D3.hq (E8 m D0 D1 D2) c w)
      (E8 m D0 D1 D2 c) (E9 m D0 D1 D2 D3 c) ((pdats m D0 D1 D2 D3 D4 3 c).arrAt · cfg3.N) (hF3 m D0 D1 D2 D3 c) (hrest3 m D0 D1 D2 D3 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m D0 D1 D2 D3 D4 3 c).owed (Fin.last _) = 0 from D3.ho (E8 m D0 D1 D2) c _]
    iexact HO

set_option backward.isDefEq.respectTransparency.types false in
/-- Region 4 between its two boundaries: its arrays split out of the unscoped buffers at the entry contents and put back
    at the exit contents; the generator register into the invariant and out; nothing owed; no semaphore of its own. -/
def reg4 : Pipeline.RegionSeg (pcfgs (F := F)) padm (pdats m D0 D1 D2 D3 D4) () defs₀ 𝒱₀ Lv lv 4 where
  win := launch4.win.to₀
  block_pos := launch4.block_pos
  stage_whole := launch4.stage_whole
  K := PEmpty
  osem k := k.elim
  ho := Pipeline.OwnSemFacts.none _
  hbody c := (D4.hbody (E10 m D0 D1 D2 D3) c).loose
  hwaits := Pipeline.hwaits_of_owed_zero _ _ _ _ Lv lv 4 fun c t => D4.ho (E10 m D0 D1 D2 D3) c t
  pre c := iprop(StableHlo.held (c : Thread nD τ) (Pipeline.ucRefs τ sig) (B10 m D0 D1 D2 D3 c) ∗ R c)
  post c := iprop(Tₙ m D0 D1 D2 D3 D4 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E10 m D0 D1 D2 D3 c)
  hentry c := by
    rw [Pipeline.ownSems0_none]
    have hsplit := Pipeline.arrays_of_unscopedBufs (p := 4) (pcfgs (F := F)) padm (pdats m D0 D1 D2 D3 D4) launch4.win launch4.arr_whole c
      ((pdats m D0 D1 D2 D3 D4 4 c).share_full fun w => D4.hq (E10 m D0 D1 D2 D3) c w) (E10 m D0 D1 D2 D3 c) fun w => D4.hA (E10 m D0 D1 D2 D3) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl ((D4.hrec (E10 m D0 D1 D2 D3) c 0).symm ▸ Set.mem_univ x)
      rw [show (pdats m D0 D1 D2 D3 D4 4 c).owed 0 = 0 from D4.ho (E10 m D0 D1 D2 D3) c 0]
      iexact HO
    isplitl [Hp]; · iexact Hp
    iexact Hrest
  hin c := by
    refine BIBase.Entails.trans ?_ (D4.hin (E10 m D0 D1 D2 D3) c)
    unfold Pipeline.ΦA
    iintro ⟨Hp, -, Hr⟩
    isplitl [Hr]; · iexact Hr
    iexact Hp
  hout c := by
    rw [Pipeline.ownSems0_none]
    refine BIBase.Entails.trans (D4.hout (E10 m D0 D1 D2 D3) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) padm (Ix := Unit) (Name := ℕ) (U := UR sig nD τ) (Lvl := ℕ)
      launch4.win launch4.arr_whole c (pdats m D0 D1 D2 D3 D4) ((pdats m D0 D1 D2 D3 D4 4 c).share_full fun w => D4.hq (E10 m D0 D1 D2 D3) c w)
      (E10 m D0 D1 D2 D3 c) (E11 m D0 D1 D2 D3 D4 c) ((pdats m D0 D1 D2 D3 D4 4 c).arrAt · cfg4.N) (hF4 m D0 D1 D2 D3 D4 c) (hrest4 m D0 D1 D2 D3 D4 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show (pdats m D0 D1 D2 D3 D4 4 c).owed (Fin.last _) = 0 from D4.ho (E10 m D0 D1 D2 D3) c _]
    iexact HO

/-! ## @main as segments, and the launch -/

/-- @main's eleven segments in order: a host segment per stretch from its boundary's contents, a region per kernel call. -/
abbrev rsegs : List (Pipeline.Seg (pcfgs (F := F)) padm (pdats m D0 D1 D2 D3 D4) () defs₀ 𝒱₀ Lv lv) :=
  [
    .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .region (reg0 m D0 D1 D2 D3 D4),
    .host (hseg hostOps1 hostOps1_sub hostOps1_fresh (B4 m D0)),
    .region (reg1 m D0 D1 D2 D3 D4),
    .host (hseg hostOps2 hostOps2_sub hostOps2_fresh (B6 m D0 D1)),
    .region (reg2 m D0 D1 D2 D3 D4),
    .region (reg3 m D0 D1 D2 D3 D4),
    .host (hseg hostOps4 hostOps4_sub hostOps4_fresh (B9 m D0 D1 D2 D3)),
    .region (reg4 m D0 D1 D2 D3 D4) ]

/-- What the final memory holds on core `c`: every unscoped buffer at the last boundary's contents. -/
def FinalAt (c : Dev nD) (s : MemSt nD τ sig (Elt F)) : Prop :=
  ∀ b ∈ Pipeline.ucRefs τ sig, s.mem (((c : Thread nD τ)).1, b) = B11 m D0 D1 D2 D3 D4 c b

set_option backward.isDefEq.respectTransparency.types false in
/-- THE RUN. From any memory with zero counters every weakly fair execution of @main on the TensorCores terminates,
    nothing faulting, and the final memory holds, at every unscoped buffer of every core, the fold's last value. -/
theorem run (ρ : Dev nD → PrngReg) : θ_run defs (onTc (τ := τ) (main (F := F))) ⟨m, fun _ => 0, ρ⟩
    (fun r => ∀ c : Dev nD, FinalAt m D0 D1 D2 D3 D4 c r.2) :=
  Pipeline.θ_run_regions_kit_dev (pcfgs (F := F)) padm (pdats m D0 D1 D2 D3 D4) () cellOf_inj emb₁ defs₀ 𝒱₀ Lv lv m ρ main
    (fun _ => rsegs m D0 D1 D2 D3 D4)
    (fun c Q => by
      rewrite [main_chain c, Pipeline.Seg.run_eq_chain,
        show (rsegs m D0 D1 D2 D3 D4).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          StableHlo.seq hostOps4,
          Prog.lift (.customCall (Pipeline.entry 4) ()) ] from rfl]
      exact .rfl)
    (fun c => by simp only [rsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m D0 D1 D2 D3 D4)
    (hch := fun c => ⟨.rfl, .rfl, .rfl, .rfl, .rfl, .rfl, .rfl, .rfl, .rfl, .rfl, .rfl, .rfl⟩)
    (hinit := by
      refine Pipeline.initEach Lv lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => FinalAt m D0 D1 D2 D3 D4 c s)
    (hfin := fun c s' => by
      iintro ⟨⟨Hh, -⟩, HSI⟩
      unfold StableHlo.held FinalAt
      imodintro
      iapply (pointsTo_read_all (Pipeline.ucRefs τ sig) (fun b => (((c : Thread nD τ)).1, b)) (B11 m D0 D1 D2 D3 D4 c) s')
      isplitl [Hh] <;> iassumption)
    (hQ := fun s h c => h c)

end Cert.KernelIdeal.Hand

end
-- ==== Proof.KFrame.lean ====
/-
  The argument arrays at the end of the kernel program's run.

  No host stretch writes an argument array and no region may change one: a region either reads it through an input
  window, whose array the write-backs leave as entered, or does not name it at all. So the value the fold of buffer
  contents gives an argument's buffer at the last boundary walks back, boundary by boundary, to the launch memory.
  With the run this is the program's frame: every execution terminates, nothing faults, the arguments end as launched.
-/
import proofs.«121379_j57501022159518_1_alg».proof.Proof.KRun

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)
variable (D0 : RD0 F) (D1 : RD1 F) (D2 : RD2 F) (D3 : RD3 F) (D4 : RD4 F)

/-- `main_arg0` reaches the last boundary as launched. -/
theorem B11_main_arg0 (c : Dev nD) : B11 m D0 D1 D2 D3 D4 c (Proc.devRef .tc main_arg0) = m ((c : Thread nD τ).loc main_arg0) :=
  calc B11 m D0 D1 D2 D3 D4 c (Proc.devRef .tc main_arg0)
    _ = B10 m D0 D1 D2 D3 c (Proc.devRef .tc main_arg0) := B11_of_ne m D0 D1 D2 D3 D4 c main_arg0 (by decide)
    _ = B9 m D0 D1 D2 D3 c (Proc.devRef .tc main_arg0) := StableHlo.after_of_writes_sub hostOps4 _ hostOps4_writes (r := main_arg0) (by decide)
    _ = B8 m D0 D1 D2 c (Proc.devRef .tc main_arg0) := B9_of_ne m D0 D1 D2 D3 c main_arg0 (by decide)
    _ = B7 m D0 D1 c (Proc.devRef .tc main_arg0) := B8_of_ne m D0 D1 D2 c main_arg0 (by decide)
    _ = B6 m D0 D1 c (Proc.devRef .tc main_arg0) := StableHlo.after_of_writes_sub hostOps2 _ hostOps2_writes (r := main_arg0) (by decide)
    _ = B5 m D0 c (Proc.devRef .tc main_arg0) := B6_of_ne m D0 D1 c main_arg0 (by decide)
    _ = B4 m D0 c (Proc.devRef .tc main_arg0) := StableHlo.after_of_writes_sub hostOps1 _ hostOps1_writes (r := main_arg0) (by decide)
    _ = B3 m c (Proc.devRef .tc main_arg0) := (B4_arr m D0 c 0).trans (((D0.dat (E3 m) c).arrAt_in 0 rfl _).trans (D0.hA (E3 m) c 0))
    _ = B2 m c (Proc.devRef .tc main_arg0) := StableHlo.after_of_writes_sub hostOps0_2 _ hostOps0_2_writes (r := main_arg0) (by decide)
    _ = B1 m c (Proc.devRef .tc main_arg0) := StableHlo.after_of_writes_sub hostOps0_1 _ hostOps0_1_writes (r := main_arg0) (by decide)
    _ = B0 m c (Proc.devRef .tc main_arg0) := StableHlo.after_of_writes_sub hostOps0 _ hostOps0_writes (r := main_arg0) (by decide)
    _ = m ((c : Thread nD τ).loc main_arg0) := rfl

/-- `main_arg1` reaches the last boundary as launched. -/
theorem B11_main_arg1 (c : Dev nD) : B11 m D0 D1 D2 D3 D4 c (Proc.devRef .tc main_arg1) = m ((c : Thread nD τ).loc main_arg1) :=
  calc B11 m D0 D1 D2 D3 D4 c (Proc.devRef .tc main_arg1)
    _ = B10 m D0 D1 D2 D3 c (Proc.devRef .tc main_arg1) := B11_of_ne m D0 D1 D2 D3 D4 c main_arg1 (by decide)
    _ = B9 m D0 D1 D2 D3 c (Proc.devRef .tc main_arg1) := StableHlo.after_of_writes_sub hostOps4 _ hostOps4_writes (r := main_arg1) (by decide)
    _ = B8 m D0 D1 D2 c (Proc.devRef .tc main_arg1) := B9_of_ne m D0 D1 D2 D3 c main_arg1 (by decide)
    _ = B7 m D0 D1 c (Proc.devRef .tc main_arg1) := B8_of_ne m D0 D1 D2 c main_arg1 (by decide)
    _ = B6 m D0 D1 c (Proc.devRef .tc main_arg1) := StableHlo.after_of_writes_sub hostOps2 _ hostOps2_writes (r := main_arg1) (by decide)
    _ = B5 m D0 c (Proc.devRef .tc main_arg1) := B6_of_ne m D0 D1 c main_arg1 (by decide)
    _ = B4 m D0 c (Proc.devRef .tc main_arg1) := StableHlo.after_of_writes_sub hostOps1 _ hostOps1_writes (r := main_arg1) (by decide)
    _ = B3 m c (Proc.devRef .tc main_arg1) := B4_of_ne m D0 c main_arg1 (by decide)
    _ = B2 m c (Proc.devRef .tc main_arg1) := StableHlo.after_of_writes_sub hostOps0_2 _ hostOps0_2_writes (r := main_arg1) (by decide)
    _ = B1 m c (Proc.devRef .tc main_arg1) := StableHlo.after_of_writes_sub hostOps0_1 _ hostOps0_1_writes (r := main_arg1) (by decide)
    _ = B0 m c (Proc.devRef .tc main_arg1) := StableHlo.after_of_writes_sub hostOps0 _ hostOps0_writes (r := main_arg1) (by decide)
    _ = m ((c : Thread nD τ).loc main_arg1) := rfl

/-- `main_arg2` reaches the last boundary as launched. -/
theorem B11_main_arg2 (c : Dev nD) : B11 m D0 D1 D2 D3 D4 c (Proc.devRef .tc main_arg2) = m ((c : Thread nD τ).loc main_arg2) :=
  calc B11 m D0 D1 D2 D3 D4 c (Proc.devRef .tc main_arg2)
    _ = B10 m D0 D1 D2 D3 c (Proc.devRef .tc main_arg2) := B11_of_ne m D0 D1 D2 D3 D4 c main_arg2 (by decide)
    _ = B9 m D0 D1 D2 D3 c (Proc.devRef .tc main_arg2) := StableHlo.after_of_writes_sub hostOps4 _ hostOps4_writes (r := main_arg2) (by decide)
    _ = B8 m D0 D1 D2 c (Proc.devRef .tc main_arg2) := B9_of_ne m D0 D1 D2 D3 c main_arg2 (by decide)
    _ = B7 m D0 D1 c (Proc.devRef .tc main_arg2) := B8_of_ne m D0 D1 D2 c main_arg2 (by decide)
    _ = B6 m D0 D1 c (Proc.devRef .tc main_arg2) := StableHlo.after_of_writes_sub hostOps2 _ hostOps2_writes (r := main_arg2) (by decide)
    _ = B5 m D0 c (Proc.devRef .tc main_arg2) := B6_of_ne m D0 D1 c main_arg2 (by decide)
    _ = B4 m D0 c (Proc.devRef .tc main_arg2) := StableHlo.after_of_writes_sub hostOps1 _ hostOps1_writes (r := main_arg2) (by decide)
    _ = B3 m c (Proc.devRef .tc main_arg2) := (B4_arr m D0 c 1).trans (((D0.dat (E3 m) c).arrAt_in 1 rfl _).trans (D0.hA (E3 m) c 1))
    _ = B2 m c (Proc.devRef .tc main_arg2) := StableHlo.after_of_writes_sub hostOps0_2 _ hostOps0_2_writes (r := main_arg2) (by decide)
    _ = B1 m c (Proc.devRef .tc main_arg2) := StableHlo.after_of_writes_sub hostOps0_1 _ hostOps0_1_writes (r := main_arg2) (by decide)
    _ = B0 m c (Proc.devRef .tc main_arg2) := StableHlo.after_of_writes_sub hostOps0 _ hostOps0_writes (r := main_arg2) (by decide)
    _ = m ((c : Thread nD τ).loc main_arg2) := rfl

/-- `main_arg3` reaches the last boundary as launched. -/
theorem B11_main_arg3 (c : Dev nD) : B11 m D0 D1 D2 D3 D4 c (Proc.devRef .tc main_arg3) = m ((c : Thread nD τ).loc main_arg3) :=
  calc B11 m D0 D1 D2 D3 D4 c (Proc.devRef .tc main_arg3)
    _ = B10 m D0 D1 D2 D3 c (Proc.devRef .tc main_arg3) := B11_of_ne m D0 D1 D2 D3 D4 c main_arg3 (by decide)
    _ = B9 m D0 D1 D2 D3 c (Proc.devRef .tc main_arg3) := StableHlo.after_of_writes_sub hostOps4 _ hostOps4_writes (r := main_arg3) (by decide)
    _ = B8 m D0 D1 D2 c (Proc.devRef .tc main_arg3) := B9_of_ne m D0 D1 D2 D3 c main_arg3 (by decide)
    _ = B7 m D0 D1 c (Proc.devRef .tc main_arg3) := B8_of_ne m D0 D1 D2 c main_arg3 (by decide)
    _ = B6 m D0 D1 c (Proc.devRef .tc main_arg3) := StableHlo.after_of_writes_sub hostOps2 _ hostOps2_writes (r := main_arg3) (by decide)
    _ = B5 m D0 c (Proc.devRef .tc main_arg3) := B6_of_ne m D0 D1 c main_arg3 (by decide)
    _ = B4 m D0 c (Proc.devRef .tc main_arg3) := StableHlo.after_of_writes_sub hostOps1 _ hostOps1_writes (r := main_arg3) (by decide)
    _ = B3 m c (Proc.devRef .tc main_arg3) := B4_of_ne m D0 c main_arg3 (by decide)
    _ = B2 m c (Proc.devRef .tc main_arg3) := StableHlo.after_of_writes_sub hostOps0_2 _ hostOps0_2_writes (r := main_arg3) (by decide)
    _ = B1 m c (Proc.devRef .tc main_arg3) := StableHlo.after_of_writes_sub hostOps0_1 _ hostOps0_1_writes (r := main_arg3) (by decide)
    _ = B0 m c (Proc.devRef .tc main_arg3) := StableHlo.after_of_writes_sub hostOps0 _ hostOps0_writes (r := main_arg3) (by decide)
    _ = m ((c : Thread nD τ).loc main_arg3) := rfl

/-- `main_arg4` reaches the last boundary as launched. -/
theorem B11_main_arg4 (c : Dev nD) : B11 m D0 D1 D2 D3 D4 c (Proc.devRef .tc main_arg4) = m ((c : Thread nD τ).loc main_arg4) :=
  calc B11 m D0 D1 D2 D3 D4 c (Proc.devRef .tc main_arg4)
    _ = B10 m D0 D1 D2 D3 c (Proc.devRef .tc main_arg4) := B11_of_ne m D0 D1 D2 D3 D4 c main_arg4 (by decide)
    _ = B9 m D0 D1 D2 D3 c (Proc.devRef .tc main_arg4) := StableHlo.after_of_writes_sub hostOps4 _ hostOps4_writes (r := main_arg4) (by decide)
    _ = B8 m D0 D1 D2 c (Proc.devRef .tc main_arg4) := B9_of_ne m D0 D1 D2 D3 c main_arg4 (by decide)
    _ = B7 m D0 D1 c (Proc.devRef .tc main_arg4) := B8_of_ne m D0 D1 D2 c main_arg4 (by decide)
    _ = B6 m D0 D1 c (Proc.devRef .tc main_arg4) := StableHlo.after_of_writes_sub hostOps2 _ hostOps2_writes (r := main_arg4) (by decide)
    _ = B5 m D0 c (Proc.devRef .tc main_arg4) := B6_of_ne m D0 D1 c main_arg4 (by decide)
    _ = B4 m D0 c (Proc.devRef .tc main_arg4) := StableHlo.after_of_writes_sub hostOps1 _ hostOps1_writes (r := main_arg4) (by decide)
    _ = B3 m c (Proc.devRef .tc main_arg4) := B4_of_ne m D0 c main_arg4 (by decide)
    _ = B2 m c (Proc.devRef .tc main_arg4) := StableHlo.after_of_writes_sub hostOps0_2 _ hostOps0_2_writes (r := main_arg4) (by decide)
    _ = B1 m c (Proc.devRef .tc main_arg4) := StableHlo.after_of_writes_sub hostOps0_1 _ hostOps0_1_writes (r := main_arg4) (by decide)
    _ = B0 m c (Proc.devRef .tc main_arg4) := StableHlo.after_of_writes_sub hostOps0 _ hostOps0_writes (r := main_arg4) (by decide)
    _ = m ((c : Thread nD τ).loc main_arg4) := rfl

/-- `main_arg5` reaches the last boundary as launched. -/
theorem B11_main_arg5 (c : Dev nD) : B11 m D0 D1 D2 D3 D4 c (Proc.devRef .tc main_arg5) = m ((c : Thread nD τ).loc main_arg5) :=
  calc B11 m D0 D1 D2 D3 D4 c (Proc.devRef .tc main_arg5)
    _ = B10 m D0 D1 D2 D3 c (Proc.devRef .tc main_arg5) := B11_of_ne m D0 D1 D2 D3 D4 c main_arg5 (by decide)
    _ = B9 m D0 D1 D2 D3 c (Proc.devRef .tc main_arg5) := StableHlo.after_of_writes_sub hostOps4 _ hostOps4_writes (r := main_arg5) (by decide)
    _ = B8 m D0 D1 D2 c (Proc.devRef .tc main_arg5) := B9_of_ne m D0 D1 D2 D3 c main_arg5 (by decide)
    _ = B7 m D0 D1 c (Proc.devRef .tc main_arg5) := B8_of_ne m D0 D1 D2 c main_arg5 (by decide)
    _ = B6 m D0 D1 c (Proc.devRef .tc main_arg5) := StableHlo.after_of_writes_sub hostOps2 _ hostOps2_writes (r := main_arg5) (by decide)
    _ = B5 m D0 c (Proc.devRef .tc main_arg5) := B6_of_ne m D0 D1 c main_arg5 (by decide)
    _ = B4 m D0 c (Proc.devRef .tc main_arg5) := StableHlo.after_of_writes_sub hostOps1 _ hostOps1_writes (r := main_arg5) (by decide)
    _ = B3 m c (Proc.devRef .tc main_arg5) := B4_of_ne m D0 c main_arg5 (by decide)
    _ = B2 m c (Proc.devRef .tc main_arg5) := StableHlo.after_of_writes_sub hostOps0_2 _ hostOps0_2_writes (r := main_arg5) (by decide)
    _ = B1 m c (Proc.devRef .tc main_arg5) := StableHlo.after_of_writes_sub hostOps0_1 _ hostOps0_1_writes (r := main_arg5) (by decide)
    _ = B0 m c (Proc.devRef .tc main_arg5) := StableHlo.after_of_writes_sub hostOps0 _ hostOps0_writes (r := main_arg5) (by decide)
    _ = m ((c : Thread nD τ).loc main_arg5) := rfl

/-- `main_arg6` reaches the last boundary as launched. -/
theorem B11_main_arg6 (c : Dev nD) : B11 m D0 D1 D2 D3 D4 c (Proc.devRef .tc main_arg6) = m ((c : Thread nD τ).loc main_arg6) :=
  calc B11 m D0 D1 D2 D3 D4 c (Proc.devRef .tc main_arg6)
    _ = B10 m D0 D1 D2 D3 c (Proc.devRef .tc main_arg6) := B11_of_ne m D0 D1 D2 D3 D4 c main_arg6 (by decide)
    _ = B9 m D0 D1 D2 D3 c (Proc.devRef .tc main_arg6) := StableHlo.after_of_writes_sub hostOps4 _ hostOps4_writes (r := main_arg6) (by decide)
    _ = B8 m D0 D1 D2 c (Proc.devRef .tc main_arg6) := (B9_arr m D0 D1 D2 D3 c 1).trans (((D3.dat (E8 m D0 D1 D2) c).arrAt_in 1 rfl _).trans (D3.hA (E8 m D0 D1 D2) c 1))
    _ = B7 m D0 D1 c (Proc.devRef .tc main_arg6) := B8_of_ne m D0 D1 D2 c main_arg6 (by decide)
    _ = B6 m D0 D1 c (Proc.devRef .tc main_arg6) := StableHlo.after_of_writes_sub hostOps2 _ hostOps2_writes (r := main_arg6) (by decide)
    _ = B5 m D0 c (Proc.devRef .tc main_arg6) := B6_of_ne m D0 D1 c main_arg6 (by decide)
    _ = B4 m D0 c (Proc.devRef .tc main_arg6) := StableHlo.after_of_writes_sub hostOps1 _ hostOps1_writes (r := main_arg6) (by decide)
    _ = B3 m c (Proc.devRef .tc main_arg6) := B4_of_ne m D0 c main_arg6 (by decide)
    _ = B2 m c (Proc.devRef .tc main_arg6) := StableHlo.after_of_writes_sub hostOps0_2 _ hostOps0_2_writes (r := main_arg6) (by decide)
    _ = B1 m c (Proc.devRef .tc main_arg6) := StableHlo.after_of_writes_sub hostOps0_1 _ hostOps0_1_writes (r := main_arg6) (by decide)
    _ = B0 m c (Proc.devRef .tc main_arg6) := StableHlo.after_of_writes_sub hostOps0 _ hostOps0_writes (r := main_arg6) (by decide)
    _ = m ((c : Thread nD τ).loc main_arg6) := rfl

/-- `main_arg7` reaches the last boundary as launched. -/
theorem B11_main_arg7 (c : Dev nD) : B11 m D0 D1 D2 D3 D4 c (Proc.devRef .tc main_arg7) = m ((c : Thread nD τ).loc main_arg7) :=
  calc B11 m D0 D1 D2 D3 D4 c (Proc.devRef .tc main_arg7)
    _ = B10 m D0 D1 D2 D3 c (Proc.devRef .tc main_arg7) := B11_of_ne m D0 D1 D2 D3 D4 c main_arg7 (by decide)
    _ = B9 m D0 D1 D2 D3 c (Proc.devRef .tc main_arg7) := StableHlo.after_of_writes_sub hostOps4 _ hostOps4_writes (r := main_arg7) (by decide)
    _ = B8 m D0 D1 D2 c (Proc.devRef .tc main_arg7) := B9_of_ne m D0 D1 D2 D3 c main_arg7 (by decide)
    _ = B7 m D0 D1 c (Proc.devRef .tc main_arg7) := B8_of_ne m D0 D1 D2 c main_arg7 (by decide)
    _ = B6 m D0 D1 c (Proc.devRef .tc main_arg7) := StableHlo.after_of_writes_sub hostOps2 _ hostOps2_writes (r := main_arg7) (by decide)
    _ = B5 m D0 c (Proc.devRef .tc main_arg7) := B6_of_ne m D0 D1 c main_arg7 (by decide)
    _ = B4 m D0 c (Proc.devRef .tc main_arg7) := StableHlo.after_of_writes_sub hostOps1 _ hostOps1_writes (r := main_arg7) (by decide)
    _ = B3 m c (Proc.devRef .tc main_arg7) := B4_of_ne m D0 c main_arg7 (by decide)
    _ = B2 m c (Proc.devRef .tc main_arg7) := StableHlo.after_of_writes_sub hostOps0_2 _ hostOps0_2_writes (r := main_arg7) (by decide)
    _ = B1 m c (Proc.devRef .tc main_arg7) := StableHlo.after_of_writes_sub hostOps0_1 _ hostOps0_1_writes (r := main_arg7) (by decide)
    _ = B0 m c (Proc.devRef .tc main_arg7) := StableHlo.after_of_writes_sub hostOps0 _ hostOps0_writes (r := main_arg7) (by decide)
    _ = m ((c : Thread nD τ).loc main_arg7) := rfl

/-- What the final memory of the run holds at an unscoped reference of the TensorCore. -/
theorem FinalAt.at {c : Dev nD} {s : MemSt nD τ sig (Elt F)} (h : FinalAt m D0 D1 D2 D3 D4 c s) (b : Ref sig .tc)
    (hb : ¬ (Proc.devRef .tc b : DevRef τ sig).isScoped) :
    s.mem ((c.tc : Thread nD τ).loc b) = B11 m D0 D1 D2 D3 D4 c (Proc.devRef .tc b) :=
  h _ (mem_uc b hb)

include D0 D1 D2 D3 D4 in
/-- THE FRAME of the kernel program at any float instance: it runs to the end, faults nowhere, and every argument array
    ends holding its launch contents. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)) :=
  (θ_run defs _ _).mono (fun r h c => ⟨
      ((h c).at m D0 D1 D2 D3 D4 main_arg0 (by decide)).trans (B11_main_arg0 m D0 D1 D2 D3 D4 c),
      ((h c).at m D0 D1 D2 D3 D4 main_arg1 (by decide)).trans (B11_main_arg1 m D0 D1 D2 D3 D4 c),
      ((h c).at m D0 D1 D2 D3 D4 main_arg2 (by decide)).trans (B11_main_arg2 m D0 D1 D2 D3 D4 c),
      ((h c).at m D0 D1 D2 D3 D4 main_arg3 (by decide)).trans (B11_main_arg3 m D0 D1 D2 D3 D4 c),
      ((h c).at m D0 D1 D2 D3 D4 main_arg4 (by decide)).trans (B11_main_arg4 m D0 D1 D2 D3 D4 c),
      ((h c).at m D0 D1 D2 D3 D4 main_arg5 (by decide)).trans (B11_main_arg5 m D0 D1 D2 D3 D4 c),
      ((h c).at m D0 D1 D2 D3 D4 main_arg6 (by decide)).trans (B11_main_arg6 m D0 D1 D2 D3 D4 c),
      ((h c).at m D0 D1 D2 D3 D4 main_arg7 (by decide)).trans (B11_main_arg7 m D0 D1 D2 D3 D4 c)⟩)
    (run m D0 D1 D2 D3 D4 ρ)

end Cert.KernelIdeal.Hand

end
-- ==== Proof.KReg0.lean ====
/-
  The first matrix product of the program (x · W₁, kernel region 0) as a pipelined loop over 20 row blocks:
  what one run of its body does to the three staging buffers, and the data the pipeline's loop rule asks for.
  Everything is stated over an arbitrary assignment V of contents to the TensorCore's buffers at the moment the
  region starts, and over an arbitrary float model F.
-/
import proofs.«121379_j57501022159518_1_alg».proof.Proof.Gen.KernelIdeal.Launch
import proofs.«121379_j57501022159518_1_alg».proof.Proof.Gen.KernelIdeal.Skeleton
import proofs.«121379_j57501022159518_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the three arrays -/

/-- The block of window w's array that grid point t addresses, cut out of the contents V gives that array. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The row block of x (window 0). Whenever the loop's data starts from V's array and the body hands the block back
    unchanged, the staging buffer the body meets at point t holds exactly block t: a point that fetches puts it
    there, and a point that does not fetch has the same block index as the one before it. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ t, (cfg0.win 0).cut (cfg0.grid.coords t) (dat.after 0 t) = dat.blockOf 0 t := fun t => by
    rw [hafter]; unfold Dat.blockOf iblk0; rw [hA]; try rfl
  refine (dat.before_in_eq_fetched 0 rfl (fun _ => rfl) (fun _ _ _ => rfl) hkeep t d).trans ?_
  unfold Dat.fetched Dat.blockOf iblk0; rw [hA]; try rfl

/-- The weight matrix W₁ (window 1) is one block, the same at all 20 points and fetched only at the first; the
    argument above covers it too, since an unfetched point keeps the block index. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ t, (cfg0.win 1).cut (cfg0.grid.coords t) (dat.after 1 t) = dat.blockOf 1 t := fun t => by
    rw [hafter]; unfold Dat.blockOf iblk0; rw [hA]; try rfl
  refine (dat.before_in_eq_fetched 1 rfl (fun _ => rfl) (fun _ _ _ => rfl) hkeep t d).trans ?_
  unfold Dat.fetched Dat.blockOf iblk0; rw [hA]; try rfl

/-! ## One run of the body -/

/-- The body reads and writes each staging buffer whole: the full rectangle of each of the three shapes. -/
abbrev rect0_x : Rect S5000x25 := Rect.unit (s := S5000x25) ![0, 0] S5000x25.size inb_S5000x25_S5000x25_0_0
abbrev rect0_w : Rect S25x128 := Rect.unit (s := S25x128) ![0, 0] S25x128.size inb_S25x128_S25x128_0_0
abbrev rect0_o : Rect S5000x128 := Rect.unit (s := S5000x128) ![0, 0] S5000x128.size inb_S5000x128_S5000x128_0_0

/-- The output staging buffer once the body has run: a single store of the product of the two loaded blocks
    (both rounded to bf16, accumulated onto zero) over the whole buffer. -/
def out0_2 (x0 : Vec F S5000x25 .f32) (x1 : Vec F S25x128 .f32) : Vec F S5000x128 .f32 :=
  View.canon [⟨rect0_o, k0_pay1 (View.ld x0 rect0_x) (View.ld x1 rect0_w)⟩]

/-- That single store reaches every index of the 5000×128 buffer. -/
theorem cover0_2 (p0 : Vec F S5000x128 .f32) (y : S5000x128.Idx) :
    ∃ pc ∈ ([⟨rect0_o, p0⟩] : List (View.Piece (Elt F) S5000x128 .f32)), y ∈ pc.1.set :=
  View.cover_of_tiled [⟨rect0_o, p0⟩] S5000x128.size (by rfl) y

set_option maxHeartbeats 1000000 in
/-- Hoare triple of the body on three whole staging buffers. Given the x-block buffer reading x0, the W₁ buffer
    reading x1 and the output buffer holding anything, the body ends with the two inputs untouched and the output
    reading out0_2 x0 x1. (It also loads the old output and drops the value, which changes nothing.) -/
theorem sound_kernel0 (c : Dev nD) (E : Set ℕ) (i : grid0.Coords)
    (arg0 : Memref sig .tc .vmem S5000x25 .f32) (harg0 : arg0.IsWhole)
    (arg1 : Memref sig .tc .vmem S25x128 .f32) (harg1 : arg1.IsWhole)
    (arg2 : Memref sig .tc .vmem S5000x128 .f32) (harg2 : arg2.IsWhole)
    (x0 : Vec F S5000x25 .f32) (x1 : Vec F S25x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0_matmul_kernel i arg0 harg0 arg1 harg1 arg2 harg2) K := by
  simp only [cc0_matmul_kernel_eq_skeleton]; unfold cc0_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The data of the loop -/

/-- What the pipeline's loop rule is told about region 0 on core c. The three arrays start as V has them. After the
    body at point t the two input buffers still read their blocks and the output buffer reads the product of those
    blocks. The loop invariant is the standard one for a body that touches nothing but its staging buffers (the
    scoped remainder and the generator register are carried along). Shares are full and no transfer is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of dat0 are V's. -/
theorem A_eq0 (c : Dev nD) (w : Fin cfg0.W) : (dat0 V c).A w = V c (Pipeline.arrRef spec0 w) := by
  dsimp only [dat0]

/-- The three cases of what the body leaves, spelled out. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- Under dat0 the body finds block t of x, and the block of W₁, in its input buffers at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body at a grid point -/

/-- The resources the loop hands the body at point t: the invariant, the transfers owed, and the three current
    staging buffers at whatever the loop data says they hold. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- The resources it must hand back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the input buffers hold the blocks (before0_0, before0_1), so the body's triple applies; the
    invariant and the owed transfers are not looked at and come out as they went in. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the loop rule for region 0, at every grid point. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.KReg2.lean ====
/-
  Region 2: the pointwise kernel  out = x * scale + shift  over a grid of 20 row blocks.
  Four windows: 0 = a [5000,128] row block of x (it moves with the grid point), 1 = the whole [1,128] scale row and
  2 = the whole [1,128] shift row (each the same block at every point), 3 = the [5000,128] output row block.
  Everything below is stated at an arbitrary assignment `V` of contents to the TensorCore's buffers at the moment the
  region starts, and at any float model `F`.
-/
import proofs.«121379_j57501022159518_1_alg».proof.Proof.Gen.KernelIdeal.Launch
import proofs.«121379_j57501022159518_1_alg».proof.Proof.Gen.KernelIdeal.Skeleton
import proofs.«121379_j57501022159518_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle with a 5000-long axis: deciding membership walks that axis coordinate by coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts
variable (V : (c : Dev nD) → (b : Ref sig .tc) → Buf (Elt F) ((c : Thread nD τ).loc b))

/-! ## Blocks of the windows -/

/-- The block of window `w` at grid point `t`, cut out of the window's array as `V` has it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0 (x) is read-only for the body: if a proof datum has `V`'s array under the window and says the body
    leaves the window's buffer at its block, then before the body the buffer already holds that block, whether a
    fetch happened at this point or the block index stood still since the last one. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (scale) likewise; its block index is constant, so after the first point no fetch happens and the buffer
    keeps the one block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (shift): the same argument as for the scale row. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## Rectangles the body touches: each access is one whole staging buffer -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## The output buffer after the body -/

/-- The output staging buffer once the body has run, as a function of what the three input buffers held (`x0` the x
    block, `x1` the scale row, `x2` the shift row): the single whole-buffer store of the payload
    `x * broadcast scale + broadcast shift` evaluated on the whole-buffer reads. -/
def out2_3 (x0 : Vec F S5000x128 .f32) (x1 : Vec F S1x128 .f32) (x2 : Vec F S1x128 .f32) : Vec F S5000x128 .f32 :=
  View.canon [⟨r2_0, k2_pay1 (View.ld x1 r2_1) (View.ld x2 r2_1) (View.ld x0 r2_0)⟩]

/-- That one store reaches every index of the buffer. -/
theorem cover2_3 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body as a triple -/

set_option maxHeartbeats 1000000 in
/-- Run on four whole staging memrefs — x's holding `x0`, scale's `x1`, shift's `x2`, the output's holding anything —
    the kernel returns with the three inputs unchanged and the output at `out2_3 x0 x1 x2`.  (The body also reads the
    output buffer before overwriting it and drops the value; reading an owned buffer changes nothing.) -/
theorem sound_kernel2 (c : Dev nD) (E : Set ℕ) (i : grid2.Coords) (arg1 : Memref sig .tc .vmem S5000x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_affine_kernel i arg1 harg1 arg2 harg2 arg3 harg3 arg4 harg4) K := by
  simp only [cc2_affine_kernel_eq_skeleton]; unfold cc2_affine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## Proof data of the pipeline -/

/-- The pipeline's proof datum on core `c`: under each window the array `V` gives; after the body at point `t` the
    input buffers still at their blocks and the output buffer at `out2_3` of those blocks; as invariant the
    untouched remainder (scoped rest and generator register); full ownership; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The datum's arrays are `V`'s. -/
theorem A_eq2 (c : Dev nD) (w : Fin cfg2.W) : (dat2 V c).A w = V c (Pipeline.arrRef spec2 w) := by
  dsimp only [dat2]

/-- The datum's `after`, one window at a time. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Before the body each input buffer holds its block. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- The resources the pipeline hands the body at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and the resources it expects back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At every point the body turns the first into the second: the input buffers hold their blocks, so the kernel's
    triple applies; invariant and debts are carried across untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation in the library's form. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KReg3.lean ====
/-
  The second matrix product of the program (h · W₂, kernel region 3) as a pipelined loop over 20 row blocks:
  what one run of its body does to the three staging buffers, and the data the pipeline's loop rule asks for.
  Everything is stated over an arbitrary assignment V of contents to the TensorCore's buffers at the moment the
  region starts, and over an arbitrary float model F.
-/
import proofs.«121379_j57501022159518_1_alg».proof.Proof.Gen.KernelIdeal.Launch
import proofs.«121379_j57501022159518_1_alg».proof.Proof.Gen.KernelIdeal.Skeleton
import proofs.«121379_j57501022159518_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks of the three arrays -/

/-- The block of window w's array that grid point t addresses, cut out of the contents V gives that array. -/
def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

/-- The row block of h (window 0). Whenever the loop's data starts from V's array and the body hands the block back
    unchanged, the staging buffer the body meets at point t holds exactly block t: a point that fetches puts it
    there, and a point that does not fetch has the same block index as the one before it. -/
theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t := by
  have hkeep : ∀ t, (cfg3.win 0).cut (cfg3.grid.coords t) (dat.after 0 t) = dat.blockOf 0 t := fun t => by
    rw [hafter]; unfold Dat.blockOf iblk3; rw [hA]; try rfl
  refine (dat.before_in_eq_fetched 0 rfl (fun _ => rfl) (fun _ _ _ => rfl) hkeep t d).trans ?_
  unfold Dat.fetched Dat.blockOf iblk3; rw [hA]; try rfl

/-- The weight matrix W₂ (window 1) is one block, the same at all 20 points and fetched only at the first; the
    argument above covers it too, since an unfetched point keeps the block index. -/
theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t := by
  have hkeep : ∀ t, (cfg3.win 1).cut (cfg3.grid.coords t) (dat.after 1 t) = dat.blockOf 1 t := fun t => by
    rw [hafter]; unfold Dat.blockOf iblk3; rw [hA]; try rfl
  refine (dat.before_in_eq_fetched 1 rfl (fun _ => rfl) (fun _ _ _ => rfl) hkeep t d).trans ?_
  unfold Dat.fetched Dat.blockOf iblk3; rw [hA]; try rfl

/-! ## One run of the body -/

/-- The body reads and writes each staging buffer whole: the full rectangle of the 5000×128 shape (the block of h, and again the output) and of the 128×128 shape. -/
abbrev rect3_x : Rect S5000x128 := Rect.unit (s := S5000x128) ![0, 0] S5000x128.size inb_S5000x128_S5000x128_0_0
abbrev rect3_w : Rect S128x128 := Rect.unit (s := S128x128) ![0, 0] S128x128.size inb_S128x128_S128x128_0_0
abbrev rect3_o : Rect S5000x128 := Rect.unit (s := S5000x128) ![0, 0] S5000x128.size inb_S5000x128_S5000x128_0_0

/-- The output staging buffer once the body has run: a single store of the product of the two loaded blocks
    (both rounded to bf16, the first after a reshape to its own shape, accumulated onto zero) over the whole buffer. -/
def out3_2 (x0 : Vec F S5000x128 .f32) (x1 : Vec F S128x128 .f32) : Vec F S5000x128 .f32 :=
  View.canon [⟨rect3_o, k3_pay1 (View.ld x0 rect3_x) (View.ld x1 rect3_w)⟩]

/-- That single store reaches every index of the 5000×128 buffer. -/
theorem cover3_2 (p0 : Vec F S5000x128 .f32) (y : S5000x128.Idx) :
    ∃ pc ∈ ([⟨rect3_o, p0⟩] : List (View.Piece (Elt F) S5000x128 .f32)), y ∈ pc.1.set :=
  View.cover_of_tiled [⟨rect3_o, p0⟩] S5000x128.size (by rfl) y

set_option maxHeartbeats 1000000 in
/-- Hoare triple of the body on three whole staging buffers. Given the h-block buffer reading x0, the W₂ buffer
    reading x1 and the output buffer holding anything, the body ends with the two inputs untouched and the output
    reading out3_2 x0 x1. (It also loads the old output and drops the value, which changes nothing.) -/
theorem sound_kernel3 (c : Dev nD) (E : Set ℕ) (i : grid3.Coords)
    (arg0 : Memref sig .tc .vmem S5000x128 .f32) (harg0 : arg0.IsWhole)
    (arg1 : Memref sig .tc .vmem S128x128 .f32) (harg1 : arg1.IsWhole)
    (arg2 : Memref sig .tc .vmem S5000x128 .f32) (harg2 : arg2.IsWhole)
    (x0 : Vec F S5000x128 .f32) (x1 : Vec F S128x128 .f32) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out3_2 x0 x1)) -∗ K ⟨⟩))
      ⊢ wp frame (wpE (defs₀ (F := F)) Variants.none c none) E (cc3_matmul_kernel i arg0 harg0 arg1 harg1 arg2 harg2) K := by
  simp only [cc3_matmul_kernel_eq_skeleton]; unfold cc3_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The data of the loop -/

/-- What the pipeline's loop rule is told about region 3 on core c. The three arrays start as V has them. After the
    body at point t the two input buffers still read their blocks and the output buffer reads the product of those
    blocks. The loop invariant is the standard one for a body that touches nothing but its staging buffers (the
    scoped remainder and the generator register are carried along). Shares are full and no transfer is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The arrays of dat3 are V's. -/
theorem A_eq3 (c : Dev nD) (w : Fin cfg3.W) : (dat3 V c).A w = V c (Pipeline.arrRef spec3 w) := by
  dsimp only [dat3]

/-- The three cases of what the body leaves, spelled out. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

/-- Under dat3 the body finds block t of h, and the block of W₂, in its input buffers at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body at a grid point -/

/-- The resources the loop hands the body at point t: the invariant, the transfers owed, and the three current
    staging buffers at whatever the loop data says they hold. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- The resources it must hand back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- At any point the input buffers hold the blocks (before3_0, before3_1), so the body's triple applies; the
    invariant and the owed transfers are not looked at and come out as they went in. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the loop rule for region 3, at every grid point. -/
theorem body_obligation3 (c : Dev nD) :
    BodyObligation (dat3 (F := F) V c) (defs₀ (F := F)) Variants.none () Set.univ := fun t => by
  rw [bigSep_W3, bigSep_W3]
  exact sound_body3 V c t

end Cert.KernelIdeal.Hand

end
-- ==== Proof.KReg4.lean ====
/-
  Region 4: the pointwise kernel  out = max (agg + bias) 0  over a grid of 20 row blocks.
  Three windows: 0 = a [5000,128] row block of agg (it moves with the grid point), 1 = the whole [1,128] bias row
  (the same block at every point), 2 = the [5000,128] output row block.  Everything below is stated at an arbitrary
  assignment `V` of contents to the TensorCore's buffers at the moment the region starts, and at any float model `F`.
-/
import proofs.«121379_j57501022159518_1_alg».proof.Proof.Gen.KernelIdeal.Launch
import proofs.«121379_j57501022159518_1_alg».proof.Proof.Gen.KernelIdeal.Skeleton
import proofs.«121379_j57501022159518_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- a rectangle with a 5000-long axis: deciding membership walks that axis coordinate by coordinate
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts
variable (V : (c : Dev nD) → (b : Ref sig .tc) → Buf (Elt F) ((c : Thread nD τ).loc b))

/-! ## Blocks of the windows -/

/-- The block of window `w` at grid point `t`, cut out of the window's array as `V` has it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 0 (agg) is read-only for the body: if a proof datum has `V`'s array under the window and says the body
    leaves the window's buffer at its block, then before the body the buffer already holds that block, whether a
    fetch happened at this point or the block index stood still since the last one. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Window 1 (bias) likewise; its block index is constant, so after the first point no fetch happens and the buffer
    keeps the one block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## Rectangles the body touches: each access is one whole staging buffer -/

abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0

/-! ## The output buffer after the body -/

/-- The output staging buffer once the body has run, as a function of what the two input buffers held: the single
    whole-buffer store of the payload `max (agg + broadcast bias) 0` evaluated on the whole-buffer reads. -/
def out4_2 (x0 : Vec F S5000x128 .f32) (x1 : Vec F S1x128 .f32) : Vec F S5000x128 .f32 :=
  View.canon [⟨r4_0, k4_pay1 (View.ld x1 r4_1) (View.ld x0 r4_0)⟩]

/-- That one store reaches every index of the buffer. -/
theorem cover4_2 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body as a triple -/

set_option maxHeartbeats 1000000 in
/-- Run on three whole staging memrefs — agg's holding `x0`, bias's holding `x1`, the output's holding anything — the
    kernel returns with the two inputs unchanged and the output at `out4_2 x0 x1`.  (The body also reads the output
    buffer before overwriting it and drops the value; reading an owned buffer changes nothing.) -/
theorem sound_kernel4 (c : Dev nD) (E : Set ℕ) (i : grid4.Coords) (arg1 : Memref sig .tc .vmem S5000x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4_relu_bias_kernel i arg1 harg1 arg2 harg2 arg3 harg3) K := by
  simp only [cc4_relu_bias_kernel_eq_skeleton]; unfold cc4_relu_bias_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## Proof data of the pipeline -/

/-- The pipeline's proof datum on core `c`: under each window the array `V` gives; after the body at point `t` the
    input buffers still at their blocks and the output buffer at `out4_2` of those blocks; as invariant the
    untouched remainder (scoped rest and generator register); full ownership; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The datum's arrays are `V`'s. -/
theorem A_eq4 (c : Dev nD) (w : Fin cfg4.W) : (dat4 V c).A w = V c (Pipeline.arrRef spec4 w) := by
  dsimp only [dat4]

/-- The datum's `after`, one window at a time. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Before the body each input buffer holds its block. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

/-- The resources the pipeline hands the body at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and the resources it expects back. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- At every point the body turns the first into the second: the input buffers hold their blocks, so the kernel's
    triple applies; invariant and debts are carried across untouched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation in the library's form. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KData.lean ====
/-
  The four regions whose kernel bodies load whole blocks, compute, and store one whole block (the two matrix products,
  the affine map, the biased rectifier), as the records the run takes: for each, the proof data at any entry contents,
  its body obligation, and the invariant, which is the same scoped rest and generator register at every point.
-/
import proofs.«121379_j57501022159518_1_alg».proof.Proof.KRun
import proofs.«121379_j57501022159518_1_alg».proof.Proof.KReg0
import proofs.«121379_j57501022159518_1_alg».proof.Proof.KReg2
import proofs.«121379_j57501022159518_1_alg».proof.Proof.KReg3
import proofs.«121379_j57501022159518_1_alg».proof.Proof.KReg4

noncomputable section

namespace Cert.KernelIdeal.Hand

open Cert.KernelIdeal Cert.KernelIdeal.Gen
open Idealize.ShloMosaic Idealize.ShloMosaic.TcCoe
open Idealize.SL Idealize.SL.BI Idealize.SL.Sem
open Idealize.SL.BI.BIBase
open Idealize.ShloMosaic.Pipeline (Dat BodyObligation)

variable {F : FTy → Type} [FloatOps F]

/-- Region 0's record: its proof data at any entry contents, the body obligation, and the class invariant at both ends. -/
def rd0 : RD0 F where
  dat := dat0
  hA := fun V c w => A_eq0 V c w
  hq := fun _ _ _ => rfl
  ho := fun _ _ _ => rfl
  hrec := fun _ _ _ => rfl
  hbody := fun V c => body_obligation0 V c
  hin := fun _ _ => .rfl
  hout := fun _ _ => .rfl

/-- Region 2's record: its proof data at any entry contents, the body obligation, and the class invariant at both ends. -/
def rd2 : RD2 F where
  dat := dat2
  hA := fun V c w => A_eq2 V c w
  hq := fun _ _ _ => rfl
  ho := fun _ _ _ => rfl
  hrec := fun _ _ _ => rfl
  hbody := fun V c => body_obligation2 V c
  hin := fun _ _ => .rfl
  hout := fun _ _ => .rfl

/-- Region 3's record: its proof data at any entry contents, the body obligation, and the class invariant at both ends. -/
def rd3 : RD3 F where
  dat := dat3
  hA := fun V c w => A_eq3 V c w
  hq := fun _ _ _ => rfl
  ho := fun _ _ _ => rfl
  hrec := fun _ _ _ => rfl
  hbody := fun V c => body_obligation3 V c
  hin := fun _ _ => .rfl
  hout := fun _ _ => .rfl

/-- Region 4's record: its proof data at any entry contents, the body obligation, and the class invariant at both ends. -/
def rd4 : RD4 F where
  dat := dat4
  hA := fun V c w => A_eq4 V c w
  hq := fun _ _ _ => rfl
  ho := fun _ _ _ => rfl
  hrec := fun _ _ _ => rfl
  hbody := fun V c => body_obligation4 V c
  hin := fun _ _ => .rfl
  hout := fun _ _ => .rfl

end Cert.KernelIdeal.Hand

end
-- ==== Proof.KReg1Runs.lean ====
/-
  Region 1, the biased rectifier with column statistics: the kernel body at one grid point.

  The body works on five windows and two carried one-row buffers. At the first of the twenty points it fills both
  carried buffers with zeros. At every point it reads the aggregated block and the bias row, stores
  max (block + bias row, 0) whole into the output block's buffer, and adds to the first carried buffer each column's sum
  of that rectified block and to the second each column's sum of its squares. At the last point it copies the two
  carried buffers whole into the two statistics rows.

  Two conditions on the grid coordinate decide what runs, so over the twenty points there are three cases: the first
  point (zeroing, no copy), the points between (neither), the last point (copy, no zeroing); the conditions are decided
  over the grid as "position 0" and "position 19". For each case one triple says what the body leaves: the inputs as
  they were; the output block's buffer at `y1` of the two input blocks; the carried buffers at `s6`, `s7` of the input
  blocks and of what the buffers held before (zeros, at the first point); and the two statistics rows handed back exactly
  as found off the last point, where they are idle, and holding the carried buffers' new contents at it.

  Also here: each window's block at a point read off the entry contents, the fact that either input's buffer holds its
  block at every point, where the statistics rows are idle and not written back, and the launch's invariant with the
  two carried buffers split off the other scoped buffers.
-/
import proofs.«121379_j57501022159518_1_alg».proof.Proof.Gen.KernelIdeal.Launch
import proofs.«121379_j57501022159518_1_alg».proof.Proof.Gen.KernelIdeal.Skeleton
import proofs.«121379_j57501022159518_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangles the body loads and stores through. -/
abbrev rA : Rect S5000x128 := Rect.unit (s := S5000x128) ![0, 0] S5000x128.size inb_S5000x128_S5000x128_0_0
abbrev rB : Rect S1x128 := Rect.unit (s := S1x128) ![0, 0] S1x128.size inb_S1x128_S1x128_0_0

/-- What the body stores into the output block's buffer, from the aggregated block `x0` and the bias row `x1`: its one
    store, `max (x0 + broadcast x1) 0`, laid over the buffer. -/
def y1 (x0 : Vec F S5000x128 .f32) (x1 : Vec F S1x128 .f32) : Vec F S5000x128 .f32 :=
  View.canon [⟨rA, k1_pay3 (View.ld x1 rB) (View.ld x0 rA)⟩]

/-- The first accumulator zeroed (the first point's fill), -/
def z6 : Vec F S1x128 .f32 := View.canon [⟨rB, k1_pay1 (F := F)⟩]
/-- and the second. -/
def z7 : Vec F S1x128 .f32 := View.canon [⟨rB, k1_pay2 (F := F)⟩]

/-- The first accumulator after a point whose blocks are `x0`, `x1`, if it held `s` before the point's update: `s` plus the
    column sums of `y`. -/
def s6 (x0 : Vec F S5000x128 .f32) (x1 : Vec F S1x128 .f32) (s : Vec F S1x128 .f32) : Vec F S1x128 .f32 :=
  View.canon [⟨rB, k1_pay4 (View.ld x1 rB) (View.ld x0 rA) (View.ld s rB)⟩]

/-- The second accumulator likewise: `s` plus the column sums of `y * y`. -/
def s7 (x0 : Vec F S5000x128 .f32) (x1 : Vec F S1x128 .f32) (s : Vec F S1x128 .f32) : Vec F S1x128 .f32 :=
  View.canon [⟨rB, k1_pay5 (View.ld x1 rB) (View.ld x0 rA) (View.ld s rB)⟩]

/-- A whole-buffer store covers the block buffer, -/
theorem coverA (p : rA.shape.Idx → Elt F .f32) (y : S5000x128.Idx) :
    ∃ pc ∈ ([⟨rA, p⟩] : List (View.Piece (Elt F) S5000x128 .f32)), y ∈ pc.1.set :=
  View.cover_of_tiled [⟨rA, p⟩] S5000x128.size (by rfl) y

/-- and the one-row buffer; -/
theorem coverB (p : rB.shape.Idx → Elt F .f32) (y : S1x128.Idx) :
    ∃ pc ∈ ([⟨rB, p⟩] : List (View.Piece (Elt F) S1x128 .f32)), y ∈ pc.1.set :=
  View.cover_of_tiled [⟨rB, p⟩] S1x128.size (by rfl) y

/-- The condition of the zeroing branch, from the grid coordinate, -/
abbrev cond1_0 (i : grid1.Coords) : Prop := (Scalar.cmpi .ne (Scalar.extui (Scalar.cmpi .eq (BitVec.ofNat 32 (i 0).val) 0#32)) 0#32) = 1#1
/-- and of the write-out branch. -/
abbrev cond1_1 (i : grid1.Coords) : Prop := k1_cond2 i = 1#1

/-- Every index of a one-row buffer lies in its whole-buffer rectangle. -/
theorem memB (y : S1x128.Idx) : y ∈ (rB : Rect S1x128).set := by
  obtain ⟨pc, hm, hy⟩ := View.cover_of_tiled (Val := fun _ => PUnit) (e := .f32) [⟨rB, fun _ => ⟨⟩⟩] S1x128.size (by rfl) y
  rw [List.mem_singleton] at hm; subst hm; exact hy

/-- A last write through a rectangle that holds every index hides the earlier ones. -/
theorem canon_cons_whole {s : Shape} {e : EltTy} {Val : EltTy → Type} [∀ e, Nonempty (Val e)]
    (p : View.Piece Val s e) (L : List (View.Piece Val s e)) (h : ∀ y, y ∈ p.1.set) :
    View.canon (p :: L) = View.canon [p] := by
  funext y
  obtain ⟨r, w⟩ := p
  obtain ⟨x, rfl⟩ : ∃ x, r.emb x = y := r.exists_idx_of_mem (h y)
  rw [View.canon_cons_emb, View.canon_cons_emb]

/-- Contents read through a rectangle that holds every index and written back through it are the contents. -/
theorem canon_ld_whole {s : Shape} {e : EltTy} {Val : EltTy → Type} [∀ e, Nonempty (Val e)]
    (r : Rect s) (h : ∀ y, y ∈ r.set) (X : s.Idx → Val e) : View.canon [⟨r, View.ld X r⟩] = X := by
  funext y
  obtain ⟨x, rfl⟩ : ∃ x, r.emb x = y := r.exists_idx_of_mem (h y)
  rw [View.canon_cons_emb]; rfl

/-- Two whole-buffer stores in a row cover the one-row buffer too. -/
theorem coverB2 (p q : rB.shape.Idx → Elt F .f32) (y : S1x128.Idx) :
    ∃ pc ∈ ([⟨rB, p⟩, ⟨rB, q⟩] : List (View.Piece (Elt F) S1x128 .f32)), y ∈ pc.1.set :=
  ⟨⟨rB, p⟩, List.mem_cons_self, memB y⟩

/-- A one-row buffer zeroed (any contents `z` written whole), read back, and overwritten whole by a function `g` of
    what was read: it holds `g` of the contents written first. -/
theorem read_acc_first (v : View sig .tc .vmem S1x128 .f32) (f : v.ty.Contents (Elt F)) (z : rB.shape.Idx → Elt F .f32)
    (g : (rB.shape.Idx → Elt F .f32) → rB.shape.Idx → Elt F .f32) :
    v.read (Elt F) (v.writes (Elt F) f [⟨rB, g (v.readCov [⟨rB, z⟩] rB)⟩, ⟨rB, z⟩])
      = View.canon [⟨rB, g (View.ld (View.canon [⟨rB, z⟩]) rB)⟩] := by
  rw [View.readCov_eq_canon_ld _ _ _ (coverB _), View.read_writes_eq_canon _ _ _ (coverB2 _ _),
    canon_cons_whole ⟨rB, _⟩ _ memB]

/-- A one-row buffer written whole with what a load reads of another just written whole with `p` holds `p`'s
    canonical contents. -/
theorem read_copy_acc (v v' : View sig .tc .vmem S1x128 .f32) (f : v.ty.Contents (Elt F)) (p : rB.shape.Idx → Elt F .f32) :
    v.read (Elt F) (v.writes (Elt F) f [⟨rB, v'.readCov [⟨rB, p⟩] rB⟩]) = View.canon [⟨rB, p⟩] := by
  rw [View.readCov_eq_canon_ld _ _ _ (coverB _), View.read_writes_eq_canon _ _ _ (coverB _), canon_ld_whole rB memB]

set_option maxHeartbeats 1000000 in
/-- THE BODY AT A POINT BETWEEN the first and the last (neither branch taken). On whole memrefs — the inputs' at `x0`, `x1`,
    the output block's at anything, the two statistics windows' at `xi3`, `xi4`, the accumulators at `a6`, `a7` — the body
    runs to the continuation holding the inputs' and the statistics windows' as they were, the output block's at
    `y1 x0 x1` and the accumulators at `s6 x0 x1 a6`, `s7 x0 x1 a7`. -/
theorem run1_B (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : ¬cond1_0 i) (hc1 : ¬cond1_1 i)
    (x0 : Vec F S5000x128 .f32) (x1 : Vec F S1x128 .f32) (xi3 xi4 a6 a7 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ owns (c : Thread nD τ) arg6 fullShare a6 ∗ owns (c : Thread nD τ) arg7 fullShare a7
        ∗ (iprop(owns (c : Thread nD τ) arg1 fullShare x0 ∗ owns (c : Thread nD τ) arg2 fullShare x1 ∗ owns (c : Thread nD τ) arg3 fullShare (y1 x0 x1)
            ∗ owns (c : Thread nD τ) arg4 fullShare xi3 ∗ owns (c : Thread nD τ) arg5 fullShare xi4
            ∗ owns (c : Thread nD τ) arg6 fullShare (s6 x0 x1 a6) ∗ owns (c : Thread nD τ) arg7 fullShare (s7 x0 x1 a7)) -∗ K ⟨⟩))
      ⊢ wp frame (wpE (defs₀ (F := F)) Variants.none c none) E (cc1_relu_bias_stats_kernel i arg1 harg1 arg2 harg2 arg3 harg3 arg4 harg4 arg5 harg5 arg6 harg6 arg7 harg7) K := by
  simp only [cc1_relu_bias_stats_kernel_eq_skeleton]; unfold cc1_relu_bias_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%f6, %hf6, H6⟩, ⟨%f7, %hf7, H7⟩, Hk⟩
  subst hf0; subst hf1; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverA _)
  isplitl [H3]
  · iexists f3; isplitr; · ipureintro; rfl
    iexact H3
  isplitl [H4]
  · iexists f4; isplitr; · ipureintro; rfl
    iexact H4
  isplitl [H6]
  · iexists _; isplitr
    swap; · iexact H6
    ipureintro; exact View.read_writes_eq_canon _ _ _ (coverB _)
  iexists _; isplitr
  swap; · iexact H7
  ipureintro; exact View.read_writes_eq_canon _ _ _ (coverB _)

set_option maxHeartbeats 1000000 in
/-- THE BODY AT THE FIRST POINT (the zeroing branch taken, the write-out branch not). The accumulators may hold anything:
    they are filled with zeros first, so they end at `s6 x0 x1 z6`, `s7 x0 x1 z7`; the rest as between. -/
theorem run1_A (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : cond1_0 i) (hc1 : ¬cond1_1 i)
    (x0 : Vec F S5000x128 .f32) (x1 : Vec F S1x128 .f32) (xi3 xi4 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xi3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare (y1 x0 x1)
            ∗ owns (c : Thread nD τ) arg4 fullShare xi3 ∗ owns (c : Thread nD τ) arg5 fullShare xi4
            ∗ owns (c : Thread nD τ) arg6 fullShare (s6 x0 x1 z6) ∗ owns (c : Thread nD τ) arg7 fullShare (s7 x0 x1 z7)) -∗ K ⟨⟩))
      ⊢ wp frame (wpE (defs₀ (F := F)) Variants.none c none) E (cc1_relu_bias_stats_kernel i arg1 harg1 arg2 harg2 arg3 harg3 arg4 harg4 arg5 harg5 arg6 harg6 arg7 harg7) K := by
  simp only [cc1_relu_bias_stats_kernel_eq_skeleton]; unfold cc1_relu_bias_stats_kernel_skel
  unfold owns
  iintro ⟨⟨%f0, %hf0, H0⟩, ⟨%f1, %hf1, H1⟩, ⟨%d2, %f2, -, H2⟩, ⟨%f3, %hf3, H3⟩, ⟨%f4, %hf4, H4⟩, ⟨%d6, %f6, -, H6⟩, ⟨%d7, %f7, -, H7⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverA _)
  isplitl [H3]
  · iexists f3; isplitr; · ipureintro; rfl
    iexact H3
  isplitl [H4]
  · iexists f4; isplitr; · ipureintro; rfl
    iexact H4
  isplitl [H6]
  · iexists _; isplitr
    swap; · iexact H6
    ipureintro
    unfold run1_A.sl.v13 run1_A.sl.H6_1
    exact read_acc_first arg6.view f6 k1_pay1
      (k1_pay4 (View.ld (arg2.view.read (Elt F) f1) rB) (View.ld (arg1.view.read (Elt F) f0) rA))
  iexists _; isplitr
  swap; · iexact H7
  ipureintro
  unfold run1_A.sl.v20 run1_A.sl.H7_1
  exact read_acc_first arg7.view f7 k1_pay2
    (k1_pay5 (View.ld (arg2.view.read (Elt F) f1) rB) (View.ld (arg1.view.read (Elt F) f0) rA))

set_option maxHeartbeats 1000000 in
/-- THE BODY AT THE LAST POINT (the write-out branch taken, the zeroing branch not). The statistics windows may hold
    anything: after the accumulators' update each is overwritten whole with its accumulator, so the windows and the
    accumulators all end at `s6 x0 x1 a6`, `s7 x0 x1 a7`; the rest as between. -/
theorem run1_C (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S5000x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (hc0 : ¬cond1_0 i) (hc1 : cond1_1 i)
    (x0 : Vec F S5000x128 .f32) (x1 : Vec F S1x128 .f32) (a6 a7 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (∃ d, owns (c : Thread nD τ) arg4 fullShare d) ∗ (∃ d, owns (c : Thread nD τ) arg5 fullShare d)
        ∗ owns (c : Thread nD τ) arg6 fullShare a6 ∗ owns (c : Thread nD τ) arg7 fullShare a7
        ∗ (iprop(owns (c : Thread nD τ) arg1 fullShare x0 ∗ owns (c : Thread nD τ) arg2 fullShare x1 ∗ owns (c : Thread nD τ) arg3 fullShare (y1 x0 x1)
            ∗ owns (c : Thread nD τ) arg4 fullShare (s6 x0 x1 a6) ∗ owns (c : Thread nD τ) arg5 fullShare (s7 x0 x1 a7)
            ∗ owns (c : Thread nD τ) arg6 fullShare (s6 x0 x1 a6) ∗ owns (c : Thread nD τ) arg7 fullShare (s7 x0 x1 a7)) -∗ K ⟨⟩))
      ⊢ wp frame (wpE (defs₀ (F := F)) Variants.none c none) E (cc1_relu_bias_stats_kernel i arg1 harg1 arg2 harg2 arg3 harg3 arg4 harg4 arg5 harg5 arg6 harg6 arg7 harg7) K := by
  simp only [cc1_relu_bias_stats_kernel_eq_skeleton]; unfold cc1_relu_bias_stats_kernel_skel
  unfold owns
  iintro ⟨⟨%f0, %hf0, H0⟩, ⟨%f1, %hf1, H1⟩, ⟨%d2, %f2, -, H2⟩, ⟨%d3, %f3, -, H3⟩, ⟨%d4, %f4, -, H4⟩, ⟨%f6, %hf6, H6⟩, ⟨%f7, %hf7, H7⟩, Hk⟩
  subst hf0; subst hf1; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro; exact View.read_writes_eq_canon _ _ _ (coverA _)
  isplitl [H3]
  · iexists _; isplitr
    swap; · iexact H3
    ipureintro
    unfold run1_C.sl.v31 run1_C.sl.H6_1
    exact read_copy_acc arg4.view arg6.view f3 _
  isplitl [H4]
  · iexists _; isplitr
    swap; · iexact H4
    ipureintro
    unfold run1_C.sl.v33 run1_C.sl.H7_1
    exact read_copy_acc arg5.view arg7.view f4 _
  isplitl [H6]
  · iexists _; isplitr
    swap; · iexact H6
    ipureintro
    unfold run1_C.sl.H6_1
    exact View.read_writes_eq_canon _ _ _ (coverB _)
  iexists _; isplitr
  swap; · iexact H7
  ipureintro
  unfold run1_C.sl.H7_1
  exact View.read_writes_eq_canon _ _ _ (coverB _)

section Region
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated block's buffer holds its block at every point: it is fetched at each. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The bias row's buffer holds its block at every point: fetched at the first, and its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The two conditions over the grid -/

/-- The zeroing branch is taken at the first point only. -/
theorem hcond1_0 : ∀ t : Fin cfg1.N, cond1_0 (grid1.coords t) ↔ t.val = 0 :=
  (by decide +kernel : ∀ t : Fin grid1.N, cond1_0 (grid1.coords t) ↔ t.val = 0)

/-- The write-out branch is taken at the last point only. -/
theorem hcond1_1 : ∀ t : Fin cfg1.N, cond1_1 (grid1.coords t) ↔ t.val = 19 :=
  (by decide +kernel : ∀ t : Fin grid1.N, cond1_1 (grid1.coords t) ↔ t.val = 19)

/-- Windows 0, 1, 2 are stored or read at every point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Off the last point the two statistics windows are idle and not written back; at it they are live. -/
theorem idleAt1_3 : ∀ t : Fin cfg1.N, ¬cond1_1 (grid1.coords t) → cfg1.idle 3 (grid1.coords t) = true := by decide +kernel
theorem idleAt1_4 : ∀ t : Fin cfg1.N, ¬cond1_1 (grid1.coords t) → cfg1.idle 4 (grid1.coords t) = true := by decide +kernel
theorem noFlush1_3 : ∀ t : Fin cfg1.N, ¬cond1_1 (grid1.coords t) → (cfg1.win 3).flush t = false := by decide +kernel
theorem noFlush1_4 : ∀ t : Fin cfg1.N, ¬cond1_1 (grid1.coords t) → (cfg1.win 4).flush t = false := by decide +kernel
theorem liveAt1_3 : ∀ t : Fin cfg1.N, cond1_1 (grid1.coords t) → cfg1.idle 3 (grid1.coords t) = false := by decide +kernel
theorem liveAt1_4 : ∀ t : Fin cfg1.N, cond1_1 (grid1.coords t) → cfg1.idle 4 (grid1.coords t) = false := by decide +kernel

/-! ## The scratch accumulators and the invariant's shape -/

/-- The two scratch operands: whole scoped buffers of the kernel's own. -/
abbrev scM1_0 : Memref sig .tc .vmem S1x128 .f32 := Memref.whole cc1_scratch0
abbrev scM1_1 : Memref sig .tc .vmem S1x128 .f32 := Memref.whole cc1_scratch1

/-- The core's scoped buffers other than this region's staging buffers and its two scratch accumulators, at some
    contents each: carried through the region unopened. -/
def Rest1 (c : Dev nD) : sProp 𝕄 :=
  Pipeline.scopedRestBut (Ix := Unit) (Name := ℕ) (U := UR sig nD τ) (Lvl := ℕ) (Val := Elt F) spec1 c [cc1_scratch0, cc1_scratch1]

/-- What the launch hands the region, with the two accumulators split off the scoped rest. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ Rest1 (F := F) c)
          ∗ (∃ r, prngReg c r)) := by
  unfold Pipeline.ΦA Rest1
  rw [Pipeline.scopedRest_split_of_list spec1 c [cc1_scratch0, cc1_scratch1] (by decide) (by decide)]
  simp only [bigSepL_cons_cons, bigSepL_singleton, scM1_0, scM1_1, owns_whole]
  try rfl

end Cert.KernelIdeal.Hand

end
-- ==== Proof.KReg1.lean ====
/-
  Region 1, the biased rectifier with column statistics: the pipeline's proof data and its body obligation.

  The two carried one-row buffers after position n are defined by recursion on n (`acc1`): after the first point, zeros
  plus that point's column sums (of the rectified block, of its squares); after a later point, what the point before left
  plus this point's column sums. The invariant depends on the position (`PhiS1`): before the first point it is what the
  launch hands over — every scoped buffer that is no staging buffer at some contents and the random-bits register at some
  state —; before any later point it holds the two carried buffers at the recursion's values for the point before, the
  other scoped buffers at some contents and the register at some state.

  The proof data (`dat1`) take the arrays as the region finds them, leave each input's buffer at its block, the output
  block's at `y1` of the two input blocks, and the two statistics rows' at the carried buffers after the last point, which
  is asked at the last point only. The body obligation is proved at a generic point by cases on its position — first,
  last, between — from the three triples of the body; off the last point the statistics rows go back as found. At its
  two ends the invariant is the launch's: equal to it before the first point, and giving it back after the last by
  forgetting what the carried buffers hold.
-/
import proofs.«121379_j57501022159518_1_alg».proof.Proof.KReg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered
variable (V : (c : Dev nD) → (b : Ref sig .tc) → Buf (Elt F) ((c : Thread nD τ).loc b))

/-! ## The accumulators point by point -/

/-- THE ACCUMULATION. What the two scratch buffers hold after the body at position `n`: at the first point the
    zeroed buffers with the point's column sums (of `y`, of `y * y`) added; afterwards what the point before left
    with this point's column sums added. -/
def acc1 (c : Dev nD) : (n : ℕ) → n < cfg1.N → Vec F S1x128 .f32 × Vec F S1x128 .f32
  | 0, hn => (s6 (iblk1 V c 0 ⟨0, hn⟩) (iblk1 V c 1 ⟨0, hn⟩) z6, s7 (iblk1 V c 0 ⟨0, hn⟩) (iblk1 V c 1 ⟨0, hn⟩) z7)
  | n + 1, hn =>
    (s6 (iblk1 V c 0 ⟨n + 1, hn⟩) (iblk1 V c 1 ⟨n + 1, hn⟩) (acc1 c n (Nat.lt_of_succ_lt hn)).1,
      s7 (iblk1 V c 0 ⟨n + 1, hn⟩) (iblk1 V c 1 ⟨n + 1, hn⟩) (acc1 c n (Nat.lt_of_succ_lt hn)).2)

/-- `acc1` at the first point. -/
theorem acc1_first (c : Dev nD) (t : Fin cfg1.N) (h : t.val = 0) :
    acc1 V c t.val t.isLt = (s6 (iblk1 V c 0 t) (iblk1 V c 1 t) z6, s7 (iblk1 V c 0 t) (iblk1 V c 1 t) z7) := by
  obtain ⟨n, hn⟩ := t
  cases n with
  | zero => rfl
  | succ n => exact absurd h (Nat.succ_ne_zero n)

/-- `acc1` at a later point, over what the point before left. -/
theorem acc1_later (c : Dev nD) (t : Fin cfg1.N) (h : t.val ≠ 0) :
    acc1 V c t.val t.isLt
      = (s6 (iblk1 V c 0 t) (iblk1 V c 1 t) (acc1 V c (t.val - 1) (Nat.lt_of_le_of_lt (Nat.sub_le _ _) t.isLt)).1,
          s7 (iblk1 V c 0 t) (iblk1 V c 1 t) (acc1 V c (t.val - 1) (Nat.lt_of_le_of_lt (Nat.sub_le _ _) t.isLt)).2) := by
  obtain ⟨n, hn⟩ := t
  cases n with
  | zero => exact absurd rfl h
  | succ n => rfl

/-- `acc1` does not depend on the proof of the bound. -/
theorem acc1_congr (c : Dev nD) {n n' : ℕ} (e : n = n') (h : n < cfg1.N) (h' : n' < cfg1.N) : acc1 V c n h = acc1 V c n' h' := by
  subst e; rfl

/-- The last point's position is inside the grid. -/
theorem last1_lt : 19 < cfg1.N := by decide

/-! ## The invariant, point by point -/

/-- The region invariant before position `n`: before the first point what the launch hands over (every scoped buffer
    that is no staging buffer at anything, the generator register at some state); afterwards the two accumulators at what
    the point before left (`acc1`), the other scoped buffers at anything, the register at some state. -/
def PhiS1 (c : Dev nD) : (n : ℕ) → n ≤ cfg1.N → sProp 𝕄
  | 0, _ => Pipeline.ΦA spec1 c
  | n + 1, hn => iprop(((owns (c : Thread nD τ) scM1_0 fullShare (acc1 V c n hn).1 ∗ owns (c : Thread nD τ) scM1_1 fullShare (acc1 V c n hn).2)
      ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(((owns (c : Thread nD τ) scM1_0 fullShare (acc1 V c n hn).1 ∗ owns (c : Thread nD τ) scM1_1 fullShare (acc1 V c n hn).2)
      ∗ Rest1 (F := F) c) ∗ (∃ r, prngReg c r)) := rfl

theorem PhiS1_pos (c : Dev nD) (n : ℕ) (h : n ≤ cfg1.N) (hz : n ≠ 0) :
    PhiS1 V c n h = iprop(((owns (c : Thread nD τ) scM1_0 fullShare (acc1 V c (n - 1) (by omega)).1
        ∗ owns (c : Thread nD τ) scM1_1 fullShare (acc1 V c (n - 1) (by omega)).2)
      ∗ Rest1 (F := F) c) ∗ (∃ r, prngReg c r)) := by
  cases n with
  | zero => exact absurd rfl hz
  | succ n => rfl

/-! ## The pipeline's proof data -/

/-- The proof data of pipeline 1 on core `c`: the arrays as the region finds them; after the body each input's buffer at
    its block, the output block's at `y1` of the two input blocks, the two statistics windows' at the accumulators after
    the last point (what the body stores there, asked at the last point only: elsewhere they are idle); the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => y1 (iblk1 V c 0 t) (iblk1 V c 1 t)
    | ⟨3, _⟩ => (acc1 V c 19 last1_lt).1
    | ⟨4, _⟩ => (acc1 V c 19 last1_lt).2
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = y1 (iblk1 V c 0 t) (iblk1 V c 1 t) := by dsimp only [dat1]
theorem after1_3 (c : Dev nD) (t : Fin cfg1.N) : (dat1 V c).after 3 t = (acc1 V c 19 last1_lt).1 := by dsimp only [dat1]
theorem after1_4 (c : Dev nD) (t : Fin cfg1.N) : (dat1 V c).after 4 t = (acc1 V c 19 last1_lt).2 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' buffers hold their blocks; the position decides the case — first point, last
    point, or between —; the invariant hands the body the accumulators at what the point before left (at anything at the
    first point) and takes them back at this point's `acc1`; off the last point the two statistics windows are handed
    back as found, at it they hold the accumulators; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h1 : t.val = 19
  · -- the last point
    have hz : t.val ≠ 0 := by omega
    have hc0 : ¬cond1_0 (grid1.coords t) := fun h => hz ((hcond1_0 t).mp h)
    have hc1 : cond1_1 (grid1.coords t) := (hcond1_1 t).mpr h1
    rw [show (dat1 V c).leavesExact 3 t = owns (c : Thread nD τ) (st1_3 t) fullShare ((dat1 V c).after 3 t) from by
      unfold Dat.leavesExact; rw [liveAt1_3 t hc1], after1_3]
    rw [show (dat1 V c).leavesExact 4 t = owns (c : Thread nD τ) (st1_4 t) fullShare ((dat1 V c).after 4 t) from by
      unfold Dat.leavesExact; rw [liveAt1_4 t hc1], after1_4]
    rw [acc1_congr V c h1.symm last1_lt t.isLt, acc1_later V c t hz]
    dsimp only
    rw [PhiS1_castSucc V c t, PhiS1_pos V c _ _ hz]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (run1_C c Set.univ (grid1.coords t) _ _ _ _ _ _ _ _ _ _ _ _ _ _ hc0 hc1 (iblk1 V c 0 t) (iblk1 V c 1 t) _ _ _)
    isplitl [H0]; · iexact H0
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexact H4
  · have hc1 : ¬cond1_1 (grid1.coords t) := fun h => h1 ((hcond1_1 t).mp h)
    rw [Dat.leavesExact_idle (dat1 V c) 3 t (idleAt1_3 t hc1) (noFlush1_3 t hc1)]
    rw [Dat.leavesExact_idle (dat1 V c) 4 t (idleAt1_4 t hc1) (noFlush1_4 t hc1)]
    by_cases hz : t.val = 0
    · -- the first point
      have hc0 : cond1_0 (grid1.coords t) := (hcond1_0 t).mpr hz
      rw [acc1_first V c t hz]
      dsimp only
      rw [PhiS1_castSucc V c t, PhiS1_zero V c _ _ hz, PhiA1_eq]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run1_A c Set.univ (grid1.coords t) _ _ _ _ _ _ _ _ _ _ _ _ _ _ hc0 hc1 (iblk1 V c 0 t) (iblk1 V c 1 t) _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4
    · -- a point between
      have hc0 : ¬cond1_0 (grid1.coords t) := fun h => hz ((hcond1_0 t).mp h)
      rw [acc1_later V c t hz]
      dsimp only
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (run1_B c Set.univ (grid1.coords t) _ _ _ _ _ _ _ _ _ _ _ _ _ _ hc0 hc1 (iblk1 V c 0 t) (iblk1 V c 1 t) _ _ _ _ _)
      isplitl [H0]; · iexact H0
      isplitl [H1]; · iexact H1
      isplitl [H2]; · iexists _; iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After any point the invariant gives the launch's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Region

end Cert.KernelIdeal.Hand

end
-- ==== Proof.KData1.lean ====
/-
  Region 1 — the biased rectifier that also accumulates each column's sum and sum of squares over the twenty row
  blocks in two carried buffers — as the record the run takes: its proof data at any entry contents, its body
  obligation, and its invariant, which before the first point is the scoped rest with the generator register and
  afterwards names the two carried buffers' contents point by point.
-/
import proofs.«121379_j57501022159518_1_alg».proof.Proof.KRun
import proofs.«121379_j57501022159518_1_alg».proof.Proof.KReg1

noncomputable section

namespace Cert.KernelIdeal.Hand

open Cert.KernelIdeal Cert.KernelIdeal.Gen
open Idealize.ShloMosaic Idealize.ShloMosaic.TcCoe
open Idealize.SL Idealize.SL.BI Idealize.SL.Sem
open Idealize.SL.BI.BIBase
open Idealize.ShloMosaic.Pipeline (Dat BodyObligation)

variable {F : FTy → Type} [FloatOps F]

/-- Region 1's record. -/
def rd1 : RD1 F where
  dat := dat1
  hA := fun V c w => A_eq1 V c w
  hq := fun _ _ _ => rfl
  ho := fun _ _ _ => rfl
  hrec := fun _ _ _ => rfl
  hbody := fun V c => body_obligation1 V c
  hin := fun V c => hin1 V c
  hout := fun V c => hout1 V c

end Cert.KernelIdeal.Hand

end
-- ==== Proof.KVal0.lean ====
/-
  Kernel region 0 at the ideal values: one entry of the output staging buffer after the body is the inner product
  of a row of the x block with a column of W₁ — the roundings to bf16 do nothing on extended reals and the zero
  accumulator contributes nothing.
-/
import proofs.«121379_j57501022159518_1_alg».proof.Proof.KReg0
import Idealize.ShloMosaic.Lib.ValueIdx
import Idealize.ShloMosaic.PureOps.Ideal.Laws
import Idealize.ShloMosaic.Lib.Pipeline.Value
import Idealize.ShloMosaic.Lib.ValueLayout

noncomputable section

namespace Cert.KernelIdeal.Hand

open Cert.KernelIdeal.Gen
open Idealize.ShloMosaic Idealize.ShloMosaic.ValueIdx

/-- Shorthand for the dimension numbers of the product: rows × 25 times 25 × columns. -/
abbrev dims0 : DotDims S5000x25 S25x128 S5000x128 := dot_S5000x25_S25x128_S5000x128_1_0_0_1_n_n

/-- The left operand's index at output (p, q) and contraction position k is (p, k). -/
theorem lhs0_idx (p : Fin 5000) (q : Fin 128) (k : Fin 25) :
    dims0.lhsIdx (ix2 p q) ((contrEquiv1 dims0 25 rfl rfl).symm k) = ix2 p k := by
  have hk := contrEquiv1_symm_val dims0 25 rfl rfl k
  funext a; apply Fin.ext
  match a with
  | ⟨0, _⟩ =>
    show (dims0.lhsIdx (ix2 p q) _ (0 : Fin S5000x25.rank)).val = p.val
    unfold DotDims.lhsIdx
    rw [dif_neg (show ¬(0 : Fin S5000x25.rank) ∈ dims0.lhsBatch by decide),
      dif_pos (show (0 : Fin S5000x25.rank) ∈ dims0.lhsNonContracting by decide)]
    rfl
  | ⟨1, _⟩ => exact (dims0.lhsIdx_val_of_single (cl := (1 : Fin S5000x25.rank)) rfl (ix2 p q) _).trans hk

/-- The right operand's index there is (k, q). -/
theorem rhs0_idx (p : Fin 5000) (q : Fin 128) (k : Fin 25) :
    dims0.rhsIdx (ix2 p q) ((contrEquiv1 dims0 25 rfl rfl).symm k) = ix2 k q := by
  have hk := contrEquiv1_symm_val dims0 25 rfl rfl k
  funext a; apply Fin.ext
  match a with
  | ⟨0, _⟩ => exact (dims0.rhsIdx_val_of_single (cr := (0 : Fin S25x128.rank)) rfl (ix2 p q) _).trans hk
  | ⟨1, _⟩ =>
    show (dims0.rhsIdx (ix2 p q) _ (1 : Fin S25x128.rank)).val = q.val
    unfold DotDims.rhsIdx
    rw [dif_neg (show ¬(1 : Fin S25x128.rank) ∈ dims0.rhsBatch by decide),
      dif_pos (show (1 : Fin S25x128.rank) ∈ dims0.rhsNonContracting by decide)]
    rfl

/-- The stored payload at (p, q): the sum over k < 25 of v0 (p, k) · v2 (k, q). -/
theorem k0_pay1_apply (v0 : Vec Ideal S5000x25 .f32) (v2 : Vec Ideal S25x128 .f32) (p : Fin 5000) (q : Fin 128) :
    k0_pay1 (F := Ideal) v0 v2 (ix2 p q) = ∑ k : Fin 25, v0 (ix2 p k) * v2 (ix2 k q) := by
  unfold k0_pay1
  simp only [matmul]
  rw [Ideal.matmul_constant_zero_apply, ← Equiv.sum_comp (contrEquiv1 dims0 25 rfl rfl).symm]
  refine Finset.sum_congr rfl fun k _ => ?_
  rw [lhs0_idx, rhs0_idx]
  rfl

/-- The output staging buffer after the body, entry (p, q): row p of the x block against column q of W₁. -/
theorem out0_apply (x0 : Vec Ideal S5000x25 .f32) (x1 : Vec Ideal S25x128 .f32) (p : Fin 5000) (q : Fin 128) :
    out0_2 (F := Ideal) x0 x1 (ix2 p q) = ∑ k : Fin 25, x0 (ix2 p k) * x1 (ix2 k q) := by
  unfold out0_2
  rw [View.canon_unit_zero (S := S5000x128) (by funext a; match a with | ⟨0, _⟩ => rfl | ⟨1, _⟩ => rfl)]
  rw [View.ld_unit_zero (S := S5000x25) (by funext a; match a with | ⟨0, _⟩ => rfl | ⟨1, _⟩ => rfl),
    View.ld_unit_zero (S := S25x128) (by funext a; match a with | ⟨0, _⟩ => rfl | ⟨1, _⟩ => rfl)]
  exact k0_pay1_apply x0 x1 p q

end Cert.KernelIdeal.Hand

end
-- ==== Proof.KFin0.lean ====
/-
  Kernel region 0 at the ideal values, from blocks to the whole array: the 20 write-backs of the output window,
  each the product of a 5000-row block of x with W₁, together leave the output array equal to the product of the
  two input arrays as the region found them.
-/
import proofs.«121379_j57501022159518_1_alg».proof.Proof.KReg0
import proofs.«121379_j57501022159518_1_alg».proof.Proof.KVal0
import Idealize.ShloMosaic.Lib.Pipeline.Value

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The product of a 100000×25 array with a 25×128 array, entry by entry. -/
def mm0 (A : S100000x25.Idx → Elt Ideal .f32) (B : S25x128.Idx → Elt Ideal .f32) : S100000x128.Idx → Elt Ideal .f32 :=
  fun i => ∑ k : Fin 25, A (ix2 (i 0 : Fin 100000) k) * B (ix2 k (i 1 : Fin 128))

theorem mm0_apply (A : S100000x25.Idx → Elt Ideal .f32) (B : S25x128.Idx → Elt Ideal .f32) (r : Fin 100000) (q : Fin 128) :
    mm0 A B (ix2 r q) = ∑ k : Fin 25, A (ix2 r k) * B (ix2 k q) := rfl

/-- Where the three windows sit at grid point t: the x block and the output block are the t-th of 20 row blocks,
    W₁ is always its one block. Checked point by point. -/
theorem blocks_at0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is the t-th row block of the product of the two arrays. -/
theorem flushed0_eq (c : Dev nD) (t : Fin cfg0.N) :
    (dat0 (F := Ideal) V c).flushed 2 t
      = ((cfg0.win 2).blk t).view.read (Elt Ideal) (mm0 (V c (Pipeline.arrRef spec0 0)) (V c (Pipeline.arrRef spec0 1))) := by
  show (cfg0.win 2).cut (grid0.coords t) ((dat0 V c).after 2 t) = _
  rw [after0_2]
  obtain ⟨e00, e01, e10, e11, e20, e21⟩ := blocks_at0 t
  funext j
  obtain ⟨p, q, rfl⟩ : ∃ (p : Fin 5000) (q : Fin 128), j = ix2 p q := ⟨j 0, j 1, eq_ix2 j⟩
  show out0_2 (F := Ideal) (iblk0 V c 0 t) (iblk0 V c 1 t) (ix2 p q)
      = mm0 (V c (Pipeline.arrRef spec0 0)) (V c (Pipeline.arrRef spec0 1)) (((cfg0.win 2).blk t).view.emb (ix2 p q))
  rw [out0_apply]
  have ht : t.val < 20 := lt_of_lt_of_eq t.isLt N_0
  have ho : ((cfg0.win 2).blk t).view.emb (ix2 p q)
      = (ix2 (⟨t.val * 5000 + p.val, by omega⟩ : Fin 100000) q : S100000x128.Idx) := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [ho, mm0_apply]
  refine Finset.sum_congr rfl fun k _ => ?_
  have hx : ((cfg0.win 0).blk t).view.emb (ix2 p k)
      = (ix2 (⟨t.val * 5000 + p.val, by omega⟩ : Fin 100000) k : S100000x25.Idx) := by
    funext a; apply Fin.ext
    match a with
    | ⟨0, _⟩ => show win0_0.index t (0 : Fin 2) * 5000 + 1 * p.val = t.val * 5000 + p.val; omega
    | ⟨1, _⟩ => show win0_0.index t (1 : Fin 2) * 25 + 1 * k.val = k.val; omega
  have hw : ((cfg0.win 1).blk t).view.emb (ix2 k q) = (ix2 k q : S25x128.Idx) := by
    funext a; apply Fin.ext
    match a with
    | ⟨0, _⟩ => show win0_1.index t (0 : Fin 2) * 25 + 1 * k.val = k.val; omega
    | ⟨1, _⟩ => show win0_1.index t (1 : Fin 2) * 128 + 1 * q.val = q.val; omega
  exact congrArg₂ (· * ·)
    (congrArg (V c (Pipeline.arrRef spec0 0) : S100000x25.Idx → Elt Ideal .f32) hx)
    (congrArg (V c (Pipeline.arrRef spec0 1) : S25x128.Idx → Elt Ideal .f32) hw)

/-- Membership of an array index in point t's output block, coordinate by coordinate. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array lies in the block of the point numbered by its row divided by 5000, and every
    point writes back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, lt_of_lt_of_eq (by omega : (i 0).val / 5000 < 20) N_0.symm⟩
  obtain ⟨e00, e01, e10, e11, e20, e21⟩ := blocks_at0 t
  have et : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array once the region has run: the product of the two input arrays it started from. -/
theorem final0 (c : Dev nD) :
    (dat0 (F := Ideal) V c).arrAt 2 cfg0.N = mm0 (V c (Pipeline.arrRef spec0 0)) (V c (Pipeline.arrRef spec0 1)) :=
  (dat0 V c).arrAt_eq_of_cover 2 _ (fun t _ => flushed0_eq V c t) cover0

/-- The two input arrays as the region finds them, read as plain functions of a two-coordinate index. -/
abbrev xArr0 (c : Dev nD) : S100000x25.Idx → Elt Ideal .f32 := V c (Pipeline.arrRef spec0 0)
abbrev wArr0 (c : Dev nD) : S25x128.Idx → Elt Ideal .f32 := V c (Pipeline.arrRef spec0 1)

/-- The same, entry (r, q): row r of x against column q of W₁. -/
theorem final0_apply (c : Dev nD) (r : Fin 100000) (q : Fin 128) :
    (dat0 (F := Ideal) V c).arrAt 2 cfg0.N (ix2 r q) = ∑ k : Fin 25, xArr0 V c (ix2 r k) * wArr0 V c (ix2 k q) :=
  (congrFun (final0 V c) (ix2 r q)).trans (mm0_apply _ _ r q)

end Cert.KernelIdeal.Hand

end
-- ==== Proof.KVal2.lean ====
/-
  Region 2 over the extended reals: the output staging buffer after the body, read at a row `p` and a column `q`,
  is  x[p,q] * scale[0,q] + shift[0,q].
-/
import proofs.«121379_j57501022159518_1_alg».proof.Proof.KReg2
import Idealize.ShloMosaic.Lib.ValueIdx
import Idealize.ShloMosaic.PureOps.Ideal.Laws
import Idealize.ShloMosaic.Lib.Pipeline.Value
import Idealize.ShloMosaic.Lib.ValueLayout

noncomputable section

namespace Cert.KernelIdeal.Hand

open Cert.KernelIdeal.Gen
open Idealize.ShloMosaic Idealize.ShloMosaic.ValueIdx

/-- The offset of a whole-buffer access is zero on both axes. -/
private theorem off00 : (![0, 0] : Fin 2 → Nat) = fun _ => 0 := funext fun a => by fin_cases a <;> rfl

/-- The store's payload at `(p, q)`: the identity reshapes drop out, each broadcast row reads its one row at column
    `q`, and the product and the sum act elementwise. (`v0` is the scale row, `v4` the shift row, `v8` the x block.) -/
theorem k2_pay1_apply (v0 v4 : Vec Ideal S1x128 .f32) (v8 : Vec Ideal S5000x128 .f32) (p : Fin 5000) (q : Fin 128) :
    k2_pay1 (F := Ideal) v0 v4 v8 (ix2 p q)
      = (v8 (ix2 p q) * v0 (ix2 (0 : Fin 1) q) + v4 (ix2 (0 : Fin 1) q) : Ideal .f32) := by
  show shapeCast S5000x128 v8 _ (ix2 p q)
        * broadcastTo S5000x128 (shapeCast S1x128 (shapeCast S1x128 v0 _) _) _ (ix2 p q)
      + broadcastTo S5000x128 (shapeCast S1x128 (shapeCast S1x128 v4 _) _) _ (ix2 p q) = _
  rw [shapeCast_self, shapeCast_self, shapeCast_self, shapeCast_self, shapeCast_self,
    broadcastTo_1b_ab_apply, broadcastTo_1b_ab_apply]

/-- The output buffer after the body at `(p, q)`, from the x block `x0`, the scale row `x1` and the shift row `x2`:
    the single store covers the buffer, the loads read whole buffers, so the buffer is the payload of the inputs. -/
theorem out2_apply (x0 : Vec Ideal S5000x128 .f32) (x1 x2 : Vec Ideal S1x128 .f32) (p : Fin 5000) (q : Fin 128) :
    out2_3 (F := Ideal) x0 x1 x2 (ix2 p q)
      = (x0 (ix2 p q) * x1 (ix2 (0 : Fin 1) q) + x2 (ix2 (0 : Fin 1) q) : Ideal .f32) := by
  unfold out2_3
  rw [View.canon_unit_zero off00]
  simp only [View.ld_unit_zero (S := S5000x128) off00, View.ld_unit_zero (S := S1x128) off00]
  exact k2_pay1_apply x1 x2 x0 p q

end Cert.KernelIdeal.Hand

end
-- ==== Proof.KFin2.lean ====
/-
  Region 2 over the extended reals, from blocks to the whole array: after the 20 write-backs the [100000,128] output
  array holds, at row `r` and column `q`,  x[r,q] * scale[0,q] + shift[0,q]  of the arrays the region found.
-/
import proofs.«121379_j57501022159518_1_alg».proof.Proof.KReg2
import proofs.«121379_j57501022159518_1_alg».proof.Proof.KVal2
import Idealize.ShloMosaic.Lib.ValueIdx
import Idealize.ShloMosaic.PureOps.Ideal.Laws
import Idealize.ShloMosaic.Lib.Pipeline.Value
import Idealize.ShloMosaic.Lib.ValueLayout

set_option maxRecDepth 16384

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

-- what the TensorCore's buffers hold when the region starts
variable (V : (c : Dev nD) → (b : Ref sig .tc) → Buf (Elt Ideal) ((c : Thread nD τ).loc b))

/-- The x array and the scale and shift rows as the region finds them, at their literal shapes. -/
abbrev x2 (c : Dev nD) : S100000x128.Idx → Ideal .f32 := V c (Pipeline.arrRef spec2 0)
abbrev scale2 (c : Dev nD) : S1x128.Idx → Ideal .f32 := V c (Pipeline.arrRef spec2 1)
abbrev shift2 (c : Dev nD) : S1x128.Idx → Ideal .f32 := V c (Pipeline.arrRef spec2 2)

/-- The whole-array function the output ends at: `x * scale row + shift row`, index by index. -/
def affine2 (A0 : S100000x128.Idx → Ideal .f32) (A1 A2 : S1x128.Idx → Ideal .f32) : S100000x128.Idx → Ideal .f32 :=
  fun i => A0 i * A1 (ix2 (0 : Fin 1) (⟨(i 1).val, idx2_lt1 i⟩ : Fin 128)) + A2 (ix2 (0 : Fin 1) (⟨(i 1).val, idx2_lt1 i⟩ : Fin 128))

/-- `affine2` at a row `r` and a column `q`. -/
theorem affine2_apply (A0 : S100000x128.Idx → Ideal .f32) (A1 A2 : S1x128.Idx → Ideal .f32) (r : Fin 100000) (q : Fin 128) :
    affine2 A0 A1 A2 (ix2 r q) = A0 (ix2 r q) * A1 (ix2 (0 : Fin 1) q) + A2 (ix2 (0 : Fin 1) q) := rfl

/-- Where the four windows sit at grid point `t`: x's and the output's row blocks are both block `t` along the rows
    (same block index), nothing moves along the columns, and the scale and shift rows are always block (0,0). -/
theorem blockIdx2 : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 19 :=
  (by decide +kernel : ∀ t : Fin grid2.N, _)

/-- Each of the 20 row blocks of the output is some grid point's. -/
theorem blockOnto2 : ∀ b : Fin 20, ∃ t : Fin cfg2.N, win2_3.index t = ![b.val, 0] :=
  (by decide +kernel : ∀ b : Fin 20, ∃ t : Fin grid2.N, win2_3.index t = ![b.val, 0])

/-- What grid point `t` writes back is block `t` of `affine2` of the arrays the region found. -/
theorem flushed2_eq (c : Dev nD) (t : Fin cfg2.N) :
    (dat2 (F := Ideal) V c).flushed 3 t
      = ((cfg2.win 3).blk t).view.read (Elt Ideal) (affine2 (x2 V c) (scale2 V c) (shift2 V c)) := by
  show (cfg2.win 3).cut (grid2.coords t) ((dat2 V c).after 3 t) = _
  rw [after2_3]
  obtain ⟨e0, e1, e2, e3, e4, e5, e6, e7⟩ := blockIdx2 t
  funext j
  obtain ⟨p, q, rfl⟩ : ∃ (p : Fin 5000) (q : Fin 128), j = ix2 p q := ⟨j 0, j 1, eq_ix2 j⟩
  show out2_3 (F := Ideal) (iblk2 V c 0 t) (iblk2 V c 1 t) (iblk2 V c 2 t) (ix2 p q)
    = affine2 (x2 V c) (scale2 V c) (shift2 V c) (((cfg2.win 3).blk t).view.emb (ix2 p q))
  refine (out2_apply (iblk2 V c 0 t) (iblk2 V c 1 t) (iblk2 V c 2 t) p q).trans ?_
  show (x2 V c (((cfg2.win 0).blk t).view.emb (ix2 p q))
        * scale2 V c (((cfg2.win 1).blk t).view.emb (ix2 (0 : Fin 1) q))
        + shift2 V c (((cfg2.win 2).blk t).view.emb (ix2 (0 : Fin 1) q)) : Ideal .f32)
    = x2 V c (((cfg2.win 3).blk t).view.emb (ix2 p q))
        * scale2 V c (ix2 (0 : Fin 1) (⟨((((cfg2.win 3).blk t).view.emb (ix2 p q)) 1).val, _⟩ : Fin 128))
        + shift2 V c (ix2 (0 : Fin 1) (⟨((((cfg2.win 3).blk t).view.emb (ix2 p q)) 1).val, _⟩ : Fin 128))
  have h0 : ((cfg2.win 0).blk t).view.emb (ix2 p q) = ((cfg2.win 3).blk t).view.emb (ix2 p q) := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * q.val = win2_3.index t (1 : Fin 2) * 128 + 1 * q.val; omega
  have h1 : ((cfg2.win 1).blk t).view.emb (ix2 (0 : Fin 1) q)
      = ix2 (0 : Fin 1) (⟨((((cfg2.win 3).blk t).view.emb (ix2 p q)) 1).val, idx2_lt1 _⟩ : Fin 128) := by
    funext a; apply Fin.ext
    match a with
    | ⟨0, _⟩ => show win2_1.index t (0 : Fin 2) * 1 + 1 * 0 = 0; omega
    | ⟨1, _⟩ => show win2_1.index t (1 : Fin 2) * 128 + 1 * q.val = win2_3.index t (1 : Fin 2) * 128 + 1 * q.val; omega
  have h2 : ((cfg2.win 2).blk t).view.emb (ix2 (0 : Fin 1) q)
      = ix2 (0 : Fin 1) (⟨((((cfg2.win 3).blk t).view.emb (ix2 p q)) 1).val, idx2_lt1 _⟩ : Fin 128) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  rw [h0, h1, h2]

/-- An index of the output array lies in grid point `t`'s block exactly when each coordinate lies in the block's
    range on its axis. -/
theorem mem_blk2 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v62).slice (win2_3.rect t)).set ↔ _
  rw [View.set_slice_whole, Rect.mem_set_unit]
  exact Iff.rfl

/-- The 20 row blocks tile the array: row `r` is in block `r / 5000`, which some grid point writes back. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := blockOnto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The output array after the region is `affine2` of the arrays the region found. -/
theorem final2 (c : Dev nD) :
    (dat2 (F := Ideal) V c).arrAt 3 cfg2.N = affine2 (x2 V c) (scale2 V c) (shift2 V c) :=
  (dat2 (F := Ideal) V c).arrAt_eq_of_cover 3 _ (fun t _ => flushed2_eq V c t) cover2

/-- The same at a row `r` and a column `q`. -/
theorem final2_apply (c : Dev nD) (r : Fin 100000) (q : Fin 128) :
    (dat2 (F := Ideal) V c).arrAt 3 cfg2.N (ix2 r q)
      = (x2 V c (ix2 r q) * scale2 V c (ix2 (0 : Fin 1) q) + shift2 V c (ix2 (0 : Fin 1) q) : Ideal .f32) :=
  congrFun (final2 V c) (ix2 r q)

end Cert.KernelIdeal.Hand

end
-- ==== Proof.KVal3.lean ====
/-
  Kernel region 3 at the ideal values: one entry of the output staging buffer after the body is the inner product
  of a row of the h block with a column of W₂ — the reshape of the block to its own shape and the roundings to bf16
  do nothing on extended reals, and the zero accumulator contributes nothing.
-/
import proofs.«121379_j57501022159518_1_alg».proof.Proof.KReg3
import Idealize.ShloMosaic.Lib.ValueIdx
import Idealize.ShloMosaic.PureOps.Ideal.Laws
import Idealize.ShloMosaic.Lib.Pipeline.Value
import Idealize.ShloMosaic.Lib.ValueLayout

noncomputable section

namespace Cert.KernelIdeal.Hand

open Cert.KernelIdeal.Gen
open Idealize.ShloMosaic Idealize.ShloMosaic.ValueIdx

/-- Shorthand for the dimension numbers of the product: rows × 128 times 128 × columns. -/
abbrev dims3 : DotDims S5000x128 S128x128 S5000x128 := dot_S5000x128_S128x128_S5000x128_1_0_0_1_n_n

/-- The left operand's index at output (p, q) and contraction position k is (p, k). -/
theorem lhs3_idx (p : Fin 5000) (q : Fin 128) (k : Fin 128) :
    dims3.lhsIdx (ix2 p q) ((contrEquiv1 dims3 128 rfl rfl).symm k) = ix2 p k := by
  have hk := contrEquiv1_symm_val dims3 128 rfl rfl k
  funext a; apply Fin.ext
  match a with
  | ⟨0, _⟩ =>
    show (dims3.lhsIdx (ix2 p q) _ (0 : Fin S5000x128.rank)).val = p.val
    unfold DotDims.lhsIdx
    rw [dif_neg (show ¬(0 : Fin S5000x128.rank) ∈ dims3.lhsBatch by decide),
      dif_pos (show (0 : Fin S5000x128.rank) ∈ dims3.lhsNonContracting by decide)]
    rfl
  | ⟨1, _⟩ => exact (dims3.lhsIdx_val_of_single (cl := (1 : Fin S5000x128.rank)) rfl (ix2 p q) _).trans hk

/-- The right operand's index there is (k, q). -/
theorem rhs3_idx (p : Fin 5000) (q : Fin 128) (k : Fin 128) :
    dims3.rhsIdx (ix2 p q) ((contrEquiv1 dims3 128 rfl rfl).symm k) = ix2 k q := by
  have hk := contrEquiv1_symm_val dims3 128 rfl rfl k
  funext a; apply Fin.ext
  match a with
  | ⟨0, _⟩ => exact (dims3.rhsIdx_val_of_single (cr := (0 : Fin S128x128.rank)) rfl (ix2 p q) _).trans hk
  | ⟨1, _⟩ =>
    show (dims3.rhsIdx (ix2 p q) _ (1 : Fin S128x128.rank)).val = q.val
    unfold DotDims.rhsIdx
    rw [dif_neg (show ¬(1 : Fin S128x128.rank) ∈ dims3.rhsBatch by decide),
      dif_pos (show (1 : Fin S128x128.rank) ∈ dims3.rhsNonContracting by decide)]
    rfl

/-- The stored payload at (p, q): the sum over k < 128 of v0 (p, k) · v3 (k, q). -/
theorem k3_pay1_apply (v0 : Vec Ideal S5000x128 .f32) (v3 : Vec Ideal S128x128 .f32) (p : Fin 5000) (q : Fin 128) :
    k3_pay1 (F := Ideal) v0 v3 (ix2 p q) = ∑ k : Fin 128, v0 (ix2 p k) * v3 (ix2 k q) := by
  unfold k3_pay1
  simp only [matmul]
  rw [Ideal.matmul_constant_zero_apply, ← Equiv.sum_comp (contrEquiv1 dims3 128 rfl rfl).symm]
  refine Finset.sum_congr rfl fun k _ => ?_
  rw [lhs3_idx, rhs3_idx, shapeCast_self]
  rfl

/-- The output staging buffer after the body, entry (p, q): row p of the h block against column q of W₂. -/
theorem out3_apply (x0 : Vec Ideal S5000x128 .f32) (x1 : Vec Ideal S128x128 .f32) (p : Fin 5000) (q : Fin 128) :
    out3_2 (F := Ideal) x0 x1 (ix2 p q) = ∑ k : Fin 128, x0 (ix2 p k) * x1 (ix2 k q) := by
  unfold out3_2
  rw [View.canon_unit_zero (S := S5000x128) (by funext a; match a with | ⟨0, _⟩ => rfl | ⟨1, _⟩ => rfl)]
  rw [View.ld_unit_zero (S := S5000x128) (by funext a; match a with | ⟨0, _⟩ => rfl | ⟨1, _⟩ => rfl),
    View.ld_unit_zero (S := S128x128) (by funext a; match a with | ⟨0, _⟩ => rfl | ⟨1, _⟩ => rfl)]
  exact k3_pay1_apply x0 x1 p q

end Cert.KernelIdeal.Hand

end
-- ==== Proof.KFin3.lean ====
/-
  Kernel region 3 at the ideal values, from blocks to the whole array: the 20 write-backs of the output window,
  each the product of a 5000-row block of h with W₂, together leave the output array equal to the product of the
  two input arrays as the region found them.
-/
import proofs.«121379_j57501022159518_1_alg».proof.Proof.KReg3
import proofs.«121379_j57501022159518_1_alg».proof.Proof.KVal3
import Idealize.ShloMosaic.Lib.Pipeline.Value

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The product of a 100000×128 array with a 128×128 array, entry by entry. -/
def mm3 (A : S100000x128.Idx → Elt Ideal .f32) (B : S128x128.Idx → Elt Ideal .f32) : S100000x128.Idx → Elt Ideal .f32 :=
  fun i => ∑ k : Fin 128, A (ix2 (i 0 : Fin 100000) k) * B (ix2 k (i 1 : Fin 128))

theorem mm3_apply (A : S100000x128.Idx → Elt Ideal .f32) (B : S128x128.Idx → Elt Ideal .f32) (r : Fin 100000) (q : Fin 128) :
    mm3 A B (ix2 r q) = ∑ k : Fin 128, A (ix2 r k) * B (ix2 k q) := rfl

/-- Where the three windows sit at grid point t: the h block and the output block are the t-th of 20 row blocks,
    W₂ is always its one block. Checked point by point. -/
theorem blocks_at3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is the t-th row block of the product of the two arrays. -/
theorem flushed3_eq (c : Dev nD) (t : Fin cfg3.N) :
    (dat3 (F := Ideal) V c).flushed 2 t
      = ((cfg3.win 2).blk t).view.read (Elt Ideal) (mm3 (V c (Pipeline.arrRef spec3 0)) (V c (Pipeline.arrRef spec3 1))) := by
  show (cfg3.win 2).cut (grid3.coords t) ((dat3 V c).after 2 t) = _
  rw [after3_2]
  obtain ⟨e00, e01, e10, e11, e20, e21⟩ := blocks_at3 t
  funext j
  obtain ⟨p, q, rfl⟩ : ∃ (p : Fin 5000) (q : Fin 128), j = ix2 p q := ⟨j 0, j 1, eq_ix2 j⟩
  show out3_2 (F := Ideal) (iblk3 V c 0 t) (iblk3 V c 1 t) (ix2 p q)
      = mm3 (V c (Pipeline.arrRef spec3 0)) (V c (Pipeline.arrRef spec3 1)) (((cfg3.win 2).blk t).view.emb (ix2 p q))
  rw [out3_apply]
  have ht : t.val < 20 := lt_of_lt_of_eq t.isLt N_3
  have ho : ((cfg3.win 2).blk t).view.emb (ix2 p q)
      = (ix2 (⟨t.val * 5000 + p.val, by omega⟩ : Fin 100000) q : S100000x128.Idx) := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  rw [ho, mm3_apply]
  refine Finset.sum_congr rfl fun k _ => ?_
  have hx : ((cfg3.win 0).blk t).view.emb (ix2 p k)
      = (ix2 (⟨t.val * 5000 + p.val, by omega⟩ : Fin 100000) k : S100000x128.Idx) := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * k.val = k.val; omega
  have hw : ((cfg3.win 1).blk t).view.emb (ix2 k q) = (ix2 k q : S128x128.Idx) := by
    funext a; apply Fin.ext
    match a with
    | ⟨0, _⟩ => show win3_1.index t (0 : Fin 2) * 128 + 1 * k.val = k.val; omega
    | ⟨1, _⟩ => show win3_1.index t (1 : Fin 2) * 128 + 1 * q.val = q.val; omega
  exact congrArg₂ (· * ·)
    (congrArg (V c (Pipeline.arrRef spec3 0) : S100000x128.Idx → Elt Ideal .f32) hx)
    (congrArg (V c (Pipeline.arrRef spec3 1) : S128x128.Idx → Elt Ideal .f32) hw)

/-- Membership of an array index in point t's output block, coordinate by coordinate. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v63).slice (win3_2.rect t)).set ↔ _
  rw [View.set_slice_whole, Rect.mem_set_unit]
  exact Iff.rfl

/-- Every index of the output array lies in the block of the point numbered by its row divided by 5000, and every
    point writes back. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  let t : Fin cfg3.N := ⟨(i 0).val / 5000, lt_of_lt_of_eq (by omega : (i 0).val / 5000 < 20) N_3.symm⟩
  obtain ⟨e00, e01, e10, e11, e20, e21⟩ := blocks_at3 t
  have et : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array once the region has run: the product of the two input arrays it started from. -/
theorem final3 (c : Dev nD) :
    (dat3 (F := Ideal) V c).arrAt 2 cfg3.N = mm3 (V c (Pipeline.arrRef spec3 0)) (V c (Pipeline.arrRef spec3 1)) :=
  (dat3 V c).arrAt_eq_of_cover 2 _ (fun t _ => flushed3_eq V c t) cover3

/-- The two input arrays as the region finds them, read as plain functions of a two-coordinate index. -/
abbrev xArr3 (c : Dev nD) : S100000x128.Idx → Elt Ideal .f32 := V c (Pipeline.arrRef spec3 0)
abbrev wArr3 (c : Dev nD) : S128x128.Idx → Elt Ideal .f32 := V c (Pipeline.arrRef spec3 1)

/-- The same, entry (r, q): row r of h against column q of W₂. -/
theorem final3_apply (c : Dev nD) (r : Fin 100000) (q : Fin 128) :
    (dat3 (F := Ideal) V c).arrAt 2 cfg3.N (ix2 r q) = ∑ k : Fin 128, xArr3 V c (ix2 r k) * wArr3 V c (ix2 k q) :=
  (congrFun (final3 V c) (ix2 r q)).trans (mm3_apply _ _ r q)

end Cert.KernelIdeal.Hand

end
-- ==== Proof.KVal4.lean ====
/-
  Region 4 over the extended reals: the output staging buffer after the body, read at a row `p` and a column `q`,
  is  max (agg[p,q] + bias[0,q]) 0.
-/
import proofs.«121379_j57501022159518_1_alg».proof.Proof.KReg4
import Idealize.ShloMosaic.Lib.ValueIdx
import Idealize.ShloMosaic.PureOps.Ideal.Laws
import Idealize.ShloMosaic.Lib.Pipeline.Value
import Idealize.ShloMosaic.Lib.ValueLayout

noncomputable section

namespace Cert.KernelIdeal.Hand

open Cert.KernelIdeal.Gen
open Idealize.ShloMosaic Idealize.ShloMosaic.ValueIdx

/-- The offset of a whole-buffer access is zero on both axes. -/
private theorem off00 : (![0, 0] : Fin 2 → Nat) = fun _ => 0 := funext fun a => by fin_cases a <;> rfl

/-- The store's payload at `(p, q)`: the two identity reshapes drop out, the broadcast of the bias row reads its one
    row at column `q`, the sum and the maximum act elementwise, and the splat constant is the zero word. -/
theorem k4_pay1_apply (v0 : Vec Ideal S1x128 .f32) (v4 : Vec Ideal S5000x128 .f32) (p : Fin 5000) (q : Fin 128) :
    k4_pay1 (F := Ideal) v0 v4 (ix2 p q) = (max (v4 (ix2 p q) + v0 (ix2 (0 : Fin 1) q)) 0 : Ideal .f32) := by
  show max (shapeCast S5000x128 v4 _ (ix2 p q)
      + broadcastTo S5000x128 (shapeCast S1x128 (shapeCast S1x128 v0 _) _) _ (ix2 p q)) (Ideal.ofBits .f32 0x00000000#32) = _
  rw [shapeCast_self, shapeCast_self, shapeCast_self, broadcastTo_1b_ab_apply, Ideal.ofBits_zero_f32]

/-- The output buffer after the body at `(p, q)`, from the agg block `x0` and the bias row `x1`: the single store
    covers the buffer, the loads read whole buffers, so the buffer is the payload of the inputs. -/
theorem out4_apply (x0 : Vec Ideal S5000x128 .f32) (x1 : Vec Ideal S1x128 .f32) (p : Fin 5000) (q : Fin 128) :
    out4_2 (F := Ideal) x0 x1 (ix2 p q) = (max (x0 (ix2 p q) + x1 (ix2 (0 : Fin 1) q)) 0 : Ideal .f32) := by
  unfold out4_2
  rw [View.canon_unit_zero off00]
  simp only [View.ld_unit_zero (S := S5000x128) off00, View.ld_unit_zero (S := S1x128) off00]
  exact k4_pay1_apply x1 x0 p q

end Cert.KernelIdeal.Hand

end
-- ==== Proof.KFin4.lean ====
/-
  Region 4 over the extended reals, from blocks to the whole array: after the 20 write-backs the [100000,128] output
  array holds, at row `r` and column `q`,  max (agg[r,q] + bias[0,q]) 0  of the arrays the region found.
-/
import proofs.«121379_j57501022159518_1_alg».proof.Proof.KReg4
import proofs.«121379_j57501022159518_1_alg».proof.Proof.KVal4
import Idealize.ShloMosaic.Lib.ValueIdx
import Idealize.ShloMosaic.PureOps.Ideal.Laws
import Idealize.ShloMosaic.Lib.Pipeline.Value
import Idealize.ShloMosaic.Lib.ValueLayout

set_option maxRecDepth 16384

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

-- what the TensorCore's buffers hold when the region starts
variable (V : (c : Dev nD) → (b : Ref sig .tc) → Buf (Elt Ideal) ((c : Thread nD τ).loc b))

/-- The agg array and the bias row as the region finds them, at their literal shapes. -/
abbrev agg4 (c : Dev nD) : S100000x128.Idx → Ideal .f32 := V c (Pipeline.arrRef spec4 0)
abbrev bias4 (c : Dev nD) : S1x128.Idx → Ideal .f32 := V c (Pipeline.arrRef spec4 1)

/-- The whole-array function the output ends at: `max (agg + bias row) 0`, index by index. -/
def relu4 (A0 : S100000x128.Idx → Ideal .f32) (A1 : S1x128.Idx → Ideal .f32) : S100000x128.Idx → Ideal .f32 :=
  fun i => max (A0 i + A1 (ix2 (0 : Fin 1) (⟨(i 1).val, idx2_lt1 i⟩ : Fin 128))) 0

/-- `relu4` at a row `r` and a column `q`. -/
theorem relu4_apply (A0 : S100000x128.Idx → Ideal .f32) (A1 : S1x128.Idx → Ideal .f32) (r : Fin 100000) (q : Fin 128) :
    relu4 A0 A1 (ix2 r q) = max (A0 (ix2 r q) + A1 (ix2 (0 : Fin 1) q)) 0 := rfl

/-- Where the three windows sit at grid point `t`: agg's and the output's row blocks are both block `t` along the
    rows (same block index), nothing moves along the columns, and the bias row is always block (0,0). -/
theorem blockIdx4 : ∀ t : Fin cfg4.N, win4_0.index t (0 : Fin 2) = win4_2.index t (0 : Fin 2)
    ∧ win4_0.index t (1 : Fin 2) = 0 ∧ win4_2.index t (1 : Fin 2) = 0
    ∧ win4_1.index t (0 : Fin 2) = 0 ∧ win4_1.index t (1 : Fin 2) = 0
    ∧ win4_2.index t (0 : Fin 2) ≤ 19 :=
  (by decide +kernel : ∀ t : Fin grid4.N, _)

/-- Each of the 20 row blocks of the output is some grid point's. -/
theorem blockOnto4 : ∀ b : Fin 20, ∃ t : Fin cfg4.N, win4_2.index t = ![b.val, 0] :=
  (by decide +kernel : ∀ b : Fin 20, ∃ t : Fin grid4.N, win4_2.index t = ![b.val, 0])

/-- What grid point `t` writes back is block `t` of `relu4` of the arrays the region found. -/
theorem flushed4_eq (c : Dev nD) (t : Fin cfg4.N) :
    (dat4 (F := Ideal) V c).flushed 2 t
      = ((cfg4.win 2).blk t).view.read (Elt Ideal) (relu4 (agg4 V c) (bias4 V c)) := by
  show (cfg4.win 2).cut (grid4.coords t) ((dat4 V c).after 2 t) = _
  rw [after4_2]
  obtain ⟨e0, e1, e2, e3, e4, e5⟩ := blockIdx4 t
  funext j
  obtain ⟨p, q, rfl⟩ : ∃ (p : Fin 5000) (q : Fin 128), j = ix2 p q := ⟨j 0, j 1, eq_ix2 j⟩
  show out4_2 (F := Ideal) (iblk4 V c 0 t) (iblk4 V c 1 t) (ix2 p q)
    = relu4 (agg4 V c) (bias4 V c) (((cfg4.win 2).blk t).view.emb (ix2 p q))
  refine (out4_apply (iblk4 V c 0 t) (iblk4 V c 1 t) p q).trans ?_
  show (max (agg4 V c (((cfg4.win 0).blk t).view.emb (ix2 p q))
        + bias4 V c (((cfg4.win 1).blk t).view.emb (ix2 (0 : Fin 1) q))) 0 : Ideal .f32)
    = max (agg4 V c (((cfg4.win 2).blk t).view.emb (ix2 p q))
        + bias4 V c (ix2 (0 : Fin 1) (⟨((((cfg4.win 2).blk t).view.emb (ix2 p q)) 1).val, _⟩ : Fin 128))) 0
  have h0 : ((cfg4.win 0).blk t).view.emb (ix2 p q) = ((cfg4.win 2).blk t).view.emb (ix2 p q) := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * q.val = win4_2.index t (1 : Fin 2) * 128 + 1 * q.val; omega
  have h1 : ((cfg4.win 1).blk t).view.emb (ix2 (0 : Fin 1) q)
      = ix2 (0 : Fin 1) (⟨((((cfg4.win 2).blk t).view.emb (ix2 p q)) 1).val, idx2_lt1 _⟩ : Fin 128) := by
    funext a; apply Fin.ext
    match a with
    | ⟨0, _⟩ => show win4_1.index t (0 : Fin 2) * 1 + 1 * 0 = 0; omega
    | ⟨1, _⟩ => show win4_1.index t (1 : Fin 2) * 128 + 1 * q.val = win4_2.index t (1 : Fin 2) * 128 + 1 * q.val; omega
  rw [h0, h1]

/-- An index of the output array lies in grid point `t`'s block exactly when each coordinate lies in the block's
    range on its axis. -/
theorem mem_blk4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v78).slice (win4_2.rect t)).set ↔ _
  rw [View.set_slice_whole, Rect.mem_set_unit]
  exact Iff.rfl

/-- The 20 row blocks tile the array: row `r` is in block `r / 5000`, which some grid point writes back. -/
theorem cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := blockOnto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the region is `relu4` of the arrays the region found. -/
theorem final4 (c : Dev nD) :
    (dat4 (F := Ideal) V c).arrAt 2 cfg4.N = relu4 (agg4 V c) (bias4 V c) :=
  (dat4 (F := Ideal) V c).arrAt_eq_of_cover 2 _ (fun t _ => flushed4_eq V c t) cover4

/-- The same at a row `r` and a column `q`. -/
theorem final4_apply (c : Dev nD) (r : Fin 100000) (q : Fin 128) :
    (dat4 (F := Ideal) V c).arrAt 2 cfg4.N (ix2 r q)
      = (max (agg4 V c (ix2 r q) + bias4 V c (ix2 (0 : Fin 1) q)) 0 : Ideal .f32) :=
  congrFun (final4 V c) (ix2 r q)

end Cert.KernelIdeal.Hand

end
-- ==== Proof.LibConcatenate.lean ====
/-
  Rewriting inside a two-operand concatenation.

  `concatenate t a xs h` carries a proof `h` that the operands' SHAPES concatenate to `t` along axis `a`; the proof's
  type mentions the operand list, so a rewriting tactic cannot replace an operand's VALUE inside the list by itself. For two
  operands of fixed shapes the proof's type does not depend on the values at all, which is this congruence: equal
  operand values give equal concatenations, under the same proof.
-/
import Idealize.ShloMosaic.PureOps.Ideal.Laws
import Idealize.ShloMosaic.Lib.ValueIdx

noncomputable section

namespace Idealize.ShloMosaic

/-- A concatenation of two arrays depends on them only through their values: congruence in both operands, the
    shape proof unchanged (as a local congruence rule it lets a simplification rewrite the operands). -/
theorem concatenate_pair_congr {α : Type} (t : Shape) (a : Fin t.rank) (s1 s2 : Shape)
    {x x' : s1.Idx → α} {y y' : s2.Idx → α} (h : Shape.Concatenates [s1, s2] t a) (hx : x = x') (hy : y = y') :
    concatenate t a [⟨s1, x⟩, ⟨s2, y⟩] h = concatenate t a [⟨s1, x'⟩, ⟨s2, y'⟩] h := by
  subst hx hy; rfl

end Idealize.ShloMosaic

end
-- ==== Proof.BnAlgebra.lean ====
import Mathlib.Data.EReal.Basic
import Mathlib.Data.EReal.Operations
import Mathlib.Algebra.BigOperators.Group.Finset.Basic
import Mathlib.Algebra.BigOperators.Ring.Finset
import Mathlib.Tactic

/-!
# Batch-normalisation algebra on the extended reals

Training-mode batch normalisation can be computed in two ways.  The *running-sum* way keeps the
column sum `S = ∑ y` and the sum of squares `Q = ∑ y·y`, and sets `mean = S/n`,
`var = Q/n − mean·mean`, then applies `y·scale + shift` with `scale = γ·r` and
`shift = β − mean·scale`.  The *textbook* way sets `mean = S/n`,
`var = (∑ (y − mean)·(y − mean))/n` and applies `(y − mean)·r·γ + β`.

Over the extended reals the two do not agree in general (`⊤ − ⊤` is not a ring operation), but they
do agree as soon as every entry is the coercion of a real number, because then every intermediate
value is again such a coercion and the identity is the usual one in `ℝ`.  Division by `n` is
written as multiplication by the coerced inverse `((n⁻¹ : ℝ) : EReal)`.
-/

namespace Cert.BnAlgebra

open Finset

/-- An extended real is *real* when it is the coercion of a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion `ℝ → EReal` is monotone, so it commutes with `max`. -/
theorem coe_max (a b : ℝ) : ((max a b : ℝ) : EReal) = max (a : EReal) (b : EReal) :=
  EReal.coe_strictMono.monotone.map_max

theorem IsReal.max {x y : EReal} (hx : IsReal x) (hy : IsReal y) : IsReal (max x y) := by
  obtain ⟨a, rfl⟩ := hx
  obtain ⟨b, rfl⟩ := hy
  exact ⟨Max.max a b, (coe_max a b).symm⟩

/-- A real extended real is neither infinity. -/
theorem IsReal.ne_top {x : EReal} (hx : IsReal x) : x ≠ ⊤ := by
  obtain ⟨a, rfl⟩ := hx
  exact EReal.coe_ne_top a

theorem IsReal.ne_bot {x : EReal} (hx : IsReal x) : x ≠ ⊥ := by
  obtain ⟨a, rfl⟩ := hx
  exact EReal.coe_ne_bot a

/-- Conversely an extended real that is neither infinity is real. -/
theorem isReal_of_ne {x : EReal} (ht : x ≠ ⊤) (hb : x ≠ ⊥) : IsReal x :=
  ⟨x.toReal, (EReal.coe_toReal ht hb).symm⟩

/-- The coercion commutes with finite sums (over any finset). -/
theorem sum_coe_finset {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The coercion commutes with sums over a finite type. -/
theorem sum_coe {ι : Type*} [Fintype ι] (f : ι → ℝ) :
    (∑ i, ((f i : ℝ) : EReal)) = ((∑ i, f i : ℝ) : EReal) :=
  sum_coe_finset Finset.univ f

/-- A finite sum of real extended reals is real. -/
theorem IsReal.sum {ι : Type*} {s : Finset ι} {f : ι → EReal} (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

theorem IsReal.sum_univ {ι : Type*} [Fintype ι] {f : ι → EReal} (h : ∀ i, IsReal (f i)) :
    IsReal (∑ i, f i) :=
  IsReal.sum fun i _ => h i

/-- The variance identity in `ℝ`: with `μ = S/n` and `n` the number of rows,
`∑ (y − μ)² = ∑ y² − 2μ·S + n·μ²`, and dividing by `n` gives `Q/n − μ²`. -/
theorem var_two_ways_real {ι : Type*} [Fintype ι] (f : ι → ℝ) (n : ℝ)
    (hn : n = (Fintype.card ι : ℝ)) (hpos : 0 < n) :
    (∑ i, (f i - (∑ j, f j) * n⁻¹) * (f i - (∑ j, f j) * n⁻¹)) * n⁻¹
      = (∑ i, f i * f i) * n⁻¹ - ((∑ j, f j) * n⁻¹) * ((∑ j, f j) * n⁻¹) := by
  have hne : n ≠ 0 := ne_of_gt hpos
  generalize hμ : (∑ j, f j) * n⁻¹ = μ
  have hS : (∑ j, f j) = n * μ := by rw [← hμ]; field_simp
  have hexp : ∀ i, (f i - μ) * (f i - μ) = f i * f i - 2 * μ * f i + μ * μ := fun i => by ring
  have hsum : (∑ i, (f i - μ) * (f i - μ)) = (∑ i, f i * f i) - 2 * μ * (n * μ) + n * (μ * μ) := by
    simp only [hexp]
    rw [Finset.sum_add_distrib, Finset.sum_sub_distrib, ← Finset.mul_sum, hS, Finset.sum_const,
      Finset.card_univ, nsmul_eq_mul, ← hn]
  rw [hsum]
  field_simp
  ring

/-- The variance as the mean of squared deviations, in `ℝ`, is non-negative. -/
theorem var_nonneg_real {ι : Type*} [Fintype ι] (f : ι → ℝ) (n : ℝ) (hpos : 0 < n) :
    0 ≤ (∑ i, (f i - (∑ j, f j) * n⁻¹) * (f i - (∑ j, f j) * n⁻¹)) * n⁻¹ :=
  mul_nonneg (Finset.sum_nonneg fun i _ => mul_self_nonneg _) (inv_nonneg.mpr hpos.le)

/-- The textbook variance of a real-valued column, written on `EReal`, is the coercion of the
textbook variance computed in `ℝ`. -/
theorem var_left_coe {ι : Type*} [Fintype ι] (f : ι → ℝ) (n : ℝ) :
    (∑ i, (((f i : ℝ) : EReal) - (∑ j, ((f j : ℝ) : EReal)) * ((n⁻¹ : ℝ) : EReal)) *
          (((f i : ℝ) : EReal) - (∑ j, ((f j : ℝ) : EReal)) * ((n⁻¹ : ℝ) : EReal))) * ((n⁻¹ : ℝ) : EReal)
      = (((∑ i, (f i - (∑ j, f j) * n⁻¹) * (f i - (∑ j, f j) * n⁻¹)) * n⁻¹ : ℝ) : EReal) := by
  rw [sum_coe]
  simp only [← EReal.coe_mul, ← EReal.coe_sub]
  rw [sum_coe, ← EReal.coe_mul]

/-- The running-sum variance of a real-valued column, written on `EReal`, is the coercion of the
running-sum variance computed in `ℝ`. -/
theorem var_right_coe {ι : Type*} [Fintype ι] (f : ι → ℝ) (n : ℝ) :
    (∑ i, ((f i : ℝ) : EReal) * ((f i : ℝ) : EReal)) * ((n⁻¹ : ℝ) : EReal)
        - ((∑ j, ((f j : ℝ) : EReal)) * ((n⁻¹ : ℝ) : EReal)) * ((∑ j, ((f j : ℝ) : EReal)) * ((n⁻¹ : ℝ) : EReal))
      = (((∑ i, f i * f i) * n⁻¹ - ((∑ j, f j) * n⁻¹) * ((∑ j, f j) * n⁻¹) : ℝ) : EReal) := by
  rw [sum_coe]
  simp only [← EReal.coe_mul]
  rw [sum_coe, ← EReal.coe_mul, ← EReal.coe_sub]

/-- **The two variances agree** on a column of real extended reals: the mean of squared deviations
from the mean equals the mean of squares minus the square of the mean. -/
theorem var_two_ways {ι : Type*} [Fintype ι] (y : ι → EReal) (hy : ∀ i, IsReal (y i)) (n : ℝ)
    (hn : n = (Fintype.card ι : ℝ)) (hpos : 0 < n) :
    (∑ i, (y i - (∑ j, y j) * ((n⁻¹ : ℝ) : EReal)) * (y i - (∑ j, y j) * ((n⁻¹ : ℝ) : EReal)))
          * ((n⁻¹ : ℝ) : EReal)
      = (∑ i, y i * y i) * ((n⁻¹ : ℝ) : EReal)
          - ((∑ j, y j) * ((n⁻¹ : ℝ) : EReal)) * ((∑ j, y j) * ((n⁻¹ : ℝ) : EReal)) := by
  choose f hf using hy
  obtain rfl : y = fun i => ((f i : ℝ) : EReal) := funext hf
  rw [var_left_coe, var_right_coe, var_two_ways_real f n hn hpos]

/-- The textbook variance of a column of real extended reals is real. -/
theorem var_isReal {ι : Type*} [Fintype ι] (y : ι → EReal) (hy : ∀ i, IsReal (y i)) (n : ℝ)
    (hn : n = (Fintype.card ι : ℝ)) (hpos : 0 < n) :
    IsReal ((∑ i, (y i - (∑ j, y j) * ((n⁻¹ : ℝ) : EReal)) * (y i - (∑ j, y j) * ((n⁻¹ : ℝ) : EReal)))
          * ((n⁻¹ : ℝ) : EReal)) := by
  choose f hf using hy
  obtain rfl : y = fun i => ((f i : ℝ) : EReal) := funext hf
  rw [var_left_coe]
  exact IsReal.coe _

/-- The textbook variance of a column of real extended reals is non-negative: it is a sum of
squares divided by a positive number. -/
theorem var_nonneg {ι : Type*} [Fintype ι] (y : ι → EReal) (hy : ∀ i, IsReal (y i)) (n : ℝ)
    (hn : n = (Fintype.card ι : ℝ)) (hpos : 0 < n) :
    0 ≤ (∑ i, (y i - (∑ j, y j) * ((n⁻¹ : ℝ) : EReal)) * (y i - (∑ j, y j) * ((n⁻¹ : ℝ) : EReal)))
          * ((n⁻¹ : ℝ) : EReal) := by
  choose f hf using hy
  obtain rfl : y = fun i => ((f i : ℝ) : EReal) := funext hf
  rw [var_left_coe]
  exact EReal.coe_nonneg.mpr (var_nonneg_real f n hpos)

/-- **The two affine maps agree** on real extended reals: centring, scaling by `r` and `γ` and
adding `β` is the same as multiplying by the folded scale `γ·r` and adding the folded shift
`β − μ·(γ·r)`. -/
theorem affine_two_ways (y μ r γ β : EReal) (hy : IsReal y) (hμ : IsReal μ) (hr : IsReal r)
    (hγ : IsReal γ) (hβ : IsReal β) :
    (y - μ) * r * γ + β = y * (γ * r) + (β - μ * (γ * r)) := by
  obtain ⟨y, rfl⟩ := hy
  obtain ⟨μ, rfl⟩ := hμ
  obtain ⟨r, rfl⟩ := hr
  obtain ⟨γ, rfl⟩ := hγ
  obtain ⟨β, rfl⟩ := hβ
  simp only [← EReal.coe_mul, ← EReal.coe_sub, ← EReal.coe_add]
  congr 1
  ring

end Cert.BnAlgebra
-- ==== Proof.KStats.lean ====
/-
  The batch statistics between regions 1 and 2, over the extended reals.  Region 1 leaves two [1,128] rows: the column
  sums `S` and the column sums of squares `Q` of its output.  The host operations that follow turn them, with the
  per-column weight `g` and offset `b`, into the affine map's two rows:
      mean = S / 1e5,   var = Q / 1e5 - mean * mean,   gain = g * rsqrt (var + eps),
      scale = gain,     shift = b - mean * gain.
  `kScale` and `kShift` are those operations composed exactly as the program lists them; the two theorems read them
  at a column.
-/
import proofs.«121379_j57501022159518_1_alg».proof.Proof.Gen.KernelIdeal.Launch
import proofs.«121379_j57501022159518_1_alg».proof.Proof.BnAlgebra
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

/-! ## The operations, composed as listed -/

/-- The column means: the sums row flattened to [128] and divided by the splat constant `1e5`. -/
def kMean (S : FVec Ideal S1x128 .f32) : FVec Ideal S128 .f32 :=
  Host.divf (shapeCast S128 S shapeCasts_S1x128_S128)
    (broadcastInDim S128 ![] bcast_S_S128 (constant (F := Ideal) S_ .f32 0x47C35000#32))

/-- The column variances plus the splat constant `eps`: mean of squares minus squared mean, plus `eps`. -/
def kVarEps (S Q : FVec Ideal S1x128 .f32) : FVec Ideal S128 .f32 :=
  addf
    (subf
      (Host.divf (shapeCast S128 Q shapeCasts_S1x128_S128)
        (broadcastInDim S128 ![] bcast_S_S128 (constant (F := Ideal) S_ .f32 0x47C35000#32)))
      (mulf (kMean S) (kMean S)))
    (broadcastInDim S128 ![] bcast_S_S128 (constant (F := Ideal) S_ .f32 0x3727C5AC#32))

/-- The per-column gain: the weight times the reciprocal square root of variance plus `eps`. -/
def kGain (S Q : FVec Ideal S1x128 .f32) (g : FVec Ideal S128 .f32) : FVec Ideal S128 .f32 :=
  mulf g (Host.rsqrt (kVarEps S Q))

/-- The scale row: the gain, as a [1,128] row. -/
def kScale (S Q : FVec Ideal S1x128 .f32) (g : FVec Ideal S128 .f32) : FVec Ideal S1x128 .f32 :=
  shapeCast S1x128 (kGain S Q g) shapeCasts_S128_S1x128

/-- The shift row: the offset minus mean times gain, as a [1,128] row. -/
def kShift (S Q : FVec Ideal S1x128 .f32) (g b : FVec Ideal S128 .f32) : FVec Ideal S1x128 .f32 :=
  shapeCast S1x128 (subf b (mulf (kMean S) (kGain S Q g))) shapeCasts_S128_S1x128

/-! ## Read at a column -/

/-- The word `0x47C35000` is the real number `100000`. -/
theorem ofBits_1e5 : Ideal.ofBits .f32 0x47C35000#32 = ((100000 : ℝ) : EReal) := by
  simp [Ideal.ofBits, Ideal.ieee, -EReal.coe_mul]; norm_num

/-- Dividing an extended real by `1e5` multiplies it by the real `100000⁻¹`, infinities included. -/
theorem div_1e5 (x : EReal) :
    Ideal.div x (Ideal.ofBits .f32 0x47C35000#32) = x * (((100000 : ℝ)⁻¹ : ℝ) : EReal) := by
  rw [ofBits_1e5, Ideal.div_coe (by norm_num), one_div]

/-- The mean of column `q`. -/
theorem kMean_apply (S : FVec Ideal S1x128 .f32) (q : Fin 128) :
    kMean S (ix1 q) = S (ix2 (0 : Fin 1) q) * (((100000 : ℝ)⁻¹ : ℝ) : EReal) := by
  show Ideal.div (shapeCast S128 S shapeCasts_S1x128_S128 (ix1 q)) (Ideal.ofBits .f32 0x47C35000#32) = _
  rw [shapeCast_1a_a_apply, div_1e5]

/-- Variance plus `eps` of column `q`. -/
theorem kVarEps_apply (S Q : FVec Ideal S1x128 .f32) (q : Fin 128) :
    kVarEps S Q (ix1 q)
      = Q (ix2 (0 : Fin 1) q) * (((100000 : ℝ)⁻¹ : ℝ) : EReal)
          - S (ix2 (0 : Fin 1) q) * (((100000 : ℝ)⁻¹ : ℝ) : EReal) * (S (ix2 (0 : Fin 1) q) * (((100000 : ℝ)⁻¹ : ℝ) : EReal))
        + Ideal.ofBits .f32 0x3727C5AC#32 := by
  show Ideal.div (shapeCast S128 Q shapeCasts_S1x128_S128 (ix1 q)) (Ideal.ofBits .f32 0x47C35000#32)
      - kMean S (ix1 q) * kMean S (ix1 q) + Ideal.ofBits .f32 0x3727C5AC#32 = _
  rw [shapeCast_1a_a_apply, div_1e5, kMean_apply]

/-- The scale row at column `q`. -/
theorem kScale_apply (S Q : FVec Ideal S1x128 .f32) (g : FVec Ideal S128 .f32) (q : Fin 128) :
    kScale S Q g (ix2 (0 : Fin 1) q)
      = g (ix1 q) * Ideal.rsqrt
          (Q (ix2 (0 : Fin 1) q) * (((100000 : ℝ)⁻¹ : ℝ) : EReal)
            - S (ix2 (0 : Fin 1) q) * (((100000 : ℝ)⁻¹ : ℝ) : EReal) * (S (ix2 (0 : Fin 1) q) * (((100000 : ℝ)⁻¹ : ℝ) : EReal))
          + Ideal.ofBits .f32 0x3727C5AC#32) := by
  unfold kScale
  rw [shapeCast_a_1a_apply]
  show g (ix1 q) * Ideal.rsqrt (kVarEps S Q (ix1 q)) = _
  rw [kVarEps_apply]

/-- The shift row at column `q`. -/
theorem kShift_apply (S Q : FVec Ideal S1x128 .f32) (g b : FVec Ideal S128 .f32) (q : Fin 128) :
    kShift S Q g b (ix2 (0 : Fin 1) q)
      = b (ix1 q) - S (ix2 (0 : Fin 1) q) * (((100000 : ℝ)⁻¹ : ℝ) : EReal)
          * (g (ix1 q) * Ideal.rsqrt
              (Q (ix2 (0 : Fin 1) q) * (((100000 : ℝ)⁻¹ : ℝ) : EReal)
                - S (ix2 (0 : Fin 1) q) * (((100000 : ℝ)⁻¹ : ℝ) : EReal) * (S (ix2 (0 : Fin 1) q) * (((100000 : ℝ)⁻¹ : ℝ) : EReal))
              + Ideal.ofBits .f32 0x3727C5AC#32)) := by
  unfold kShift
  rw [shapeCast_a_1a_apply]
  show b (ix1 q) - kMean S (ix1 q) * (g (ix1 q) * Ideal.rsqrt (kVarEps S Q (ix1 q))) = _
  rw [kMean_apply, kVarEps_apply]

end Cert.KernelIdeal.Hand

end
-- ==== Proof.KStages.lean ====
/-
  The kernel's host stretches as named stages.  Between its regions the program computes, on the host side:
  the edge lists with self-loops (`rowF`, `colF`), the in-degrees (`degF`) and their reciprocal square roots where
  positive (`dinvF`), the per-edge normalisation (`normF`), the normalised neighbourhood sum of a feature array
  (`agg`), the bias vectors as rows (`rowvec`), and the batch-statistics rows.  Each stage below is the listed
  operations composed as printed, as a pure function of what the stretch reads; each lemma says that the stretch,
  run from any valuation, leaves that function's value in the named buffer.
-/
import proofs.«121379_j57501022159518_1_alg».proof.Proof.Gen.KernelIdeal.Launch
import Idealize.ShloMosaic.Lib.StableHlo.Run
import proofs.«121379_j57501022159518_1_alg».proof.Proof.LibConcatenate
import proofs.«121379_j57501022159518_1_alg».proof.Proof.KStats

set_option maxRecDepth 16384

noncomputable section

namespace Cert.KernelIdeal.Hand

open Cert.KernelIdeal Cert.KernelIdeal.Gen
open Idealize.ShloMosaic Idealize.ShloMosaic.StableHlo

variable {F : FTy → Type} [FloatOps F]

/-! ## The stages -/

/-- Source endpoints: row 0 of the [2,1600000] edge array, flattened, followed by the self-loop indices 0 … 99999. -/
def rowF (ei : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩]
    concatenates_S1600000_S100000_S1700000_d0

/-- Target endpoints: row 1 of the edge array, flattened, followed by the same self-loop indices. -/
def colF (ei : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩]
    concatenates_S1600000_S100000_S1700000_d0

/-- In-degrees: ones scattered and added at the target endpoints into a zero vector. -/
def degF (col : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 col)
    (broadcastInDim S1700000 ![] bcast_S_S1700000 (constant (F := F) S_ .f32 0x3F800000#32))

/-- Reciprocal square root of the degree where it is positive, zero elsewhere. -/
def dinvF (deg : (⟨S100000, .f32⟩ : BufTy).Contents (Elt F)) : (⟨S100000, .f32⟩ : BufTy).Contents (Elt F) :=
  select (cmpf .ogt deg (broadcastInDim S100000 ![] bcast_S_S100000 (constant (F := F) S_ .f32 0x00000000#32)))
    (Host.rsqrt deg)
    (broadcastInDim S100000 ![] bcast_S_S100000 (constant (F := F) S_ .f32 0x00000000#32))

/-- A possibly negative index wrapped once: `v + 100000` where `v < 0`, `v` elsewhere. -/
def fixIdx (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32)))
    v

/-- Per-edge normalisation: the source's factor times the target's. -/
def normF (row col : (⟨S1700000, .i32⟩ : BufTy).Contents (Elt F)) (dinv : (⟨S100000, .f32⟩ : BufTy).Contents (Elt F)) :
    (⟨S1700000, .f32⟩ : BufTy).Contents (Elt F) :=
  mulf
    (Host.gather gather_S100000_S1700000x1_S1700000_n_0_n_n_0_1_1 dinv
      (broadcastInDim S1700000x1 ![0] bcast_S1700000_S1700000x1_0 (fixIdx (F := F) row)))
    (Host.gather gather_S100000_S1700000x1_S1700000_n_0_n_n_0_1_1 dinv
      (broadcastInDim S1700000x1 ![0] bcast_S1700000_S1700000x1_0 (fixIdx (F := F) col)))

/-- Normalised neighbourhood sum: the rows of `h` gathered at the source endpoints, scaled per edge, scattered and
    added at the target endpoints into a zero array. -/
def agg (row col : (⟨S1700000, .i32⟩ : BufTy).Contents (Elt F)) (nrm : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant (F := F) S_ .f32 0x00000000#32))
    (broadcastInDim S1700000x1 ![0] bcast_S1700000_S1700000x1_0 col)
    (mulf
      (Host.gather gather_S100000x128_S1700000x1_S1700000x128_1_0_n_n_0_1_1128 h
        (broadcastInDim S1700000x1 ![0] bcast_S1700000_S1700000x1_0 (fixIdx (F := F) row)))
      (broadcastInDim S1700000x128 ![0, 1] bcast_S1700000x1_S1700000x128_0_1
        (broadcastInDim S1700000x1 ![0] bcast_S1700000_S1700000x1_0 nrm)))

/-- A [128] vector as a [1,128] row. -/
def rowvec (b : (⟨S128, .f32⟩ : BufTy).Contents (Elt F)) : (⟨S1x128, .f32⟩ : BufTy).Contents (Elt F) :=
  shapeCast S1x128 b shapeCasts_S128_S1x128

/-! ## What each stretch leaves -/

set_option maxHeartbeats 4000000 in
/-- The first stretch leaves the source endpoints in `%5`, -/
theorem ops0_row (W : Valuation τ sig (Elt F)) :
    after (hostOps0 (F := F)) W (Proc.devRef .tc main_v5) = rowF (W (Proc.devRef .tc main_arg1)) := by
  after_results_simp
  unfold rowF
  refine concatenate_pair_congr _ _ _ _ _ ?_ ?_
  · after_results_simp; rfl
  · after_results_simp

set_option maxHeartbeats 4000000 in
/-- and the target endpoints in `%6`. -/
theorem ops0_col (W : Valuation τ sig (Elt F)) :
    after (hostOps0 (F := F)) W (Proc.devRef .tc main_v6) = colF (W (Proc.devRef .tc main_arg1)) := by
  after_results_simp
  unfold colF
  refine concatenate_pair_congr _ _ _ _ _ ?_ ?_
  · after_results_simp; rfl
  · after_results_simp

set_option maxHeartbeats 4000000 in
/-- The first two stretches leave the degree factors in `%14`. -/
theorem ops01_dinv (W : Valuation τ sig (Elt F)) :
    after (hostOps0_1 (F := F)) (after (hostOps0 (F := F)) W) (Proc.devRef .tc main_v14) = dinvF (degF (colF (W (Proc.devRef .tc main_arg1)))) := by
  have hc := ops0_col (F := F) W
  simp (disch := decide) only [after_cons, after_nil, nullary_result', unary_result', binary_result', ternary_result', reshape_result', nullary_result_ne', unary_result_ne', binary_result_ne', ternary_result_ne', reshape_result_ne'] at hc
  after_results_simp
  rw [hc]
  rfl

set_option maxHeartbeats 4000000 in
/-- The third stretch leaves the per-edge normalisation in `%29`. -/
theorem ops02_norm (W : Valuation τ sig (Elt F)) :
    after (hostOps0_2 (F := F)) W (Proc.devRef .tc main_v29) = normF (W (Proc.devRef .tc main_v5)) (W (Proc.devRef .tc main_v6)) (W (Proc.devRef .tc main_v14)) := by
  after_results_simp
  rfl

set_option maxHeartbeats 4000000 in
/-- The stretch before region 1 leaves the neighbourhood sum of `%30` in `%43` -/
theorem ops1_agg (W : Valuation τ sig (Elt F)) :
    after (hostOps1 (F := F)) W (Proc.devRef .tc main_v43) = agg (W (Proc.devRef .tc main_v5)) (W (Proc.devRef .tc main_v6)) (W (Proc.devRef .tc main_v29)) (W (Proc.devRef .tc main_v30)) := by
  after_results_simp
  rfl

set_option maxHeartbeats 4000000 in
/-- and the first bias as a row in `%44`. -/
theorem ops1_b1 (W : Valuation τ sig (Elt F)) :
    after (hostOps1 (F := F)) W (Proc.devRef .tc main_v44) = rowvec (W (Proc.devRef .tc main_arg3)) := by
  after_results_simp
  rfl

set_option maxHeartbeats 4000000 in
/-- The stretch before region 2 leaves the scale row in `%60` -/
theorem ops2_scale (W : Valuation τ sig (Elt Ideal)) :
    after (hostOps2 (F := Ideal)) W (Proc.devRef .tc main_v60) = kScale (W (Proc.devRef .tc main_v45_1)) (W (Proc.devRef .tc main_v45_2)) (W (Proc.devRef .tc main_arg4)) := by
  after_results_simp
  rfl

set_option maxHeartbeats 4000000 in
/-- and the shift row in `%61`. -/
theorem ops2_shift (W : Valuation τ sig (Elt Ideal)) :
    after (hostOps2 (F := Ideal)) W (Proc.devRef .tc main_v61)
      = kShift (W (Proc.devRef .tc main_v45_1)) (W (Proc.devRef .tc main_v45_2)) (W (Proc.devRef .tc main_arg4)) (W (Proc.devRef .tc main_arg5)) := by
  after_results_simp
  rfl

set_option maxHeartbeats 4000000 in
/-- The stretch before region 4 leaves the neighbourhood sum of `%63` in `%76` -/
theorem ops4_agg (W : Valuation τ sig (Elt F)) :
    after (hostOps4 (F := F)) W (Proc.devRef .tc main_v76) = agg (W (Proc.devRef .tc main_v5)) (W (Proc.devRef .tc main_v6)) (W (Proc.devRef .tc main_v29)) (W (Proc.devRef .tc main_v63)) := by
  after_results_simp
  rfl

set_option maxHeartbeats 4000000 in
/-- and the second bias as a row in `%77`. -/
theorem ops4_b2 (W : Valuation τ sig (Elt F)) :
    after (hostOps4 (F := F)) W (Proc.devRef .tc main_v77) = rowvec (W (Proc.devRef .tc main_arg7)) := by
  after_results_simp
  rfl

end Cert.KernelIdeal.Hand

end
-- ==== Proof.KValue.lean ====
/-
  What the kernel program's result buffer holds at the end, as one expression of the argument arrays.

  Reading the fold of buffer contents from the last boundary backwards: the result is the biased rectifier (region 4)
  of the second aggregation (a host stretch) of the second matrix product (region 3) of the affine map (region 2) of
  the first rectified array, with the affine map's scale and shift rows computed by a host stretch from the two rows
  of column sums that region 1 leaves beside that array; the first rectified array is region 1's rectifier of the first
  aggregation of the first matrix product (region 0) of the input features and the first weight matrix. The graph
  quantities — the two index vectors with self loops and the edge normalisation — are computed once, before region 0,
  and no later item writes them.
  Region 1 enters through what it leaves in its three output arrays (hypotheses here; its own module proves them).
-/
import proofs.«121379_j57501022159518_1_alg».proof.Proof.KFrame
import proofs.«121379_j57501022159518_1_alg».proof.Proof.KData
import proofs.«121379_j57501022159518_1_alg».proof.Proof.KFin0
import proofs.«121379_j57501022159518_1_alg».proof.Proof.KFin2
import proofs.«121379_j57501022159518_1_alg».proof.Proof.KFin3
import proofs.«121379_j57501022159518_1_alg».proof.Proof.KFin4
import proofs.«121379_j57501022159518_1_alg».proof.Proof.KStages

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (D1 : RD1 Ideal) (c : Dev nD)

/-! ## The graph quantities, computed before region 0 and never written again -/

theorem B3_row : B3 m c (Proc.devRef .tc main_v5) = rowF (m ((c : Thread nD τ).loc main_arg1)) :=
  ((StableHlo.after_of_writes_sub hostOps0_2 _ hostOps0_2_writes (r := main_v5) (by decide)).trans (StableHlo.after_of_writes_sub hostOps0_1 _ hostOps0_1_writes (r := main_v5) (by decide))).trans (ops0_row (B0 m c))
theorem B3_col : B3 m c (Proc.devRef .tc main_v6) = colF (m ((c : Thread nD τ).loc main_arg1)) :=
  ((StableHlo.after_of_writes_sub hostOps0_2 _ hostOps0_2_writes (r := main_v6) (by decide)).trans (StableHlo.after_of_writes_sub hostOps0_1 _ hostOps0_1_writes (r := main_v6) (by decide))).trans (ops0_col (B0 m c))
theorem B3_norm : B3 m c (Proc.devRef .tc main_v29)
    = normF (rowF (m ((c : Thread nD τ).loc main_arg1))) (colF (m ((c : Thread nD τ).loc main_arg1)))
        (dinvF (degF (colF (m ((c : Thread nD τ).loc main_arg1))))) := by
  rw [show B3 m c (Proc.devRef .tc main_v29) = normF (B2 m c (Proc.devRef .tc main_v5)) (B2 m c (Proc.devRef .tc main_v6)) (B2 m c (Proc.devRef .tc main_v14)) from ops02_norm (B2 m c),
    show B2 m c (Proc.devRef .tc main_v5) = _ from (StableHlo.after_of_writes_sub hostOps0_1 _ hostOps0_1_writes (r := main_v5) (by decide)).trans (ops0_row (B0 m c)),
    show B2 m c (Proc.devRef .tc main_v6) = _ from (StableHlo.after_of_writes_sub hostOps0_1 _ hostOps0_1_writes (r := main_v6) (by decide)).trans (ops0_col (B0 m c)),
    show B2 m c (Proc.devRef .tc main_v14) = _ from ops01_dinv (B0 m c)]

/-- The graph quantities as functions of the edge list. -/
abbrev gRow : (⟨S1700000, .i32⟩ : BufTy).Contents (Elt Ideal) := rowF (m ((c : Thread nD τ).loc main_arg1))
abbrev gCol : (⟨S1700000, .i32⟩ : BufTy).Contents (Elt Ideal) := colF (m ((c : Thread nD τ).loc main_arg1))
abbrev gNorm : (⟨S1700000, .f32⟩ : BufTy).Contents (Elt Ideal) := normF (gRow m c) (gCol m c) (dinvF (degF (gCol m c)))

/-! ## Layer 1 -/

/-- Region 0 leaves the product of the features and the first weight matrix. -/
theorem B4_h1 : B4 m rd0 c (Proc.devRef .tc main_v30)
    = mm0 (m ((c : Thread nD τ).loc main_arg0)) (m ((c : Thread nD τ).loc main_arg2)) := by
  rw [show B4 m rd0 c (Proc.devRef .tc main_v30) = (rd0.dat (E3 m) c).arrAt 2 cfg0.N from B4_arr m rd0 c 2]
  rw [show (rd0.dat (E3 m) c).arrAt 2 cfg0.N = mm0 (E3 m c (Pipeline.arrRef spec0 0)) (E3 m c (Pipeline.arrRef spec0 1)) from final0 (E3 m) c]
  rw [show E3 m c (Pipeline.arrRef spec0 0) = m ((c : Thread nD τ).loc main_arg0) from ((StableHlo.after_of_writes_sub hostOps0_2 _ hostOps0_2_writes (r := main_arg0) (by decide)).trans ((StableHlo.after_of_writes_sub hostOps0_1 _ hostOps0_1_writes (r := main_arg0) (by decide)).trans (StableHlo.after_of_writes_sub hostOps0 _ hostOps0_writes (r := main_arg0) (by decide)))),
    show E3 m c (Pipeline.arrRef spec0 1) = m ((c : Thread nD τ).loc main_arg2) from ((StableHlo.after_of_writes_sub hostOps0_2 _ hostOps0_2_writes (r := main_arg2) (by decide)).trans ((StableHlo.after_of_writes_sub hostOps0_1 _ hostOps0_1_writes (r := main_arg2) (by decide)).trans (StableHlo.after_of_writes_sub hostOps0 _ hostOps0_writes (r := main_arg2) (by decide))))]

/-- The first aggregation and the first bias row, as region 1 finds them. -/
theorem B5_agg1 : B5 m rd0 c (Proc.devRef .tc main_v43)
    = agg (gRow m c) (gCol m c) (gNorm m c) (mm0 (m ((c : Thread nD τ).loc main_arg0)) (m ((c : Thread nD τ).loc main_arg2))) := by
  rw [show B5 m rd0 c (Proc.devRef .tc main_v43) = _ from ops1_agg (B4 m rd0 c),
    show B4 m rd0 c (Proc.devRef .tc main_v5) = _ from (B4_of_ne m rd0 c main_v5 (by decide)).trans (B3_row m c),
    show B4 m rd0 c (Proc.devRef .tc main_v6) = _ from (B4_of_ne m rd0 c main_v6 (by decide)).trans (B3_col m c),
    show B4 m rd0 c (Proc.devRef .tc main_v29) = _ from (B4_of_ne m rd0 c main_v29 (by decide)).trans (B3_norm m c),
    B4_h1 m c]
theorem B5_b1 : B5 m rd0 c (Proc.devRef .tc main_v44) = rowvec (m ((c : Thread nD τ).loc main_arg3)) := by
  rw [show B5 m rd0 c (Proc.devRef .tc main_v44) = _ from ops1_b1 (B4 m rd0 c),
    show B4 m rd0 c (Proc.devRef .tc main_arg3) = _ from ((B4_of_ne m rd0 c main_arg3 (by decide)).trans ((StableHlo.after_of_writes_sub hostOps0_2 _ hostOps0_2_writes (r := main_arg3) (by decide)).trans ((StableHlo.after_of_writes_sub hostOps0_1 _ hostOps0_1_writes (r := main_arg3) (by decide)).trans (StableHlo.after_of_writes_sub hostOps0 _ hostOps0_writes (r := main_arg3) (by decide)))))]

/-- The first rectified array: the rectifier of the first aggregation plus the bias row. -/
abbrev y1arr : S100000x128.Idx → Ideal .f32 :=
  relu4 (agg (gRow m c) (gCol m c) (gNorm m c) (mm0 (m ((c : Thread nD τ).loc main_arg0)) (m ((c : Thread nD τ).loc main_arg2))))
    (rowvec (m ((c : Thread nD τ).loc main_arg3)))

/-- What region 1 is assumed to leave: the rectified array, and the rows of its column sums and column sums of squares. -/
structure Region1Leaves : Prop where
  y : ∀ (V : VT Ideal) (c : Dev nD), (D1.dat V c).arrAt 2 cfg1.N = relu4 (V c (Pipeline.arrRef spec1 0)) (V c (Pipeline.arrRef spec1 1))
  s : ∀ (V : VT Ideal) (c : Dev nD) (q : Fin 128), ((D1.dat V c).arrAt 3 cfg1.N : S1x128.Idx → Ideal .f32) (ix2 (0 : Fin 1) q)
        = ∑ r : Fin 100000, relu4 (V c (Pipeline.arrRef spec1 0)) (V c (Pipeline.arrRef spec1 1)) (ix2 r q)
  ss : ∀ (V : VT Ideal) (c : Dev nD) (q : Fin 128), ((D1.dat V c).arrAt 4 cfg1.N : S1x128.Idx → Ideal .f32) (ix2 (0 : Fin 1) q)
        = ∑ r : Fin 100000, relu4 (V c (Pipeline.arrRef spec1 0)) (V c (Pipeline.arrRef spec1 1)) (ix2 r q)
            * relu4 (V c (Pipeline.arrRef spec1 0)) (V c (Pipeline.arrRef spec1 1)) (ix2 r q)

variable (h1 : Region1Leaves D1)

include h1 in
theorem B6_y : B6 m rd0 D1 c (Proc.devRef .tc main_v45_0) = y1arr m c := by
  rw [show B6 m rd0 D1 c (Proc.devRef .tc main_v45_0) = (D1.dat (E5 m rd0) c).arrAt 2 cfg1.N from B6_arr m rd0 D1 c 2, h1.y]
  rw [show E5 m rd0 c (Pipeline.arrRef spec1 0) = _ from B5_agg1 m c, show E5 m rd0 c (Pipeline.arrRef spec1 1) = _ from B5_b1 m c]

/-- The two rows of column statistics region 1 leaves. -/
abbrev sRow : S1x128.Idx → Ideal .f32 := B6 m rd0 D1 c (Proc.devRef .tc main_v45_1)
abbrev qRow : S1x128.Idx → Ideal .f32 := B6 m rd0 D1 c (Proc.devRef .tc main_v45_2)

include h1 in
theorem sRow_apply (q : Fin 128) : sRow m D1 c (ix2 (0 : Fin 1) q) = ∑ r : Fin 100000, y1arr m c (ix2 r q) := by
  show (B6 m rd0 D1 c (Proc.devRef .tc main_v45_1) : S1x128.Idx → Ideal .f32) (ix2 (0 : Fin 1) q) = _
  rw [show B6 m rd0 D1 c (Proc.devRef .tc main_v45_1) = (D1.dat (E5 m rd0) c).arrAt 3 cfg1.N from B6_arr m rd0 D1 c 3, h1.s]
  rw [show E5 m rd0 c (Pipeline.arrRef spec1 0) = _ from B5_agg1 m c, show E5 m rd0 c (Pipeline.arrRef spec1 1) = _ from B5_b1 m c]
include h1 in
theorem qRow_apply (q : Fin 128) : qRow m D1 c (ix2 (0 : Fin 1) q) = ∑ r : Fin 100000, y1arr m c (ix2 r q) * y1arr m c (ix2 r q) := by
  show (B6 m rd0 D1 c (Proc.devRef .tc main_v45_2) : S1x128.Idx → Ideal .f32) (ix2 (0 : Fin 1) q) = _
  rw [show B6 m rd0 D1 c (Proc.devRef .tc main_v45_2) = (D1.dat (E5 m rd0) c).arrAt 4 cfg1.N from B6_arr m rd0 D1 c 4, h1.ss]
  rw [show E5 m rd0 c (Pipeline.arrRef spec1 0) = _ from B5_agg1 m c, show E5 m rd0 c (Pipeline.arrRef spec1 1) = _ from B5_b1 m c]

/-! ## The batch normalisation as the kernel applies it, and layer 2 -/

include h1 in
/-- Region 2 leaves the affine map of the rectified array by the scale and shift rows. -/
theorem B8_bn : B8 m rd0 D1 rd2 c (Proc.devRef .tc main_v62)
    = affine2 (y1arr m c) (kScale (sRow m D1 c) (qRow m D1 c) (m ((c : Thread nD τ).loc main_arg4)))
        (kShift (sRow m D1 c) (qRow m D1 c) (m ((c : Thread nD τ).loc main_arg4)) (m ((c : Thread nD τ).loc main_arg5))) := by
  rw [show B8 m rd0 D1 rd2 c (Proc.devRef .tc main_v62) = (rd2.dat (E7 m rd0 D1) c).arrAt 3 cfg2.N from B8_arr m rd0 D1 rd2 c 3]
  rw [show (rd2.dat (E7 m rd0 D1) c).arrAt 3 cfg2.N = affine2 (x2 (E7 m rd0 D1) c) (scale2 (E7 m rd0 D1) c) (shift2 (E7 m rd0 D1) c) from final2 (E7 m rd0 D1) c]
  rw [show x2 (E7 m rd0 D1) c = y1arr m c from ((StableHlo.after_of_writes_sub hostOps2 _ hostOps2_writes (r := main_v45_0) (by decide))).trans (B6_y m D1 c h1),
    show scale2 (E7 m rd0 D1) c = _ from ops2_scale (B6 m rd0 D1 c),
    show shift2 (E7 m rd0 D1) c = _ from ops2_shift (B6 m rd0 D1 c),
    show B6 m rd0 D1 c (Proc.devRef .tc main_arg4) = m ((c : Thread nD τ).loc main_arg4) from ((B6_of_ne m rd0 D1 c main_arg4 (by decide)).trans ((StableHlo.after_of_writes_sub hostOps1 _ hostOps1_writes (r := main_arg4) (by decide)).trans ((B4_of_ne m rd0 c main_arg4 (by decide)).trans ((StableHlo.after_of_writes_sub hostOps0_2 _ hostOps0_2_writes (r := main_arg4) (by decide)).trans ((StableHlo.after_of_writes_sub hostOps0_1 _ hostOps0_1_writes (r := main_arg4) (by decide)).trans (StableHlo.after_of_writes_sub hostOps0 _ hostOps0_writes (r := main_arg4) (by decide))))))),
    show B6 m rd0 D1 c (Proc.devRef .tc main_arg5) = m ((c : Thread nD τ).loc main_arg5) from ((B6_of_ne m rd0 D1 c main_arg5 (by decide)).trans ((StableHlo.after_of_writes_sub hostOps1 _ hostOps1_writes (r := main_arg5) (by decide)).trans ((B4_of_ne m rd0 c main_arg5 (by decide)).trans ((StableHlo.after_of_writes_sub hostOps0_2 _ hostOps0_2_writes (r := main_arg5) (by decide)).trans ((StableHlo.after_of_writes_sub hostOps0_1 _ hostOps0_1_writes (r := main_arg5) (by decide)).trans (StableHlo.after_of_writes_sub hostOps0 _ hostOps0_writes (r := main_arg5) (by decide)))))))]

/-- The normalised array. -/
abbrev bnArr : S100000x128.Idx → Ideal .f32 :=
  affine2 (y1arr m c) (kScale (sRow m D1 c) (qRow m D1 c) (m ((c : Thread nD τ).loc main_arg4)))
    (kShift (sRow m D1 c) (qRow m D1 c) (m ((c : Thread nD τ).loc main_arg4)) (m ((c : Thread nD τ).loc main_arg5)))

include h1 in
/-- Region 3 leaves the product of the normalised array and the second weight matrix. -/
theorem B9_h2 : B9 m rd0 D1 rd2 rd3 c (Proc.devRef .tc main_v63) = mm3 (bnArr m D1 c) (m ((c : Thread nD τ).loc main_arg6)) := by
  rw [show B9 m rd0 D1 rd2 rd3 c (Proc.devRef .tc main_v63) = (rd3.dat (E8 m rd0 D1 rd2) c).arrAt 2 cfg3.N from B9_arr m rd0 D1 rd2 rd3 c 2]
  rw [show (rd3.dat (E8 m rd0 D1 rd2) c).arrAt 2 cfg3.N = mm3 (E8 m rd0 D1 rd2 c (Pipeline.arrRef spec3 0)) (E8 m rd0 D1 rd2 c (Pipeline.arrRef spec3 1)) from final3 (E8 m rd0 D1 rd2) c]
  rw [show E8 m rd0 D1 rd2 c (Pipeline.arrRef spec3 0) = _ from B8_bn m D1 c h1,
    show E8 m rd0 D1 rd2 c (Pipeline.arrRef spec3 1) = m ((c : Thread nD τ).loc main_arg6) from ((B8_of_ne m rd0 D1 rd2 c main_arg6 (by decide)).trans ((StableHlo.after_of_writes_sub hostOps2 _ hostOps2_writes (r := main_arg6) (by decide)).trans ((B6_of_ne m rd0 D1 c main_arg6 (by decide)).trans ((StableHlo.after_of_writes_sub hostOps1 _ hostOps1_writes (r := main_arg6) (by decide)).trans ((B4_of_ne m rd0 c main_arg6 (by decide)).trans ((StableHlo.after_of_writes_sub hostOps0_2 _ hostOps0_2_writes (r := main_arg6) (by decide)).trans ((StableHlo.after_of_writes_sub hostOps0_1 _ hostOps0_1_writes (r := main_arg6) (by decide)).trans (StableHlo.after_of_writes_sub hostOps0 _ hostOps0_writes (r := main_arg6) (by decide)))))))))]

include h1 in
/-- THE RESULT: the biased rectifier of the second aggregation. -/
theorem B11_result : B11 m rd0 D1 rd2 rd3 rd4 c (Proc.devRef .tc main_v78)
    = relu4 (agg (gRow m c) (gCol m c) (gNorm m c) (mm3 (bnArr m D1 c) (m ((c : Thread nD τ).loc main_arg6))))
        (rowvec (m ((c : Thread nD τ).loc main_arg7))) := by
  rw [show B11 m rd0 D1 rd2 rd3 rd4 c (Proc.devRef .tc main_v78) = (rd4.dat (E10 m rd0 D1 rd2 rd3) c).arrAt 2 cfg4.N from B11_arr m rd0 D1 rd2 rd3 rd4 c 2]
  rw [show (rd4.dat (E10 m rd0 D1 rd2 rd3) c).arrAt 2 cfg4.N = relu4 (agg4 (E10 m rd0 D1 rd2 rd3) c) (bias4 (E10 m rd0 D1 rd2 rd3) c) from final4 (E10 m rd0 D1 rd2 rd3) c]
  rw [show agg4 (E10 m rd0 D1 rd2 rd3) c = _ from ops4_agg (B9 m rd0 D1 rd2 rd3 c), show bias4 (E10 m rd0 D1 rd2 rd3) c = _ from ops4_b2 (B9 m rd0 D1 rd2 rd3 c),
    show B9 m rd0 D1 rd2 rd3 c (Proc.devRef .tc main_v5) = _ from ((B9_of_ne m rd0 D1 rd2 rd3 c main_v5 (by decide)).trans ((B8_of_ne m rd0 D1 rd2 c main_v5 (by decide)).trans ((StableHlo.after_of_writes_sub hostOps2 _ hostOps2_writes (r := main_v5) (by decide)).trans ((B6_of_ne m rd0 D1 c main_v5 (by decide)).trans ((StableHlo.after_of_writes_sub hostOps1 _ hostOps1_writes (r := main_v5) (by decide)).trans (B4_of_ne m rd0 c main_v5 (by decide))))))).trans (B3_row m c),
    show B9 m rd0 D1 rd2 rd3 c (Proc.devRef .tc main_v6) = _ from ((B9_of_ne m rd0 D1 rd2 rd3 c main_v6 (by decide)).trans ((B8_of_ne m rd0 D1 rd2 c main_v6 (by decide)).trans ((StableHlo.after_of_writes_sub hostOps2 _ hostOps2_writes (r := main_v6) (by decide)).trans ((B6_of_ne m rd0 D1 c main_v6 (by decide)).trans ((StableHlo.after_of_writes_sub hostOps1 _ hostOps1_writes (r := main_v6) (by decide)).trans (B4_of_ne m rd0 c main_v6 (by decide))))))).trans (B3_col m c),
    show B9 m rd0 D1 rd2 rd3 c (Proc.devRef .tc main_v29) = _ from ((B9_of_ne m rd0 D1 rd2 rd3 c main_v29 (by decide)).trans ((B8_of_ne m rd0 D1 rd2 c main_v29 (by decide)).trans ((StableHlo.after_of_writes_sub hostOps2 _ hostOps2_writes (r := main_v29) (by decide)).trans ((B6_of_ne m rd0 D1 c main_v29 (by decide)).trans ((StableHlo.after_of_writes_sub hostOps1 _ hostOps1_writes (r := main_v29) (by decide)).trans (B4_of_ne m rd0 c main_v29 (by decide))))))).trans (B3_norm m c),
    B9_h2 m D1 c h1,
    show B9 m rd0 D1 rd2 rd3 c (Proc.devRef .tc main_arg7) = m ((c : Thread nD τ).loc main_arg7) from ((B9_of_ne m rd0 D1 rd2 rd3 c main_arg7 (by decide)).trans ((B8_of_ne m rd0 D1 rd2 c main_arg7 (by decide)).trans ((StableHlo.after_of_writes_sub hostOps2 _ hostOps2_writes (r := main_arg7) (by decide)).trans ((B6_of_ne m rd0 D1 c main_arg7 (by decide)).trans ((StableHlo.after_of_writes_sub hostOps1 _ hostOps1_writes (r := main_arg7) (by decide)).trans ((B4_of_ne m rd0 c main_arg7 (by decide)).trans ((StableHlo.after_of_writes_sub hostOps0_2 _ hostOps0_2_writes (r := main_arg7) (by decide)).trans ((StableHlo.after_of_writes_sub hostOps0_1 _ hostOps0_1_writes (r := main_arg7) (by decide)).trans (StableHlo.after_of_writes_sub hostOps0 _ hostOps0_writes (r := main_arg7) (by decide))))))))))]

end Cert.KernelIdeal.Hand

end
-- ==== Proof.KFin1y.lean ====
/-
  Region 1's rectified output over the extended reals, from blocks to the whole array.  Besides its two running column
  sums, region 1 stores  max (agg block + bias row) 0  whole into its third window's block at every grid point; after
  the 20 write-backs the [100000,128] array under that window is the same whole-array function `relu4` that region 4
  ends at, here of the arrays region 1 found under its first two windows.
-/
import proofs.«121379_j57501022159518_1_alg».proof.Proof.KReg1
import proofs.«121379_j57501022159518_1_alg».proof.Proof.KFin4
import Idealize.ShloMosaic.Lib.ValueIdx
import Idealize.ShloMosaic.PureOps.Ideal.Laws
import Idealize.ShloMosaic.Lib.Pipeline.Value
import Idealize.ShloMosaic.Lib.ValueLayout

set_option maxRecDepth 16384

noncomputable section

namespace Cert.KernelIdeal.Hand

open Cert.KernelIdeal.Gen
open Idealize.ShloMosaic Idealize.ShloMosaic.TcCoe Idealize.ShloMosaic.ValueIdx Idealize.SL.Sem
open Idealize.ShloMosaic.Pipeline (Dat)

/-- The offset of a whole-buffer access is zero on both axes. -/
private theorem off00 : (![0, 0] : Fin 2 → Nat) = fun _ => 0 := funext fun a => by fin_cases a <;> rfl

/-- The stored payload at `(p, q)` (`v3` the bias row, `v7` the agg block): the identity reshapes drop out, the
    broadcast of the bias row reads its one row at column `q`, the sum and the maximum act elementwise, and the splat
    constant is the zero word. -/
theorem k1_pay3_apply (v3 : Vec Ideal S1x128 .f32) (v7 : Vec Ideal S5000x128 .f32) (p : Fin 5000) (q : Fin 128) :
    k1_pay3 (F := Ideal) v3 v7 (ix2 p q) = (max (v7 (ix2 p q) + v3 (ix2 (0 : Fin 1) q)) 0 : Ideal .f32) := by
  show max (shapeCast S5000x128 v7 _ (ix2 p q)
      + broadcastTo S5000x128 (shapeCast S1x128 (shapeCast S1x128 v3 _) _) _ (ix2 p q)) (Ideal.ofBits .f32 0x00000000#32) = _
  rw [shapeCast_self, shapeCast_self, shapeCast_self, broadcastTo_1b_ab_apply, Ideal.ofBits_zero_f32]

/-- The third window's buffer after the body at `(p, q)`, from the agg block `x0` and the bias row `x1`. -/
theorem y1_apply (x0 : Vec Ideal S5000x128 .f32) (x1 : Vec Ideal S1x128 .f32) (p : Fin 5000) (q : Fin 128) :
    y1 (F := Ideal) x0 x1 (ix2 p q) = (max (x0 (ix2 p q) + x1 (ix2 (0 : Fin 1) q)) 0 : Ideal .f32) := by
  unfold y1
  rw [View.canon_unit_zero off00]
  simp only [View.ld_unit_zero (S := S5000x128) off00, View.ld_unit_zero (S := S1x128) off00]
  exact k1_pay3_apply x1 x0 p q

-- what the TensorCore's buffers hold when the region starts
variable (V : (c : Dev nD) → (b : Ref sig .tc) → Buf (Elt Ideal) ((c : Thread nD τ).loc b))

/-- The agg array and the bias row as region 1 finds them, at their literal shapes. -/
abbrev agg1 (c : Dev nD) : S100000x128.Idx → Ideal .f32 := V c (Pipeline.arrRef spec1 0)
abbrev bias1 (c : Dev nD) : S1x128.Idx → Ideal .f32 := V c (Pipeline.arrRef spec1 1)

/-- Where the first three windows sit at grid point `t`: agg's and the output's row blocks are both block `t` along
    the rows, nothing moves along the columns, and the bias row is always block (0,0). -/
theorem blockIdx1y : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 19 :=
  (by decide +kernel : ∀ t : Fin grid1.N, _)

/-- Each of the 20 row blocks of the output is some grid point's. -/
theorem blockOnto1y : ∀ b : Fin 20, ∃ t : Fin cfg1.N, win1_2.index t = ![b.val, 0] :=
  (by decide +kernel : ∀ b : Fin 20, ∃ t : Fin grid1.N, win1_2.index t = ![b.val, 0])

/-- What grid point `t` writes back through the third window is block `t` of `relu4` of the arrays the region found. -/
theorem flushed1y_eq (c : Dev nD) (t : Fin cfg1.N) :
    (dat1 (F := Ideal) V c).flushed 2 t
      = ((cfg1.win 2).blk t).view.read (Elt Ideal) (relu4 (agg1 V c) (bias1 V c)) := by
  show (cfg1.win 2).cut (grid1.coords t) ((dat1 V c).after 2 t) = _
  rw [after1_2]
  obtain ⟨e0, e1, e2, e3, e4, e5⟩ := blockIdx1y t
  funext j
  obtain ⟨p, q, rfl⟩ : ∃ (p : Fin 5000) (q : Fin 128), j = ix2 p q := ⟨j 0, j 1, eq_ix2 j⟩
  show y1 (F := Ideal) (iblk1 V c 0 t) (iblk1 V c 1 t) (ix2 p q)
    = relu4 (agg1 V c) (bias1 V c) (((cfg1.win 2).blk t).view.emb (ix2 p q))
  refine (y1_apply (iblk1 V c 0 t) (iblk1 V c 1 t) p q).trans ?_
  show (max (agg1 V c (((cfg1.win 0).blk t).view.emb (ix2 p q))
        + bias1 V c (((cfg1.win 1).blk t).view.emb (ix2 (0 : Fin 1) q))) 0 : Ideal .f32)
    = max (agg1 V c (((cfg1.win 2).blk t).view.emb (ix2 p q))
        + bias1 V c (ix2 (0 : Fin 1) (⟨((((cfg1.win 2).blk t).view.emb (ix2 p q)) 1).val, _⟩ : Fin 128))) 0
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) (⟨((((cfg1.win 2).blk t).view.emb (ix2 p q)) 1).val, idx2_lt1 _⟩ : Fin 128) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]

/-- An index of the output array lies in grid point `t`'s block exactly when each coordinate lies in the block's
    range on its axis. -/
theorem mem_blk1y (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v45_0).slice (win1_2.rect t)).set ↔ _
  rw [View.set_slice_whole, Rect.mem_set_unit]
  exact Iff.rfl

/-- The 20 row blocks tile the array: row `r` is in block `r / 5000`, which some grid point writes back. -/
theorem cover1y (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := blockOnto1y ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1y]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array under region 1's third window after the region is `relu4` of the arrays the region found. -/
theorem final1_y (c : Dev nD) :
    (dat1 (F := Ideal) V c).arrAt 2 cfg1.N = relu4 (V c (Pipeline.arrRef spec1 0)) (V c (Pipeline.arrRef spec1 1)) :=
  (dat1 (F := Ideal) V c).arrAt_eq_of_cover 2 _ (fun t _ => flushed1y_eq V c t) cover1y

end Cert.KernelIdeal.Hand

end
-- ==== Proof.RowBlocks.lean ====
/-
  A sum over the rows of a [100000, ·] array, block by block.

  The node axis is cut into 20 blocks of 5000 consecutive rows: row `r` is row `r % 5000` of block `r / 5000`. A sum
  over all rows is therefore the sum, over the blocks, of the sums over each block's rows — the order in which a grid
  of twenty points accumulates column statistics.
-/
import Mathlib.Algebra.BigOperators.Fin
import Mathlib.Logic.Equiv.Fin.Basic
import Mathlib.Tactic

namespace Cert.RowBlocks

/-- Row `p` of block `t`, as a row of the whole array. -/
def rowOf (t : Fin 20) (p : Fin 5000) : Fin 100000 := ⟨t.val * 5000 + p.val, by have := t.isLt; have := p.isLt; omega⟩

/-- (block, row in block) ↔ row: division with remainder by the block height. -/
def blockEquiv : Fin 20 × Fin 5000 ≃ Fin 100000 where
  toFun tp := rowOf tp.1 tp.2
  invFun r := (⟨r.val / 5000, by have := r.isLt; omega⟩, ⟨r.val % 5000, Nat.mod_lt _ (by norm_num)⟩)
  left_inv := by
    rintro ⟨t, p⟩
    have ht := t.isLt; have hp := p.isLt
    refine Prod.ext (Fin.ext ?_) (Fin.ext ?_)
    · show (t.val * 5000 + p.val) / 5000 = t.val; omega
    · show (t.val * 5000 + p.val) % 5000 = p.val; omega
  right_inv := by
    intro r
    refine Fin.ext ?_
    show r.val / 5000 * 5000 + r.val % 5000 = r.val
    omega

/-- A sum over all rows is the sum over the blocks of the sums over each block's rows. -/
theorem sum_rows {M : Type*} [AddCommMonoid M] (f : Fin 100000 → M) :
    ∑ r : Fin 100000, f r = ∑ t : Fin 20, ∑ p : Fin 5000, f (rowOf t p) := by
  rw [← Fintype.sum_prod_type' (fun t p => f (rowOf t p))]
  exact (Equiv.sum_comp blockEquiv f).symm

end Cert.RowBlocks
-- ==== Proof.KFin1s.lean ====
/-
  Region 1 over the extended reals, the two statistics rows: the two accumulators after point n hold, at column q, the
  sums over the points up to n and the rows of a block of  max (agg[p,q] + bias[0,q]) 0  and of its square; the last
  point stores them whole into the fourth and fifth windows, which are written back once, so after the region those two
  one-row arrays hold each column's sum and sum of squares over all 100000 rows.
-/
import proofs.«121379_j57501022159518_1_alg».proof.Proof.KFin1y
import proofs.«121379_j57501022159518_1_alg».proof.Proof.RowBlocks
import Idealize.ShloMosaic.Lib.ValueIdx
import Idealize.ShloMosaic.PureOps.Ideal.Laws
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The offset of a whole-buffer access is zero on both axes. -/
private theorem off00 : (![0, 0] : Fin 2 → Nat) = fun _ => 0 := funext fun a => by fin_cases a <;> rfl

/-- The column sums of a block: the reduction over the rows read at column `q`, with the accumulator's hypothesis typed as
    the printed payload carries it. -/
theorem colsum_apply (src : Vec Ideal S5000x128 .f32) (hφ : FKind.Formats .f32) (hacc : (0x00000000#32 : BitVec 32) = 0x00000000#32)
    (q : Fin 128) :
    multiReduction (F := Ideal) .add [0] S128 src 0x00000000#32 reduces_S5000x128_S128 hφ hacc (ix1 q) = ∑ p : Fin 5000, src (ix2 p q) := by
  refine (Ideal.multiReduction_add_single src 0x00000000#32 reduces_S5000x128_S128 hφ hacc (ix1 q)).trans ?_
  refine Finset.sum_congr rfl fun p _ => congrArg src ?_
  funext a; match a with | ⟨0, _⟩ => rfl | ⟨1, _⟩ => rfl

/-- The first accumulator's payload at column `q`: what it held plus the block's column sum. -/
theorem k1_pay4_apply (v3 : Vec Ideal S1x128 .f32) (v7 : Vec Ideal S5000x128 .f32) (v13 : Vec Ideal S1x128 .f32) (q : Fin 128) :
    k1_pay4 (F := Ideal) v3 v7 v13 (ix2 (0 : Fin 1) q)
      = v13 (ix2 (0 : Fin 1) q) + ∑ p : Fin 5000, k1_pay3 (F := Ideal) v3 v7 (ix2 p q) := by
  show shapeCast S1x128 (addf v13 (shapeCast S1x128
      (multiReduction .add [0] S128 (k1_pay3 (F := Ideal) v3 v7) 0x00000000#32 reduces_S5000x128_S128 (.inl rfl) rfl) shapeCasts_S128_S1x128)) _
      (ix2 (0 : Fin 1) q) = _
  rw [shapeCast_self]
  show v13 (ix2 (0 : Fin 1) q) + shapeCast S1x128
      (multiReduction .add [0] S128 (k1_pay3 (F := Ideal) v3 v7) 0x00000000#32 reduces_S5000x128_S128 (.inl rfl) rfl) shapeCasts_S128_S1x128
      (ix2 (0 : Fin 1) q) = _
  rw [shapeCast_a_1a_apply, colsum_apply]

/-- The second accumulator's payload at column `q`: what it held plus the column sum of the block's squares. -/
theorem k1_pay5_apply (v3 : Vec Ideal S1x128 .f32) (v7 : Vec Ideal S5000x128 .f32) (v20 : Vec Ideal S1x128 .f32) (q : Fin 128) :
    k1_pay5 (F := Ideal) v3 v7 v20 (ix2 (0 : Fin 1) q)
      = v20 (ix2 (0 : Fin 1) q) + ∑ p : Fin 5000, k1_pay3 (F := Ideal) v3 v7 (ix2 p q) * k1_pay3 (F := Ideal) v3 v7 (ix2 p q) := by
  show shapeCast S1x128 (addf v20 (shapeCast S1x128
      (multiReduction .add [0] S128 (mulf (k1_pay3 (F := Ideal) v3 v7) (k1_pay3 (F := Ideal) v3 v7)) 0x00000000#32 reduces_S5000x128_S128 (.inl rfl) rfl) shapeCasts_S128_S1x128)) _
      (ix2 (0 : Fin 1) q) = _
  rw [shapeCast_self]
  show v20 (ix2 (0 : Fin 1) q) + shapeCast S1x128
      (multiReduction .add [0] S128 (mulf (k1_pay3 (F := Ideal) v3 v7) (k1_pay3 (F := Ideal) v3 v7)) 0x00000000#32 reduces_S5000x128_S128 (.inl rfl) rfl) shapeCasts_S128_S1x128
      (ix2 (0 : Fin 1) q) = _
  rw [shapeCast_a_1a_apply, colsum_apply]
  rfl

/-- What the body stores into the output block's buffer is its payload of the two blocks (at any float instance). -/
theorem y1_eq_pay {F : FTy → Type} [FloatOps F] (x0 : Vec F S5000x128 .f32) (x1 : Vec F S1x128 .f32) : y1 x0 x1 = k1_pay3 x1 x0 := by
  unfold y1
  rw [View.canon_unit_zero off00]
  simp only [View.ld_unit_zero (S := S5000x128) off00, View.ld_unit_zero (S := S1x128) off00]

/-- The zeroed accumulators read zero. -/
theorem z6_apply (q : Fin 128) : z6 (F := Ideal) (ix2 (0 : Fin 1) q) = 0 := by
  unfold z6
  rw [View.canon_unit_zero off00]
  show shapeCast S1x128 (broadcast S1x128 (Ideal.ofBits .f32 0x00000000#32)) _ (ix2 (0 : Fin 1) q) = 0
  rw [shapeCast_self]
  exact Ideal.ofBits_zero_f32
theorem z7_apply (q : Fin 128) : z7 (F := Ideal) (ix2 (0 : Fin 1) q) = 0 := by
  unfold z7
  rw [View.canon_unit_zero off00]
  show shapeCast S1x128 (broadcast S1x128 (Ideal.ofBits .f32 0x00000000#32)) _ (ix2 (0 : Fin 1) q) = 0
  rw [shapeCast_self]
  exact Ideal.ofBits_zero_f32

/-- One point's update of the first accumulator at column `q`: what it held plus the column sum of `y`, -/
theorem s6_apply (x0 : Vec Ideal S5000x128 .f32) (x1 s : Vec Ideal S1x128 .f32) (q : Fin 128) :
    s6 (F := Ideal) x0 x1 s (ix2 (0 : Fin 1) q) = s (ix2 (0 : Fin 1) q) + ∑ p : Fin 5000, y1 (F := Ideal) x0 x1 (ix2 p q) := by
  unfold s6
  rw [View.canon_unit_zero off00]
  simp only [View.ld_unit_zero (S := S5000x128) off00, View.ld_unit_zero (S := S1x128) off00]
  rw [k1_pay4_apply, y1_eq_pay]

/-- and of the second: what it held plus the column sum of `y * y`. -/
theorem s7_apply (x0 : Vec Ideal S5000x128 .f32) (x1 s : Vec Ideal S1x128 .f32) (q : Fin 128) :
    s7 (F := Ideal) x0 x1 s (ix2 (0 : Fin 1) q)
      = s (ix2 (0 : Fin 1) q) + ∑ p : Fin 5000, y1 (F := Ideal) x0 x1 (ix2 p q) * y1 (F := Ideal) x0 x1 (ix2 p q) := by
  unfold s7
  rw [View.canon_unit_zero off00]
  simp only [View.ld_unit_zero (S := S5000x128) off00, View.ld_unit_zero (S := S1x128) off00]
  rw [k1_pay5_apply, y1_eq_pay]

section Region
-- what the TensorCore's buffers hold when the region starts
variable (V : (c : Dev nD) → (b : Ref sig .tc) → Buf (Elt Ideal) ((c : Thread nD τ).loc b))

/-- Point `t`'s output block, as the body leaves it. -/
abbrev yblk1 (c : Dev nD) (t : Fin cfg1.N) : Vec Ideal S5000x128 .f32 := y1 (F := Ideal) (iblk1 V c 0 t) (iblk1 V c 1 t)

/-- THE FIRST ACCUMULATOR after point `n`, at column `q`: the sum over the points up to `n` of the column sums of their
    output blocks. -/
theorem acc1_fst_apply (c : Dev nD) (q : Fin 128) : ∀ (n : ℕ) (h : n < cfg1.N),
    (acc1 (F := Ideal) V c n h).1 (ix2 (0 : Fin 1) q)
      = ∑ t : Fin (n + 1), ∑ p : Fin 5000, yblk1 V c ⟨t.val, lt_of_lt_of_le t.isLt h⟩ (ix2 p q)
  | 0, h => by
    show s6 (F := Ideal) _ _ z6 (ix2 (0 : Fin 1) q) = _
    rw [s6_apply, z6_apply, zero_add, Fin.sum_univ_one]
    rfl
  | n + 1, h => by
    show s6 (F := Ideal) _ _ (acc1 (F := Ideal) V c n (Nat.lt_of_succ_lt h)).1 (ix2 (0 : Fin 1) q) = _
    rw [s6_apply, acc1_fst_apply c q n (Nat.lt_of_succ_lt h), Fin.sum_univ_castSucc (n := n + 1)]
    rfl

/-- THE SECOND ACCUMULATOR likewise, with the squares. -/
theorem acc1_snd_apply (c : Dev nD) (q : Fin 128) : ∀ (n : ℕ) (h : n < cfg1.N),
    (acc1 (F := Ideal) V c n h).2 (ix2 (0 : Fin 1) q)
      = ∑ t : Fin (n + 1), ∑ p : Fin 5000, yblk1 V c ⟨t.val, lt_of_lt_of_le t.isLt h⟩ (ix2 p q) * yblk1 V c ⟨t.val, lt_of_lt_of_le t.isLt h⟩ (ix2 p q)
  | 0, h => by
    show s7 (F := Ideal) _ _ z7 (ix2 (0 : Fin 1) q) = _
    rw [s7_apply, z7_apply, zero_add, Fin.sum_univ_one]
    rfl
  | n + 1, h => by
    show s7 (F := Ideal) _ _ (acc1 (F := Ideal) V c n (Nat.lt_of_succ_lt h)).2 (ix2 (0 : Fin 1) q) = _
    rw [s7_apply, acc1_snd_apply c q n (Nat.lt_of_succ_lt h), Fin.sum_univ_castSucc (n := n + 1)]
    rfl

/-! ## From the accumulators to the two statistics rows -/

/-- Where the windows sit: the output block at point `t` is row block `t`, column block 0; the two statistics windows are
    block (0,0) at every point. -/
theorem blockIdx1s : ∀ t : Fin cfg1.N, win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Point `t`'s output block at row `p`, column `q` is the rectified array at row `t * 5000 + p`. -/
theorem yblk1_apply (c : Dev nD) (t : Fin 20) (h : t.val < cfg1.N) (p : Fin 5000) (q : Fin 128) :
    yblk1 V c ⟨t.val, h⟩ (ix2 p q)
      = relu4 (V c (Pipeline.arrRef spec1 0)) (V c (Pipeline.arrRef spec1 1)) (ix2 (Cert.RowBlocks.rowOf t p) q) := by
  have hy : yblk1 V c ⟨t.val, h⟩
      = ((cfg1.win 2).blk ⟨t.val, h⟩).view.read (Elt Ideal) (relu4 (V c (Pipeline.arrRef spec1 0)) (V c (Pipeline.arrRef spec1 1))) :=
    (after1_2 V c ⟨t.val, h⟩).symm.trans (flushed1y_eq V c ⟨t.val, h⟩)
  obtain ⟨e0, e1, -, -, -, -⟩ := blockIdx1s ⟨t.val, h⟩
  rw [hy]
  show relu4 _ _ (((cfg1.win 2).blk ⟨t.val, h⟩).view.emb (ix2 p q)) = _
  refine congrArg _ ?_
  funext a; apply Fin.ext
  match a with
  | ⟨0, _⟩ =>
    have e0' : win1_2.index ⟨t.val, h⟩ (0 : Fin 2) = t.val := e0
    show win1_2.index ⟨t.val, h⟩ (0 : Fin 2) * 5000 + 1 * p.val = t.val * 5000 + p.val; omega
  | ⟨1, _⟩ => show win1_2.index ⟨t.val, h⟩ (1 : Fin 2) * 128 + 1 * q.val = q.val; omega

/-- What the last point writes back through the fourth window is the whole first accumulator, -/
theorem flushed1s_eq (c : Dev nD) (t : Fin cfg1.N) :
    (dat1 (F := Ideal) V c).flushed 3 t
      = ((cfg1.win 3).blk t).view.read (Elt Ideal) (acc1 (F := Ideal) V c 19 last1_lt).1 := by
  show (cfg1.win 3).cut (grid1.coords t) ((dat1 V c).after 3 t) = _
  rw [after1_3]
  obtain ⟨-, -, e0, e1, -, -⟩ := blockIdx1s t
  funext j
  obtain ⟨u, q, rfl⟩ : ∃ (u : Fin 1) (q : Fin 128), j = ix2 u q := ⟨j 0, j 1, eq_ix2 j⟩
  show (acc1 (F := Ideal) V c 19 last1_lt).1 (ix2 u q)
    = (acc1 (F := Ideal) V c 19 last1_lt).1 (((cfg1.win 3).blk t).view.emb (ix2 u q))
  refine congrArg _ ?_
  funext a; apply Fin.ext
  match a with
  | ⟨0, _⟩ => show u.val = win1_3.index t (0 : Fin 2) * 1 + 1 * u.val; omega
  | ⟨1, _⟩ => show q.val = win1_3.index t (1 : Fin 2) * 128 + 1 * q.val; omega

/-- and through the fifth the whole second accumulator. -/
theorem flushed1ss_eq (c : Dev nD) (t : Fin cfg1.N) :
    (dat1 (F := Ideal) V c).flushed 4 t
      = ((cfg1.win 4).blk t).view.read (Elt Ideal) (acc1 (F := Ideal) V c 19 last1_lt).2 := by
  show (cfg1.win 4).cut (grid1.coords t) ((dat1 V c).after 4 t) = _
  rw [after1_4]
  obtain ⟨-, -, -, -, e0, e1⟩ := blockIdx1s t
  funext j
  obtain ⟨u, q, rfl⟩ : ∃ (u : Fin 1) (q : Fin 128), j = ix2 u q := ⟨j 0, j 1, eq_ix2 j⟩
  show (acc1 (F := Ideal) V c 19 last1_lt).2 (ix2 u q)
    = (acc1 (F := Ideal) V c 19 last1_lt).2 (((cfg1.win 4).blk t).view.emb (ix2 u q))
  refine congrArg _ ?_
  funext a; apply Fin.ext
  match a with
  | ⟨0, _⟩ => show u.val = win1_4.index t (0 : Fin 2) * 1 + 1 * u.val; omega
  | ⟨1, _⟩ => show q.val = win1_4.index t (1 : Fin 2) * 128 + 1 * q.val; omega

/-- The last point's block of either statistics window is the whole one-row array. -/
theorem cover1s (i : S1x128.Idx) :
    ∃ t : Fin cfg1.N, (cfg1.win 3).flush t = true ∧ i ∈ ((cfg1.win 3).blk t).view.set := by
  have hi0 : (i 0).val < 1 := idx2_lt0 i
  have hi1 : (i 1).val < 128 := idx2_lt1 i
  obtain ⟨-, -, e0, e1, -, -⟩ := blockIdx1s ⟨19, last1_lt⟩
  refine ⟨⟨19, last1_lt⟩, (flush1_3 _).mpr rfl, ?_⟩
  show i ∈ ((View.whole main_v45_1).slice (win1_3.rect ⟨19, last1_lt⟩)).set
  rw [View.set_slice_whole, Rect.mem_set_unit]
  intro a
  match a with
  | ⟨0, _⟩ => show win1_3.index ⟨19, last1_lt⟩ (0 : Fin 2) * 1 ≤ (i 0).val ∧ (i 0).val < win1_3.index ⟨19, last1_lt⟩ (0 : Fin 2) * 1 + 1; omega
  | ⟨1, _⟩ => show win1_3.index ⟨19, last1_lt⟩ (1 : Fin 2) * 128 ≤ (i 1).val ∧ (i 1).val < win1_3.index ⟨19, last1_lt⟩ (1 : Fin 2) * 128 + 128; omega

theorem cover1ss (i : S1x128.Idx) :
    ∃ t : Fin cfg1.N, (cfg1.win 4).flush t = true ∧ i ∈ ((cfg1.win 4).blk t).view.set := by
  have hi0 : (i 0).val < 1 := idx2_lt0 i
  have hi1 : (i 1).val < 128 := idx2_lt1 i
  obtain ⟨-, -, -, -, e0, e1⟩ := blockIdx1s ⟨19, last1_lt⟩
  refine ⟨⟨19, last1_lt⟩, (flush1_4 _).mpr rfl, ?_⟩
  show i ∈ ((View.whole main_v45_2).slice (win1_4.rect ⟨19, last1_lt⟩)).set
  rw [View.set_slice_whole, Rect.mem_set_unit]
  intro a
  match a with
  | ⟨0, _⟩ => show win1_4.index ⟨19, last1_lt⟩ (0 : Fin 2) * 1 ≤ (i 0).val ∧ (i 0).val < win1_4.index ⟨19, last1_lt⟩ (0 : Fin 2) * 1 + 1; omega
  | ⟨1, _⟩ => show win1_4.index ⟨19, last1_lt⟩ (1 : Fin 2) * 128 ≤ (i 1).val ∧ (i 1).val < win1_4.index ⟨19, last1_lt⟩ (1 : Fin 2) * 128 + 128; omega

/-- The array under the fourth window after the region is the first accumulator after the last point, -/
theorem arr1s (c : Dev nD) : (dat1 (F := Ideal) V c).arrAt 3 cfg1.N = (acc1 (F := Ideal) V c 19 last1_lt).1 :=
  (dat1 (F := Ideal) V c).arrAt_eq_of_cover 3 _ (fun t _ => flushed1s_eq V c t) cover1s

/-- and the one under the fifth the second. -/
theorem arr1ss (c : Dev nD) : (dat1 (F := Ideal) V c).arrAt 4 cfg1.N = (acc1 (F := Ideal) V c 19 last1_lt).2 :=
  (dat1 (F := Ideal) V c).arrAt_eq_of_cover 4 _ (fun t _ => flushed1ss_eq V c t) cover1ss

/-- The first accumulator after the last point, at column `q`: the sum over all 100000 rows of the rectified array's
    column `q` (the twenty blocks of 5000 rows, in order). -/
theorem acc1_last_fst (c : Dev nD) (q : Fin 128) :
    (acc1 (F := Ideal) V c 19 last1_lt).1 (ix2 (0 : Fin 1) q)
      = ∑ r : Fin 100000, relu4 (V c (Pipeline.arrRef spec1 0)) (V c (Pipeline.arrRef spec1 1)) (ix2 r q) := by
  rw [acc1_fst_apply V c q 19 last1_lt, Cert.RowBlocks.sum_rows]
  exact Finset.sum_congr rfl fun t _ => Finset.sum_congr rfl fun p _ => yblk1_apply V c t _ p q

/-- The second likewise: the sum over all rows of the squares. -/
theorem acc1_last_snd (c : Dev nD) (q : Fin 128) :
    (acc1 (F := Ideal) V c 19 last1_lt).2 (ix2 (0 : Fin 1) q)
      = ∑ r : Fin 100000, relu4 (V c (Pipeline.arrRef spec1 0)) (V c (Pipeline.arrRef spec1 1)) (ix2 r q)
          * relu4 (V c (Pipeline.arrRef spec1 0)) (V c (Pipeline.arrRef spec1 1)) (ix2 r q) := by
  rw [acc1_snd_apply V c q 19 last1_lt, Cert.RowBlocks.sum_rows]
  exact Finset.sum_congr rfl fun t _ => Finset.sum_congr rfl fun p _ => by
    rw [yblk1_apply V c t _ p q]

/-- THE COLUMN SUMS: after the region the fourth window's row holds, at column `q`, the sum over all 100000 rows of the
    rectified array's column `q`. -/
theorem final1_s (c : Dev nD) (q : Fin 128) :
    ((dat1 (F := Ideal) V c).arrAt 3 cfg1.N : S1x128.Idx → Ideal .f32) (ix2 (0 : Fin 1) q)
      = ∑ r : Fin 100000, relu4 (V c (Pipeline.arrRef spec1 0)) (V c (Pipeline.arrRef spec1 1)) (ix2 r q) :=
  (congrFun (arr1s V c) (ix2 (0 : Fin 1) q)).trans (acc1_last_fst V c q)

/-- THE COLUMN SUMS OF SQUARES: the fifth window's row holds the sum over all rows of the squares. -/
theorem final1_ss (c : Dev nD) (q : Fin 128) :
    ((dat1 (F := Ideal) V c).arrAt 4 cfg1.N : S1x128.Idx → Ideal .f32) (ix2 (0 : Fin 1) q)
      = ∑ r : Fin 100000, relu4 (V c (Pipeline.arrRef spec1 0)) (V c (Pipeline.arrRef spec1 1)) (ix2 r q)
          * relu4 (V c (Pipeline.arrRef spec1 0)) (V c (Pipeline.arrRef spec1 1)) (ix2 r q) :=
  (congrFun (arr1ss V c) (ix2 (0 : Fin 1) q)).trans (acc1_last_snd V c q)

end Region

end Cert.KernelIdeal.Hand

end
-- ==== Proof.KLeaves1.lean ====
/-
  What region 1 leaves in its three output arrays: the biased rectifier of its input array, and the two rows holding
  each column's sum and sum of squares of that rectified array over all 100000 rows (accumulated block by block over
  the grid's twenty points and stored after the last).
-/
import proofs.«121379_j57501022159518_1_alg».proof.Proof.KValue
import proofs.«121379_j57501022159518_1_alg».proof.Proof.KData1
import proofs.«121379_j57501022159518_1_alg».proof.Proof.KFin1y
import proofs.«121379_j57501022159518_1_alg».proof.Proof.KFin1s

noncomputable section

namespace Cert.KernelIdeal.Hand

open Cert.KernelIdeal Cert.KernelIdeal.Gen
open Idealize.ShloMosaic Idealize.ShloMosaic.TcCoe Idealize.ShloMosaic.ValueIdx

/-- Region 1's three output arrays after the region, as functions of its two input arrays. -/
theorem leaves1 : Region1Leaves (rd1 (F := Ideal)) where
  y := final1_y
  s := final1_s
  ss := final1_ss

end Cert.KernelIdeal.Hand

end
-- ==== Proof.KFinite.lean ====
import proofs.«121379_j57501022159518_1_alg».proof.Proof.KStages
import proofs.«121379_j57501022159518_1_alg».proof.Proof.KFin0
import proofs.«121379_j57501022159518_1_alg».proof.Proof.KFin4
import proofs.«121379_j57501022159518_1_alg».proof.Proof.BnAlgebra
import Idealize.ShloMosaic.PureOps.Ideal.Laws
import Idealize.ShloMosaic.Lib.ValueIdx

/-!
# Every entry of the first rectified array is a real

The array `y = relu(aggregate(x·W₁) + b₁)` is built from the float arguments by a matrix product,
gathers, accumulating scatters, products, a guarded reciprocal square root, an addition and a maximum
with zero.  At the ideal values each of these keeps reals real:

* a gather, a broadcast and a reshape only *re-index*: each entry of the result is some entry of the
  operand;
* an accumulating scatter gives, at each index, the operand's entry plus a finite sum of update entries;
* products, sums and maxima of reals are reals;
* the reciprocal square root of a *positive* real is the real `1/√r`; it is used only under the guard
  `deg > 0`, the other branch being the constant `0`.

So if every entry of `x`, `W₁` and `b₁` is a real, every entry of `y` is.
-/

noncomputable section

namespace Cert.KernelIdeal.Hand

open Idealize.ShloMosaic Idealize.ShloMosaic.ValueIdx Cert.BnAlgebra

/-! ## Operations that keep reals real, at any shape -/

section Closure

variable {s t si u : Shape} {w : Nat}

/-- The `f32` pattern `0x3F800000` denotes the real `1`. -/
theorem ofBits_one_f32 : Ideal.ofBits .f32 0x3F800000#32 = 1 := by
  simp [Ideal.ofBits, Ideal.ieee, -EReal.coe_mul]; norm_num

/-- The splat of the zero pattern is the real `0` everywhere. -/
theorem isReal_constant_zero (s : Shape) (i : s.Idx) :
    IsReal (constant (F := Ideal) s .f32 0x00000000#32 i) := by
  show IsReal (Ideal.ofBits .f32 0x00000000#32)
  rw [Ideal.ofBits_zero_f32]; exact IsReal.zero

/-- The splat of the pattern of `1.0` is the real `1` everywhere. -/
theorem isReal_constant_one (s : Shape) (i : s.Idx) :
    IsReal (constant (F := Ideal) s .f32 0x3F800000#32 i) := by
  show IsReal (Ideal.ofBits .f32 0x3F800000#32)
  rw [ofBits_one_f32]; exact IsReal.one

/-- A broadcast re-indexes: each entry of the result is an entry of the operand. -/
theorem isReal_broadcastInDim (dims : Fin s.rank → Fin t.rank) (h : s.BroadcastsInDim t dims)
    (x : FVec Ideal s .f32) (hx : ∀ i, IsReal (x i)) (j : t.Idx) :
    IsReal (broadcastInDim t dims h x j) := hx _

/-- A reshape re-indexes. -/
theorem isReal_shapeCast (h : s.ShapeCasts t) (x : FVec Ideal s .f32) (hx : ∀ i, IsReal (x i)) (j : t.Idx) :
    IsReal (shapeCast t x h j) := hx _

/-- A gather re-indexes: whatever index the clamped start picks, the entry read is an entry of the operand. -/
theorem isReal_gather (d : GatherDims s si t) (x : FVec Ideal s .f32) (idx : IVec si w)
    (hx : ∀ i, IsReal (x i)) (j : t.Idx) : IsReal (Host.gather d x idx j) := hx _

/-- An accumulating scatter gives, at each index, the operand's entry plus the finite sum of the update
entries that land there. -/
theorem isReal_scatterAdd (d : ScatterDims s si u) (x : FVec Ideal s .f32) (idx : IVec si w)
    (upd : FVec Ideal u .f32) (hx : ∀ i, IsReal (x i)) (hu : ∀ j, IsReal (upd j)) (i : s.Idx) :
    IsReal (Host.scatterAdd d x idx upd i) :=
  (hx i).add (IsReal.sum fun j _ => hu j)

/-- An elementwise product of reals. -/
theorem isReal_mulf (x y : FVec Ideal s .f32) (hx : ∀ i, IsReal (x i)) (hy : ∀ i, IsReal (y i)) (i : s.Idx) :
    IsReal (mulf x y i) := (hx i).mul (hy i)

/-- A select whose first branch is a real wherever the condition holds, and whose second is a real everywhere. -/
theorem isReal_select (c : IVec s 1) (a b : FVec Ideal s .f32) (ha : ∀ i, c i = 1#1 → IsReal (a i))
    (hb : ∀ i, IsReal (b i)) (i : s.Idx) : IsReal (select c a b i) := by
  show IsReal (if c i = 1 then a i else b i)
  split
  · exact ha i ‹_›
  · exact hb i

/-- The reciprocal square root of a real that is strictly above zero is the real `1/√r`. -/
theorem isReal_rsqrt_of_pos (x : EReal) (hx : IsReal x) (h : Ideal.cmp .ogt x 0 = 1#1) :
    IsReal (Ideal.rsqrt x) := by
  obtain ⟨r, rfl⟩ := hx
  have hpos : (0 : ℝ) < r := by
    by_contra hn
    simp [Ideal.cmp, hn] at h
  rw [Ideal.rsqrt_coe, if_neg (not_lt.mpr hpos.le), if_neg hpos.ne']
  exact IsReal.coe _

/-- The guarded reciprocal square root `where(d > 0, rsqrt d, 0)` of an array of reals is an array of reals. -/
theorem isReal_guarded_rsqrt (d z : FVec Ideal s .f32) (hd : ∀ i, IsReal (d i))
    (hz : ∀ i, z i = 0) (z' : FVec Ideal s .f32) (hz' : ∀ i, IsReal (z' i)) (i : s.Idx) :
    IsReal (select (cmpf .ogt d z) (Host.rsqrt d) z' i) :=
  isReal_select _ _ _ (fun i hc => isReal_rsqrt_of_pos (d i) (hd i) (by
    have : Ideal.cmp .ogt (d i) (z i) = 1#1 := hc
    rwa [hz i] at this)) hz' i

end Closure

/-! ## The two kernels' values -/

/-- The first product `x·W₁`: each entry is a sum of 25 products of reals. -/
theorem mm0_isReal (A : S100000x25.Idx → Elt Ideal .f32) (B : S25x128.Idx → Elt Ideal .f32)
    (hA : ∀ i, IsReal (A i)) (hB : ∀ i, IsReal (B i)) (i : S100000x128.Idx) : IsReal (mm0 A B i) :=
  IsReal.sum_univ fun k => (hA _).mul (hB _)

/-- The rectified sum `max (a + b) 0` of reals. -/
theorem relu4_isReal (A0 : S100000x128.Idx → Ideal .f32) (A1 : S1x128.Idx → Ideal .f32)
    (h0 : ∀ i, IsReal (A0 i)) (h1 : ∀ i, IsReal (A1 i)) (i : S100000x128.Idx) : IsReal (relu4 A0 A1 i) :=
  ((h0 i).add (h1 _)).max IsReal.zero

/-! ## The host stages -/

/-- The in-degrees: ones added into zeros, so each entry is `0` plus a finite sum of ones. -/
theorem degF_isReal (col : (⟨S1700000, .i32⟩ : BufTy).Contents (Elt Ideal)) (i : S100000.Idx) :
    IsReal (degF (F := Ideal) col i) := by
  unfold degF
  exact isReal_scatterAdd _ _ _ _ (fun i => isReal_broadcastInDim _ _ _ (isReal_constant_zero _) i)
    (fun j => isReal_broadcastInDim _ _ _ (isReal_constant_one _) j) i

/-- The degree factors: `1/√deg` where the degree is a positive real, `0` elsewhere. -/
theorem dinvF_isReal (deg : (⟨S100000, .f32⟩ : BufTy).Contents (Elt Ideal)) (hdeg : ∀ i, IsReal (deg i))
    (i : S100000.Idx) : IsReal (dinvF (F := Ideal) deg i) := by
  unfold dinvF
  exact isReal_guarded_rsqrt deg _ hdeg (fun _ => Ideal.ofBits_zero_f32) _
    (fun i => isReal_broadcastInDim _ _ _ (isReal_constant_zero _) i) i

/-- The per-edge normalisation: a product of two gathered degree factors. -/
theorem normF_isReal (row col : (⟨S1700000, .i32⟩ : BufTy).Contents (Elt Ideal))
    (dinv : (⟨S100000, .f32⟩ : BufTy).Contents (Elt Ideal)) (hd : ∀ i, IsReal (dinv i)) (j : S1700000.Idx) :
    IsReal (normF (F := Ideal) row col dinv j) := by
  unfold normF
  exact isReal_mulf _ _ (fun j => isReal_gather _ _ _ hd j) (fun j => isReal_gather _ _ _ hd j) j

/-- The normalised neighbourhood sum: `0` plus a finite sum of products of a gathered entry of `h` and a
broadcast entry of the normalisation. -/
theorem agg_isReal (row col : (⟨S1700000, .i32⟩ : BufTy).Contents (Elt Ideal))
    (nrm : (⟨S1700000, .f32⟩ : BufTy).Contents (Elt Ideal)) (h : (⟨S100000x128, .f32⟩ : BufTy).Contents (Elt Ideal))
    (hn : ∀ j, IsReal (nrm j)) (hh : ∀ i, IsReal (h i)) (i : S100000x128.Idx) :
    IsReal (agg (F := Ideal) row col nrm h i) := by
  unfold agg
  exact isReal_scatterAdd _ _ _ _ (fun i => isReal_broadcastInDim _ _ _ (isReal_constant_zero _) i)
    (fun j => isReal_mulf _ _ (fun j => isReal_gather _ _ _ hh j)
      (fun j => isReal_broadcastInDim _ _ _ (fun j => isReal_broadcastInDim _ _ _ hn j) j) j) i

/-- A bias vector as a row has the same entries. -/
theorem rowvec_isReal (b : (⟨S128, .f32⟩ : BufTy).Contents (Elt Ideal)) (hb : ∀ i, IsReal (b i)) (i : S1x128.Idx) :
    IsReal (rowvec (F := Ideal) b i) := by
  unfold rowvec
  exact isReal_shapeCast _ _ hb i

/-- **Every entry of the first rectified array is a real**, as soon as every entry of the features, the first
weights and the first bias is: the degrees are reals, hence the degree factors, hence the per-edge
normalisation; the product `x·W₁` is; hence their neighbourhood sum, and its rectified sum with the bias. -/
theorem y_isReal (x : S100000x25.Idx → Elt Ideal .f32) (ei : (⟨S2x1600000, .i32⟩ : BufTy).Contents (Elt Ideal))
    (W1 : S25x128.Idx → Elt Ideal .f32) (b1 : (⟨S128, .f32⟩ : BufTy).Contents (Elt Ideal))
    (hx : ∀ i, IsReal (x i)) (hW : ∀ i, IsReal (W1 i)) (hb : ∀ i, IsReal (b1 i)) (i : S100000x128.Idx) :
    IsReal (relu4 (agg (F := Ideal) (rowF (F := Ideal) ei) (colF (F := Ideal) ei)
        (normF (F := Ideal) (rowF (F := Ideal) ei) (colF (F := Ideal) ei)
          (dinvF (F := Ideal) (degF (F := Ideal) (colF (F := Ideal) ei)))) (mm0 x W1))
      (rowvec (F := Ideal) b1) i) :=
  relu4_isReal _ _
    (fun i => agg_isReal (rowF (F := Ideal) ei) (colF (F := Ideal) ei) _ _
      (fun j => normF_isReal (rowF (F := Ideal) ei) (colF (F := Ideal) ei) _
        (fun i => dinvF_isReal _ (fun i => degF_isReal (colF (F := Ideal) ei) i) i) j)
      (fun i => mm0_isReal x W1 hx hW i) i)
    (fun i => rowvec_isReal b1 hb i) i

end Cert.KernelIdeal.Hand

end
-- ==== Proof.PreFinite.lean ====
import proofs.«121379_j57501022159518_1_alg».proof.Defs
import proofs.«121379_j57501022159518_1_alg».proof.Proof.Gen.Pre_finite_inputs
import proofs.«121379_j57501022159518_1_alg».proof.Proof.BnAlgebra
import Idealize.ShloMosaic.Lib.ReduceAll
import Idealize.ShloMosaic.Lib.ValueIdx

/-!
# The precondition, read as finiteness of every float argument

The certificate's precondition is the printed predicate `finite_inputs`: for each of the seven float
arguments it compares `|x|` with `+∞` element by element (strictly), takes the conjunction of all
those comparisons over the whole array, and takes the conjunction of the seven results.  At the ideal
values a float is an extended real, `|x|` is `max x (-x)`, and `max x (-x) < ⊤` fails exactly at
`x = ⊤` and at `x = ⊥` (whose negation is `⊤`).  So the predicate being all ones says that every
entry of every float argument is the coercion of a real number.
-/

noncomputable section

namespace Cert.PreFinite

open Idealize.ShloMosaic Idealize.SL.Sem Cert.Pre_finite_inputs Cert.Pre_finite_inputs.Gen Cert.BnAlgebra

/-- The rank-zero shape has exactly one index. -/
instance : Subsingleton S_.Idx := ⟨fun a b => funext fun d => d.elim0⟩

/-- The `f32` pattern `0x7F800000` denotes `+∞`. -/
theorem ofBits_inf : Ideal.ofBits .f32 0x7F800000#32 = ⊤ := by simp [Ideal.ofBits, Ideal.ieee]

/-- An extended real whose absolute value `max x (-x)` is strictly below `+∞` is a real:
`⊤` fails directly, `⊥` fails because `-⊥ = ⊤`. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact IsReal.coe r

/-- One argument: if the conjunction over the whole array of the comparisons `|a i| < +∞` is one,
every entry of the array is a real. -/
theorem all_isReal {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) (i : s.Idx) : IsReal (a i) :=
  isReal_of_abs_lt_inf (a i) (Host.reduce_andi_all _ _ hr hu ValueIdx.ix0 e i)

variable [Cert.Pre_finite_inputs.Facts]

/-- **The precondition gives finiteness.**  If the printed predicate, at the ideal values, is all ones
on eight argument arrays, every entry of each of the seven float arrays is a real (the integer array
`a1` is not constrained). -/
theorem finite_of_pre (a0 : FVec Ideal S100000x25 .f32) (a1 : IVec S2x1600000 32)
    (a2 : FVec Ideal S25x128 .f32) (a3 a4 a5 : FVec Ideal S128 .f32) (a6 : FVec Ideal S128x128 .f32)
    (a7 : FVec Ideal S128 .f32)
    (h : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) := by
  have h0 := congrFun h ValueIdx.ix0
  dsimp only [Cert.Pre_finite_inputs.fn, Cert.Pre_finite_inputs.fn_part1] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_isReal a0 _ _ _ e0, all_isReal a2 _ _ _ e2, all_isReal a3 _ _ _ e3, all_isReal a4 _ _ _ e4,
    all_isReal a5 _ _ _ e5, all_isReal a6 _ _ _ e6, all_isReal a7 _ _ _ e7⟩

/-- The same about a memory of which the idealized kernel's precondition holds: on every device, every
entry of each float argument array is a real. -/
theorem of_pre_kernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0) : FVec Ideal S100000x25 .f32) i))
      ∧ (∀ i, IsReal ((m ((c.tc : Thread Cert.KernelIdeal.nD Cert.KernelIdeal.τ).loc Cert.KernelIdeal.main_arg2) : FVec Ideal S25x128 .f32) i))
      ∧ (∀ i, IsReal ((m ((c.tc : Thread Cert.KernelIdeal.nD Cert.KernelIdeal.τ).loc Cert.KernelIdeal.main_arg3) : FVec Ideal S128 .f32) i))
      ∧ (∀ i, IsReal ((m ((c.tc : Thread Cert.KernelIdeal.nD Cert.KernelIdeal.τ).loc Cert.KernelIdeal.main_arg4) : FVec Ideal S128 .f32) i))
      ∧ (∀ i, IsReal ((m ((c.tc : Thread Cert.KernelIdeal.nD Cert.KernelIdeal.τ).loc Cert.KernelIdeal.main_arg5) : FVec Ideal S128 .f32) i))
      ∧ (∀ i, IsReal ((m ((c.tc : Thread Cert.KernelIdeal.nD Cert.KernelIdeal.τ).loc Cert.KernelIdeal.main_arg6) : FVec Ideal S128x128 .f32) i))
      ∧ (∀ i, IsReal ((m ((c.tc : Thread Cert.KernelIdeal.nD Cert.KernelIdeal.τ).loc Cert.KernelIdeal.main_arg7) : FVec Ideal S128 .f32) i)) :=
  finite_of_pre _ _ _ _ _ _ _ _ (h c)

end Cert.PreFinite

end
-- ==== Proof.RefRunOps.lean ====
/-
  The reference program's @main as a list of host operations.

  @main is a straight line of StableHLO operations and five calls of module-local functions (@_where twice,
  @relu twice, @_var once, and @_var's own call of @_where_0). A call means: run the callee's body on the
  operands' buffers and on the buffers the call names for the body's values. Written out at each call site, over
  that call's buffer record, the body's operations are operations of @main like any other, so the whole function
  is ONE list of 166 operations. The list is stated in pieces, cut where the computation has a seam; the pieces of
  one printed window append to that window's list, and the three windows' lists to `ops`.
-/
import proofs.«121379_j57501022159518_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An index vector over the edges followed by one entry per node: `stablehlo.concatenate` of the two along their one
    dimension. (@main applies it four times: to each row of the edge list and the node numbers, twice over.) The
    operands are plain arguments here; in the operation's own spelling they sit inside a list of shape-tagged pairs. -/
def withSelfLoops (a : (⟨S1600000, .i32⟩ : BufTy).Contents (Elt F)) (b : (⟨S100000, .i32⟩ : BufTy).Contents (Elt F)) :
    (⟨S1700000, .i32⟩ : BufTy).Contents (Elt F) :=
  concatenate S1700000 0 [⟨S1600000, a⟩, ⟨S100000, b⟩] concatenates_S1600000_S100000_S1700000_d0

/-- `List.Forall` over an append, from its two halves. -/
theorem forall_app {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- %0 … %14: the two rows of the edge list, each with the self-loops appended (%5, %6); the degree by scatter-add of ones (%10); its guarded inverse square root (%14, @_where written out over `main_call0`). -/
abbrev ops0a : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 (withSelfLoops : (⟨S1600000, .i32⟩ : BufTy).Contents (Elt F) → (⟨S100000, .i32⟩ : BufTy).Contents (Elt F) → (⟨S1700000, .i32⟩ : BufTy).Contents (Elt F)),
    StableHlo.binary main_v3 main_v4 main_v6 (withSelfLoops : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select ]

/-- Each touches TensorCore references only. -/
theorem ops0a_sub : (ops0a : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩

/-- %c … %30: the indices wrapped into range; the edge weights (%29 = dinv[row] · dinv[col]); the first dense product (%30). -/
abbrev ops0b : List (HloOp τ sig (Elt F)) :=
  [ StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v5 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v5 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v5 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)),
    StableHlo.binary main_arg0 main_arg2 main_v30 ((fun l r => Host.dotGeneral dot_S100000x25_S25x128_S100000x128_1_0_0_1_n_n none l r) : (⟨S100000x25, .f32⟩ : BufTy).Contents (Elt F) → (⟨S25x128, .f32⟩ : BufTy).Contents (Elt F) → (⟨S100000x128, .f32⟩ : BufTy).Contents (Elt F)) ]

/-- Each touches TensorCore references only. -/
theorem ops0b_sub : (ops0b : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

/-- %c_6 … %cst_9: the first aggregation (%43 = scatter-add of the weighted gathered rows), the bias, and @relu written out over `main_call1` (%47). -/
abbrev ops0c : List (HloOp τ sig (Elt F)) :=
  [ StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v5 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v5 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v5 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v46 : StableHlo.TRef sig ⟨S100000x128, .f32⟩) main_call1.v0 main_call1.v1 maximumf,
    StableHlo.nullary main_cst_9 (constant S_ .f32 0x00000000#32) ]

/-- Each touches TensorCore references only. -/
theorem ops0c_sub : (ops0c : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub ..⟩

/-- %48 … %51: the column means (%50) and the column variances (%51: @_var written out over `main_call2`, its @_where_0 over `main_call2.call0`). -/
abbrev ops1a : List (HloOp τ sig (Elt F)) :=
  [ StableHlo.binary main_v47 main_cst_9 main_v48 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call2.cst (constant S_ .f32 0x00000000#32),
    StableHlo.TRef.binary (.of main_v47 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v47 : StableHlo.TRef sig ⟨S100000x128, .f32⟩) main_call2.v4 main_call2.v5 subf,
    StableHlo.TRef.binary main_call2.v5 main_call2.v5 main_call2.v6 mulf,
    StableHlo.TRef.unary (.of main_c_11 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Each touches TensorCore references only. -/
theorem ops1a_sub : (ops1a : List (HloOp τ sig (Elt F))).Forall fun op => op.bufs ⊆ tcRefs τ sig :=
  ⟨binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- %52 … %66: the batch normalization (%66). -/
abbrev ops1b : List (HloOp τ sig (Elt F)) :=
  [ StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v53 main_v54 (subf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v54 main_v59 main_v60 (mulf : (⟨S100000x128, .f32⟩ : BufTy).Contents (Elt F) → (⟨S100000x128, .f32⟩ : BufTy).Contents (Elt F) → (⟨S100000x128, .f32⟩ : BufTy).Contents (Elt F)),
    StableHlo.unary main_arg4 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S100000x128 ![0, 1] bcast_S1x128_S100000x128_0_1 : (⟨S1x128, .f32⟩ : BufTy).Contents (Elt F) → (⟨S100000x128, .f32⟩ : BufTy).Contents (Elt F)),
    StableHlo.binary main_v60 main_v62 main_v63 (mulf : (⟨S100000x128, .f32⟩ : BufTy).Contents (Elt F) → (⟨S100000x128, .f32⟩ : BufTy).Contents (Elt F) → (⟨S100000x128, .f32⟩ : BufTy).Contents (Elt F)),
    StableHlo.unary main_arg5 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S100000x128 ![0, 1] bcast_S1x128_S100000x128_0_1 : (⟨S1x128, .f32⟩ : BufTy).Contents (Elt F) → (⟨S100000x128, .f32⟩ : BufTy).Contents (Elt F)),
    StableHlo.binary main_v63 main_v65 main_v66 (addf : (⟨S100000x128, .f32⟩ : BufTy).Contents (Elt F) → (⟨S100000x128, .f32⟩ : BufTy).Contents (Elt F) → (⟨S100000x128, .f32⟩ : BufTy).Contents (Elt F)) ]

/-- Each touches TensorCore references only. -/
theorem ops1b_sub : (ops1b : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- %67 … %77: the graph part computed again: the index vectors (%68, %69), the degree (%73), its guarded inverse square root (%77, @_where written out over `main_call3`). -/
abbrev ops1c : List (HloOp τ sig (Elt F)) :=
  [ StableHlo.nullary main_v67 (iotaInDim S100000 32 0),
    StableHlo.binary main_v1 main_v67 main_v68 (withSelfLoops : (⟨S1600000, .i32⟩ : BufTy).Contents (Elt F) → (⟨S100000, .i32⟩ : BufTy).Contents (Elt F) → (⟨S1700000, .i32⟩ : BufTy).Contents (Elt F)),
    StableHlo.binary main_v3 main_v67 main_v69 (withSelfLoops : (⟨S1600000, .i32⟩ : BufTy).Contents (Elt F) → (⟨S100000, .i32⟩ : BufTy).Contents (Elt F) → (⟨S1700000, .i32⟩ : BufTy).Contents (Elt F)),
    StableHlo.nullary main_cst_13 (constant S_ .f32 0x3F800000#32),
    StableHlo.unary main_cst_13 main_v70 (broadcastInDim S1700000 ![] bcast_S_S1700000 : (⟨S_, .f32⟩ : BufTy).Contents (Elt F) → (⟨S1700000, .f32⟩ : BufTy).Contents (Elt F)),
    StableHlo.nullary main_cst_14 (constant S_ .f32 0x00000000#32),
    StableHlo.unary main_cst_14 main_v71 (broadcastInDim S100000 ![] bcast_S_S100000 : (⟨S_, .f32⟩ : BufTy).Contents (Elt F) → (⟨S100000, .f32⟩ : BufTy).Contents (Elt F)),
    StableHlo.unary main_v69 main_v72 (broadcastInDim S1700000x1 ![0] bcast_S1700000_S1700000x1_0 : (⟨S1700000, .i32⟩ : BufTy).Contents (Elt F) → (⟨S1700000x1, .i32⟩ : BufTy).Contents (Elt F)),
    StableHlo.ternary main_v71 main_v72 main_v70 main_v73 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_15 (constant S_ .f32 0x00000000#32),
    StableHlo.unary main_cst_15 main_v74 (broadcastInDim S100000 ![] bcast_S_S100000 : (⟨S_, .f32⟩ : BufTy).Contents (Elt F) → (⟨S100000, .f32⟩ : BufTy).Contents (Elt F)),
    StableHlo.binary main_v73 main_v74 main_v75 (cmpf .ogt : (⟨S100000, .f32⟩ : BufTy).Contents (Elt F) → (⟨S100000, .f32⟩ : BufTy).Contents (Elt F) → (⟨S100000, .i1⟩ : BufTy).Contents (Elt F)),
    StableHlo.unary main_v73 main_v76 (Host.rsqrt : (⟨S100000, .f32⟩ : BufTy).Contents (Elt F) → (⟨S100000, .f32⟩ : BufTy).Contents (Elt F)),
    StableHlo.nullary main_cst_16 (constant S_ .f32 0x00000000#32),
    StableHlo.TRef.unary (.of main_cst_16 : StableHlo.TRef sig ⟨S_, .f32⟩) main_call3.v0 id,
    StableHlo.TRef.unary main_call3.v0 main_call3.v1 (broadcastInDim S100000 ![] bcast_S_S100000),
    StableHlo.TRef.ternary (.of main_v75 : StableHlo.TRef sig ⟨S100000, .i1⟩) (.of main_v76 : StableHlo.TRef sig ⟨S100000, .f32⟩) main_call3.v1 main_call3.v2 select ]

/-- Each touches TensorCore references only. -/
theorem ops1c_sub : (ops1c : List (HloOp τ sig (Elt F))).Forall fun op => op.bufs ⊆ tcRefs τ sig :=
  ⟨nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩

/-- %c_17 … %95: the indices wrapped into range and the edge weights again (%92), the second dense product (%93), the sign test of the source vector once more (%95). -/
abbrev ops1d : List (HloOp τ sig (Elt F)) :=
  [ StableHlo.nullary main_c_17 (constantI S_ 32 0#32),
    StableHlo.unary main_c_17 main_v78 (broadcastInDim S1700000 ![] bcast_S_S1700000 : (⟨S_, .i32⟩ : BufTy).Contents (Elt F) → (⟨S1700000, .i32⟩ : BufTy).Contents (Elt F)),
    StableHlo.binary main_v68 main_v78 main_v79 (cmpi .slt : (⟨S1700000, .i32⟩ : BufTy).Contents (Elt F) → (⟨S1700000, .i32⟩ : BufTy).Contents (Elt F) → (⟨S1700000, .i1⟩ : BufTy).Contents (Elt F)),
    StableHlo.nullary main_c_18 (constantI S_ 32 100000#32),
    StableHlo.unary main_c_18 main_v80 (broadcastInDim S1700000 ![] bcast_S_S1700000 : (⟨S_, .i32⟩ : BufTy).Contents (Elt F) → (⟨S1700000, .i32⟩ : BufTy).Contents (Elt F)),
    StableHlo.binary main_v68 main_v80 main_v81 (addi : (⟨S1700000, .i32⟩ : BufTy).Contents (Elt F) → (⟨S1700000, .i32⟩ : BufTy).Contents (Elt F) → (⟨S1700000, .i32⟩ : BufTy).Contents (Elt F)),
    StableHlo.ternary main_v79 main_v81 main_v68 main_v82 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v82 main_v83 (broadcastInDim S1700000x1 ![0] bcast_S1700000_S1700000x1_0 : (⟨S1700000, .i32⟩ : BufTy).Contents (Elt F) → (⟨S1700000x1, .i32⟩ : BufTy).Contents (Elt F)),
    StableHlo.binary main_v77 main_v83 main_v84 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_19 (constantI S_ 32 0#32),
    StableHlo.unary main_c_19 main_v85 (broadcastInDim S1700000 ![] bcast_S_S1700000 : (⟨S_, .i32⟩ : BufTy).Contents (Elt F) → (⟨S1700000, .i32⟩ : BufTy).Contents (Elt F)),
    StableHlo.binary main_v69 main_v85 main_v86 (cmpi .slt : (⟨S1700000, .i32⟩ : BufTy).Contents (Elt F) → (⟨S1700000, .i32⟩ : BufTy).Contents (Elt F) → (⟨S1700000, .i1⟩ : BufTy).Contents (Elt F)),
    StableHlo.nullary main_c_20 (constantI S_ 32 100000#32),
    StableHlo.unary main_c_20 main_v87 (broadcastInDim S1700000 ![] bcast_S_S1700000 : (⟨S_, .i32⟩ : BufTy).Contents (Elt F) → (⟨S1700000, .i32⟩ : BufTy).Contents (Elt F)),
    StableHlo.binary main_v69 main_v87 main_v88 (addi : (⟨S1700000, .i32⟩ : BufTy).Contents (Elt F) → (⟨S1700000, .i32⟩ : BufTy).Contents (Elt F) → (⟨S1700000, .i32⟩ : BufTy).Contents (Elt F)),
    StableHlo.ternary main_v86 main_v88 main_v69 main_v89 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v89 main_v90 (broadcastInDim S1700000x1 ![0] bcast_S1700000_S1700000x1_0 : (⟨S1700000, .i32⟩ : BufTy).Contents (Elt F) → (⟨S1700000x1, .i32⟩ : BufTy).Contents (Elt F)),
    StableHlo.binary main_v77 main_v90 main_v91 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v84 main_v91 main_v92 (mulf : (⟨S1700000, .f32⟩ : BufTy).Contents (Elt F) → (⟨S1700000, .f32⟩ : BufTy).Contents (Elt F) → (⟨S1700000, .f32⟩ : BufTy).Contents (Elt F)),
    StableHlo.binary main_v66 main_arg6 main_v93 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_21 (constantI S_ 32 0#32),
    StableHlo.unary main_c_21 main_v94 (broadcastInDim S1700000 ![] bcast_S_S1700000 : (⟨S_, .i32⟩ : BufTy).Contents (Elt F) → (⟨S1700000, .i32⟩ : BufTy).Contents (Elt F)),
    StableHlo.binary main_v68 main_v94 main_v95 (cmpi .slt : (⟨S1700000, .i32⟩ : BufTy).Contents (Elt F) → (⟨S1700000, .i32⟩ : BufTy).Contents (Elt F) → (⟨S1700000, .i1⟩ : BufTy).Contents (Elt F)) ]

/-- Each touches TensorCore references only. -/
theorem ops1d_sub : (ops1d : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub ..⟩

/-- %c_22 … %110: the second aggregation (%106), the bias, and @relu written out over `main_call4` (%110). -/
abbrev ops2a : List (HloOp τ sig (Elt F)) :=
  [ StableHlo.nullary main_c_22 (constantI S_ 32 100000#32),
    StableHlo.unary main_c_22 main_v96 (broadcastInDim S1700000 ![] bcast_S_S1700000 : (⟨S_, .i32⟩ : BufTy).Contents (Elt F) → (⟨S1700000, .i32⟩ : BufTy).Contents (Elt F)),
    StableHlo.binary main_v68 main_v96 main_v97 (addi : (⟨S1700000, .i32⟩ : BufTy).Contents (Elt F) → (⟨S1700000, .i32⟩ : BufTy).Contents (Elt F) → (⟨S1700000, .i32⟩ : BufTy).Contents (Elt F)),
    StableHlo.ternary main_v95 main_v97 main_v68 main_v98 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v98 main_v99 (broadcastInDim S1700000x1 ![0] bcast_S1700000_S1700000x1_0 : (⟨S1700000, .i32⟩ : BufTy).Contents (Elt F) → (⟨S1700000x1, .i32⟩ : BufTy).Contents (Elt F)),
    StableHlo.binary main_v93 main_v99 main_v100 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v92 main_v101 (broadcastInDim S1700000x1 ![0] bcast_S1700000_S1700000x1_0 : (⟨S1700000, .f32⟩ : BufTy).Contents (Elt F) → (⟨S1700000x1, .f32⟩ : BufTy).Contents (Elt F)),
    StableHlo.unary main_v101 main_v102 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v100 main_v102 main_v103 (mulf : (⟨S1700000x128, .f32⟩ : BufTy).Contents (Elt F) → (⟨S1700000x128, .f32⟩ : BufTy).Contents (Elt F) → (⟨S1700000x128, .f32⟩ : BufTy).Contents (Elt F)),
    StableHlo.nullary main_cst_23 (constant S_ .f32 0x00000000#32),
    StableHlo.unary main_cst_23 main_v104 (broadcastInDim S100000x128 ![] bcast_S_S100000x128 : (⟨S_, .f32⟩ : BufTy).Contents (Elt F) → (⟨S100000x128, .f32⟩ : BufTy).Contents (Elt F)),
    StableHlo.unary main_v69 main_v105 (broadcastInDim S1700000x1 ![0] bcast_S1700000_S1700000x1_0 : (⟨S1700000, .i32⟩ : BufTy).Contents (Elt F) → (⟨S1700000x1, .i32⟩ : BufTy).Contents (Elt F)),
    StableHlo.ternary main_v104 main_v105 main_v103 main_v106 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg7 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v106 main_v108 main_v109 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v109 : StableHlo.TRef sig ⟨S100000x128, .f32⟩) main_call4.v0 main_call4.v1 maximumf ]

/-- Each touches TensorCore references only. -/
theorem ops2a_sub : (ops2a : List (HloOp τ sig (Elt F))).Forall fun op => op.bufs ⊆ tcRefs τ sig :=
  ⟨nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

/-- The operations of the printed window `main_part0` (60 statements, 64 operations once its calls are written out). -/
abbrev ops0 : List (HloOp τ sig (Elt F)) := ops0a ++ (ops0b ++ (ops0c))

theorem ops0_sub : (ops0 : List (HloOp τ sig (Elt F))).Forall fun op => op.bufs ⊆ tcRefs τ sig :=
  forall_app ops0a_sub (forall_app ops0b_sub (ops0c_sub))

set_option maxRecDepth 8192 in
/-- The window is that line: the callees' definitions unfold at their calls, the records at their fields, and sequencing
    reassociates by computation. -/
theorem main_part0_eq (c : Dev nD) : main_part0 (F := F) c = seq ops0 := rfl

/-- The operations of the printed window `main_part1` (60 statements, 83 operations once its calls are written out). -/
abbrev ops1 : List (HloOp τ sig (Elt F)) := ops1a ++ (ops1b ++ (ops1c ++ (ops1d)))

theorem ops1_sub : (ops1 : List (HloOp τ sig (Elt F))).Forall fun op => op.bufs ⊆ tcRefs τ sig :=
  forall_app ops1a_sub (forall_app ops1b_sub (forall_app ops1c_sub (ops1d_sub)))

set_option maxRecDepth 8192 in
/-- The window is that line: the callees' definitions unfold at their calls, the records at their fields, and sequencing
    reassociates by computation. -/
theorem main_part1_eq (c : Dev nD) : main_part1 (F := F) c = seq ops1 := rfl

/-- The operations of the printed window `main_part2` (17 statements, 19 operations once its calls are written out). -/
abbrev ops2 : List (HloOp τ sig (Elt F)) := ops2a

theorem ops2_sub : (ops2 : List (HloOp τ sig (Elt F))).Forall fun op => op.bufs ⊆ tcRefs τ sig :=
  ops2a_sub

set_option maxRecDepth 8192 in
/-- The window is that line: the callees' definitions unfold at their calls, the records at their fields, and sequencing
    reassociates by computation. -/
theorem main_part2_eq (c : Dev nD) : main_part2 (F := F) c = seq ops2 := rfl

/-- @main's 166 operations, in order. -/
abbrev ops : List (HloOp τ sig (Elt F)) := ops0 ++ (ops1 ++ ops2)

theorem ops_sub : (ops : List (HloOp τ sig (Elt F))).Forall fun op => op.bufs ⊆ tcRefs τ sig :=
  forall_app ops0_sub (forall_app ops1_sub ops2_sub)

/-- @main runs its three windows in order; each is its list, and lists run in order are their append. -/
theorem main_eq (c : Dev nD) : main (F := F) c = seq ops := by
  show (main_part0 (F := F) c >>= fun _ => main_part1 (F := F) c >>= fun _ => main_part2 (F := F) c) = seq (ops0 ++ (ops1 ++ ops2))
  rw [main_part0_eq, main_part1_eq, main_part2_eq, seq_append ops0 (ops1 ++ ops2), seq_append ops1 ops2]

/-- The reference has no kernel: its signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RefRun.lean ====
/-
  The reference program's run.

  Every weakly fair execution of @main terminates, faults nowhere, leaves the eight argument arrays as they were,
  and leaves in the result buffer the value `res_v110` of the arguments' initial contents. @main is a list of
  operations on buffers (`ops`), so what each buffer holds at the end is a fold of the operations' functions
  over the initial contents; the fold is evaluated piece by piece, carrying through each piece only the buffers a
  later piece reads. The values are stated as functions of the argument contents alone: `res_vN` is what
  `%N` of @main holds, each defined from earlier ones by the operation that computes it, the gathers, scatter-adds,
  dense products and concatenations applied exactly as @main applies them.
-/
import proofs.«121379_j57501022159518_1_alg».proof.Proof.RefRunOps
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The values, as functions of the arguments

`x` the node features, `ei` the edge list (two rows: sources, targets), `W1 b1` the first layer's weights and bias,
`gamma beta` the normalization's scale and shift, `W2 b2` the second layer's. -/

section Values

variable (x : (⟨S100000x25, .f32⟩ : BufTy).Contents (Elt F))
  (ei : (⟨S2x1600000, .i32⟩ : BufTy).Contents (Elt F))
  (W1 : (⟨S25x128, .f32⟩ : BufTy).Contents (Elt F))
  (b1 : (⟨S128, .f32⟩ : BufTy).Contents (Elt F))
  (gamma : (⟨S128, .f32⟩ : BufTy).Contents (Elt F))
  (beta : (⟨S128, .f32⟩ : BufTy).Contents (Elt F))
  (W2 : (⟨S128x128, .f32⟩ : BufTy).Contents (Elt F))
  (b2 : (⟨S128, .f32⟩ : BufTy).Contents (Elt F))

/-- The edge list's first row (the sources), as a vector. -/
def res_v1 : (⟨S1600000, .i32⟩ : BufTy).Contents (Elt F) :=
  shapeCast S1600000 (extractStridedSlice S1x1600000 ![0, 0] ei slices_S2x1600000_S1x1600000_0_0) shapeCasts_S1x1600000_S1600000

/-- The edge list's second row (the targets), as a vector. -/
def res_v3 : (⟨S1600000, .i32⟩ : BufTy).Contents (Elt F) :=
  shapeCast S1600000 (extractStridedSlice S1x1600000 ![1, 0] ei slices_S2x1600000_S1x1600000_1_0) shapeCasts_S1x1600000_S1600000

/-- The node numbers 0 … 99999. -/
def res_v4 : (⟨S100000, .i32⟩ : BufTy).Contents (Elt F) :=
  iotaInDim S100000 32 0

/-- The sources with one self-loop per node appended. -/
def res_v5 : (⟨S1700000, .i32⟩ : BufTy).Contents (Elt F) :=
  concatenate S1700000 0 [⟨S1600000, (res_v1 ei)⟩, ⟨S100000, res_v4⟩] concatenates_S1600000_S100000_S1700000_d0

/-- The targets with one self-loop per node appended. -/
def res_v6 : (⟨S1700000, .i32⟩ : BufTy).Contents (Elt F) :=
  concatenate S1700000 0 [⟨S1600000, (res_v3 ei)⟩, ⟨S100000, res_v4⟩] concatenates_S1600000_S100000_S1700000_d0

/-- The degree of each node: ones added up at the targets. -/
def res_v10 : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (res_v6 ei)) (broadcastInDim S1700000 ![] bcast_S_S1700000 (constant S_ .f32 0x3F800000#32))

/-- The degree's inverse square root where the degree is positive, zero elsewhere. -/
def res_v14 : (⟨S100000, .f32⟩ : BufTy).Contents (Elt F) :=
  select (cmpf .ogt (res_v10 ei) ((broadcastInDim S100000 ![] bcast_S_S100000 (constant S_ .f32 0x00000000#32) : (⟨S100000, .f32⟩ : BufTy).Contents (Elt F)))) (Host.rsqrt (res_v10 ei)) (broadcastInDim S100000 ![] bcast_S_S100000 (constant S_ .f32 0x00000000#32))

/-- The inverse-square-root degree at each edge's (wrapped) source. -/
def res_v21 : (⟨S1700000, .f32⟩ : BufTy).Contents (Elt F) :=
  Host.gather gather_S100000_S1700000x1_S1700000_n_0_n_n_0_1_1 (res_v14 ei) (broadcastInDim S1700000x1 ![0] bcast_S1700000_S1700000x1_0 (select (cmpi .slt (res_v5 ei) (broadcastInDim S1700000 ![] bcast_S_S1700000 (constantI S_ 32 0#32))) (addi (res_v5 ei) (broadcastInDim S1700000 ![] bcast_S_S1700000 (constantI S_ 32 100000#32))) (res_v5 ei)))

/-- The inverse-square-root degree at each edge's (wrapped) target. -/
def res_v28 : (⟨S1700000, .f32⟩ : BufTy).Contents (Elt F) :=
  Host.gather gather_S100000_S1700000x1_S1700000_n_0_n_n_0_1_1 (res_v14 ei) (broadcastInDim S1700000x1 ![0] bcast_S1700000_S1700000x1_0 (select (cmpi .slt (res_v6 ei) (broadcastInDim S1700000 ![] bcast_S_S1700000 (constantI S_ 32 0#32))) (addi (res_v6 ei) (broadcastInDim S1700000 ![] bcast_S_S1700000 (constantI S_ 32 100000#32))) (res_v6 ei)))

/-- The edge weights: the product of the two ends' inverse-square-root degrees. -/
def res_v29 : (⟨S1700000, .f32⟩ : BufTy).Contents (Elt F) :=
  mulf (res_v21 ei) (res_v28 ei)

/-- The first dense product `x · W1`. -/
def res_v30 : (⟨S100000x128, .f32⟩ : BufTy).Contents (Elt F) :=
  Host.dotGeneral dot_S100000x25_S25x128_S100000x128_1_0_0_1_n_n none x W1

/-- The rows of `x · W1` at each edge's (wrapped) source. -/
def res_v37 : (⟨S1700000x128, .f32⟩ : BufTy).Contents (Elt F) :=
  Host.gather gather_S100000x128_S1700000x1_S1700000x128_1_0_n_n_0_1_1128 (res_v30 x W1) (broadcastInDim S1700000x1 ![0] bcast_S1700000_S1700000x1_0 (select (cmpi .slt (res_v5 ei) (broadcastInDim S1700000 ![] bcast_S_S1700000 (constantI S_ 32 0#32))) (addi (res_v5 ei) (broadcastInDim S1700000 ![] bcast_S_S1700000 (constantI S_ 32 100000#32))) (res_v5 ei)))

/-- Those rows scaled by the edge weights. -/
def res_v40 : (⟨S1700000x128, .f32⟩ : BufTy).Contents (Elt F) :=
  mulf (res_v37 x ei W1) (broadcastInDim S1700000x128 ![0, 1] bcast_S1700000x1_S1700000x128_0_1 (broadcastInDim S1700000x1 ![0] bcast_S1700000_S1700000x1_0 (res_v29 ei)))

/-- The first aggregation: the scaled rows added up at the targets. -/
def res_v43 : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (res_v6 ei)) (res_v40 x ei W1)

/-- The first aggregation plus the bias `b1`. -/
def res_v46 : (⟨S100000x128, .f32⟩ : BufTy).Contents (Elt F) :=
  addf (res_v43 x ei W1) (broadcastInDim S100000x128 ![0, 1] bcast_S1x128_S100000x128_0_1 (broadcastInDim S1x128 ![1] bcast_S128_S1x128_1 b1))

/-- The first layer's output: the positive part of the aggregation plus bias. -/
def res_v47 : (⟨S100000x128, .f32⟩ : BufTy).Contents (Elt F) :=
  maximumf (res_v46 x ei W1 b1) (broadcastInDim S100000x128 ![] bcast_S_S100000x128 (constant S_ .f32 0x00000000#32))

/-- The zero the column sums start from. -/
def res_cst_9 : (⟨S_, .f32⟩ : BufTy).Contents (Elt F) :=
  constant S_ .f32 0x00000000#32

/-- The column sums of the first layer's output. -/
def res_v48 : (⟨S128, .f32⟩ : BufTy).Contents (Elt F) :=
  Host.reduceAdd (res_v47 x ei W1 b1) (constant S_ .f32 0x00000000#32) reducesTo_S100000x128_S128_d0 h_S_

/-- The column means of the first layer's output. -/
def res_v50 : (⟨S128, .f32⟩ : BufTy).Contents (Elt F) :=
  Host.divf (res_v48 x ei W1 b1) (broadcastInDim S128 ![] bcast_S_S128 (constant S_ .f32 0x47C35000#32))

/-- Inside the variance: the first layer's output minus its column means. -/
def res_call2_v5 : (⟨S100000x128, .f32⟩ : BufTy).Contents (Elt F) :=
  subf (res_v47 x ei W1 b1) (broadcastInDim S100000x128 ![0, 1] bcast_S1x128_S100000x128_0_1 (Host.divf (broadcastInDim S1x128 ![1] bcast_S128_S1x128_1 (Host.reduceAdd (res_v47 x ei W1 b1) (constant S_ .f32 0x00000000#32) reducesTo_S100000x128_S128_d0 h_S_)) (broadcastInDim S1x128 ![] bcast_S_S1x128 (constant S_ .f32 0x47C35000#32))))

/-- Inside the variance: the column sums of the squared deviations. -/
def res_call2_v9 : (⟨S128, .f32⟩ : BufTy).Contents (Elt F) :=
  Host.reduceAdd (mulf (res_call2_v5 x ei W1 b1) (res_call2_v5 x ei W1 b1)) (constant S_ .f32 0x00000000#32) reducesTo_S100000x128_S128_d0 h_S_

/-- Inside the variance: those sums divided by the number of rows. -/
def res_call2_v11 : (⟨S128, .f32⟩ : BufTy).Contents (Elt F) :=
  Host.divf (res_call2_v9 x ei W1 b1) (broadcastInDim S128 ![] bcast_S_S128 (subf (constant S_ .f32 0x47C35000#32) (sitofp .f32 (constantI S_ 32 0#32))))

/-- The column variances of the first layer's output (the guarded quotient: the divisor 100000 − 0 is positive, so the quotient is selected). -/
def res_v51 : (⟨S128, .f32⟩ : BufTy).Contents (Elt F) :=
  select (broadcastInDim S128 ![] bcast_S_S128 (cmpf .ogt ((subf (constant S_ .f32 0x47C35000#32) (sitofp .f32 (constantI S_ 32 0#32)) : (⟨S_, .f32⟩ : BufTy).Contents (Elt F))) ((constant S_ .f32 0x00000000#32 : (⟨S_, .f32⟩ : BufTy).Contents (Elt F))))) (res_call2_v11 x ei W1 b1) (broadcastInDim S128 ![] bcast_S_S128 (constant S_ .f32 0x7FC00000#32))

/-- The first layer's output minus its column means. -/
def res_v54 : (⟨S100000x128, .f32⟩ : BufTy).Contents (Elt F) :=
  subf (res_v47 x ei W1 b1) (broadcastInDim S100000x128 ![0, 1] bcast_S1x128_S100000x128_0_1 (broadcastInDim S1x128 ![1] bcast_S128_S1x128_1 (res_v50 x ei W1 b1)))

/-- The variances plus ε. -/
def res_v56 : (⟨S128, .f32⟩ : BufTy).Contents (Elt F) :=
  addf (res_v51 x ei W1 b1) (broadcastInDim S128 ![] bcast_S_S128 (constant S_ .f32 0x3727C5AC#32))

/-- The inverse square root of variance plus ε. -/
def res_v57 : (⟨S128, .f32⟩ : BufTy).Contents (Elt F) :=
  Host.rsqrt (res_v56 x ei W1 b1)

/-- The centered output scaled by the inverse standard deviation. -/
def res_v60 : (⟨S100000x128, .f32⟩ : BufTy).Contents (Elt F) :=
  mulf (res_v54 x ei W1 b1) (broadcastInDim S100000x128 ![0, 1] bcast_S1x128_S100000x128_0_1 (broadcastInDim S1x128 ![1] bcast_S128_S1x128_1 (res_v57 x ei W1 b1)))

/-- That, times `gamma`. -/
def res_v63 : (⟨S100000x128, .f32⟩ : BufTy).Contents (Elt F) :=
  mulf (res_v60 x ei W1 b1) (broadcastInDim S100000x128 ![0, 1] bcast_S1x128_S100000x128_0_1 (broadcastInDim S1x128 ![1] bcast_S128_S1x128_1 gamma))

/-- The batch-normalized output: scaled by `gamma`, shifted by `beta`. -/
def res_v66 : (⟨S100000x128, .f32⟩ : BufTy).Contents (Elt F) :=
  addf (res_v63 x ei W1 b1 gamma) (broadcastInDim S100000x128 ![0, 1] bcast_S1x128_S100000x128_0_1 (broadcastInDim S1x128 ![1] bcast_S128_S1x128_1 beta))

/-- The node numbers again. -/
def res_v67 : (⟨S100000, .i32⟩ : BufTy).Contents (Elt F) :=
  iotaInDim S100000 32 0

/-- The sources with self-loops, computed again. -/
def res_v68 : (⟨S1700000, .i32⟩ : BufTy).Contents (Elt F) :=
  concatenate S1700000 0 [⟨S1600000, (res_v1 ei)⟩, ⟨S100000, res_v67⟩] concatenates_S1600000_S100000_S1700000_d0

/-- The targets with self-loops, computed again. -/
def res_v69 : (⟨S1700000, .i32⟩ : BufTy).Contents (Elt F) :=
  concatenate S1700000 0 [⟨S1600000, (res_v3 ei)⟩, ⟨S100000, res_v67⟩] concatenates_S1600000_S100000_S1700000_d0

/-- The degree, computed again. -/
def res_v73 : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 (res_v69 ei)) (broadcastInDim S1700000 ![] bcast_S_S1700000 (constant S_ .f32 0x3F800000#32))

/-- The guarded inverse square root of the degree, computed again. -/
def res_v77 : (⟨S100000, .f32⟩ : BufTy).Contents (Elt F) :=
  select (cmpf .ogt (res_v73 ei) ((broadcastInDim S100000 ![] bcast_S_S100000 (constant S_ .f32 0x00000000#32) : (⟨S100000, .f32⟩ : BufTy).Contents (Elt F)))) (Host.rsqrt (res_v73 ei)) (broadcastInDim S100000 ![] bcast_S_S100000 (constant S_ .f32 0x00000000#32))

/-- It at each edge's (wrapped) source. -/
def res_v84 : (⟨S1700000, .f32⟩ : BufTy).Contents (Elt F) :=
  Host.gather gather_S100000_S1700000x1_S1700000_n_0_n_n_0_1_1 (res_v77 ei) (broadcastInDim S1700000x1 ![0] bcast_S1700000_S1700000x1_0 (select (cmpi .slt (res_v68 ei) (broadcastInDim S1700000 ![] bcast_S_S1700000 (constantI S_ 32 0#32))) (addi (res_v68 ei) (broadcastInDim S1700000 ![] bcast_S_S1700000 (constantI S_ 32 100000#32))) (res_v68 ei)))

/-- It at each edge's (wrapped) target. -/
def res_v91 : (⟨S1700000, .f32⟩ : BufTy).Contents (Elt F) :=
  Host.gather gather_S100000_S1700000x1_S1700000_n_0_n_n_0_1_1 (res_v77 ei) (broadcastInDim S1700000x1 ![0] bcast_S1700000_S1700000x1_0 (select (cmpi .slt (res_v69 ei) (broadcastInDim S1700000 ![] bcast_S_S1700000 (constantI S_ 32 0#32))) (addi (res_v69 ei) (broadcastInDim S1700000 ![] bcast_S_S1700000 (constantI S_ 32 100000#32))) (res_v69 ei)))

/-- The edge weights, computed again. -/
def res_v92 : (⟨S1700000, .f32⟩ : BufTy).Contents (Elt F) :=
  mulf (res_v84 ei) (res_v91 ei)

/-- The second dense product: the batch-normalized output times `W2`. -/
def res_v93 : (⟨S100000x128, .f32⟩ : BufTy).Contents (Elt F) :=
  Host.dotGeneral dot_S100000x128_S128x128_S100000x128_1_0_0_1_n_n none (res_v66 x ei W1 b1 gamma beta) W2

/-- Which entries of the source vector are negative (the test made once more for the second gather). -/
def res_v95 : (⟨S1700000, .i1⟩ : BufTy).Contents (Elt F) :=
  cmpi .slt (res_v68 ei) (broadcastInDim S1700000 ![] bcast_S_S1700000 (constantI S_ 32 0#32))

/-- Its rows at each edge's (wrapped) source. -/
def res_v100 : (⟨S1700000x128, .f32⟩ : BufTy).Contents (Elt F) :=
  Host.gather gather_S100000x128_S1700000x1_S1700000x128_1_0_n_n_0_1_1128 (res_v93 x ei W1 b1 gamma beta W2) (broadcastInDim S1700000x1 ![0] bcast_S1700000_S1700000x1_0 (select (cmpi .slt (res_v68 ei) (broadcastInDim S1700000 ![] bcast_S_S1700000 (constantI S_ 32 0#32))) (addi (res_v68 ei) (broadcastInDim S1700000 ![] bcast_S_S1700000 (constantI S_ 32 100000#32))) (res_v68 ei)))

/-- Those rows scaled by the edge weights. -/
def res_v103 : (⟨S1700000x128, .f32⟩ : BufTy).Contents (Elt F) :=
  mulf (res_v100 x ei W1 b1 gamma beta W2) (broadcastInDim S1700000x128 ![0, 1] bcast_S1700000x1_S1700000x128_0_1 (broadcastInDim S1700000x1 ![0] bcast_S1700000_S1700000x1_0 (res_v92 ei)))

/-- The second aggregation. -/
def res_v106 : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (res_v69 ei)) (res_v103 x ei W1 b1 gamma beta W2)

/-- The second aggregation plus the bias `b2`. -/
def res_v109 : (⟨S100000x128, .f32⟩ : BufTy).Contents (Elt F) :=
  addf (res_v106 x ei W1 b1 gamma beta W2) (broadcastInDim S100000x128 ![0, 1] bcast_S1x128_S100000x128_0_1 (broadcastInDim S1x128 ![1] bcast_S128_S1x128_1 b2))

/-- The result: the positive part of the second aggregation plus bias. -/
def res_v110 : (⟨S100000x128, .f32⟩ : BufTy).Contents (Elt F) :=
  maximumf (res_v109 x ei W1 b1 gamma beta W2 b2) (broadcastInDim S100000x128 ![] bcast_S_S100000x128 (constant S_ .f32 0x00000000#32))

/-! ### The graph part is computed twice

@main computes the self-looped index vectors, the degree, its guarded inverse square root and the edge weights once
before the first layer and once more before the second (`%67 … %92` repeat `%4 … %29`), by the same operations from
the same edge list: the second values are the first. -/

theorem res_v68_eq : res_v68 (F := F) ei = res_v5 ei := by unfold res_v68 res_v5 res_v67 res_v4; rfl
theorem res_v69_eq : res_v69 (F := F) ei = res_v6 ei := by unfold res_v69 res_v6 res_v67 res_v4; rfl
theorem res_v73_eq : res_v73 (F := F) ei = res_v10 ei := by unfold res_v73 res_v10; rw [res_v69_eq]
theorem res_v77_eq : res_v77 (F := F) ei = res_v14 ei := by unfold res_v77 res_v14; rw [res_v73_eq]
theorem res_v84_eq : res_v84 (F := F) ei = res_v21 ei := by unfold res_v84 res_v21; rw [res_v77_eq, res_v68_eq]
theorem res_v91_eq : res_v91 (F := F) ei = res_v28 ei := by unfold res_v91 res_v28; rw [res_v77_eq, res_v69_eq]
theorem res_v92_eq : res_v92 (F := F) ei = res_v29 ei := by unfold res_v92 res_v29; rw [res_v84_eq, res_v91_eq]

end Values

/-! ## The buffers' contents, piece by piece -/

/-- An operation that writes the one buffer `y`, `y` among `W`: what it writes is within `W`. -/
theorem writes_sub_of_mem {W : List (Ref sig .tc)} {op : HloOp τ sig (Elt F)} {y : Ref sig .tc}
    (hw : op.writes = {Proc.devRef .tc y}) (hy : y ∈ W) : op.writes ⊆ (W.map (Proc.devRef (τ := τ) .tc)).toFinset := by
  rw [hw, Finset.singleton_subset_iff, List.mem_toFinset]; exact List.mem_map_of_mem hy

/-- The device's buffer contents before @main. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl

/-- The contents after `ops0a`. -/
def val1 (V0 : Valuation τ sig (Elt F)) : Valuation τ sig (Elt F) := after ops0a (val0 V0)
/-- The buffers `ops0a` writes. -/
abbrev ops0a_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14]
set_option maxRecDepth 8192 in
theorem ops0a_writes : (ops0a : List (HloOp τ sig (Elt F))).Forall fun op => op.writes ⊆ (ops0a_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer `ops0a` does not write keeps its contents through it. -/
theorem val1_keep (V0 : Valuation τ sig (Elt F)) (r : Ref sig .tc) (h : r ∉ ops0a_W) :
    val1 V0 (Proc.devRef .tc r) = val0 V0 (Proc.devRef .tc r) :=
  after_of_writes_sub ops0a _ ops0a_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
set_option maxRecDepth 8192 in
set_option maxHeartbeats 1000000 in
theorem val1_main_v1 (V0 : Valuation τ sig (Elt F)) : val1 V0 (no_index (Proc.devRef .tc main_v1)) = res_v1 (V0 (Proc.devRef .tc main_arg1)) := by
  unfold val1
  simp only [ops0a]
  after_results_simp
  simp only [val0_main_arg1] <;> rfl
set_option maxRecDepth 8192 in
set_option maxHeartbeats 1000000 in
theorem val1_main_v3 (V0 : Valuation τ sig (Elt F)) : val1 V0 (no_index (Proc.devRef .tc main_v3)) = res_v3 (V0 (Proc.devRef .tc main_arg1)) := by
  unfold val1
  simp only [ops0a]
  after_results_simp
  simp only [val0_main_arg1] <;> rfl
set_option maxRecDepth 8192 in
set_option maxHeartbeats 1000000 in
theorem val1_main_v5 (V0 : Valuation τ sig (Elt F)) : val1 V0 (no_index (Proc.devRef .tc main_v5)) = res_v5 (V0 (Proc.devRef .tc main_arg1)) := by
  unfold val1
  simp only [ops0a]
  after_results_simp
  simp only [val0_main_arg1] <;> rfl
set_option maxRecDepth 8192 in
set_option maxHeartbeats 1000000 in
theorem val1_main_v6 (V0 : Valuation τ sig (Elt F)) : val1 V0 (no_index (Proc.devRef .tc main_v6)) = res_v6 (V0 (Proc.devRef .tc main_arg1)) := by
  unfold val1
  simp only [ops0a]
  after_results_simp
  simp only [val0_main_arg1] <;> rfl
set_option maxRecDepth 8192 in
set_option maxHeartbeats 1000000 in
theorem val1_main_v14 (V0 : Valuation τ sig (Elt F)) : val1 V0 (no_index (Proc.devRef .tc main_v14)) = res_v14 (V0 (Proc.devRef .tc main_arg1)) := by
  unfold val1
  simp only [ops0a]
  after_results_simp
  simp only [val0_main_arg1] <;> rfl

/-- The contents after `ops0b`. -/
def val2 (V0 : Valuation τ sig (Elt F)) : Valuation τ sig (Elt F) := after ops0b (val1 V0)
/-- The buffers `ops0b` writes. -/
abbrev ops0b_W : List (Ref sig .tc) := [main_c, main_v15, main_v16, main_c_3, main_v17, main_v18, main_v19, main_v20, main_v21, main_c_4, main_v22, main_v23, main_c_5, main_v24, main_v25, main_v26, main_v27, main_v28, main_v29, main_v30]
set_option maxRecDepth 8192 in
theorem ops0b_writes : (ops0b : List (HloOp τ sig (Elt F))).Forall fun op => op.writes ⊆ (ops0b_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer `ops0b` does not write keeps its contents through it. -/
theorem val2_keep (V0 : Valuation τ sig (Elt F)) (r : Ref sig .tc) (h : r ∉ ops0b_W) :
    val2 V0 (Proc.devRef .tc r) = val1 V0 (Proc.devRef .tc r) :=
  after_of_writes_sub ops0b _ ops0b_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_v1 (V0 : Valuation τ sig (Elt F)) : val2 V0 (no_index (Proc.devRef .tc main_v1)) = res_v1 (V0 (Proc.devRef .tc main_arg1)) :=
  (val2_keep V0 main_v1 (by decide)).trans (val1_main_v1 V0)
theorem val2_main_v3 (V0 : Valuation τ sig (Elt F)) : val2 V0 (no_index (Proc.devRef .tc main_v3)) = res_v3 (V0 (Proc.devRef .tc main_arg1)) :=
  (val2_keep V0 main_v3 (by decide)).trans (val1_main_v3 V0)
theorem val2_main_v5 (V0 : Valuation τ sig (Elt F)) : val2 V0 (no_index (Proc.devRef .tc main_v5)) = res_v5 (V0 (Proc.devRef .tc main_arg1)) :=
  (val2_keep V0 main_v5 (by decide)).trans (val1_main_v5 V0)
theorem val2_main_v6 (V0 : Valuation τ sig (Elt F)) : val2 V0 (no_index (Proc.devRef .tc main_v6)) = res_v6 (V0 (Proc.devRef .tc main_arg1)) :=
  (val2_keep V0 main_v6 (by decide)).trans (val1_main_v6 V0)
set_option maxRecDepth 8192 in
set_option maxHeartbeats 1000000 in
theorem val2_main_v29 (V0 : Valuation τ sig (Elt F)) : val2 V0 (no_index (Proc.devRef .tc main_v29)) = res_v29 (V0 (Proc.devRef .tc main_arg1)) := by
  unfold val2
  simp only [ops0b]
  after_results_simp
  simp only [val1_main_v14, val1_main_v5, val1_main_v6] <;> rfl
set_option maxRecDepth 8192 in
set_option maxHeartbeats 1000000 in
theorem val2_main_v30 (V0 : Valuation τ sig (Elt F)) : val2 V0 (no_index (Proc.devRef .tc main_v30)) = res_v30 (V0 (Proc.devRef .tc main_arg0)) (V0 (Proc.devRef .tc main_arg2)) := by
  unfold val2
  simp only [ops0b]
  after_results_simp
  simp only [val1_main_arg0, val1_main_arg2] <;> rfl

/-- The contents after `ops0c`. -/
def val3 (V0 : Valuation τ sig (Elt F)) : Valuation τ sig (Elt F) := after ops0c (val2 V0)
/-- The buffers `ops0c` writes. -/
abbrev ops0c_W : List (Ref sig .tc) := [main_c_6, main_v31, main_v32, main_c_7, main_v33, main_v34, main_v35, main_v36, main_v37, main_v38, main_v39, main_v40, main_cst_8, main_v41, main_v42, main_v43, main_v44, main_v45, main_v46, main_call1_cst, main_call1_v0, main_v47, main_cst_9]
set_option maxRecDepth 8192 in
theorem ops0c_writes : (ops0c : List (HloOp τ sig (Elt F))).Forall fun op => op.writes ⊆ (ops0c_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer `ops0c` does not write keeps its contents through it. -/
theorem val3_keep (V0 : Valuation τ sig (Elt F)) (r : Ref sig .tc) (h : r ∉ ops0c_W) :
    val3 V0 (Proc.devRef .tc r) = val2 V0 (Proc.devRef .tc r) :=
  after_of_writes_sub ops0c _ ops0c_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_v1 (V0 : Valuation τ sig (Elt F)) : val3 V0 (no_index (Proc.devRef .tc main_v1)) = res_v1 (V0 (Proc.devRef .tc main_arg1)) :=
  (val3_keep V0 main_v1 (by decide)).trans (val2_main_v1 V0)
theorem val3_main_v3 (V0 : Valuation τ sig (Elt F)) : val3 V0 (no_index (Proc.devRef .tc main_v3)) = res_v3 (V0 (Proc.devRef .tc main_arg1)) :=
  (val3_keep V0 main_v3 (by decide)).trans (val2_main_v3 V0)
set_option maxRecDepth 8192 in
set_option maxHeartbeats 1000000 in
theorem val3_main_v47 (V0 : Valuation τ sig (Elt F)) : val3 V0 (no_index (Proc.devRef .tc main_v47)) = res_v47 (V0 (Proc.devRef .tc main_arg0)) (V0 (Proc.devRef .tc main_arg1)) (V0 (Proc.devRef .tc main_arg2)) (V0 (Proc.devRef .tc main_arg3)) := by
  unfold val3
  simp only [ops0c]
  after_results_simp
  simp only [val2_main_v6, val2_main_v30, val2_main_v5, val2_main_v29, val2_main_arg3] <;> rfl
set_option maxRecDepth 8192 in
set_option maxHeartbeats 1000000 in
theorem val3_main_cst_9 (V0 : Valuation τ sig (Elt F)) : val3 V0 (no_index (Proc.devRef .tc main_cst_9)) = res_cst_9 := by
  unfold val3
  simp only [ops0c]
  after_results_simp
  rfl

/-- The contents after `ops1a`. -/
def val4 (V0 : Valuation τ sig (Elt F)) : Valuation τ sig (Elt F) := after ops1a (val3 V0)
/-- The buffers `ops1a` writes. -/
abbrev ops1a_W : List (Ref sig .tc) := [main_v48, main_cst_10, main_v49, main_v50, main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v51]
set_option maxRecDepth 8192 in
theorem ops1a_writes : (ops1a : List (HloOp τ sig (Elt F))).Forall fun op => op.writes ⊆ (ops1a_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer `ops1a` does not write keeps its contents through it. -/
theorem val4_keep (V0 : Valuation τ sig (Elt F)) (r : Ref sig .tc) (h : r ∉ ops1a_W) :
    val4 V0 (Proc.devRef .tc r) = val3 V0 (Proc.devRef .tc r) :=
  after_of_writes_sub ops1a _ ops1a_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_v1 (V0 : Valuation τ sig (Elt F)) : val4 V0 (no_index (Proc.devRef .tc main_v1)) = res_v1 (V0 (Proc.devRef .tc main_arg1)) :=
  (val4_keep V0 main_v1 (by decide)).trans (val3_main_v1 V0)
theorem val4_main_v3 (V0 : Valuation τ sig (Elt F)) : val4 V0 (no_index (Proc.devRef .tc main_v3)) = res_v3 (V0 (Proc.devRef .tc main_arg1)) :=
  (val4_keep V0 main_v3 (by decide)).trans (val3_main_v3 V0)
theorem val4_main_v47 (V0 : Valuation τ sig (Elt F)) : val4 V0 (no_index (Proc.devRef .tc main_v47)) = res_v47 (V0 (Proc.devRef .tc main_arg0)) (V0 (Proc.devRef .tc main_arg1)) (V0 (Proc.devRef .tc main_arg2)) (V0 (Proc.devRef .tc main_arg3)) :=
  (val4_keep V0 main_v47 (by decide)).trans (val3_main_v47 V0)
set_option maxRecDepth 8192 in
set_option maxHeartbeats 1000000 in
theorem val4_main_v50 (V0 : Valuation τ sig (Elt F)) : val4 V0 (no_index (Proc.devRef .tc main_v50)) = res_v50 (V0 (Proc.devRef .tc main_arg0)) (V0 (Proc.devRef .tc main_arg1)) (V0 (Proc.devRef .tc main_arg2)) (V0 (Proc.devRef .tc main_arg3)) := by
  unfold val4
  simp only [ops1a]
  after_results_simp
  simp only [val3_main_v47, val3_main_cst_9] <;> rfl
set_option maxRecDepth 8192 in
set_option maxHeartbeats 1000000 in
theorem val4_main_v51 (V0 : Valuation τ sig (Elt F)) : val4 V0 (no_index (Proc.devRef .tc main_v51)) = res_v51 (V0 (Proc.devRef .tc main_arg0)) (V0 (Proc.devRef .tc main_arg1)) (V0 (Proc.devRef .tc main_arg2)) (V0 (Proc.devRef .tc main_arg3)) := by
  unfold val4
  simp only [ops1a]
  after_results_simp
  simp only [val3_main_v47] <;> rfl

/-- The contents after `ops1b`. -/
def val5 (V0 : Valuation τ sig (Elt F)) : Valuation τ sig (Elt F) := after ops1b (val4 V0)
/-- The buffers `ops1b` writes. -/
abbrev ops1b_W : List (Ref sig .tc) := [main_v52, main_v53, main_v54, main_cst_12, main_v55, main_v56, main_v57, main_v58, main_v59, main_v60, main_v61, main_v62, main_v63, main_v64, main_v65, main_v66]
set_option maxRecDepth 8192 in
theorem ops1b_writes : (ops1b : List (HloOp τ sig (Elt F))).Forall fun op => op.writes ⊆ (ops1b_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer `ops1b` does not write keeps its contents through it. -/
theorem val5_keep (V0 : Valuation τ sig (Elt F)) (r : Ref sig .tc) (h : r ∉ ops1b_W) :
    val5 V0 (Proc.devRef .tc r) = val4 V0 (Proc.devRef .tc r) :=
  after_of_writes_sub ops1b _ ops1b_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_v1 (V0 : Valuation τ sig (Elt F)) : val5 V0 (no_index (Proc.devRef .tc main_v1)) = res_v1 (V0 (Proc.devRef .tc main_arg1)) :=
  (val5_keep V0 main_v1 (by decide)).trans (val4_main_v1 V0)
theorem val5_main_v3 (V0 : Valuation τ sig (Elt F)) : val5 V0 (no_index (Proc.devRef .tc main_v3)) = res_v3 (V0 (Proc.devRef .tc main_arg1)) :=
  (val5_keep V0 main_v3 (by decide)).trans (val4_main_v3 V0)
set_option maxRecDepth 8192 in
set_option maxHeartbeats 1000000 in
theorem val5_main_v66 (V0 : Valuation τ sig (Elt F)) : val5 V0 (no_index (Proc.devRef .tc main_v66)) = res_v66 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val5
  simp only [ops1b]
  after_results_simp
  simp only [val4_main_v47, val4_main_v50, val4_main_v51, val4_main_arg4, val4_main_arg5] <;> rfl

/-- The contents after `ops1c`. -/
def val6 (V0 : Valuation τ sig (Elt F)) : Valuation τ sig (Elt F) := after ops1c (val5 V0)
/-- The buffers `ops1c` writes. -/
abbrev ops1c_W : List (Ref sig .tc) := [main_v67, main_v68, main_v69, main_cst_13, main_v70, main_cst_14, main_v71, main_v72, main_v73, main_cst_15, main_v74, main_v75, main_v76, main_cst_16, main_call3_v0, main_call3_v1, main_v77]
set_option maxRecDepth 8192 in
theorem ops1c_writes : (ops1c : List (HloOp τ sig (Elt F))).Forall fun op => op.writes ⊆ (ops1c_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer `ops1c` does not write keeps its contents through it. -/
theorem val6_keep (V0 : Valuation τ sig (Elt F)) (r : Ref sig .tc) (h : r ∉ ops1c_W) :
    val6 V0 (Proc.devRef .tc r) = val5 V0 (Proc.devRef .tc r) :=
  after_of_writes_sub ops1c _ ops1c_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_v66 (V0 : Valuation τ sig (Elt F)) : val6 V0 (no_index (Proc.devRef .tc main_v66)) = res_v66 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) :=
  (val6_keep V0 main_v66 (by decide)).trans (val5_main_v66 V0)
set_option maxRecDepth 8192 in
set_option maxHeartbeats 1000000 in
theorem val6_main_v68 (V0 : Valuation τ sig (Elt F)) : val6 V0 (no_index (Proc.devRef .tc main_v68)) = res_v68 (V0 (Proc.devRef .tc main_arg1)) := by
  unfold val6
  simp only [ops1c]
  after_results_simp
  simp only [val5_main_v1] <;> rfl
set_option maxRecDepth 8192 in
set_option maxHeartbeats 1000000 in
theorem val6_main_v69 (V0 : Valuation τ sig (Elt F)) : val6 V0 (no_index (Proc.devRef .tc main_v69)) = res_v69 (V0 (Proc.devRef .tc main_arg1)) := by
  unfold val6
  simp only [ops1c]
  after_results_simp
  simp only [val5_main_v3] <;> rfl
set_option maxRecDepth 8192 in
set_option maxHeartbeats 1000000 in
theorem val6_main_v77 (V0 : Valuation τ sig (Elt F)) : val6 V0 (no_index (Proc.devRef .tc main_v77)) = res_v77 (V0 (Proc.devRef .tc main_arg1)) := by
  unfold val6
  simp only [ops1c]
  after_results_simp
  simp only [val5_main_v3] <;> rfl

/-- The contents after `ops1d`. -/
def val7 (V0 : Valuation τ sig (Elt F)) : Valuation τ sig (Elt F) := after ops1d (val6 V0)
/-- The buffers `ops1d` writes. -/
abbrev ops1d_W : List (Ref sig .tc) := [main_c_17, main_v78, main_v79, main_c_18, main_v80, main_v81, main_v82, main_v83, main_v84, main_c_19, main_v85, main_v86, main_c_20, main_v87, main_v88, main_v89, main_v90, main_v91, main_v92, main_v93, main_c_21, main_v94, main_v95]
set_option maxRecDepth 8192 in
theorem ops1d_writes : (ops1d : List (HloOp τ sig (Elt F))).Forall fun op => op.writes ⊆ (ops1d_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer `ops1d` does not write keeps its contents through it. -/
theorem val7_keep (V0 : Valuation τ sig (Elt F)) (r : Ref sig .tc) (h : r ∉ ops1d_W) :
    val7 V0 (Proc.devRef .tc r) = val6 V0 (Proc.devRef .tc r) :=
  after_of_writes_sub ops1d _ ops1d_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_v68 (V0 : Valuation τ sig (Elt F)) : val7 V0 (no_index (Proc.devRef .tc main_v68)) = res_v68 (V0 (Proc.devRef .tc main_arg1)) :=
  (val7_keep V0 main_v68 (by decide)).trans (val6_main_v68 V0)
theorem val7_main_v69 (V0 : Valuation τ sig (Elt F)) : val7 V0 (no_index (Proc.devRef .tc main_v69)) = res_v69 (V0 (Proc.devRef .tc main_arg1)) :=
  (val7_keep V0 main_v69 (by decide)).trans (val6_main_v69 V0)
set_option maxRecDepth 8192 in
set_option maxHeartbeats 1000000 in
theorem val7_main_v92 (V0 : Valuation τ sig (Elt F)) : val7 V0 (no_index (Proc.devRef .tc main_v92)) = res_v92 (V0 (Proc.devRef .tc main_arg1)) := by
  unfold val7
  simp only [ops1d]
  after_results_simp
  simp only [val6_main_v77, val6_main_v68, val6_main_v69] <;> rfl
set_option maxRecDepth 8192 in
set_option maxHeartbeats 1000000 in
theorem val7_main_v93 (V0 : Valuation τ sig (Elt F)) : val7 V0 (no_index (Proc.devRef .tc main_v93)) = res_v93 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  unfold val7
  simp only [ops1d]
  after_results_simp
  simp only [val6_main_v66, val6_main_arg6] <;> rfl
set_option maxRecDepth 8192 in
set_option maxHeartbeats 1000000 in
theorem val7_main_v95 (V0 : Valuation τ sig (Elt F)) : val7 V0 (no_index (Proc.devRef .tc main_v95)) = res_v95 (V0 (Proc.devRef .tc main_arg1)) := by
  unfold val7
  simp only [ops1d]
  after_results_simp
  simp only [val6_main_v68] <;> rfl

/-- The contents after `ops2a`. -/
def val8 (V0 : Valuation τ sig (Elt F)) : Valuation τ sig (Elt F) := after ops2a (val7 V0)
/-- The buffers `ops2a` writes. -/
abbrev ops2a_W : List (Ref sig .tc) := [main_c_22, main_v96, main_v97, main_v98, main_v99, main_v100, main_v101, main_v102, main_v103, main_cst_23, main_v104, main_v105, main_v106, main_v107, main_v108, main_v109, main_call4_cst, main_call4_v0, main_v110]
set_option maxRecDepth 8192 in
theorem ops2a_writes : (ops2a : List (HloOp τ sig (Elt F))).Forall fun op => op.writes ⊆ (ops2a_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer `ops2a` does not write keeps its contents through it. -/
theorem val8_keep (V0 : Valuation τ sig (Elt F)) (r : Ref sig .tc) (h : r ∉ ops2a_W) :
    val8 V0 (Proc.devRef .tc r) = val7 V0 (Proc.devRef .tc r) :=
  after_of_writes_sub ops2a _ ops2a_writes h
set_option maxRecDepth 8192 in
set_option maxHeartbeats 1000000 in
theorem val8_main_v110 (V0 : Valuation τ sig (Elt F)) : val8 V0 (no_index (Proc.devRef .tc main_v110)) = res_v110 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val8
  simp only [ops2a]
  after_results_simp
  simp only [val7_main_v69, val7_main_v93, val7_main_v95, val7_main_v68, val7_main_v92, val7_main_arg7] <;> rfl
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)

/-! ## The run -/

/-- The fold over the whole list is the pieces' folds in turn. -/
theorem after_ops (V0 : Valuation τ sig (Elt F)) : after ops V0 = val8 V0 := by
  unfold val8 val7 val6 val5 val4 val3 val2 val1 val0
  simp only [ops, ops0, ops1, ops2, StableHlo.after_append]

set_option maxRecDepth 8192 in
/-- On every device, for any float values, from any memory with zero counters: every weakly fair execution of @main
    terminates, the result buffer ends at `res_v110` of the arguments' initial contents, and the eight arguments end
    as they began. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v110) = res_v110 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v110).trans (by simp only [after_ops]; exact val8_main_v110 (launchContents m c)),
      (h c main_arg0).trans (by simp only [after_ops]; exact val8_main_arg0 (launchContents m c)),
      (h c main_arg1).trans (by simp only [after_ops]; exact val8_main_arg1 (launchContents m c)),
      (h c main_arg2).trans (by simp only [after_ops]; exact val8_main_arg2 (launchContents m c)),
      (h c main_arg3).trans (by simp only [after_ops]; exact val8_main_arg3 (launchContents m c)),
      (h c main_arg4).trans (by simp only [after_ops]; exact val8_main_arg4 (launchContents m c)),
      (h c main_arg5).trans (by simp only [after_ops]; exact val8_main_arg5 (launchContents m c)),
      (h c main_arg6).trans (by simp only [after_ops]; exact val8_main_arg6 (launchContents m c)),
      (h c main_arg7).trans (by simp only [after_ops]; exact val8_main_arg7 (launchContents m c))⟩)
    (run_seq scopedRefs_eq scopedSems_eq defs main (fun _ => ops) main_eq (fun _ => ops_sub) m ρ)

end Cert.ReferenceIdeal.Hand

end
-- ==== Proof.RefBn.lean ====
/-
  The reference's training-mode batch normalisation of a 100000×128 array, as one function of the array and the two
  128-vectors of scale and offset: the operations in the order the program performs them, and then its value at an
  entry in closed form — the entry times a per-column scale plus a per-column shift, the column's variance taken as
  the mean of squares minus the square of the mean.
-/
import proofs.«121379_j57501022159518_1_alg».proof.Proof.Gen.ReferenceIdeal
import proofs.«121379_j57501022159518_1_alg».proof.Proof.BnAlgebra
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Hand

open Cert.ReferenceIdeal Cert.ReferenceIdeal.Gen Cert.BnAlgebra
open Idealize.ShloMosaic Idealize.ShloMosaic.ValueIdx

/-! ## The operations, in program order -/

/-- The column sums: each column's entries added onto an initial zero. -/
def refSum (y : FVec Ideal S100000x128 .f32) : FVec Ideal S128 .f32 :=
  Host.reduceAdd y (constant (F := Ideal) S_ .f32 0x00000000#32) reducesTo_S100000x128_S128_d0 h_S_

/-- The column means: the sums divided by the number of rows, 1e5. -/
def refMean (y : FVec Ideal S100000x128 .f32) : FVec Ideal S128 .f32 :=
  Host.divf (refSum y) (broadcastInDim S128 ![] bcast_S_S128 (constant (F := Ideal) S_ .f32 0x47C35000#32))

/-- The column variances with zero degrees of freedom removed: mean of the squared deviations from the column
    mean, the divisor 1e5 − 0 computed in floats and guarded by a test that it is positive (it is; the other
    branch is the not-a-number pattern). -/
def refVar (y : FVec Ideal S100000x128 .f32) : FVec Ideal S128 .f32 :=
  have ddof : IVec S_ 32 := constantI S_ 32 0#32
  have cst : FVec Ideal S_ .f32 := constant (F := Ideal) S_ .f32 0x00000000#32
  have v0 : FVec Ideal S128 .f32 := Host.reduceAdd y cst reducesTo_S100000x128_S128_d0 h_S_
  have v1 : FVec Ideal S1x128 .f32 := broadcastInDim S1x128 ![1] bcast_S128_S1x128_1 v0
  have cst_0 : FVec Ideal S_ .f32 := constant (F := Ideal) S_ .f32 0x47C35000#32
  have v2 : FVec Ideal S1x128 .f32 := broadcastInDim S1x128 ![] bcast_S_S1x128 cst_0
  have v3 : FVec Ideal S1x128 .f32 := Host.divf v1 v2
  have v4 : FVec Ideal S100000x128 .f32 := broadcastInDim S100000x128 ![0, 1] bcast_S1x128_S100000x128_0_1 v3
  have v5 : FVec Ideal S100000x128 .f32 := subf y v4
  have v6 : FVec Ideal S100000x128 .f32 := mulf v5 v5
  have v7 : FVec Ideal S_ .f32 := sitofp .f32 ddof
  have cst_1 : FVec Ideal S_ .f32 := constant (F := Ideal) S_ .f32 0x47C35000#32
  have v8 : FVec Ideal S_ .f32 := subf cst_1 v7
  have cst_2 : FVec Ideal S_ .f32 := constant (F := Ideal) S_ .f32 0x00000000#32
  have v9 : FVec Ideal S128 .f32 := Host.reduceAdd v6 cst_2 reducesTo_S100000x128_S128_d0 h_S_
  have v10 : FVec Ideal S128 .f32 := broadcastInDim S128 ![] bcast_S_S128 v8
  have v11 : FVec Ideal S128 .f32 := Host.divf v9 v10
  have cst_3 : FVec Ideal S_ .f32 := constant (F := Ideal) S_ .f32 0x00000000#32
  have v12 : IVec S_ 1 := cmpf .ogt v8 cst_3
  have cst_4 : FVec Ideal S_ .f32 := constant (F := Ideal) S_ .f32 0x7FC00000#32
  have w0 : FVec Ideal S_ .f32 := id cst_4
  have w1 : FVec Ideal S128 .f32 := broadcastInDim S128 ![] bcast_S_S128 w0
  select (broadcastInDim S128 ![] bcast_S_S128 v12) v11 w1

/-- The normalised array: (y − mean) · rsqrt(var + ε) · g + b, each 128-vector spread over the rows. -/
def refBn (y : FVec Ideal S100000x128 .f32) (g b : FVec Ideal S128 .f32) : FVec Ideal S100000x128 .f32 :=
  have v52 : FVec Ideal S1x128 .f32 := broadcastInDim S1x128 ![1] bcast_S128_S1x128_1 (refMean y)
  have v53 : FVec Ideal S100000x128 .f32 := broadcastInDim S100000x128 ![0, 1] bcast_S1x128_S100000x128_0_1 v52
  have v54 : FVec Ideal S100000x128 .f32 := subf y v53
  have cst_12 : FVec Ideal S_ .f32 := constant (F := Ideal) S_ .f32 0x3727C5AC#32
  have v55 : FVec Ideal S128 .f32 := broadcastInDim S128 ![] bcast_S_S128 cst_12
  have v56 : FVec Ideal S128 .f32 := addf (refVar y) v55
  have v57 : FVec Ideal S128 .f32 := Host.rsqrt v56
  have v58 : FVec Ideal S1x128 .f32 := broadcastInDim S1x128 ![1] bcast_S128_S1x128_1 v57
  have v59 : FVec Ideal S100000x128 .f32 := broadcastInDim S100000x128 ![0, 1] bcast_S1x128_S100000x128_0_1 v58
  have v60 : FVec Ideal S100000x128 .f32 := mulf v54 v59
  have v61 : FVec Ideal S1x128 .f32 := broadcastInDim S1x128 ![1] bcast_S128_S1x128_1 g
  have v62 : FVec Ideal S100000x128 .f32 := broadcastInDim S100000x128 ![0, 1] bcast_S1x128_S100000x128_0_1 v61
  have v63 : FVec Ideal S100000x128 .f32 := mulf v60 v62
  have v64 : FVec Ideal S1x128 .f32 := broadcastInDim S1x128 ![1] bcast_S128_S1x128_1 b
  have v65 : FVec Ideal S100000x128 .f32 := broadcastInDim S100000x128 ![0, 1] bcast_S1x128_S100000x128_0_1 v64
  addf v63 v65

/-! ## The two constants that matter, and the row count -/

/-- The float pattern of the row count denotes the real number 100000. -/
theorem lit_rows : Ideal.ofBits .f32 0x47C35000#32 = ((100000 : ℝ) : EReal) := by
  simp [Ideal.ofBits, Ideal.ieee, -EReal.coe_mul]; norm_num

/-- The divisor of the variance, 1e5 minus the float of the integer 0, is again the real number 100000. -/
theorem lit_rows_sub_zero :
    (FloatOps.subf (Ideal.ofBits .f32 0x47C35000#32) (FloatOps.sitofp (F := Ideal) .f32 (0#32 : BitVec 32)) : Ideal .f32)
      = ((100000 : ℝ) : EReal) := by
  show Ideal.ofBits .f32 0x47C35000#32 - (((0#32 : BitVec 32).toInt : ℝ) : EReal) = _
  rw [lit_rows]
  simp

/-! ## Column sums and means at an index -/

/-- The row index that a column sum's k-th summand reads. -/
theorem lift_rows (h : S100000x128.Reduces [0] S128) (q : Fin 128) (k : Fin 100000) :
    h.lift (ix1 q) k = (ix2 k q : S100000x128.Idx) := by
  funext a; apply Fin.ext
  match a with
  | ⟨0, _⟩ => rfl
  | ⟨1, _⟩ => rfl

/-- A column sum from an initial zero is the sum of the column. -/
theorem colSum_apply (x : FVec Ideal S100000x128 .f32) (q : Fin 128) :
    (Host.reduceAdd x (constant (F := Ideal) S_ .f32 0x00000000#32) reducesTo_S100000x128_S128_d0 h_S_
        : FVec Ideal S128 .f32) (ix1 q) = ∑ r : Fin 100000, x (ix2 r q) := by
  unfold Host.reduceAdd
  rw [Ideal.hostReduceAdd_def, Ideal.hostReduceAdd_single _ (by decide : S100000x128.Reduces [0] S128)]
  show Ideal.ofBits .f32 0x00000000#32 + _ = _
  rw [Ideal.ofBits_zero_f32, zero_add]
  exact Finset.sum_congr rfl fun k _ => congrArg x (lift_rows _ q k)

theorem refSum_apply (y : FVec Ideal S100000x128 .f32) (q : Fin 128) :
    refSum y (ix1 q) = ∑ r : Fin 100000, y (ix2 r q) := colSum_apply y q

/-- The column mean in the form the running-sum computation uses. -/
def refM (y : FVec Ideal S100000x128 .f32) (q : Fin 128) : EReal :=
  (∑ r : Fin 100000, y (ix2 r q)) * (((100000 : ℝ)⁻¹ : ℝ) : EReal)

/-- Division by the row count is multiplication by its inverse. -/
theorem div_rows (x : EReal) : Ideal.div x ((100000 : ℝ) : EReal) = x * (((100000 : ℝ)⁻¹ : ℝ) : EReal) := by
  rw [Ideal.div_coe (by norm_num : (100000 : ℝ) ≠ 0), one_div]

theorem refMean_apply (y : FVec Ideal S100000x128 .f32) (q : Fin 128) : refMean y (ix1 q) = refM y q := by
  unfold refMean Host.divf refM
  show Ideal.div (refSum y (ix1 q)) (Ideal.ofBits .f32 0x47C35000#32) = _
  rw [refSum_apply, lit_rows, div_rows]

/-! ## Spreading a vector over rows, at an index -/

/-- A scalar spread to any shape reads the scalar everywhere. -/
theorem bcast_scalar_apply {α : Type} {t : Shape} (h : S_.BroadcastsInDim t (![] : Fin 0 → Fin t.rank)) (x : S_.Idx → α)
    (j : t.Idx) : broadcastInDim t ![] h x j = x ix0 := by
  unfold broadcastInDim
  exact congrArg x (funext fun a => a.elim0)

/-- A 128-vector made a 1×128 row reads, at (0, q), the vector at q. -/
theorem bcast_lane_apply {α : Type} (v : S128.Idx → α) (j : Fin 1) (q : Fin 128) :
    broadcastInDim S1x128 ![1] bcast_S128_S1x128_1 v (ix2 j q) = v (ix1 q) :=
  broadcastInDim_apply _ _ v (ix2 j q) (ix1 q) fun a => by
    match a with
    | ⟨0, _⟩ => rfl

/-- A 1×128 row spread over 100000 rows reads, at (r, q), the row at (0, q). -/
theorem bcast_rows_apply {α : Type} (v : S1x128.Idx → α) (r : Fin 100000) (q : Fin 128) :
    broadcastInDim S100000x128 ![0, 1] bcast_S1x128_S100000x128_0_1 v (ix2 r q) = v (ix2 (0 : Fin 1) q) :=
  broadcastInDim_apply _ _ v (ix2 r q) (ix2 (0 : Fin 1) q) fun a => by
    match a with
    | ⟨0, _⟩ => rfl
    | ⟨1, _⟩ => rfl

/-- Both together: a 128-vector spread over the rows reads, at (r, q), the vector at q. -/
theorem bcast_col_apply {α : Type} (v : S128.Idx → α) (r : Fin 100000) (q : Fin 128) :
    broadcastInDim S100000x128 ![0, 1] bcast_S1x128_S100000x128_0_1
      (broadcastInDim S1x128 ![1] bcast_S128_S1x128_1 v) (ix2 r q) = v (ix1 q) := by
  rw [bcast_rows_apply, bcast_lane_apply]

/-! ## The variance at an index -/

/-- The test "1e5 − 0 > 0" answers true. -/
theorem rows_gt_zero : Ideal.cmp .ogt ((100000 : ℝ) : EReal) 0 = 1#1 := by
  have h : (0 : EReal) < ((100000 : ℝ) : EReal) := by exact_mod_cast (by norm_num : (0 : ℝ) < 100000)
  simp [Ideal.cmp, h]

/-- The column variance as the reference computes it: mean of squared deviations from the column mean. -/
def refVc (y : FVec Ideal S100000x128 .f32) (q : Fin 128) : EReal :=
  (∑ r : Fin 100000, (y (ix2 r q) - refM y q) * (y (ix2 r q) - refM y q)) * (((100000 : ℝ)⁻¹ : ℝ) : EReal)

theorem refVar_apply (y : FVec Ideal S100000x128 .f32) (q : Fin 128) : refVar y (ix1 q) = refVc y q := by
  -- the pieces of refVar that carry the value, each the corresponding line of its definition
  let v0 : FVec Ideal S128 .f32 :=
    Host.reduceAdd y (constant (F := Ideal) S_ .f32 0x00000000#32) reducesTo_S100000x128_S128_d0 h_S_
  let v3 : FVec Ideal S1x128 .f32 :=
    Host.divf (broadcastInDim S1x128 ![1] bcast_S128_S1x128_1 v0)
      (broadcastInDim S1x128 ![] bcast_S_S1x128 (constant (F := Ideal) S_ .f32 0x47C35000#32))
  let v4 : FVec Ideal S100000x128 .f32 := broadcastInDim S100000x128 ![0, 1] bcast_S1x128_S100000x128_0_1 v3
  let v6 : FVec Ideal S100000x128 .f32 := mulf (subf y v4) (subf y v4)
  let v9 : FVec Ideal S128 .f32 :=
    Host.reduceAdd v6 (constant (F := Ideal) S_ .f32 0x00000000#32) reducesTo_S100000x128_S128_d0 h_S_
  let den : Ideal .f32 :=
    FloatOps.subf (Ideal.ofBits .f32 0x47C35000#32) (FloatOps.sitofp (F := Ideal) .f32 (0#32 : BitVec 32))
  have h4 : ∀ r : Fin 100000, v4 (ix2 r q) = refM y q := fun r => by
    show broadcastInDim S100000x128 ![0, 1] bcast_S1x128_S100000x128_0_1 v3 (ix2 r q) = _
    rw [bcast_rows_apply]
    show Ideal.div (broadcastInDim S1x128 ![1] bcast_S128_S1x128_1 v0 (ix2 (0 : Fin 1) q))
      (broadcastInDim S1x128 ![] bcast_S_S1x128 (constant (F := Ideal) S_ .f32 0x47C35000#32) (ix2 (0 : Fin 1) q)) = _
    rw [bcast_lane_apply, bcast_scalar_apply]
    show Ideal.div (v0 (ix1 q)) (Ideal.ofBits .f32 0x47C35000#32) = _
    rw [show v0 (ix1 q) = ∑ r' : Fin 100000, y (ix2 r' q) from colSum_apply y q, lit_rows, div_rows]
    rfl
  have h6 : ∀ r : Fin 100000, v6 (ix2 r q) = (y (ix2 r q) - refM y q) * (y (ix2 r q) - refM y q) := fun r => by
    show (y (ix2 r q) - v4 (ix2 r q)) * (y (ix2 r q) - v4 (ix2 r q)) = _
    rw [h4]
  have h9 : v9 (ix1 q) = ∑ r : Fin 100000, (y (ix2 r q) - refM y q) * (y (ix2 r q) - refM y q) := by
    exact (colSum_apply v6 q).trans (Finset.sum_congr rfl fun r _ => h6 r)
  show Scalar.select (Ideal.cmp .ogt den (Ideal.ofBits .f32 0x00000000#32)) (Ideal.div (v9 (ix1 q)) den)
    (Ideal.ofBits .f32 0x7FC00000#32) = _
  have hden : den = ((100000 : ℝ) : EReal) := lit_rows_sub_zero
  rw [hden, Ideal.ofBits_zero_f32, rows_gt_zero, h9, div_rows]
  rfl

/-! ## The closed form -/

/-- The column variance in the running-sum form: mean of squares minus square of the mean. -/
def refV (y : FVec Ideal S100000x128 .f32) (q : Fin 128) : EReal :=
  (∑ r : Fin 100000, y (ix2 r q) * y (ix2 r q)) * (((100000 : ℝ)⁻¹ : ℝ) : EReal) - refM y q * refM y q

/-- The row count as a real number is the number of rows. -/
theorem rows_card : (100000 : ℝ) = (Fintype.card (Fin 100000) : ℝ) := by simp

/-- On real entries the two forms of the variance agree. -/
theorem refVc_eq_refV (y : FVec Ideal S100000x128 .f32) (hy : ∀ i, IsReal (y i)) (q : Fin 128) :
    refVc y q = refV y q :=
  var_two_ways (fun r : Fin 100000 => y (ix2 r q)) (fun r => hy _) 100000 rows_card (by norm_num)

/-- The small constant added to the variance is a positive real number. -/
theorem eps_pos_real : ∃ e : ℝ, 0 < e ∧ Ideal.ofBits .f32 0x3727C5AC#32 = ((e : ℝ) : EReal) := by
  have h : Ideal.ofBits .f32 0x3727C5AC#32 = (((10995116 : ℝ) * (2 : ℝ) ^ (-40 : ℤ) : ℝ) : EReal) := by
    simp [Ideal.ofBits, Ideal.ieee, -EReal.coe_mul]
  exact ⟨_, by positivity, h⟩

/-- The reciprocal square root of a positive real is real. -/
theorem isReal_rsqrt_of_pos {v : ℝ} (hv : 0 < v) : IsReal (Ideal.rsqrt ((v : ℝ) : EReal)) := by
  rw [Ideal.rsqrt_coe, if_neg (not_lt.mpr hv.le), if_neg hv.ne']
  exact IsReal.coe _

/-- On real entries the column mean is real. -/
theorem isReal_refM (y : FVec Ideal S100000x128 .f32) (hy : ∀ i, IsReal (y i)) (q : Fin 128) : IsReal (refM y q) :=
  (IsReal.sum_univ fun r => hy _).mul (IsReal.coe _)

/-- On real entries the reciprocal square root of variance plus the small constant is real: the variance is a
    non-negative real, so the argument is a positive real. -/
theorem isReal_rsqrt_refV (y : FVec Ideal S100000x128 .f32) (hy : ∀ i, IsReal (y i)) (q : Fin 128) :
    IsReal (Ideal.rsqrt (refV y q + Ideal.ofBits .f32 0x3727C5AC#32)) := by
  obtain ⟨e, he, hE⟩ := eps_pos_real
  have hreal := var_isReal (fun r : Fin 100000 => y (ix2 r q)) (fun r => hy _) 100000 rows_card (by norm_num)
  have hnn := var_nonneg (fun r : Fin 100000 => y (ix2 r q)) (fun r => hy _) 100000 rows_card (by norm_num)
  have hV : refVc y q = refV y q := refVc_eq_refV y hy q
  change IsReal (refVc y q) at hreal
  change 0 ≤ refVc y q at hnn
  rw [hV] at hreal hnn
  obtain ⟨v, hv⟩ := hreal
  rw [hv] at hnn ⊢
  have hv0 : 0 ≤ v := EReal.coe_nonneg.mp hnn
  rw [hE, ← EReal.coe_add]
  exact isReal_rsqrt_of_pos (by linarith)

/-- The normalised array at (r, q), as the program computes it: centre, scale by the reciprocal square root, then
    by g, add b. -/
theorem refBn_apply_raw (y : FVec Ideal S100000x128 .f32) (g b : FVec Ideal S128 .f32) (r : Fin 100000) (q : Fin 128) :
    refBn y g b (ix2 r q)
      = (y (ix2 r q) - refM y q) * Ideal.rsqrt (refVc y q + Ideal.ofBits .f32 0x3727C5AC#32) * g (ix1 q) + b (ix1 q) := by
  let rs : FVec Ideal S128 .f32 :=
    Host.rsqrt (addf (refVar y) (broadcastInDim S128 ![] bcast_S_S128 (constant (F := Ideal) S_ .f32 0x3727C5AC#32)))
  show (y (ix2 r q)
        - broadcastInDim S100000x128 ![0, 1] bcast_S1x128_S100000x128_0_1
            (broadcastInDim S1x128 ![1] bcast_S128_S1x128_1 (refMean y)) (ix2 r q))
      * broadcastInDim S100000x128 ![0, 1] bcast_S1x128_S100000x128_0_1
            (broadcastInDim S1x128 ![1] bcast_S128_S1x128_1 rs) (ix2 r q)
      * broadcastInDim S100000x128 ![0, 1] bcast_S1x128_S100000x128_0_1
            (broadcastInDim S1x128 ![1] bcast_S128_S1x128_1 g) (ix2 r q)
      + broadcastInDim S100000x128 ![0, 1] bcast_S1x128_S100000x128_0_1
            (broadcastInDim S1x128 ![1] bcast_S128_S1x128_1 b) (ix2 r q) = _
  rw [bcast_col_apply, bcast_col_apply, bcast_col_apply, bcast_col_apply, refMean_apply]
  show _ * Ideal.rsqrt (refVar y (ix1 q)
      + broadcastInDim S128 ![] bcast_S_S128 (constant (F := Ideal) S_ .f32 0x3727C5AC#32) (ix1 q)) * _ + _ = _
  rw [bcast_scalar_apply, refVar_apply]
  rfl

/-- The normalised array at (r, q) in closed form, for real entries, scale and offset: the entry times the folded
    scale g·rsqrt(V + ε), plus the folded shift b − M·g·rsqrt(V + ε), with M the column mean and V the column's mean
    of squares minus M². -/
theorem refBn_apply (y : FVec Ideal S100000x128 .f32) (g b : FVec Ideal S128 .f32)
    (hy : ∀ i, IsReal (y i)) (hg : ∀ i, IsReal (g i)) (hb : ∀ i, IsReal (b i)) (r : Fin 100000) (q : Fin 128) :
    refBn y g b (ix2 r q)
      = y (ix2 r q) * (g (ix1 q) * Ideal.rsqrt (refV y q + Ideal.ofBits .f32 0x3727C5AC#32))
        + (b (ix1 q) - refM y q * (g (ix1 q) * Ideal.rsqrt (refV y q + Ideal.ofBits .f32 0x3727C5AC#32))) := by
  rw [refBn_apply_raw, refVc_eq_refV y hy q]
  exact affine_two_ways _ _ _ _ _ (hy _) (isReal_refM y hy q) (isReal_rsqrt_refV y hy q) (hg _) (hb _)

end Cert.ReferenceIdeal.Hand

end
-- ==== Proof.LibPlainDot.lean ====
/-
  The plain matrix product read at an index.

  For a left operand `[M, K]`, a right operand `[K, N]` and a result `[M, N]` with the one contracted axis the left's
  columns and the right's rows, the operand indices at result index `(p, q)` and contraction position `k` are `(p, k)`
  and `(k, q)`; so the contraction's sum, taken over the contraction shape's indices, is the textbook
  `Σ_{k < K} lhs (p, k) · rhs (k, q)`. At the extended reals both a kernel's matrix unit product into a zero
  accumulator and the host's `dot_general` are that sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The left operand's row is the result's row … -/
theorem lhs_row (i : (⟨2, ![M, N]⟩ : Shape).Idx) (k : (DotDims.plain M K N).contr.Idx) :
    ((DotDims.plain M K N).lhsIdx i k (0 : Fin 2)).val = (i 0).val := by
  unfold DotDims.lhsIdx
  rw [dif_neg (show ¬ (0 : Fin 2) ∈ (DotDims.plain M K N).lhsBatch from List.not_mem_nil),
    dif_pos (show (0 : Fin 2) ∈ (DotDims.plain M K N).lhsNonContracting from List.mem_singleton.mpr rfl)]
  rfl

/-- … its column the contraction position; -/
theorem lhs_col (i : (⟨2, ![M, N]⟩ : Shape).Idx) (k : (DotDims.plain M K N).contr.Idx) :
    ((DotDims.plain M K N).lhsIdx i k (1 : Fin 2)).val = (k ⟨0, Nat.one_pos⟩).val :=
  (DotDims.plain M K N).lhsIdx_val_of_single rfl i k

/-- the right operand's row is the contraction position … -/
theorem rhs_row (i : (⟨2, ![M, N]⟩ : Shape).Idx) (k : (DotDims.plain M K N).contr.Idx) :
    ((DotDims.plain M K N).rhsIdx i k (0 : Fin 2)).val = (k ⟨0, Nat.one_pos⟩).val :=
  (DotDims.plain M K N).rhsIdx_val_of_single rfl i k

/-- … and its column the result's column. -/
theorem rhs_col (i : (⟨2, ![M, N]⟩ : Shape).Idx) (k : (DotDims.plain M K N).contr.Idx) :
    ((DotDims.plain M K N).rhsIdx i k (1 : Fin 2)).val = (i 1).val := by
  unfold DotDims.rhsIdx
  rw [dif_neg (show ¬ (1 : Fin 2) ∈ (DotDims.plain M K N).rhsBatch from List.not_mem_nil),
    dif_pos (show (1 : Fin 2) ∈ (DotDims.plain M K N).rhsNonContracting from List.mem_singleton.mpr rfl)]
  rfl

/-- The contraction's sum at result index `(p, q)` is `Σ_{k < K} lhs (p, k) · rhs (k, q)`. -/
theorem contraction_sum (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- A kernel's product into the zero accumulator, at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply _ prec lhs rhs (ix2 p q)).trans (contraction_sum lhs rhs p q)

/-- The host's `dot_general`, at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply _ prec sched lhs rhs (ix2 p q)).trans (contraction_sum lhs rhs p q)

end Idealize.ShloMosaic.PlainDot

end
-- ==== Proof.RefCanon.lean ====
/-
  The reference's result, written with the stages of the kernel's host side.

  The reference computes a two-layer graph convolution: edge lists with self-loops, degrees, edge weights, then twice
  "dense product, weighted neighbourhood sum, bias, positive part", with a batch normalization in between. The stages
  `rowF colF degF dinvF normF agg rowvec` and the entrywise functions `mm0 mm3 relu4` name such pieces. Here each piece
  of the reference's value is shown equal to the stage of the same name: the graph part and the neighbourhood sums are
  the same host operations on the same operands; the host's dense product at (r, q) is the sum over the contraction
  positions, which is `mm0` / `mm3` there; and adding a 128-vector spread over the rows, then taking the maximum with
  zero, is at (r, q) the maximum of zero and the entry plus the vector's q-th entry, which is `relu4` reading the vector
  from a one-row array. The normalization is kept as the reference's own, `refBn`. Together:
      res_v110 = relu4 (agg row col nrm (mm3 (refBn y g be) W2)) (rowvec b2),
      y        = relu4 (agg row col nrm (mm0 x W1)) (rowvec b1).
-/
import proofs.«121379_j57501022159518_1_alg».proof.Proof.RefRun
import proofs.«121379_j57501022159518_1_alg».proof.Proof.RefBn
import proofs.«121379_j57501022159518_1_alg».proof.Proof.KFin0
import proofs.«121379_j57501022159518_1_alg».proof.Proof.KFin3
import proofs.«121379_j57501022159518_1_alg».proof.Proof.KFin4
import proofs.«121379_j57501022159518_1_alg».proof.Proof.LibPlainDot
import proofs.«121379_j57501022159518_1_alg».proof.Proof.KStages
import Idealize.ShloMosaic.Lib.ValueIdx
import Idealize.ShloMosaic.Lib.ValueLayout
import Idealize.ShloMosaic.Lib.Pipeline.Value

noncomputable section

open scoped BigOperators

namespace Cert.Bridge

open Cert.ReferenceIdeal Cert.ReferenceIdeal.Gen Cert.ReferenceIdeal.Hand
open Idealize.ShloMosaic Idealize.ShloMosaic.ValueIdx

/-! ## The stages, at the reference's edge list -/

/-- The sources with self-loops, the targets with self-loops and the edge weights, as the kernel's host stages
    compute them from the edge list. -/
abbrev rowK (ei : (⟨S2x1600000, .i32⟩ : BufTy).Contents (Elt Ideal)) : (⟨S1700000, .i32⟩ : BufTy).Contents (Elt Ideal) := Cert.KernelIdeal.Hand.rowF (F := Ideal) ei
abbrev colK (ei : (⟨S2x1600000, .i32⟩ : BufTy).Contents (Elt Ideal)) : (⟨S1700000, .i32⟩ : BufTy).Contents (Elt Ideal) := Cert.KernelIdeal.Hand.colF (F := Ideal) ei
abbrev nrmK (ei : (⟨S2x1600000, .i32⟩ : BufTy).Contents (Elt Ideal)) : (⟨S1700000, .f32⟩ : BufTy).Contents (Elt Ideal) :=
  Cert.KernelIdeal.Hand.normF (rowK ei) (colK ei) (Cert.KernelIdeal.Hand.dinvF (Cert.KernelIdeal.Hand.degF (colK ei)))

/-- The first layer in the stage vocabulary: aggregate `x · W1`, add the bias row, take the positive part. -/
def yK (x : (⟨S100000x25, .f32⟩ : BufTy).Contents (Elt Ideal)) (ei : (⟨S2x1600000, .i32⟩ : BufTy).Contents (Elt Ideal)) (W1 : (⟨S25x128, .f32⟩ : BufTy).Contents (Elt Ideal)) (b1 : (⟨S128, .f32⟩ : BufTy).Contents (Elt Ideal)) :
    (⟨S100000x128, .f32⟩ : BufTy).Contents (Elt Ideal) :=
  Cert.KernelIdeal.Hand.relu4 (Cert.KernelIdeal.Hand.agg (rowK ei) (colK ei) (nrmK ei) (Cert.KernelIdeal.Hand.mm0 x W1)) (Cert.KernelIdeal.Hand.rowvec b1)

/-! ## (1) The graph part: the same operations on the same edge list -/

theorem res_v5_eq (ei : (⟨S2x1600000, .i32⟩ : BufTy).Contents (Elt Ideal)) : res_v5 (F := Ideal) ei = rowK ei := rfl
theorem res_v6_eq (ei : (⟨S2x1600000, .i32⟩ : BufTy).Contents (Elt Ideal)) : res_v6 (F := Ideal) ei = colK ei := rfl
theorem res_v10_eq (ei : (⟨S2x1600000, .i32⟩ : BufTy).Contents (Elt Ideal)) : res_v10 (F := Ideal) ei = Cert.KernelIdeal.Hand.degF (colK ei) := by
  unfold res_v10; rw [res_v6_eq]; rfl
theorem res_v14_eq (ei : (⟨S2x1600000, .i32⟩ : BufTy).Contents (Elt Ideal)) : res_v14 (F := Ideal) ei = Cert.KernelIdeal.Hand.dinvF (Cert.KernelIdeal.Hand.degF (colK ei)) := by
  unfold res_v14; rw [res_v10_eq]; rfl
theorem res_v29_eq (ei : (⟨S2x1600000, .i32⟩ : BufTy).Contents (Elt Ideal)) : res_v29 (F := Ideal) ei = nrmK ei := by
  unfold res_v29 res_v21 res_v28; rw [res_v14_eq, res_v5_eq, res_v6_eq]; rfl

/-! ## (2) The dense products, entry by entry -/

/-- `x · W1`: the host product at `(r, q)` is the sum over the 25 contraction positions. -/
theorem res_v30_eq (x : (⟨S100000x25, .f32⟩ : BufTy).Contents (Elt Ideal)) (W1 : (⟨S25x128, .f32⟩ : BufTy).Contents (Elt Ideal)) :
    res_v30 (F := Ideal) x W1 = Cert.KernelIdeal.Hand.mm0 x W1 := by
  funext i
  obtain ⟨r, q, rfl⟩ : ∃ (r : Fin 100000) (q : Fin 128), i = ix2 r q := ⟨i 0, i 1, eq_ix2 i⟩
  rw [Cert.KernelIdeal.Hand.mm0_apply]
  exact PlainDot.dotGeneral_apply none .single x W1 r q

/-- `h · W2` likewise, over the 128 contraction positions. -/
theorem dot3_eq (h : FVec Ideal S100000x128 .f32) (W2 : FVec Ideal S128x128 .f32) :
    Host.dotGeneral (F := Ideal) (φ₁ := .f32) (φ₂ := .f32) dot_S100000x128_S128x128_S100000x128_1_0_0_1_n_n none h W2 = Cert.KernelIdeal.Hand.mm3 h W2 := by
  funext i
  obtain ⟨r, q, rfl⟩ : ∃ (r : Fin 100000) (q : Fin 128), i = ix2 r q := ⟨i 0, i 1, eq_ix2 i⟩
  rw [Cert.KernelIdeal.Hand.mm3_apply]
  exact PlainDot.dotGeneral_apply none .single h W2 r q

/-! ## (4) Bias and positive part, entry by entry -/

/-- Adding a 128-vector spread over the rows and taking the maximum with a zero spread over the whole array is, at
    `(r, q)`, `max (A (r, q) + b q) 0`; the kernel's side reads the vector as a one-row array at `(0, q)`. -/
theorem bias_relu_eq (A : (⟨S100000x128, .f32⟩ : BufTy).Contents (Elt Ideal)) (b : (⟨S128, .f32⟩ : BufTy).Contents (Elt Ideal)) :
    maximumf (addf A (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = Cert.KernelIdeal.Hand.relu4 A (Cert.KernelIdeal.Hand.rowvec b) := by
  funext i
  obtain ⟨r, q, rfl⟩ : ∃ (r : Fin 100000) (q : Fin 128), i = ix2 r q := ⟨i 0, i 1, eq_ix2 i⟩
  rw [Cert.KernelIdeal.Hand.relu4_apply, maximumf_apply, addf_apply,
    broadcastInDim_apply ![] bcast_S_S100000x128 _ (ix2 r q) ix0 (fun a => a.elim0), constant_apply, Ideal.ofBits_zero_f32,
    broadcastInDim_apply ![0, 1] bcast_S1x128_S100000x128_0_1 _ (ix2 r q) (ix2 (0 : Fin 1) q)
      (fun a => by match a with | ⟨0, _⟩ => rfl | ⟨1, _⟩ => rfl),
    broadcastInDim_apply ![1] bcast_S128_S1x128_1 b (ix2 (0 : Fin 1) q) (ix1 q) (fun a => by match a with | ⟨0, _⟩ => rfl)]
  unfold Cert.KernelIdeal.Hand.rowvec
  rw [shapeCast_a_1a_apply]

/-! ## (3) The aggregations -/

/-- Gather the rows of `h` at the wrapped sources, scale by the edge weights, add up at the targets: the stage `agg`. -/
theorem agg_eq (ei : (⟨S2x1600000, .i32⟩ : BufTy).Contents (Elt Ideal)) (h : (⟨S100000x128, .f32⟩ : BufTy).Contents (Elt Ideal)) :
    Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 (res_v6 ei))
        (mulf (Host.gather gather_S100000x128_S1700000x1_S1700000x128_1_0_n_n_0_1_1128 h
            (broadcastInDim S1700000x1 ![0] bcast_S1700000_S1700000x1_0
              (select (cmpi .slt (res_v5 ei) (broadcastInDim S1700000 ![] bcast_S_S1700000 (constantI S_ 32 0#32)))
                (addi (res_v5 ei) (broadcastInDim S1700000 ![] bcast_S_S1700000 (constantI S_ 32 100000#32))) (res_v5 ei))))
          (broadcastInDim S1700000x128 ![0, 1] bcast_S1700000x1_S1700000x128_0_1
            (broadcastInDim S1700000x1 ![0] bcast_S1700000_S1700000x1_0 (res_v29 ei))))
      = Cert.KernelIdeal.Hand.agg (rowK ei) (colK ei) (nrmK ei) h := by
  rw [res_v29_eq, res_v5_eq, res_v6_eq]; rfl

theorem res_v43_eq (x : (⟨S100000x25, .f32⟩ : BufTy).Contents (Elt Ideal)) (ei : (⟨S2x1600000, .i32⟩ : BufTy).Contents (Elt Ideal)) (W1 : (⟨S25x128, .f32⟩ : BufTy).Contents (Elt Ideal)) :
    res_v43 (F := Ideal) x ei W1 = Cert.KernelIdeal.Hand.agg (rowK ei) (colK ei) (nrmK ei) (Cert.KernelIdeal.Hand.mm0 x W1) := by
  unfold res_v43 res_v40 res_v37; rw [res_v30_eq]; exact agg_eq ei _

theorem res_v47_eq (x : (⟨S100000x25, .f32⟩ : BufTy).Contents (Elt Ideal)) (ei : (⟨S2x1600000, .i32⟩ : BufTy).Contents (Elt Ideal)) (W1 : (⟨S25x128, .f32⟩ : BufTy).Contents (Elt Ideal)) (b1 : (⟨S128, .f32⟩ : BufTy).Contents (Elt Ideal)) :
    res_v47 (F := Ideal) x ei W1 b1 = yK x ei W1 b1 := by
  unfold res_v47 res_v46 yK; rw [res_v43_eq]; exact bias_relu_eq _ _

/-! ## (5) The normalization -/

/-- `%52 … %66` with `@_var` written out are the operations `refBn` lists, in the same order. -/
theorem res_v66_eq (x : (⟨S100000x25, .f32⟩ : BufTy).Contents (Elt Ideal)) (ei : (⟨S2x1600000, .i32⟩ : BufTy).Contents (Elt Ideal)) (W1 : (⟨S25x128, .f32⟩ : BufTy).Contents (Elt Ideal)) (b1 g be : (⟨S128, .f32⟩ : BufTy).Contents (Elt Ideal)) :
    res_v66 (F := Ideal) x ei W1 b1 g be = refBn (res_v47 x ei W1 b1) g be := rfl

/-! ## The reference's result in the stage vocabulary -/

theorem res_v106_eq (x : (⟨S100000x25, .f32⟩ : BufTy).Contents (Elt Ideal)) (ei : (⟨S2x1600000, .i32⟩ : BufTy).Contents (Elt Ideal))
    (W1 : (⟨S25x128, .f32⟩ : BufTy).Contents (Elt Ideal)) (b1 g be : (⟨S128, .f32⟩ : BufTy).Contents (Elt Ideal))
    (W2 : (⟨S128x128, .f32⟩ : BufTy).Contents (Elt Ideal)) :
    res_v106 (F := Ideal) x ei W1 b1 g be W2
      = Cert.KernelIdeal.Hand.agg (rowK ei) (colK ei) (nrmK ei) (Cert.KernelIdeal.Hand.mm3 (refBn (yK x ei W1 b1) g be) W2) := by
  unfold res_v106 res_v103 res_v100 res_v93
  rw [res_v69_eq, res_v68_eq, res_v92_eq, dot3_eq, res_v66_eq, res_v47_eq]
  exact agg_eq ei _

/-- The reference's result: the second layer's aggregation of the normalized first layer times `W2`, plus the bias
    row, positive part — every block but the normalization in the kernel's stages. -/
theorem ref_canon (x : (⟨S100000x25, .f32⟩ : BufTy).Contents (Elt Ideal)) (ei : (⟨S2x1600000, .i32⟩ : BufTy).Contents (Elt Ideal))
    (W1 : (⟨S25x128, .f32⟩ : BufTy).Contents (Elt Ideal)) (b1 g be : (⟨S128, .f32⟩ : BufTy).Contents (Elt Ideal))
    (W2 : (⟨S128x128, .f32⟩ : BufTy).Contents (Elt Ideal)) (b2 : (⟨S128, .f32⟩ : BufTy).Contents (Elt Ideal)) :
    res_v110 (F := Ideal) x ei W1 b1 g be W2 b2
      = Cert.KernelIdeal.Hand.relu4 (Cert.KernelIdeal.Hand.agg (rowK ei) (colK ei) (nrmK ei) (Cert.KernelIdeal.Hand.mm3 (refBn (yK x ei W1 b1) g be) W2)) (Cert.KernelIdeal.Hand.rowvec b2) := by
  unfold res_v110 res_v109; rw [res_v106_eq]; exact bias_relu_eq _ _

end Cert.Bridge

end
-- ==== Proof.BnBridge.lean ====
/-
  The two batch normalisations are one function.

  The kernel normalises the rectified array `y` as `y · scale + shift`, the two rows computed from the column sums
  `S` and the column sums of squares `Q`: mean `M = S/n`, variance `V = Q/n − M²`, `scale = g · rsqrt(V + ε)`,
  `shift = b − M · scale`. The reference normalises it as `(y − M) · rsqrt(V' + ε) · g + b` with `V'` the mean of the
  squared deviations from `M`. Where every entry of `y`, `g`, `b` is a real number, `V' = V` and the two affine forms
  agree (both by the laws of the real field), so the arrays are equal entry by entry.
-/
import proofs.«121379_j57501022159518_1_alg».proof.Proof.KFin2
import proofs.«121379_j57501022159518_1_alg».proof.Proof.KStats
import proofs.«121379_j57501022159518_1_alg».proof.Proof.RefBn
import proofs.«121379_j57501022159518_1_alg».proof.Proof.BnAlgebra

noncomputable section

namespace Cert.Bridge

open Cert.BnAlgebra Idealize.ShloMosaic Idealize.ShloMosaic.ValueIdx
open Cert.KernelIdeal Cert.KernelIdeal.Gen Cert.ReferenceIdeal.Gen

/-- The kernel's affine map of `y` by the scale and shift rows made from its column sums is the reference's batch
    normalisation of `y`, when `y`, the gain and the offset are real everywhere. -/
theorem bn_bridge (y : Cert.KernelIdeal.S100000x128.Idx → Ideal .f32) (hy : ∀ i, IsReal (y i))
    (g be : FVec Ideal Cert.KernelIdeal.S128 .f32) (hg : ∀ i, IsReal (g i)) (hbe : ∀ i, IsReal (be i))
    (S Q : Cert.KernelIdeal.S1x128.Idx → Ideal .f32)
    (hS : ∀ q : Fin 128, S (ix2 (0 : Fin 1) q) = ∑ r : Fin 100000, y (ix2 r q))
    (hQ : ∀ q : Fin 128, Q (ix2 (0 : Fin 1) q) = ∑ r : Fin 100000, y (ix2 r q) * y (ix2 r q)) :
    Cert.KernelIdeal.Hand.affine2 y (Cert.KernelIdeal.Hand.kScale S Q g) (Cert.KernelIdeal.Hand.kShift S Q g be)
      = Cert.ReferenceIdeal.Hand.refBn y g be := by
  funext i
  obtain ⟨r, q, rfl⟩ : ∃ (r : Fin 100000) (q : Fin 128), i = ix2 r q := ⟨i 0, i 1, eq_ix2 i⟩
  rw [Cert.KernelIdeal.Hand.affine2_apply, Cert.KernelIdeal.Hand.kScale_apply, Cert.KernelIdeal.Hand.kShift_apply, hS, hQ]
  exact (Cert.ReferenceIdeal.Hand.refBn_apply y g be hy hg hbe r q).symm

end Cert.Bridge

end
-- ==== Proof.lean ====
/-
  The certificate: a two-layer graph convolution with training-mode batch normalisation, computed by five tiled
  kernels among host stretches, equals its plain array-language reference over the extended reals.

  Both programs compute, for node features X, edge list E, weights W1, W2, biases b1, b2 and the normalisation's
  gain and offset g, b:
      Y  = relu(A · (X W1) + b1),     Z = BN(Y),     out = relu(A · (Z W2) + b2),
  where A is the symmetrically normalised adjacency with self loops, applied as gather · scale · scatter-add — the
  same host operations in both programs, never opened here — and BN normalises each column of Y to mean 0 and
  variance 1 before the affine map by g and b.
  The kernel side runs the two matrix products, the two biased rectifiers and the affine map of BN as tiled kernels
  over blocks of 5000 rows; it accumulates each column's sum and sum of squares across the twenty blocks, forms the
  variance as E[Y²] − E[Y]², and applies BN as Y·scale + shift. The reference forms the variance as the mean of the
  squared deviations and applies (Y − mean)·rsqrt(var + ε)·g + b. The two agree because every entry of Y is a real
  number — the inputs are finite by the precondition and every operation on the way keeps reals real — and on the
  reals the two variance formulas and the two affine forms are equal; a matrix product is the same sum whether a
  block of rows or the whole array is multiplied, and a sum over all rows is the sum over the blocks of the blocks'
  sums. Rounding the matrix products' operands to a shorter float format is the identity on the extended reals.

  The three frame claims: each kernel region's body is run once at a symbolic grid point (for the region that
  carries two accumulators between points, once per control case), the regions and host stretches are chained as
  segments of @main, and the argument arrays are read back unchanged; the reference is a straight line of host
  operations. The idealisation rewrote nothing, so its preservation claim is trivial.
-/
import proofs.«121379_j57501022159518_1_alg».proof.Defs
import proofs.«121379_j57501022159518_1_alg».proof.Proof.Gen.Kernel
import proofs.«121379_j57501022159518_1_alg».proof.Proof.Gen.KernelIdeal
import proofs.«121379_j57501022159518_1_alg».proof.Proof.Gen.ReferenceIdeal
import proofs.«121379_j57501022159518_1_alg».proof.Proof.Gen.Pre_finite_inputs
import proofs.«121379_j57501022159518_1_alg».proof.Proof.WFrame
import proofs.«121379_j57501022159518_1_alg».proof.Proof.WData
import proofs.«121379_j57501022159518_1_alg».proof.Proof.WData1
import proofs.«121379_j57501022159518_1_alg».proof.Proof.KFrame
import proofs.«121379_j57501022159518_1_alg».proof.Proof.KData
import proofs.«121379_j57501022159518_1_alg».proof.Proof.KData1
import proofs.«121379_j57501022159518_1_alg».proof.Proof.KValue
import proofs.«121379_j57501022159518_1_alg».proof.Proof.KLeaves1
import proofs.«121379_j57501022159518_1_alg».proof.Proof.KFinite
import proofs.«121379_j57501022159518_1_alg».proof.Proof.PreFinite
import proofs.«121379_j57501022159518_1_alg».proof.Proof.RefRun
import proofs.«121379_j57501022159518_1_alg».proof.Proof.RefCanon
import proofs.«121379_j57501022159518_1_alg».proof.Proof.BnBridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs to the end, faults nowhere and leaves its arguments as launched. -/
theorem frame_p : Cert.frame_Kernel := fun m ρ _ =>
  Cert.Kernel.Hand.frame m Cert.Kernel.Hand.rd0 Cert.Kernel.Hand.rd1 Cert.Kernel.Hand.rd2 Cert.Kernel.Hand.rd3 Cert.Kernel.Hand.rd4 ρ

/-- The same of the idealised kernel program. -/
theorem frame_pi : Cert.frame_KernelIdeal := fun m ρ _ =>
  Cert.KernelIdeal.Hand.frame m Cert.KernelIdeal.Hand.rd0 Cert.KernelIdeal.Hand.rd1 Cert.KernelIdeal.Hand.rd2 Cert.KernelIdeal.Hand.rd3 Cert.KernelIdeal.Hand.rd4 ρ

/-- The reference: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealisation rewrote no operation. -/
theorem preserves : Cert.preserves_Kernel_KernelIdeal := trivial

section Algebraic

open Cert.KernelIdeal Cert.KernelIdeal.Gen Cert.KernelIdeal.Hand Cert.BnAlgebra Idealize.ShloMosaic.ValueIdx

/-- From memories agreeing on the arguments both idealised programs end with the same result array: the kernel's by
    the fold of its buffer contents read at the result buffer, the reference's by its run's term put into the same
    stages, the two batch normalisations equal because the rectified array is real everywhere. -/
theorem algebraic : Cert.algebraic_KernelIdeal_ReferenceIdeal := by
  intro m ρ m' ρ' hpre hagree
  refine ⟨fun c => relu4 (agg (gRow m c) (gCol m c) (gNorm m c) (mm3 (bnArr m rd1 c) (m ((c : Thread nD τ).loc main_arg6))))
      (rowvec (m ((c : Thread nD τ).loc main_arg7))), ?_, ?_⟩
  · exact (θ_run Cert.KernelIdeal.defs _ _).mono (fun r h c => ⟨
      ((h c).at m rd0 rd1 rd2 rd3 rd4 main_v78 (by decide)).trans (B11_result m rd1 c leaves1),
      ((h c).at m rd0 rd1 rd2 rd3 rd4 main_arg0 (by decide)).trans (B11_main_arg0 m rd0 rd1 rd2 rd3 rd4 c),
      ((h c).at m rd0 rd1 rd2 rd3 rd4 main_arg1 (by decide)).trans (B11_main_arg1 m rd0 rd1 rd2 rd3 rd4 c),
      ((h c).at m rd0 rd1 rd2 rd3 rd4 main_arg2 (by decide)).trans (B11_main_arg2 m rd0 rd1 rd2 rd3 rd4 c),
      ((h c).at m rd0 rd1 rd2 rd3 rd4 main_arg3 (by decide)).trans (B11_main_arg3 m rd0 rd1 rd2 rd3 rd4 c),
      ((h c).at m rd0 rd1 rd2 rd3 rd4 main_arg4 (by decide)).trans (B11_main_arg4 m rd0 rd1 rd2 rd3 rd4 c),
      ((h c).at m rd0 rd1 rd2 rd3 rd4 main_arg5 (by decide)).trans (B11_main_arg5 m rd0 rd1 rd2 rd3 rd4 c),
      ((h c).at m rd0 rd1 rd2 rd3 rd4 main_arg6 (by decide)).trans (B11_main_arg6 m rd0 rd1 rd2 rd3 rd4 c),
      ((h c).at m rd0 rd1 rd2 rd3 rd4 main_arg7 (by decide)).trans (B11_main_arg7 m rd0 rd1 rd2 rd3 rd4 c)⟩)
      (Cert.KernelIdeal.Hand.run m rd0 rd1 rd2 rd3 rd4 ρ)
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5, e6, e7⟩ := hagree c
    obtain ⟨f0, f2, f3, f4, f5, f6, f7⟩ := Cert.PreFinite.of_pre_kernelIdeal m hpre c
    rw [e0, e1, e2, e3, e4, e5, e6, e7, Cert.Bridge.ref_canon]
    have hbn := Cert.Bridge.bn_bridge (y1arr m c) (fun i => y_isReal _ _ _ _ f0 f2 f3 i)
        (m ((c : Thread nD τ).loc main_arg4)) (m ((c : Thread nD τ).loc main_arg5)) f4 f5 (sRow m rd1 c) (qRow m rd1 c)
        (sRow_apply m rd1 c leaves1) (qRow_apply m rd1 c leaves1)
    unfold Cert.Bridge.yK
    exact congrArg (fun z => relu4 (agg (gRow m c) (gCol m c) (gNorm m c) (mm3 z (m ((c : Thread nD τ).loc main_arg6))))
        (rowvec (m ((c : Thread nD τ).loc main_arg7)))) hbn.symm

end Algebraic

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
